-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x32x128 : Shape := ⟨3, ![256, 32, 128]⟩
abbrev S256x1024 : Shape := ⟨2, ![256, 1024]⟩
abbrev S256x256 : Shape := ⟨2, ![256, 256]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S256x32x128 : S_.BroadcastsInDim S256x32x128 (![] : Fin 0 → Fin S256x32x128.rank)
  reducesTo_S256x32x128_S_d0_1_2 : S256x32x128.ReducesTo [0, 1, 2] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S256 .f32) (main_arg12 : FVec F S128x256 .f32) (main_arg13 : FVec F S128 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S128x256 .f32 := Host.absf main_arg12
  let main_cst_22 : FVec F S_ .f32 := constant S_ .f32 0x7F800000#32
  let main_v60 : FVec F S128x256 .f32 := broadcastInDim S128x256 ![] bcast_S_S128x256 main_cst_22
  let main_v61 : IVec S128x256 1 := cmpf .olt main_v59 main_v60
  let main_c_23 : IVec S_ 1 := constantI S_ 1 1#1
  let main_v62 : IVec S_ 1 := (fun x v => Host.reduce IntOp.andi x v reducesTo_S128x256_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg7 : FVec F S128 .f32) (main_arg8 : FVec F S256x256 .f32) (main_arg9 : FVec F S256 .f32) (main_arg10 : FVec F S256 .f32) (main_arg11 : FVec F S256 .f32) (main_arg12 : FVec F S128x256 .f32) (main_arg13 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_v48 main_v49 main_v50

def fn_part1 {F : FTy → Type} [FloatOps F] (main_arg4 : FVec F S256 .f32) (main_arg5 : FVec F S256 .f32) (main_arg6 : FVec F S128x256 .f32) (main_arg7 : FVec F S128 .f32) (main_arg8 : FVec F S256x256 .f32) (main_arg9 : FVec F S256 .f32) (main_arg10 : FVec F S256 .f32) (main_arg11 : FVec F S256 .f32) (main_arg12 : FVec F S128x256 .f32) (main_arg13 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S128x256 .f32 := Host.absf main_arg6
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S256x32x128 .f32) (main_arg1 : FVec F S256x1024 .f32) (main_arg2 : FVec F S256x256 .f32) (main_arg3 : FVec F S256 .f32) (main_arg4 : FVec F S256 .f32) (main_arg5 : FVec F S256 .f32) (main_arg6 : FVec F S128x256 .f32) (main_arg7 : FVec F S128 .f32) (main_arg8 : FVec F S256x256 .f32) (main_arg9 : FVec F S256 .f32) (main_arg10 : FVec F S256 .f32) (main_arg11 : FVec F S256 .f32) (main_arg12 : FVec F S128x256 .f32) (main_arg13 : FVec F S128 .f32) : IVec S_ 1 :=
  let main_v0 : FVec F S256x32x128 .f32 := Host.absf main_arg0
  let main_cst : FVec F S_ .f32 := constant S_ .f32 0x7F800000#32
  let main_v1 : FVec F S256x32x128 .f32 := broadcastInDim S256x32x128 ![] bcast_S_S256x32x128 main_cst
  let main_v2 : IVec S256x32x128 1 := cmpf .olt main_v0 main_v1
  let main_c : IVec S_ 1 := constantI S_ 1 1#1
  let main_v3 : IVec S_ 1 := (fun x v => Host.reduce IntOp.andi x v reducesTo_S256x32x128_S_d0_1_2 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_v13 main_v16
-- ==== Kernel.lean ====
abbrev S256x32x128 : Shape := ⟨3, ![256, 32, 128]⟩
abbrev S256x1024 : Shape := ⟨2, ![256, 1024]⟩
abbrev S256x256 : Shape := ⟨2, ![256, 256]⟩
abbrev S256 : Shape := ⟨1, ![256]⟩
abbrev S128x256 : Shape := ⟨2, ![128, 256]⟩
abbrev S128 : Shape := ⟨1, ![128]⟩
abbrev S256x32x32 : Shape := ⟨3, ![256, 32, 32]⟩
abbrev S256x128 : Shape := ⟨2, ![256, 128]⟩
abbrev S1x256 : Shape := ⟨2, ![1, 256]⟩
abbrev S1x128 : Shape := ⟨2, ![1, 128]⟩
abbrev S4x32x128 : Shape := ⟨3, ![4, 32, 128]⟩
abbrev S4x32x32 : Shape := ⟨3, ![4, 32, 32]⟩
abbrev S4x32x32x1 : Shape := ⟨4, ![4, 32, 32, 1]⟩
abbrev S4x32x1x128 : Shape := ⟨4, ![4, 32, 1, 128]⟩
abbrev S4x32x32x128 : Shape := ⟨4, ![4, 32, 32, 128]⟩
abbrev S4x1x32x128 : Shape := ⟨4, ![4, 1, 32, 128]⟩
abbrev S4x32x32x256 : Shape := ⟨4, ![4, 32, 32, 256]⟩
abbrev S4096x256 : Shape := ⟨2, ![4096, 256]⟩
abbrev S_ : Shape := ⟨0, ![]⟩
abbrev S4096x128 : Shape := ⟨2, ![4096, 128]⟩
abbrev S64x32x128 : Shape := ⟨3, ![64, 32, 128]⟩
abbrev S64x32x256 : Shape := ⟨3, ![64, 32, 256]⟩
abbrev S2048x256 : Shape := ⟨2, ![2048, 256]⟩
abbrev S2048x128 : Shape := ⟨2, ![2048, 128]⟩

abbrev nBuf : Space → Nat
  | .hbm => 53
  | .vmem => 48
  | .smem => 0
  | _ => 0

abbrev bufTy : (tb : Table) → Fin (tcTables nBuf tb) → BufTy
  | .hbm, ⟨0, _⟩ => ⟨S256x32x128, .f32⟩
  | .hbm, ⟨1, _⟩ => ⟨S256x1024, .f32⟩
  | .hbm, ⟨2, _⟩ => ⟨S256x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S128x256, .f32⟩
  | .hbm, ⟨7, _⟩ => ⟨S128, .f32⟩
  | .hbm, ⟨8, _⟩ => ⟨S256x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S128x256, .f32⟩
  | .hbm, ⟨13, _⟩ => ⟨S128, .f32⟩
  | .hbm, ⟨14, _⟩ => ⟨S256x32x32, .f32⟩
  | .hbm, ⟨15, _⟩ => ⟨S256x256, .f32⟩
  | .hbm, ⟨16, _⟩ => ⟨S256x256, .bf16⟩
  | .hbm, ⟨17, _⟩ => ⟨S256x128, .f32⟩
  | .hbm, ⟨18, _⟩ => ⟨S256x128, .bf16⟩
  | .hbm, ⟨19, _⟩ => ⟨S256x256, .f32⟩
  | .hbm, ⟨20, _⟩ => ⟨S256x256, .bf16⟩
  | .hbm, ⟨21, _⟩ => ⟨S256x128, .f32⟩
  | .hbm, ⟨22, _⟩ => ⟨S256x128, .bf16⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S1x128, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S1x128, .f32⟩
  | .hbm, ⟨31, _⟩ => ⟨S1x256, .f32⟩
  | .hbm, ⟨32, _⟩ => ⟨S1x256, .f32⟩
  | .hbm, ⟨33, _⟩ => ⟨S_, .f32⟩
  | .hbm, ⟨34, _⟩ => ⟨S1x256, .f32⟩
  | .hbm, ⟨35, _⟩ => ⟨S1x256, .f32⟩
  | .hbm, ⟨36, _⟩ => ⟨S_, .f32⟩
  | .hbm, ⟨37, _⟩ => ⟨S1x256, .f32⟩
  | .hbm, ⟨38, _⟩ => ⟨S1x256, .f32⟩
  | .hbm, ⟨39, _⟩ => ⟨S1x256, .f32⟩
  | .hbm, ⟨40, _⟩ => ⟨S1x256, .f32⟩
  | .hbm, ⟨41, _⟩ => ⟨S256x32x128, .f32⟩
  | .hbm, ⟨42, _⟩ => ⟨S1x256, .f32⟩
  | .hbm, ⟨43, _⟩ => ⟨S1x256, .f32⟩
  | .hbm, ⟨44, _⟩ => ⟨S_, .f32⟩
  | .hbm, ⟨45, _⟩ => ⟨S1x256, .f32⟩
  | .hbm, ⟨46, _⟩ => ⟨S1x256, .f32⟩
  | .hbm, ⟨47, _⟩ => ⟨S_, .f32⟩
  | .hbm, ⟨48, _⟩ => ⟨S1x256, .f32⟩
  | .hbm, ⟨49, _⟩ => ⟨S1x256, .f32⟩
  | .hbm, ⟨50, _⟩ => ⟨S1x256, .f32⟩
  | .hbm, ⟨51, _⟩ => ⟨S1x256, .f32⟩
  | .hbm, ⟨52, _⟩ => ⟨S256x32x128, .f32⟩
  | .local _ .vmem, ⟨0, _⟩ => ⟨S4x32x128, .f32⟩
  | .local _ .vmem, ⟨1, _⟩ => ⟨S4x32x128, .f32⟩
  | .local _ .vmem, ⟨2, _⟩ => ⟨S4x32x32, .f32⟩
  | .local _ .vmem, ⟨3, _⟩ => ⟨S4x32x32, .f32⟩
  | .local _ .vmem, ⟨4, _⟩ => ⟨S256x256, .bf16⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S4x32x128, .f32⟩
  | .local _ .vmem, ⟨11, _⟩ => ⟨S4x32x128, .f32⟩
  | .local _ .vmem, ⟨12, _⟩ => ⟨S4x32x32, .f32⟩
  | .local _ .vmem, ⟨13, _⟩ => ⟨S4x32x32, .f32⟩
  | .local _ .vmem, ⟨14, _⟩ => ⟨S256x256, .bf16⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S256x128, .bf16⟩
  | .local _ .vmem, ⟨21, _⟩ => ⟨S1x128, .f32⟩
  | .local _ .vmem, ⟨22, _⟩ => ⟨S4x32x128, .f32⟩
  | .local _ .vmem, ⟨23, _⟩ => ⟨S4x32x128, .f32⟩
  | .local _ .vmem, ⟨24, _⟩ => ⟨S64x32x128, .f32⟩
  | .local _ .vmem, ⟨25, _⟩ => ⟨S64x32x128, .f32⟩
  | .local _ .vmem, ⟨26, _⟩ => ⟨S64x32x128, .f32⟩
  | .local _ .vmem, ⟨27, _⟩ => ⟨S64x32x128, .f32⟩
  | .local _ .vmem, ⟨28, _⟩ => ⟨S256x256, .bf16⟩
  | .local _ .vmem, ⟨29, _⟩ => ⟨S1x256, .f32⟩
  | .local _ .vmem, ⟨30, _⟩ => ⟨S1x256, .f32⟩
  | .local _ .vmem, ⟨31, _⟩ => ⟨S1x256, .f32⟩
  | .local _ .vmem, ⟨32, _⟩ => ⟨S1x256, .f32⟩
  | .local _ .vmem, ⟨33, _⟩ => ⟨S1x256, .f32⟩
  | .local _ .vmem, ⟨34, _⟩ => ⟨S64x32x128, .f32⟩
  | .local _ .vmem, ⟨35, _⟩ => ⟨S64x32x128, .f32⟩
  | .local _ .vmem, ⟨36, _⟩ => ⟨S64x32x128, .f32⟩
  | .local _ .vmem, ⟨37, _⟩ => ⟨S64x32x128, .f32⟩
  | .local _ .vmem, ⟨38, _⟩ => ⟨S256x256, .bf16⟩
  | .local _ .vmem, ⟨39, _⟩ => ⟨S1x256, .f32⟩
  | .local _ .vmem, ⟨40, _⟩ => ⟨S1x256, .f32⟩
  | .local _ .vmem, ⟨41, _⟩ => ⟨S1x256, .f32⟩
  | .local _ .vmem, ⟨42, _⟩ => ⟨S1x256, .f32⟩
  | .local _ .vmem, ⟨43, _⟩ => ⟨S1x256, .f32⟩
  | .local _ .vmem, ⟨44, _⟩ => ⟨S256x128, .bf16⟩
  | .local _ .vmem, ⟨45, _⟩ => ⟨S1x128, .f32⟩
  | .local _ .vmem, ⟨46, _⟩ => ⟨S64x32x128, .f32⟩
  | .local _ .vmem, ⟨47, _⟩ => ⟨S64x32x128, .f32⟩
  | _, _ => ⟨S256x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17_0 : Ref sig .tc := ⟨.hbm, 31, rfl⟩
abbrev main_v17_1 : Ref sig .tc := ⟨.hbm, 32, rfl⟩
abbrev main_cst : Ref sig .tc := ⟨.hbm, 33, rfl⟩
abbrev main_v18 : Ref sig .tc := ⟨.hbm, 34, rfl⟩
abbrev main_v19 : Ref sig .tc := ⟨.hbm, 35, rfl⟩
abbrev main_cst_0 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25_0 : Ref sig .tc := ⟨.hbm, 42, rfl⟩
abbrev main_v25_1 : Ref sig .tc := ⟨.hbm, 43, rfl⟩
abbrev main_cst_1 : Ref sig .tc := ⟨.hbm, 44, rfl⟩
abbrev main_v26 : Ref sig .tc := ⟨.hbm, 45, rfl⟩
abbrev main_v27 : Ref sig .tc := ⟨.hbm, 46, rfl⟩
abbrev main_cst_2 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg10_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_scratch0 : Ref sig .tc := ⟨.vmem, 32, rfl⟩
abbrev cc2_scratch1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg7_0 : Ref sig .tc := ⟨.vmem, 43, rfl⟩
abbrev cc3_stg8_0 : Ref sig .tc := ⟨.vmem, 44, rfl⟩
abbrev cc3_stg9_0 : Ref sig .tc := ⟨.vmem, 45, rfl⟩
abbrev cc3_stg10_0 : Ref sig .tc := ⟨.vmem, 46, rfl⟩
abbrev cc3_stg10_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem10_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem7_0 : DmaSem sig := 39
abbrev cc3_sem8_0 : DmaSem sig := 40
abbrev cc3_sem9_0 : DmaSem sig := 41
abbrev cc3_sem10_0 : DmaSem sig := 42
abbrev cc3_sem10_1 : DmaSem sig := 43

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v42 : BitVec 1 := Scalar.cmpi .eq arg0 c63_i32
  let v43 : BitVec 32 := Scalar.extui v42
  let c0_i32_20 : BitVec 32 := 0#32
  let v44 : BitVec 1 := Scalar.cmpi .ne v43 c0_i32_20
  v44

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x32x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4x32x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x32x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256x128 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S4x32x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![4], ![false]⟩

def k2_cond2 (i : grid2.Coords) : BitVec 1 :=
  let arg0 : BitVec 32 := BitVec.ofNat 32 (i 0).val
  let c3_i32 : BitVec 32 := 3#32
  let v31 : BitVec 1 := Scalar.cmpi .eq arg0 c3_i32
  let v32 : BitVec 32 := Scalar.extui v31
  let c0_i32_20 : BitVec 32 := 0#32
  let v33 : BitVec 1 := Scalar.cmpi .ne v32 c0_i32_20
  v33

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S64x32x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S64x32x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![4], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S64x32x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S64x32x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S256x128 .bf16 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S64x32x128 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

class Facts₀ : Prop where
  shapeCasts_S256x1024_S256x32x32 : S256x1024.ShapeCasts S256x32x32
  transposes_S256x256_S256x256_1_0 : S256x256.Transposes [1, 0] S256x256
  bitsLt_bf16_f32 : FTy.bits .bf16 < FTy.bits .f32
  transposes_S128x256_S256x128_1_0 : S128x256.Transposes [1, 0] S256x128
  shapeCasts_S256_S1x256 : S256.ShapeCasts S1x256
  shapeCasts_S128_S1x128 : S128.ShapeCasts S1x128
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S4x32x128_S4x32x128_0_0_0 : ∀ a, (![0, 0, 0] : Fin 3 → Nat) a + S4x32x128.size a ≤ S4x32x128.size a
  h_S4x32x128 : 0 < S4x32x128.numel
  inb_S4x32x32_S4x32x32_0_0_0 : ∀ a, (![0, 0, 0] : Fin 3 → Nat) a + S4x32x32.size a ≤ S4x32x32.size a
  h_S4x32x32 : 0 < S4x32x32.numel
  shapeCasts_S4x32x32_S4x32x32 : S4x32x32.ShapeCasts S4x32x32
  shapeCasts_S4x32x32_S4x32x32x1 : S4x32x32.ShapeCasts S4x32x32x1
  shapeCasts_S4x32x128_S4x32x1x128 : S4x32x128.ShapeCasts S4x32x1x128
  shapeCasts_S4x32x1x128_S4x32x1x128 : S4x32x1x128.ShapeCasts S4x32x1x128
  broadcasts_S4x32x1x128_S4x32x32x128 : S4x32x1x128.Broadcasts S4x32x32x128
  shapeCasts_S4x32x128_S4x1x32x128 : S4x32x128.ShapeCasts S4x1x32x128
  shapeCasts_S4x1x32x128_S4x1x32x128 : S4x1x32x128.ShapeCasts S4x1x32x128
  broadcasts_S4x1x32x128_S4x32x32x128 : S4x1x32x128.Broadcasts S4x32x32x128
  broadcasts_S4x32x32x1_S4x32x32x128 : S4x32x32x1.Broadcasts S4x32x32x128
  concatenates_S4x32x32x128_S4x32x32x128_S4x32x32x256_d3 : Shape.Concatenates [S4x32x32x128, S4x32x32x128] S4x32x32x256 3
  shapeCasts_S4x32x32x256_S4096x256 : S4x32x32x256.ShapeCasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  broadcasts_S1x256_S4096x256 : S1x256.Broadcasts S4096x256
  reduces_S4096x256_S256 : S4096x256.Reduces [0] S256
  bcast_S_S1x256 : S_.BroadcastsInDim S1x256 (![] : Fin 0 → Fin S1x256.rank)
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  shapeCasts_S4096x128_S4x32x32x128 : S4096x128.ShapeCasts S4x32x32x128
  reduces_S4x32x32x128_S4x32x128 : S4x32x32x128.Reduces [2] S4x32x128
  inb_S64x32x128_S64x32x128_0_0_0 : ∀ a, (![0, 0, 0] : Fin 3 → Nat) a + S64x32x128.size a ≤ S64x32x128.size a
  h_S64x32x128 : 0 < S64x32x128.numel
  shapeCasts_S64x32x128_S64x32x128 : S64x32x128.ShapeCasts S64x32x128
  concatenates_S64x32x128_S64x32x128_S64x32x256_d2 : Shape.Concatenates [S64x32x128, S64x32x128] S64x32x256 2
  shapeCasts_S64x32x256_S2048x256 : S64x32x256.ShapeCasts S2048x256
  broadcasts_S1x256_S2048x256 : S1x256.Broadcasts S2048x256
  reduces_S2048x256_S256 : S2048x256.Reduces [0] S256
  broadcasts_S1x128_S2048x128 : S1x128.Broadcasts S2048x128
  shapeCasts_S2048x128_S64x32x128 : S2048x128.ShapeCasts S64x32x128
  dot_S4096x256_S256x256_S4096x256_1_0_0_1_n_n_wf : DotDims.WF S4096x256 S256x256 S4096x256 [1] [0] [0] [1] [] []
  dot_S4096x256_S256x128_S4096x128_1_0_0_1_n_n_wf : DotDims.WF S4096x256 S256x128 S4096x128 [1] [0] [0] [1] [] []
  dot_S2048x256_S256x256_S2048x256_1_0_0_1_n_n_wf : DotDims.WF S2048x256 S256x256 S2048x256 [1] [0] [0] [1] [] []
  dot_S2048x256_S256x128_S2048x128_1_0_0_1_n_n_wf : DotDims.WF S2048x256 S256x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x32x128.size a ≤ S256x32x128.size a
  hwx0_0 : ∀ i : grid0.Coords, EltTy.bits .f32 = 32 ∨ (Rect.block (s := S256x32x128) S4x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x32x32.size a ≤ S256x32x32.size a
  hwx0_1 : ∀ i : grid0.Coords, EltTy.bits .f32 = 32 ∨ (Rect.block (s := S256x32x32) S4x32x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x32x128.size a ≤ S256x32x128.size a
  hwx1_0 : ∀ i : grid1.Coords, EltTy.bits .f32 = 32 ∨ (Rect.block (s := S256x32x128) S4x32x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x32x32.size a ≤ S256x32x32.size a
  hwx1_1 : ∀ i : grid1.Coords, EltTy.bits .f32 = 32 ∨ (Rect.block (s := S256x32x32) S4x32x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S256x128.size a ≤ S256x128.size a
  hwx1_8 : ∀ i : grid1.Coords, EltTy.bits .bf16 = 32 ∨ (Rect.block (s := S256x128) S256x128.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S4x32x128.size a ≤ S256x32x128.size a
  hwx1_10 : ∀ i : grid1.Coords, EltTy.bits .f32 = 32 ∨ (Rect.block (s := S256x32x128) S4x32x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x32x128.size a ≤ S256x32x128.size a
  hwx2_0 : ∀ i : grid2.Coords, EltTy.bits .f32 = 32 ∨ (Rect.block (s := S256x32x128) S64x32x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S64x32x128.size a ≤ S256x32x128.size a
  hwx2_1 : ∀ i : grid2.Coords, EltTy.bits .f32 = 32 ∨ (Rect.block (s := S256x32x128) S64x32x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .bf16 = 32 ∨ (Rect.block (s := S256x256) S256x256.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S64x32x128.size a ≤ S256x32x128.size a
  hwx3_0 : ∀ i : grid3.Coords, EltTy.bits .f32 = 32 ∨ (Rect.block (s := S256x32x128) S64x32x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S64x32x128.size a ≤ S256x32x128.size a
  hwx3_1 : ∀ i : grid3.Coords, EltTy.bits .f32 = 32 ∨ (Rect.block (s := S256x32x128) S64x32x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .bf16 = 32 ∨ (Rect.block (s := S256x256) S256x256.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x256.size a ≤ S1x256.size a
  hwx3_7 : ∀ i : grid3.Coords, EltTy.bits .f32 = 32 ∨ (Rect.block (s := S1x256) S1x256.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S256x128.size a ≤ S256x128.size a
  hwx3_8 : ∀ i : grid3.Coords, EltTy.bits .bf16 = 32 ∨ (Rect.block (s := S256x128) S256x128.size (cc3_transform_8 i) (hinb3_8 i)).WholeWords (EltTy.packing .bf16)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x128.size a ≤ S1x128.size a
  hwx3_9 : ∀ i : grid3.Coords, EltTy.bits .f32 = 32 ∨ (Rect.block (s := S1x128) S1x128.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S64x32x128.size a ≤ S256x32x128.size a
  hwx3_10 : ∀ i : grid3.Coords, EltTy.bits .f32 = 32 ∨ (Rect.block (s := S256x32x128) S64x32x128.size (cc3_transform_10 i) (hinb3_10 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf

abbrev win0_0 : Pipeline.Window sig grid0 :=
  Pipeline.Window.ofSpec (Memref.whole main_arg0) S4x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x32x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17_0) S1x256.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17_1) S1x256.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg0) S4x32x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4x32x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v11) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v4) S256x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v12) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v24) S4x32x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_arg0) S64x32x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S64x32x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v13) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v25_0) S1x256.size cc2_transform_4 reads2_4 true true 1 stage2_4 sem2_4
    hrank2 hreads2_4 hinb2_4 nbuf2_4 (Memref.isWhole_whole _) hwx2_4 hstage2_4

abbrev win2_5 : Pipeline.Window sig grid2 :=
  Pipeline.Window.ofSpec (Memref.whole main_v25_1) S1x256.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun i => !(k2_cond2 i == 1#1) | 5 => fun i => !(k2_cond2 i == 1#1) | ⟨_ + 6, h⟩ => absurd h (Nat.not_lt.2 (Nat.le_add_left _ _))

abbrev win3_0 : Pipeline.Window sig grid3 :=
  Pipeline.Window.ofSpec (Memref.whole main_arg0) S64x32x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v24) S64x32x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v6) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v13) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v27) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v31) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v14) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v15) S1x256.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v8) S256x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v16) S1x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v32) S64x32x128.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

class Facts : Prop extends Facts₀ where

variable [Facts]
-- ==== ReferenceIdeal.lean ====
abbrev S256x32x128 : Shape := ⟨3, ![256, 32, 128]⟩
abbrev S256x1024 : Shape := ⟨2, ![256, 1024]⟩
abbrev S256x256 : Shape := ⟨2, ![256, 256]⟩
abbrev S256 : Shape := ⟨1, ![256]⟩
abbrev S128x256 : Shape := ⟨2, ![128, 256]⟩
abbrev S128 : Shape := ⟨1, ![128]⟩
abbrev S32 : Shape := ⟨1, ![32]⟩
abbrev S32x32 : Shape := ⟨2, ![32, 32]⟩
abbrev S1024 : Shape := ⟨1, ![1024]⟩
abbrev S1x32 : Shape := ⟨2, ![1, 32]⟩
abbrev S_ : Shape := ⟨0, ![]⟩
abbrev S1024x1 : Shape := ⟨2, ![1024, 1]⟩
abbrev S256x1024x128 : Shape := ⟨3, ![256, 1024, 128]⟩
abbrev S256x1024x1 : Shape := ⟨3, ![256, 1024, 1]⟩
abbrev S256x1024x256 : Shape := ⟨3, ![256, 1024, 256]⟩
abbrev S262144x256 : Shape := ⟨2, ![262144, 256]⟩
abbrev S1x256 : Shape := ⟨2, ![1, 256]⟩
abbrev S256x128 : Shape := ⟨2, ![256, 128]⟩
abbrev S262144x128 : Shape := ⟨2, ![262144, 128]⟩
abbrev S1x128 : Shape := ⟨2, ![1, 128]⟩
abbrev S256x32x32x128 : Shape := ⟨4, ![256, 32, 32, 128]⟩
abbrev S256x32x256 : Shape := ⟨3, ![256, 32, 256]⟩
abbrev S8192x256 : Shape := ⟨2, ![8192, 256]⟩
abbrev S8192x128 : Shape := ⟨2, ![8192, 128]⟩

abbrev nBuf : Space → Nat
  | .hbm => 146
  | .vmem => 0
  | .smem => 0
  | _ => 0

abbrev hbmTy0_0 (i : Nat) : BufTy := match i % 128 with
  | 0 => ⟨S256x32x128, .f32⟩
  | 1 => ⟨S256x1024, .f32⟩
  | 2 => ⟨S256x256, .f32⟩
  | 3 => ⟨S256, .f32⟩
  | 4 => ⟨S256, .f32⟩
  | 5 => ⟨S256, .f32⟩
  | 6 => ⟨S128x256, .f32⟩
  | 7 => ⟨S128, .f32⟩
  | 8 => ⟨S256x256, .f32⟩
  | 9 => ⟨S256, .f32⟩
  | 10 => ⟨S256, .f32⟩
  | 11 => ⟨S256, .f32⟩
  | 12 => ⟨S128x256, .f32⟩
  | 13 => ⟨S128, .f32⟩
  | 14 => ⟨S32, .i32⟩
  | 15 => ⟨S32x32, .i32⟩
  | 16 => ⟨S1024, .i32⟩
  | 17 => ⟨S32, .i32⟩
  | 18 => ⟨S1x32, .i32⟩
  | 19 => ⟨S32x32, .i32⟩
  | 20 => ⟨S1024, .i32⟩
  | 21 => ⟨S_, .i32⟩
  | 22 => ⟨S1024, .i32⟩
  | 23 => ⟨S1024, .i1⟩
  | 24 => ⟨S_, .i32⟩
  | 25 => ⟨S1024, .i32⟩
  | 26 => ⟨S1024, .i32⟩
  | 27 => ⟨S1024, .i32⟩
  | 28 => ⟨S1024x1, .i32⟩
  | 29 => ⟨S256x1024x128, .f32⟩
  | 30 => ⟨S_, .i32⟩
  | 31 => ⟨S1024, .i32⟩
  | 32 => ⟨S1024, .i1⟩
  | 33 => ⟨S_, .i32⟩
  | 34 => ⟨S1024, .i32⟩
  | 35 => ⟨S1024, .i32⟩
  | 36 => ⟨S1024, .i32⟩
  | 37 => ⟨S1024x1, .i32⟩
  | 38 => ⟨S256x1024x128, .f32⟩
  | 39 => ⟨S256x1024x1, .f32⟩
  | 40 => ⟨S256x1024x128, .f32⟩
  | 41 => ⟨S256x1024x128, .f32⟩
  | 42 => ⟨S256x1024x128, .f32⟩
  | 43 => ⟨S256x1024x128, .f32⟩
  | 44 => ⟨S256x1024x256, .f32⟩
  | 45 => ⟨S262144x256, .f32⟩
  | 46 => ⟨S256x256, .f32⟩
  | 47 => ⟨S262144x256, .f32⟩
  | 48 => ⟨S1x256, .f32⟩
  | 49 => ⟨S262144x256, .f32⟩
  | 50 => ⟨S262144x256, .f32⟩
  | 51 => ⟨S_, .f32⟩
  | 52 => ⟨S256, .f32⟩
  | 53 => ⟨S_, .f32⟩
  | 54 => ⟨S256, .f32⟩
  | 55 => ⟨S256, .f32⟩
  | 56 => ⟨S1x256, .f32⟩
  | 57 => ⟨S262144x256, .f32⟩
  | 58 => ⟨S262144x256, .f32⟩
  | 59 => ⟨S262144x256, .f32⟩
  | 60 => ⟨S_, .f32⟩
  | 61 => ⟨S256, .f32⟩
  | 62 => ⟨S_, .f32⟩
  | 63 => ⟨S256, .f32⟩
  | 64 => ⟨S256, .f32⟩
  | 65 => ⟨S1x256, .f32⟩
  | 66 => ⟨S262144x256, .f32⟩
  | 67 => ⟨S262144x256, .f32⟩
  | 68 => ⟨S_, .f32⟩
  | 69 => ⟨S256, .f32⟩
  | 70 => ⟨S256, .f32⟩
  | 71 => ⟨S256, .f32⟩
  | 72 => ⟨S1x256, .f32⟩
  | 73 => ⟨S262144x256, .f32⟩
  | 74 => ⟨S262144x256, .f32⟩
  | 75 => ⟨S1x256, .f32⟩
  | 76 => ⟨S262144x256, .f32⟩
  | 77 => ⟨S262144x256, .f32⟩
  | 78 => ⟨S1x256, .f32⟩
  | 79 => ⟨S262144x256, .f32⟩
  | 80 => ⟨S262144x256, .f32⟩
  | 81 => ⟨S_, .f32⟩
  | 82 => ⟨S262144x256, .f32⟩
  | 83 => ⟨S262144x256, .i1⟩
  | 84 => ⟨S_, .f32⟩
  | 85 => ⟨S262144x256, .f32⟩
  | 86 => ⟨S262144x256, .f32⟩
  | 87 => ⟨S262144x256, .f32⟩
  | 88 => ⟨S256x128, .f32⟩
  | 89 => ⟨S262144x128, .f32⟩
  | 90 => ⟨S1x128, .f32⟩
  | 91 => ⟨S262144x128, .f32⟩
  | 92 => ⟨S262144x128, .f32⟩
  | 93 => ⟨S256x32x32x128, .f32⟩
  | 94 => ⟨S_, .f32⟩
  | 95 => ⟨S256x32x128, .f32⟩
  | 96 => ⟨S256x32x256, .f32⟩
  | 97 => ⟨S8192x256, .f32⟩
  | 98 => ⟨S256x256, .f32⟩
  | 99 => ⟨S8192x256, .f32⟩
  | 100 => ⟨S1x256, .f32⟩
  | 101 => ⟨S8192x256, .f32⟩
  | 102 => ⟨S8192x256, .f32⟩
  | 103 => ⟨S_, .f32⟩
  | 104 => ⟨S256, .f32⟩
  | 105 => ⟨S_, .f32⟩
  | 106 => ⟨S256, .f32⟩
  | 107 => ⟨S256, .f32⟩
  | 108 => ⟨S1x256, .f32⟩
  | 109 => ⟨S8192x256, .f32⟩
  | 110 => ⟨S8192x256, .f32⟩
  | 111 => ⟨S8192x256, .f32⟩
  | 112 => ⟨S_, .f32⟩
  | 113 => ⟨S256, .f32⟩
  | 114 => ⟨S_, .f32⟩
  | 115 => ⟨S256, .f32⟩
  | 116 => ⟨S256, .f32⟩
  | 117 => ⟨S1x256, .f32⟩
  | 118 => ⟨S8192x256, .f32⟩
  | 119 => ⟨S8192x256, .f32⟩
  | 120 => ⟨S_, .f32⟩
  | 121 => ⟨S256, .f32⟩
  | 122 => ⟨S256, .f32⟩
  | 123 => ⟨S256, .f32⟩
  | 124 => ⟨S1x256, .f32⟩
  | 125 => ⟨S8192x256, .f32⟩
  | 126 => ⟨S8192x256, .f32⟩
  | 127 => ⟨S1x256, .f32⟩
  | _ => ⟨S256x32x128, .f32⟩

abbrev hbmTy0_1 (i : Nat) : BufTy := match i % 128 with
  | 0 => ⟨S8192x256, .f32⟩
  | 1 => ⟨S8192x256, .f32⟩
  | 2 => ⟨S1x256, .f32⟩
  | 3 => ⟨S8192x256, .f32⟩
  | 4 => ⟨S8192x256, .f32⟩
  | 5 => ⟨S_, .f32⟩
  | 6 => ⟨S8192x256, .f32⟩
  | 7 => ⟨S8192x256, .i1⟩
  | 8 => ⟨S_, .f32⟩
  | 9 => ⟨S8192x256, .f32⟩
  | 10 => ⟨S8192x256, .f32⟩
  | 11 => ⟨S8192x256, .f32⟩
  | 12 => ⟨S256x128, .f32⟩
  | 13 => ⟨S8192x128, .f32⟩
  | 14 => ⟨S1x128, .f32⟩
  | 15 => ⟨S8192x128, .f32⟩
  | 16 => ⟨S8192x128, .f32⟩
  | 17 => ⟨S256x32x128, .f32⟩
  | _ => ⟨S256x32x128, .f32⟩

abbrev hbmTy (i : Nat) : BufTy := match i / 128 with
  | 0 => hbmTy0_0 i
  | 1 => hbmTy0_1 i
  | _ => ⟨S256x32x128, .f32⟩

abbrev bufTy : (tb : Table) → Fin (tcTables nBuf tb) → BufTy
  | .hbm, ⟨i, _⟩ => hbmTy i
  | _, _ => ⟨S256x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c : Ref sig .tc := ⟨.hbm, 21, rfl⟩
abbrev main_v7 : Ref sig .tc := ⟨.hbm, 22, rfl⟩
abbrev main_v8 : Ref sig .tc := ⟨.hbm, 23, rfl⟩
abbrev main_c_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_1 : Ref sig .tc := ⟨.hbm, 30, rfl⟩
abbrev main_v14 : Ref sig .tc := ⟨.hbm, 31, rfl⟩
abbrev main_v15 : Ref sig .tc := ⟨.hbm, 32, rfl⟩
abbrev main_c_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst : Ref sig .tc := ⟨.hbm, 51, rfl⟩
abbrev main_v33 : Ref sig .tc := ⟨.hbm, 52, rfl⟩
abbrev main_cst_3 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_4 : Ref sig .tc := ⟨.hbm, 60, rfl⟩
abbrev main_v40 : Ref sig .tc := ⟨.hbm, 61, rfl⟩
abbrev main_cst_5 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_6 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_7 : Ref sig .tc := ⟨.hbm, 81, rfl⟩
abbrev main_v58 : Ref sig .tc := ⟨.hbm, 82, rfl⟩
abbrev main_v59 : Ref sig .tc := ⟨.hbm, 83, rfl⟩
abbrev main_cst_8 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_9 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_10 : Ref sig .tc := ⟨.hbm, 103, rfl⟩
abbrev main_v77 : Ref sig .tc := ⟨.hbm, 104, rfl⟩
abbrev main_cst_11 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_12 : Ref sig .tc := ⟨.hbm, 112, rfl⟩
abbrev main_v84 : Ref sig .tc := ⟨.hbm, 113, rfl⟩
abbrev main_cst_13 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_14 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_cst_15 : Ref sig .tc := ⟨.hbm, 133, rfl⟩
abbrev main_v102 : Ref sig .tc := ⟨.hbm, 134, rfl⟩
abbrev main_v103 : Ref sig .tc := ⟨.hbm, 135, rfl⟩
abbrev main_cst_16 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩

abbrev nD : Nat := 1
abbrev τ : Topo := Topo.v7x

variable {F : FTy → Type} [FloatOps F]

class Facts₀ : Prop where
  bcast_S32_S32x32_0 : S32.BroadcastsInDim S32x32 (![0] : Fin 1 → Fin S32x32.rank)
  shapeCasts_S32x32_S1024 : S32x32.ShapeCasts S1024
  shapeCasts_S32_S1x32 : S32.ShapeCasts S1x32
  bcast_S1x32_S32x32_0_1 : S1x32.BroadcastsInDim S32x32 (![0, 1] : Fin 2 → Fin S32x32.rank)
  bcast_S_S1024 : S_.BroadcastsInDim S1024 (![] : Fin 0 → Fin S1024.rank)
  bcast_S1024_S1024x1_0 : S1024.BroadcastsInDim S1024x1 (![0] : Fin 1 → Fin S1024x1.rank)
  bcast_S256x1024_S256x1024x1_0_1 : S256x1024.BroadcastsInDim S256x1024x1 (![0, 1] : Fin 2 → Fin S256x1024x1.rank)
  bcast_S256x1024x1_S256x1024x128_0_1_2 : S256x1024x1.BroadcastsInDim S256x1024x128 (![0, 1, 2] : Fin 3 → Fin S256x1024x128.rank)
  concatenates_S256x1024x128_S256x1024x128_S256x1024x256_d2 : Shape.Concatenates [S256x1024x128, S256x1024x128] S256x1024x256 2
  shapeCasts_S256x1024x256_S262144x256 : S256x1024x256.ShapeCasts S262144x256
  transposes_S256x256_S256x256_1_0 : S256x256.Transposes [1, 0] S256x256
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  reducesTo_S262144x256_S256_d0 : S262144x256.ReducesTo [0] S256
  h_S_ : 0 < S_.numel
  bcast_S_S256 : S_.BroadcastsInDim S256 (![] : Fin 0 → Fin S256.rank)
  bcast_S_S262144x256 : S_.BroadcastsInDim S262144x256 (![] : Fin 0 → Fin S262144x256.rank)
  transposes_S128x256_S256x128_1_0 : S128x256.Transposes [1, 0] S256x128
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  shapeCasts_S262144x128_S256x32x32x128 : S262144x128.ShapeCasts S256x32x32x128
  reducesTo_S256x32x32x128_S256x32x128_d2 : S256x32x32x128.ReducesTo [2] S256x32x128
  concatenates_S256x32x128_S256x32x128_S256x32x256_d2 : Shape.Concatenates [S256x32x128, S256x32x128] S256x32x256 2
  shapeCasts_S256x32x256_S8192x256 : S256x32x256.ShapeCasts S8192x256
  bcast_S1x256_S8192x256_0_1 : S1x256.BroadcastsInDim S8192x256 (![0, 1] : Fin 2 → Fin S8192x256.rank)
  reducesTo_S8192x256_S256_d0 : S8192x256.ReducesTo [0] S256
  bcast_S_S8192x256 : S_.BroadcastsInDim S8192x256 (![] : Fin 0 → Fin S8192x256.rank)
  bcast_S1x128_S8192x128_0_1 : S1x128.BroadcastsInDim S8192x128 (![0, 1] : Fin 2 → Fin S8192x128.rank)
  shapeCasts_S8192x128_S256x32x128 : S8192x128.ShapeCasts S256x32x128
  gather_S256x32x128_S1024x1_S256x1024x128_02_1_n_n_1_1_2561128_wf : GatherDims.WF S256x32x128 S1024x1 S256x1024x128 [0, 2] [1] [] [1] [] 1 ![256, 1, 128]
  dot_S262144x256_S256x256_S262144x256_1_0_0_1_n_n_wf : DotDims.WF S262144x256 S256x256 S262144x256 [1] [0] [0] [1] [] []
  dot_S262144x256_S256x128_S262144x128_1_0_0_1_n_n_wf : DotDims.WF S262144x256 S256x128 S262144x128 [1] [0] [0] [1] [] []
  dot_S8192x256_S256x256_S8192x256_1_0_0_1_n_n_wf : DotDims.WF S8192x256 S256x256 S8192x256 [1] [0] [0] [1] [] []
  dot_S8192x256_S256x128_S8192x128_1_0_0_1_n_n_wf : DotDims.WF S8192x256 S256x128 S8192x128 [1] [0] [0] [1] [] []

variable [Facts₀]

def gather_S256x32x128_S1024x1_S256x1024x128_02_1_n_n_1_1_2561128 : GatherDims S256x32x128 S1024x1 S256x1024x128 where
  offsetDims := [0, 2]
  collapsedSliceDims := [1]
  operandBatchingDims := []
  startIndicesBatchingDims := []
  startIndexMap := [1]
  indexVectorDim := 1
  sliceSizes := ![256, 1, 128]
  wf := gather_S256x32x128_S1024x1_S256x1024x128_02_1_n_n_1_1_2561128_wf
def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf
def dot_S262144x256_S256x128_S262144x128_1_0_0_1_n_n : DotDims S262144x256 S256x128 S262144x128 where
  lhsContracting := [1]
  rhsContracting := [0]
  lhsNonContracting := [0]
  rhsNonContracting := [1]
  lhsBatch := []
  rhsBatch := []
  wf := dot_S262144x256_S256x128_S262144x128_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf

class Facts : Prop extends Facts₀ where

variable [Facts]
-- ==== Proof.K_Run.lean ====
/-
  The kernel program as a whole: four kernel regions among three stretches of host operations.

  Between two items of @main a core holds every unscoped buffer at known contents. A host stretch changes them as
  its operations say. A kernel region changes only the arrays behind its output windows: after the region each of
  its arrays holds what the write-backs of its grid points leave there (the fold of the blocks written back, point
  after point), and every other buffer holds what it held at entry. Reading the last contents gives both facts the
  certificate needs of this program: every argument array ends as launched (no host operation writes one, no region
  has one behind an output window), and the result array ends at what the last region's write-backs leave.

  The regions' own proof data (what each grid point leaves in each staging buffer, the invariant carried from point
  to point, the body's triple) are parameters here, bundled in `Data`: this module is the composition only.
-/
import proofs.«134035_j84430467104804_1_alg».proof.Proof.Gen.Kernel.Launch
import proofs.«134035_j84430467104804_1_alg».proof.Proof.Gen.Kernel.Skeleton
import proofs.«134035_j84430467104804_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The TensorCores' buffer contents, per core and reference: what a region is entered with. -/
abbrev Entry (F : FTy → Type) [FloatOps F] : Type :=
  (c : Dev nD) → (b : Ref sig .tc) → Buf (Elt F) ((c : Thread nD τ).loc b)

/-- The four regions' proof data, each as a function of the contents its region is entered with, and what the
    composition needs of them: the arrays are the entry contents, full shares, nothing owed and no bound on the recorded pairs, the body obligation,
    and the invariant's two ends against the scoped rest beside the generator register. -/
structure Data (F : FTy → Type) [FloatOps F] where
  d0 : Entry F → (c : Dev nD) → Dat τ (Elt F) Unit ℕ (UR sig nD τ) ℕ cfg0 c
  hA0 : ∀ V c w, (d0 V c).A w = V c (Pipeline.arrRef spec0 w)
  hq0 : ∀ V c w, (d0 V c).q w = fullShare
  ho0 : ∀ V c t, (d0 V c).owed t = 0
  hr0 : ∀ V c t, (d0 V c).recorded t = Set.univ
  hb0 : ∀ V c, BodyObligation (d0 V c) (defs₀ (F := F)) Variants.none () Set.univ
  hin0 : ∀ V c, (Pipeline.ΦA spec0 c : sProp (MT nD τ sig Unit (Elt F) ℕ (UR sig nD τ) ℕ)) ⊢ (d0 V c).Φ 0
  hout0 : ∀ V c, (d0 V c).Φ (Fin.last cfg0.N) ⊢ (Pipeline.ΦA spec0 c : sProp (MT nD τ sig Unit (Elt F) ℕ (UR sig nD τ) ℕ))
  d1 : Entry F → (c : Dev nD) → Dat τ (Elt F) Unit ℕ (UR sig nD τ) ℕ cfg1 c
  hA1 : ∀ V c w, (d1 V c).A w = V c (Pipeline.arrRef spec1 w)
  hq1 : ∀ V c w, (d1 V c).q w = fullShare
  ho1 : ∀ V c t, (d1 V c).owed t = 0
  hr1 : ∀ V c t, (d1 V c).recorded t = Set.univ
  hb1 : ∀ V c, BodyObligation (d1 V c) (defs₀ (F := F)) Variants.none () Set.univ
  hin1 : ∀ V c, (Pipeline.ΦA spec1 c : sProp (MT nD τ sig Unit (Elt F) ℕ (UR sig nD τ) ℕ)) ⊢ (d1 V c).Φ 0
  hout1 : ∀ V c, (d1 V c).Φ (Fin.last cfg1.N) ⊢ (Pipeline.ΦA spec1 c : sProp (MT nD τ sig Unit (Elt F) ℕ (UR sig nD τ) ℕ))
  d2 : Entry F → (c : Dev nD) → Dat τ (Elt F) Unit ℕ (UR sig nD τ) ℕ cfg2 c
  hA2 : ∀ V c w, (d2 V c).A w = V c (Pipeline.arrRef spec2 w)
  hq2 : ∀ V c w, (d2 V c).q w = fullShare
  ho2 : ∀ V c t, (d2 V c).owed t = 0
  hr2 : ∀ V c t, (d2 V c).recorded t = Set.univ
  hb2 : ∀ V c, BodyObligation (d2 V c) (defs₀ (F := F)) Variants.none () Set.univ
  hin2 : ∀ V c, (Pipeline.ΦA spec2 c : sProp (MT nD τ sig Unit (Elt F) ℕ (UR sig nD τ) ℕ)) ⊢ (d2 V c).Φ 0
  hout2 : ∀ V c, (d2 V c).Φ (Fin.last cfg2.N) ⊢ (Pipeline.ΦA spec2 c : sProp (MT nD τ sig Unit (Elt F) ℕ (UR sig nD τ) ℕ))
  d3 : Entry F → (c : Dev nD) → Dat τ (Elt F) Unit ℕ (UR sig nD τ) ℕ cfg3 c
  hA3 : ∀ V c w, (d3 V c).A w = V c (Pipeline.arrRef spec3 w)
  hq3 : ∀ V c w, (d3 V c).q w = fullShare
  ho3 : ∀ V c t, (d3 V c).owed t = 0
  hr3 : ∀ V c t, (d3 V c).recorded t = Set.univ
  hb3 : ∀ V c, BodyObligation (d3 V c) (defs₀ (F := F)) Variants.none () Set.univ
  hin3 : ∀ V c, (Pipeline.ΦA spec3 c : sProp (MT nD τ sig Unit (Elt F) ℕ (UR sig nD τ) ℕ)) ⊢ (d3 V c).Φ 0
  hout3 : ∀ V c, (d3 V c).Φ (Fin.last cfg3.N) ⊢ (Pipeline.ΦA spec3 c : sProp (MT nD τ sig Unit (Elt F) ℕ (UR sig nD τ) ℕ))

variable (m : (ℓ : Loc nD τ sig) → Buf (Elt F) ℓ) (D : Data F)

/-! ## The buffers' contents at each boundary of @main -/

/-- At launch. -/
abbrev W0 (c : Dev nD) : Valuation τ sig (Elt F) := fun b => m (c, b)
/-- After the first host stretch: region 0 is entered with these. -/
abbrev W1 (c : Dev nD) : Valuation τ sig (Elt F) := StableHlo.after hostOps0 (W0 m c)
abbrev V1 : Entry F := fun c b => W1 m c b
/-- After region 0: its arrays at what its write-backs leave, every other buffer as entered. -/
def W2 (c : Dev nD) : Valuation τ sig (Elt F) :=
  Pipeline.withArrays spec0 c (W1 m c) fun w => (D.d0 (V1 m) c).arrAt w cfg0.N
theorem W2_arr (c : Dev nD) (w : Fin cfg0.W) :
    W2 m D c (Proc.devRef .tc (Pipeline.arrRef spec0 w)) = (D.d0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m D c (Proc.devRef .tc b) = W1 m c (Proc.devRef .tc b) := by
  unfold W2; exact Pipeline.withArrays_of_ne spec0 c _ _ b hb
abbrev V2 : Entry F := fun c b => W2 m D c b
theorem hF0 (c : Dev nD) (w : Fin cfg0.W) : (D.d0 (V1 m) c).arrAt w cfg0.N = V2 m D c (Pipeline.arrRef spec0 w) :=
  (W2_arr m D c w).symm
theorem hrest0 (c : Dev nD) : ∀ b, b ∉ Finset.univ.image (Pipeline.arrRef spec0) → V2 m D c b = V1 m c b :=
  fun b hb => W2_of_ne m D c b fun w e => hb (Finset.mem_image.mpr ⟨w, Finset.mem_univ _, e⟩)

/-- After the second host stretch: region 1 is entered with these. -/
abbrev W3 (c : Dev nD) : Valuation τ sig (Elt F) := StableHlo.after hostOps1 (W2 m D c)
abbrev V3 : Entry F := fun c b => W3 m D c b
/-- After region 1. Region 2 follows it directly and is entered with the same contents. -/
def W4 (c : Dev nD) : Valuation τ sig (Elt F) :=
  Pipeline.withArrays spec1 c (W3 m D c) fun w => (D.d1 (V3 m D) c).arrAt w cfg1.N
theorem W4_arr (c : Dev nD) (w : Fin cfg1.W) :
    W4 m D c (Proc.devRef .tc (Pipeline.arrRef spec1 w)) = (D.d1 (V3 m D) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m D c (Proc.devRef .tc b) = W3 m D c (Proc.devRef .tc b) := by
  unfold W4; exact Pipeline.withArrays_of_ne spec1 c _ _ b hb
abbrev V4 : Entry F := fun c b => W4 m D c b
theorem hF1 (c : Dev nD) (w : Fin cfg1.W) : (D.d1 (V3 m D) c).arrAt w cfg1.N = V4 m D c (Pipeline.arrRef spec1 w) :=
  (W4_arr m D c w).symm
theorem hrest1 (c : Dev nD) : ∀ b, b ∉ Finset.univ.image (Pipeline.arrRef spec1) → V4 m D c b = V3 m D c b :=
  fun b hb => W4_of_ne m D c b fun w e => hb (Finset.mem_image.mpr ⟨w, Finset.mem_univ _, e⟩)

/-- After region 2. -/
def W5 (c : Dev nD) : Valuation τ sig (Elt F) :=
  Pipeline.withArrays spec2 c (W4 m D c) fun w => (D.d2 (V4 m D) c).arrAt w cfg2.N
theorem W5_arr (c : Dev nD) (w : Fin cfg2.W) :
    W5 m D c (Proc.devRef .tc (Pipeline.arrRef spec2 w)) = (D.d2 (V4 m D) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m D c (Proc.devRef .tc b) = W4 m D c (Proc.devRef .tc b) := by
  unfold W5; exact Pipeline.withArrays_of_ne spec2 c _ _ b hb
abbrev V5 : Entry F := fun c b => W5 m D c b
theorem hF2 (c : Dev nD) (w : Fin cfg2.W) : (D.d2 (V4 m D) c).arrAt w cfg2.N = V5 m D c (Pipeline.arrRef spec2 w) :=
  (W5_arr m D c w).symm
theorem hrest2 (c : Dev nD) : ∀ b, b ∉ Finset.univ.image (Pipeline.arrRef spec2) → V5 m D c b = V4 m D c b :=
  fun b hb => W5_of_ne m D c b fun w e => hb (Finset.mem_image.mpr ⟨w, Finset.mem_univ _, e⟩)

/-- After the third host stretch: region 3 is entered with these. -/
abbrev W6 (c : Dev nD) : Valuation τ sig (Elt F) := StableHlo.after hostOps3 (W5 m D c)
abbrev V6 : Entry F := fun c b => W6 m D c b
/-- After region 3: the contents @main returns with. -/
def W7 (c : Dev nD) : Valuation τ sig (Elt F) :=
  Pipeline.withArrays spec3 c (W6 m D c) fun w => (D.d3 (V6 m D) c).arrAt w cfg3.N
theorem W7_arr (c : Dev nD) (w : Fin cfg3.W) :
    W7 m D c (Proc.devRef .tc (Pipeline.arrRef spec3 w)) = (D.d3 (V6 m D) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m D c (Proc.devRef .tc b) = W6 m D c (Proc.devRef .tc b) := by
  unfold W7; exact Pipeline.withArrays_of_ne spec3 c _ _ b hb
abbrev V7 : Entry F := fun c b => W7 m D c b
theorem hF3 (c : Dev nD) (w : Fin cfg3.W) : (D.d3 (V6 m D) c).arrAt w cfg3.N = V7 m D c (Pipeline.arrRef spec3 w) :=
  (W7_arr m D c w).symm
theorem hrest3 (c : Dev nD) : ∀ b, b ∉ Finset.univ.image (Pipeline.arrRef spec3) → V7 m D c b = V6 m D c b :=
  fun b hb => W7_of_ne m D c b fun w e => hb (Finset.mem_image.mpr ⟨w, Finset.mem_univ _, e⟩)

/-! ## The proof data family and what rides beside the buffers -/

/-- No region of this program reads a prefetched table. -/
abbrev adm : (p : Fin 4) → (pcfgs (F := F) p).Adm := fun p => (cfgs p).toPCfg_adm
abbrev 𝒱₀ : Variants := Variants.none
/-- No core owes another anything: no level is assigned. -/
abbrev L : GSem nD τ sig → Finset Unit := fun _ => ∅
abbrev lv : GSem nD τ sig → Unit → ℕ := fun _ _ => 0
/-- Beside the buffers a core keeps its generator register, at some state, and owes nothing. -/
abbrev R (c : Dev nD) : sProp 𝕄 := iprop((∃ r, prngReg c r) ∗ ∃ W, owes (c : Thread nD τ) (0 : CellTallies nD τ sig Unit) W)

/-- Every pipeline's proof data, each at the contents its region is entered with: a literal match, so that the pinned
    configuration at a numeral reduces to the printed one. -/
def pdats : (p : Fin 4) → (c : Dev nD) → Dat τ (Elt F) Unit ℕ (UR sig nD τ) ℕ (Pipeline.pin (pcfgs (F := F)) adm p) c
  | ⟨0, _⟩ => fun c => D.d0 (V1 m) c
  | ⟨1, _⟩ => fun c => D.d1 (V3 m D) c
  | ⟨2, _⟩ => fun c => D.d2 (V4 m D) c
  | ⟨3, _⟩ => fun c => D.d3 (V6 m D) c

/-- A host stretch as a segment: its operations over the unscoped references from the contents `W`, the rest riding
    along; it leaves those references at the operations' fold over `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation of this program allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the generator register. -/
abbrev Tₙ (c : Dev nD) : sProp 𝕄 := iprop(StableHlo.held (c : Thread nD τ) (Pipeline.ucRefs τ sig) (W7 m D c) ∗ ∃ r, prngReg c r)

/-! ## The regions as segments -/

-- unifying a library lemma stated over the pinned configuration with the printed one unfolds plain definitions in a
-- metavariable's type
set_option backward.isDefEq.respectTransparency.types false in
/-- Region 0 over the thread state: entered with every unscoped buffer at the contents after the first host stretch,
    left with them at the contents after the region. Its windows' arrays are split out of the unscoped buffers at entry
    and put back, at what the write-backs leave, at exit; the generator register and the scoped rest pass through the
    region's invariant; nothing is owed and the kernel has no semaphore of its own. -/
def reg0 : Pipeline.RegionSeg (pcfgs (F := F)) adm (pdats m D) () defs₀ 𝒱₀ L lv 0 where
  win := launch0.win.to₀
  block_pos := launch0.block_pos
  stage_whole := launch0.stage_whole
  K := PEmpty
  osem k := k.elim
  ho := Pipeline.OwnSemFacts.none _
  hbody c := (D.hb0 (V1 m) c).loose
  hwaits := Pipeline.hwaits_of_owed_zero _ _ _ _ L lv 0 fun c t => D.ho0 (V1 m) c t
  pre c := iprop(StableHlo.held (c : Thread nD τ) (Pipeline.ucRefs τ sig) (W1 m c) ∗ R c)
  post c := iprop(StableHlo.held (c : Thread nD τ) (Pipeline.ucRefs τ sig) (W2 m D c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    unfold Pipeline.Dat.owesAt Pipeline.owesWithin
    rw [show (pdats m D 0 c).owed 0 = 0 from D.ho0 (V1 m) c 0]
    have hsplit := Pipeline.arrays_of_unscopedBufs (p := 0) (pcfgs (F := F)) adm (pdats m D) launch0.win launch0.arr_whole c
      ((pdats m D 0 c).share_full fun w => D.hq0 (V1 m) c w) (V1 m c) fun w => D.hA0 (V1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr
      · ipureintro; exact fun x _ => Or.inl (by rw [show (pdats m D 0 c).recorded 0 = Set.univ from D.hr0 (V1 m) c 0]; trivial)
      iexact HO
    isplitl [Hp]; · iexact Hp
    iexact Hrest
  hin c := by
    have h : iprop((∃ r, prngReg c r) ∗ Pipeline.prefHeld (pcfgs (F := F) 0).pre c (fun _ => fullShare) (adm (F := F) 0).1
          ∗ Pipeline.scopedRest (Pipeline.pin (pcfgs (F := F)) adm 0).spec c) ⊢ (Pipeline.ΦA spec0 c : sProp 𝕄) := by
      unfold Pipeline.ΦA
      iintro ⟨Hp, -, Hr⟩
      isplitl [Hr]; · iexact Hr
      iexact Hp
    exact h.trans (D.hin0 (V1 m) c)
  hout c := by
    rw [Pipeline.ownSems0_none]
    have h : (Pipeline.ΦA spec0 c : sProp 𝕄) ⊢ iprop((∃ r, prngReg c r) ∗ BI.emp
          ∗ Pipeline.scopedRest (Pipeline.pin (pcfgs (F := F)) adm 0).spec c) := by
      unfold Pipeline.ΦA
      iintro ⟨Hr, Hp⟩
      isplitl [Hp]; · iexact Hp
      isplitr; · iempintro
      iexact Hr
    exact (D.hout0 (V1 m) c).trans h
  hexit c := by
    unfold Pipeline.Dat.owesAt Pipeline.owesWithin
    rw [show (pdats m D 0 c).owed (Fin.last (Pipeline.pin (pcfgs (F := F)) adm 0).N) = 0 from D.ho0 (V1 m) c _]
    have hjoin := Pipeline.unscopedBufs_of_arrays (p := 0) (pcfgs (F := F)) adm (Ix := Unit) (Name := ℕ) (U := UR sig nD τ) (Lvl := ℕ)
      launch0.win launch0.arr_whole c (pdats m D) ((pdats m D 0 c).share_full fun w => D.hq0 (V1 m) c w)
      (V1 m c) (V2 m D c) ((pdats m D 0 c).arrAt · cfg0.N) (hF0 m D c) (hrest0 m D c)
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W, -, HO⟩; iexists W; iexact HO

-- unifying a library lemma stated over the pinned configuration with the printed one unfolds plain definitions in a
-- metavariable's type
set_option backward.isDefEq.respectTransparency.types false in
/-- Region 1 over the thread state: entered with every unscoped buffer at the contents after the second host stretch,
    left with them at the contents after the region. Its windows' arrays are split out of the unscoped buffers at entry
    and put back, at what the write-backs leave, at exit; the generator register and the scoped rest pass through the
    region's invariant; nothing is owed and the kernel has no semaphore of its own. -/
def reg1 : Pipeline.RegionSeg (pcfgs (F := F)) adm (pdats m D) () defs₀ 𝒱₀ L lv 1 where
  win := launch1.win.to₀
  block_pos := launch1.block_pos
  stage_whole := launch1.stage_whole
  K := PEmpty
  osem k := k.elim
  ho := Pipeline.OwnSemFacts.none _
  hbody c := (D.hb1 (V3 m D) c).loose
  hwaits := Pipeline.hwaits_of_owed_zero _ _ _ _ L lv 1 fun c t => D.ho1 (V3 m D) c t
  pre c := iprop(StableHlo.held (c : Thread nD τ) (Pipeline.ucRefs τ sig) (W3 m D c) ∗ R c)
  post c := iprop(StableHlo.held (c : Thread nD τ) (Pipeline.ucRefs τ sig) (W4 m D c) ∗ R c)
  X c := iprop(∃ r, prngReg c r)
  Y c := iprop(∃ r, prngReg c r)
  Z c := Pipeline.unscopedRest (Ix := Unit) (Name := ℕ) (U := UR sig nD τ) (Lvl := ℕ) spec1 c (V3 m D c)
  hentry c := by
    rw [Pipeline.ownSems0_none]
    unfold Pipeline.Dat.owesAt Pipeline.owesWithin
    rw [show (pdats m D 1 c).owed 0 = 0 from D.ho1 (V3 m D) c 0]
    have hsplit := Pipeline.arrays_of_unscopedBufs (p := 1) (pcfgs (F := F)) adm (pdats m D) launch1.win launch1.arr_whole c
      ((pdats m D 1 c).share_full fun w => D.hq1 (V3 m D) c w) (V3 m D c) fun w => D.hA1 (V3 m D) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr
      · ipureintro; exact fun x _ => Or.inl (by rw [show (pdats m D 1 c).recorded 0 = Set.univ from D.hr1 (V3 m D) c 0]; trivial)
      iexact HO
    isplitl [Hp]; · iexact Hp
    iexact Hrest
  hin c := by
    have h : iprop((∃ r, prngReg c r) ∗ Pipeline.prefHeld (pcfgs (F := F) 1).pre c (fun _ => fullShare) (adm (F := F) 1).1
          ∗ Pipeline.scopedRest (Pipeline.pin (pcfgs (F := F)) adm 1).spec c) ⊢ (Pipeline.ΦA spec1 c : sProp 𝕄) := by
      unfold Pipeline.ΦA
      iintro ⟨Hp, -, Hr⟩
      isplitl [Hr]; · iexact Hr
      iexact Hp
    exact h.trans (D.hin1 (V3 m D) c)
  hout c := by
    rw [Pipeline.ownSems0_none]
    have h : (Pipeline.ΦA spec1 c : sProp 𝕄) ⊢ iprop((∃ r, prngReg c r) ∗ BI.emp
          ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (D.hout1 (V3 m D) c).trans h
  hexit c := by
    unfold Pipeline.Dat.owesAt Pipeline.owesWithin
    rw [show (pdats m D 1 c).owed (Fin.last (Pipeline.pin (pcfgs (F := F)) adm 1).N) = 0 from D.ho1 (V3 m D) c _]
    have hjoin := Pipeline.unscopedBufs_of_arrays (p := 1) (pcfgs (F := F)) adm (Ix := Unit) (Name := ℕ) (U := UR sig nD τ) (Lvl := ℕ)
      launch1.win launch1.arr_whole c (pdats m D) ((pdats m D 1 c).share_full fun w => D.hq1 (V3 m D) c w)
      (V3 m D c) (V4 m D c) ((pdats m D 1 c).arrAt · cfg1.N) (hF1 m D c) (hrest1 m D c)
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W, -, HO⟩; iexists W; iexact HO

-- unifying a library lemma stated over the pinned configuration with the printed one unfolds plain definitions in a
-- metavariable's type
set_option backward.isDefEq.respectTransparency.types false in
/-- Region 2 over the thread state: entered with every unscoped buffer at the contents region 1 left (no host operation stands between them),
    left with them at the contents after the region. Its windows' arrays are split out of the unscoped buffers at entry
    and put back, at what the write-backs leave, at exit; the generator register and the scoped rest pass through the
    region's invariant; nothing is owed and the kernel has no semaphore of its own. -/
def reg2 : Pipeline.RegionSeg (pcfgs (F := F)) adm (pdats m D) () defs₀ 𝒱₀ L lv 2 where
  win := launch2.win.to₀
  block_pos := launch2.block_pos
  stage_whole := launch2.stage_whole
  K := PEmpty
  osem k := k.elim
  ho := Pipeline.OwnSemFacts.none _
  hbody c := (D.hb2 (V4 m D) c).loose
  hwaits := Pipeline.hwaits_of_owed_zero _ _ _ _ L lv 2 fun c t => D.ho2 (V4 m D) c t
  pre c := iprop(StableHlo.held (c : Thread nD τ) (Pipeline.ucRefs τ sig) (W4 m D c) ∗ R c)
  post c := iprop(StableHlo.held (c : Thread nD τ) (Pipeline.ucRefs τ sig) (W5 m D c) ∗ R c)
  X c := iprop(∃ r, prngReg c r)
  Y c := iprop(∃ r, prngReg c r)
  Z c := Pipeline.unscopedRest (Ix := Unit) (Name := ℕ) (U := UR sig nD τ) (Lvl := ℕ) spec2 c (V4 m D c)
  hentry c := by
    rw [Pipeline.ownSems0_none]
    unfold Pipeline.Dat.owesAt Pipeline.owesWithin
    rw [show (pdats m D 2 c).owed 0 = 0 from D.ho2 (V4 m D) c 0]
    have hsplit := Pipeline.arrays_of_unscopedBufs (p := 2) (pcfgs (F := F)) adm (pdats m D) launch2.win launch2.arr_whole c
      ((pdats m D 2 c).share_full fun w => D.hq2 (V4 m D) c w) (V4 m D c) fun w => D.hA2 (V4 m D) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr
      · ipureintro; exact fun x _ => Or.inl (by rw [show (pdats m D 2 c).recorded 0 = Set.univ from D.hr2 (V4 m D) c 0]; trivial)
      iexact HO
    isplitl [Hp]; · iexact Hp
    iexact Hrest
  hin c := by
    have h : iprop((∃ r, prngReg c r) ∗ Pipeline.prefHeld (pcfgs (F := F) 2).pre c (fun _ => fullShare) (adm (F := F) 2).1
          ∗ Pipeline.scopedRest (Pipeline.pin (pcfgs (F := F)) adm 2).spec c) ⊢ (Pipeline.ΦA spec2 c : sProp 𝕄) := by
      unfold Pipeline.ΦA
      iintro ⟨Hp, -, Hr⟩
      isplitl [Hr]; · iexact Hr
      iexact Hp
    exact h.trans (D.hin2 (V4 m D) c)
  hout c := by
    rw [Pipeline.ownSems0_none]
    have h : (Pipeline.ΦA spec2 c : sProp 𝕄) ⊢ iprop((∃ r, prngReg c r) ∗ BI.emp
          ∗ Pipeline.scopedRest (Pipeline.pin (pcfgs (F := F)) adm 2).spec c) := by
      unfold Pipeline.ΦA
      iintro ⟨Hr, Hp⟩
      isplitl [Hp]; · iexact Hp
      isplitr; · iempintro
      iexact Hr
    exact (D.hout2 (V4 m D) c).trans h
  hexit c := by
    unfold Pipeline.Dat.owesAt Pipeline.owesWithin
    rw [show (pdats m D 2 c).owed (Fin.last (Pipeline.pin (pcfgs (F := F)) adm 2).N) = 0 from D.ho2 (V4 m D) c _]
    have hjoin := Pipeline.unscopedBufs_of_arrays (p := 2) (pcfgs (F := F)) adm (Ix := Unit) (Name := ℕ) (U := UR sig nD τ) (Lvl := ℕ)
      launch2.win launch2.arr_whole c (pdats m D) ((pdats m D 2 c).share_full fun w => D.hq2 (V4 m D) c w)
      (V4 m D c) (V5 m D c) ((pdats m D 2 c).arrAt · cfg2.N) (hF2 m D c) (hrest2 m D c)
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W, -, HO⟩; iexists W; iexact HO

-- unifying a library lemma stated over the pinned configuration with the printed one unfolds plain definitions in a
-- metavariable's type
set_option backward.isDefEq.respectTransparency.types false in
/-- Region 3 over the thread state: entered with every unscoped buffer at the contents after the third host stretch,
    left with them at the contents @main returns with, beside the core owing nothing. Its windows' arrays are split out of the unscoped buffers at entry
    and put back, at what the write-backs leave, at exit; the generator register and the scoped rest pass through the
    region's invariant; nothing is owed and the kernel has no semaphore of its own. -/
def reg3 : Pipeline.RegionSeg (pcfgs (F := F)) adm (pdats m D) () defs₀ 𝒱₀ L lv 3 where
  win := launch3.win.to₀
  block_pos := launch3.block_pos
  stage_whole := launch3.stage_whole
  K := PEmpty
  osem k := k.elim
  ho := Pipeline.OwnSemFacts.none _
  hbody c := (D.hb3 (V6 m D) c).loose
  hwaits := Pipeline.hwaits_of_owed_zero _ _ _ _ L lv 3 fun c t => D.ho3 (V6 m D) c t
  pre c := iprop(StableHlo.held (c : Thread nD τ) (Pipeline.ucRefs τ sig) (W6 m D c) ∗ R c)
  post c := iprop(Tₙ m D c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V6 m D c)
  hentry c := by
    rw [Pipeline.ownSems0_none]
    unfold Pipeline.Dat.owesAt Pipeline.owesWithin
    rw [show (pdats m D 3 c).owed 0 = 0 from D.ho3 (V6 m D) c 0]
    have hsplit := Pipeline.arrays_of_unscopedBufs (p := 3) (pcfgs (F := F)) adm (pdats m D) launch3.win launch3.arr_whole c
      ((pdats m D 3 c).share_full fun w => D.hq3 (V6 m D) c w) (V6 m D c) fun w => D.hA3 (V6 m D) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr
      · ipureintro; exact fun x _ => Or.inl (by rw [show (pdats m D 3 c).recorded 0 = Set.univ from D.hr3 (V6 m D) c 0]; trivial)
      iexact HO
    isplitl [Hp]; · iexact Hp
    iexact Hrest
  hin c := by
    have h : iprop((∃ r, prngReg c r) ∗ Pipeline.prefHeld (pcfgs (F := F) 3).pre c (fun _ => fullShare) (adm (F := F) 3).1
          ∗ Pipeline.scopedRest (Pipeline.pin (pcfgs (F := F)) adm 3).spec c) ⊢ (Pipeline.ΦA spec3 c : sProp 𝕄) := by
      unfold Pipeline.ΦA
      iintro ⟨Hp, -, Hr⟩
      isplitl [Hr]; · iexact Hr
      iexact Hp
    exact h.trans (D.hin3 (V6 m D) c)
  hout c := by
    rw [Pipeline.ownSems0_none]
    have h : (Pipeline.ΦA spec3 c : sProp 𝕄) ⊢ iprop((∃ r, prngReg c r) ∗ BI.emp
          ∗ Pipeline.scopedRest (Pipeline.pin (pcfgs (F := F)) adm 3).spec c) := by
      unfold Pipeline.ΦA
      iintro ⟨Hr, Hp⟩
      isplitl [Hp]; · iexact Hp
      isplitr; · iempintro
      iexact Hr
    exact (D.hout3 (V6 m D) c).trans h
  hexit c := by
    unfold Pipeline.Dat.owesAt Pipeline.owesWithin
    rw [show (pdats m D 3 c).owed (Fin.last (Pipeline.pin (pcfgs (F := F)) adm 3).N) = 0 from D.ho3 (V6 m D) c _]
    have hjoin := Pipeline.unscopedBufs_of_arrays (p := 3) (pcfgs (F := F)) adm (Ix := Unit) (Name := ℕ) (U := UR sig nD τ) (Lvl := ℕ)
      launch3.win launch3.arr_whole c (pdats m D) ((pdats m D 3 c).share_full fun w => D.hq3 (V6 m D) c w)
      (V6 m D c) (V7 m D c) ((pdats m D 3 c).arrAt · cfg3.N) (hF3 m D c) (hrest3 m D c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    icases HO with ⟨%W, -, HO⟩; iexists W; iexact HO

/-! ## @main as segments, and the launch -/

/-- @main's seven items in order: a host segment per stretch from its boundary's contents, a region per kernel call. -/
abbrev segs : List (Pipeline.Seg (pcfgs (F := F)) adm (pdats m D) () defs₀ 𝒱₀ L lv) :=
  [ .host (hseg hostOps0 hostOps0_sub hostOps0_fresh (W0 m)),
    .region (reg0 m D),
    .host (hseg hostOps1 hostOps1_sub hostOps1_fresh (W2 m D)),
    .region (reg1 m D),
    .region (reg2 m D),
    .host (hseg hostOps3 hostOps3_sub hostOps3_fresh (W5 m D)),
    .region (reg3 m D) ]
/-- @main is the run of these segments: the generated chain of its items, the segments' run against it by
    definitional unfolding. -/
theorem main_run (c : Dev nD) : main (F := F) c = Pipeline.Seg.run (segs m D) := (main_chain c).trans (by chain_rfl)

-- the launch theorem's implicit arguments are found by unifying its conclusion with this one, which takes unfolding plain
-- definitions in a metavariable's type
set_option backward.isDefEq.respectTransparency.types false in
/-- THE RUN. From any memory with zero counters every weakly fair execution of @main on the TensorCores terminates,
    nothing faulting, and in the final memory every unscoped buffer of every core holds the contents `W7`: the fold
    through @main of the host stretches' operations and the regions' write-backs. -/
theorem run (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W7 m D c b) :=
  Pipeline.θ_run_regions_kit (pcfgs (F := F)) adm (pdats m D) () cellOf_inj emb₁ defs₀ 𝒱₀ L lv m ρ main (segs m D)
    (fun c Q => by rw [main_run m D c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m D)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m D c b)
    (hfin := fun c s' => by
      iintro ⟨⟨Hh, -⟩, HSI⟩
      unfold StableHlo.held
      imodintro
      iapply (pointsTo_read_all (Pipeline.ucRefs τ sig) (fun b => (((c : Thread nD τ)).1, b)) (W7 m D c) s')
      isplitl [Hh] <;> iassumption)
    (hQ := fun s h => h)

end Cert.Kernel.Hand

end
-- ==== Proof.K_RunArgs.lean ====
/-
  What the kernel program's last contents are at the buffers the certificate speaks of.

  An argument array is written by no host operation, and no kernel region has one behind an output window: the
  first argument is behind an INPUT window of every region (an input window's array is never written back, so it
  holds at the region's exit what it held at entry), the others are read by host operations only. So the fold
  through @main, read at an argument, walks back to the launch memory. The result array is behind the last region's
  output window and is read by nothing after it: it ends at what that region's write-backs leave.
-/
import proofs.«134035_j84430467104804_1_alg».proof.Proof.K_Run
import proofs.«134035_j84430467104804_1_alg».proof.Proof.Gen.Kernel.Regions

set_option maxRecDepth 16384

noncomputable section

namespace Cert.Kernel.Hand

open Idealize.ShloMosaic Idealize.ShloMosaic.TcCoe
open Idealize.SL Idealize.SL.Sem
open Idealize.ShloMosaic.Pipeline (Dat)
open Cert.Kernel

variable {F : FTy → Type} [FloatOps F]
variable (m : (ℓ : Loc nD τ sig) → Buf (Elt F) ℓ) (D : Data F)

/-! ## A host stretch leaves alone what it does not write -/

theorem W1_of (c : Dev nD) (r : Ref sig .tc) (h : r ∉ Gen.hostOps0_W) : W1 m c (Proc.devRef .tc r) = W0 m c (Proc.devRef .tc r) :=
  StableHlo.after_of_writes_sub Gen.hostOps0 _ Gen.hostOps0_writes h
theorem W3_of (c : Dev nD) (r : Ref sig .tc) (h : r ∉ Gen.hostOps1_W) : W3 m D c (Proc.devRef .tc r) = W2 m D c (Proc.devRef .tc r) :=
  StableHlo.after_of_writes_sub Gen.hostOps1 _ Gen.hostOps1_writes h
theorem W6_of (c : Dev nD) (r : Ref sig .tc) (h : r ∉ Gen.hostOps3_W) : W6 m D c (Proc.devRef .tc r) = W5 m D c (Proc.devRef .tc r) :=
  StableHlo.after_of_writes_sub Gen.hostOps3 _ Gen.hostOps3_writes h

/-! ## The first argument: behind input window 0 of every region -/

theorem W2_arg0 (c : Dev nD) : W2 m D c (Proc.devRef .tc main_arg0) = W1 m c (Proc.devRef .tc main_arg0) :=
  (W2_arr m D c 0).trans (((D.d0 (V1 m) c).arrAt_in 0 rfl _).trans (D.hA0 (V1 m) c 0))
theorem W4_arg0 (c : Dev nD) : W4 m D c (Proc.devRef .tc main_arg0) = W3 m D c (Proc.devRef .tc main_arg0) :=
  (W4_arr m D c 0).trans (((D.d1 (V3 m D) c).arrAt_in 0 rfl _).trans (D.hA1 (V3 m D) c 0))
theorem W5_arg0 (c : Dev nD) : W5 m D c (Proc.devRef .tc main_arg0) = W4 m D c (Proc.devRef .tc main_arg0) :=
  (W5_arr m D c 0).trans (((D.d2 (V4 m D) c).arrAt_in 0 rfl _).trans (D.hA2 (V4 m D) c 0))
theorem W7_arg0 (c : Dev nD) : W7 m D c (Proc.devRef .tc main_arg0) = W6 m D c (Proc.devRef .tc main_arg0) :=
  (W7_arr m D c 0).trans (((D.d3 (V6 m D) c).arrAt_in 0 rfl _).trans (D.hA3 (V6 m D) c 0))

/-- The first argument ends as launched. -/
theorem W7_main_arg0 (c : Dev nD) : W7 m D c (Proc.devRef .tc main_arg0) = m ((c : Thread nD τ).loc main_arg0) :=
  (W7_arg0 m D c).trans <| (W6_of m D c main_arg0 (by decide)).trans <| (W5_arg0 m D c).trans <| (W4_arg0 m D c).trans <|
    (W3_of m D c main_arg0 (by decide)).trans <| (W2_arg0 m D c).trans <| (W1_of m c main_arg0 (by decide)).trans rfl

/-! ## The other arguments: behind no window of any region -/

/-- A buffer that is no window's array of any region and that no host stretch writes ends as launched. -/
theorem W7_of_untouched (c : Dev nD) (r : Ref sig .tc)
    (h0 : ∀ w, Pipeline.arrRef spec0 w ≠ r) (h1 : ∀ w, Pipeline.arrRef spec1 w ≠ r) (h2 : ∀ w, Pipeline.arrRef spec2 w ≠ r)
    (h3 : ∀ w, Pipeline.arrRef spec3 w ≠ r) (g0 : r ∉ Gen.hostOps0_W) (g1 : r ∉ Gen.hostOps1_W) (g3 : r ∉ Gen.hostOps3_W) :
    W7 m D c (Proc.devRef .tc r) = m ((c : Thread nD τ).loc r) :=
  (W7_of_ne m D c r h3).trans <| (W6_of m D c r g3).trans <| (W5_of_ne m D c r h2).trans <| (W4_of_ne m D c r h1).trans <|
    (W3_of m D c r g1).trans <| (W2_of_ne m D c r h0).trans <| (W1_of m c r g0).trans rfl

theorem W7_main_arg1 (c : Dev nD) : W7 m D c (Proc.devRef .tc main_arg1) = m ((c : Thread nD τ).loc main_arg1) :=
  W7_of_untouched m D c main_arg1 (by decide) (by decide) (by decide) (by decide) (by decide) (by decide) (by decide)
theorem W7_main_arg2 (c : Dev nD) : W7 m D c (Proc.devRef .tc main_arg2) = m ((c : Thread nD τ).loc main_arg2) :=
  W7_of_untouched m D c main_arg2 (by decide) (by decide) (by decide) (by decide) (by decide) (by decide) (by decide)
theorem W7_main_arg3 (c : Dev nD) : W7 m D c (Proc.devRef .tc main_arg3) = m ((c : Thread nD τ).loc main_arg3) :=
  W7_of_untouched m D c main_arg3 (by decide) (by decide) (by decide) (by decide) (by decide) (by decide) (by decide)
theorem W7_main_arg4 (c : Dev nD) : W7 m D c (Proc.devRef .tc main_arg4) = m ((c : Thread nD τ).loc main_arg4) :=
  W7_of_untouched m D c main_arg4 (by decide) (by decide) (by decide) (by decide) (by decide) (by decide) (by decide)
theorem W7_main_arg5 (c : Dev nD) : W7 m D c (Proc.devRef .tc main_arg5) = m ((c : Thread nD τ).loc main_arg5) :=
  W7_of_untouched m D c main_arg5 (by decide) (by decide) (by decide) (by decide) (by decide) (by decide) (by decide)
theorem W7_main_arg6 (c : Dev nD) : W7 m D c (Proc.devRef .tc main_arg6) = m ((c : Thread nD τ).loc main_arg6) :=
  W7_of_untouched m D c main_arg6 (by decide) (by decide) (by decide) (by decide) (by decide) (by decide) (by decide)
theorem W7_main_arg7 (c : Dev nD) : W7 m D c (Proc.devRef .tc main_arg7) = m ((c : Thread nD τ).loc main_arg7) :=
  W7_of_untouched m D c main_arg7 (by decide) (by decide) (by decide) (by decide) (by decide) (by decide) (by decide)
theorem W7_main_arg8 (c : Dev nD) : W7 m D c (Proc.devRef .tc main_arg8) = m ((c : Thread nD τ).loc main_arg8) :=
  W7_of_untouched m D c main_arg8 (by decide) (by decide) (by decide) (by decide) (by decide) (by decide) (by decide)
theorem W7_main_arg9 (c : Dev nD) : W7 m D c (Proc.devRef .tc main_arg9) = m ((c : Thread nD τ).loc main_arg9) :=
  W7_of_untouched m D c main_arg9 (by decide) (by decide) (by decide) (by decide) (by decide) (by decide) (by decide)
theorem W7_main_arg10 (c : Dev nD) : W7 m D c (Proc.devRef .tc main_arg10) = m ((c : Thread nD τ).loc main_arg10) :=
  W7_of_untouched m D c main_arg10 (by decide) (by decide) (by decide) (by decide) (by decide) (by decide) (by decide)
theorem W7_main_arg11 (c : Dev nD) : W7 m D c (Proc.devRef .tc main_arg11) = m ((c : Thread nD τ).loc main_arg11) :=
  W7_of_untouched m D c main_arg11 (by decide) (by decide) (by decide) (by decide) (by decide) (by decide) (by decide)
theorem W7_main_arg12 (c : Dev nD) : W7 m D c (Proc.devRef .tc main_arg12) = m ((c : Thread nD τ).loc main_arg12) :=
  W7_of_untouched m D c main_arg12 (by decide) (by decide) (by decide) (by decide) (by decide) (by decide) (by decide)
theorem W7_main_arg13 (c : Dev nD) : W7 m D c (Proc.devRef .tc main_arg13) = m ((c : Thread nD τ).loc main_arg13) :=
  W7_of_untouched m D c main_arg13 (by decide) (by decide) (by decide) (by decide) (by decide) (by decide) (by decide)

/-- The result array ends at what the last region's write-backs leave. -/
theorem W7_main_v32 (c : Dev nD) : W7 m D c (Proc.devRef .tc main_v32) = (D.d3 (V6 m D) c).arrAt 10 cfg3.N :=
  W7_arr m D c 10

end Cert.Kernel.Hand

end
-- ==== Proof.K_R0Base.lean ====
/- Region 0 (the message statistics): the column sums and the column sums of squares of the
   4096 x 256 pre-activation block of each of the 64 grid points, accumulated in two 1 x 256 rows that
   the body carries from point to point and copies into the two output rows at the last point.
   This module holds the mathematics of the carried rows: the blocks each point reads, the branch
   conditions in closed form, the rows after each point by recursion on the point, the invariant
   between points and the pipeline's proof data. -/
import proofs.«134035_j84430467104804_1_alg».proof.Proof.Gen.Kernel.Launch
import proofs.«134035_j84430467104804_1_alg».proof.Proof.Gen.Kernel.Skeleton
import proofs.«134035_j84430467104804_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

namespace R0

/-- An input window's current staging buffer holds its block at every point, fetched there or not, for any
    proof data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, in closed form -/

/-- The first conditional's condition (the rows are zeroed), from the grid coordinates. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The second conditional's condition (the rows are copied out), from the grid coordinates. -/
abbrev cond0_1 (i : grid0.Coords) : Prop := k0_cond2 i = 1#1
/-- It holds at the last point only. -/
theorem hcond0_1 : ∀ t : Fin cfg0.N, cond0_1 (grid0.coords t) ↔ t.val = 63 :=
  (by decide +kernel : ∀ t : Fin grid0.N, cond0_1 (grid0.coords t) ↔ t.val = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Before the last point the two output rows are idle and not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- At the last point they are live. -/
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The memrefs the body is called with -/

abbrev ms0_0 (t : Fin cfg0.N) : Memref sig .tc .vmem S4x32x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x32x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
/-- The two carried rows: whole scoped buffers of the kernel's own. -/
abbrev scM0_0 : Memref sig .tc .vmem S1x256 .f32 := Memref.whole cc0_scratch0
abbrev scM0_1 : Memref sig .tc .vmem S1x256 .f32 := Memref.whole cc0_scratch1

/-- The rest of the core's scoped memory, unopened. -/
abbrev rest0 (c : Dev nD) : sProp 𝕄 :=
  Pipeline.scopedRestBut (Ix := Unit) (Name := ℕ) (U := UR sig nD τ) (Lvl := ℕ) (Val := Elt F) spec0 c [cc0_scratch0, cc0_scratch1]

/-- What the launch hands the region, with the two carried rows as memrefs owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ rest0 c) ∗ (∃ r, prngReg c r)) := by
  unfold Pipeline.ΦA; rw [scopedRest0_split]; simp only [scM0_0, scM0_1, owns_whole]; try rfl

end R0

open R0

/-! ## The carried rows after each point -/

/-- The grid point numbered `n` (the first point for a number beyond the grid). -/
def R0.pt0 (n : ℕ) : Fin cfg0.N := if h : n < cfg0.N then ⟨n, h⟩ else ⟨0, lt_of_lt_of_eq (by decide : 0 < 64) N_0.symm⟩

theorem R0.pt0_eq (n : ℕ) (h : n < cfg0.N) : R0.pt0 n = ⟨n, h⟩ := dif_pos h

/-- One point's step of the two rows `s`: the first row takes the column sums of the point's block, the second
    the column sums of its squares, each added to what the row held. -/
def R0.step0 (c : Dev nD) (t : Fin cfg0.N) (s : Vec F S1x256 .f32 × Vec F S1x256 .f32) : Vec F S1x256 .f32 × Vec F S1x256 .f32 :=
  (k0_pay5 (iblk0 V c 0 t) (iblk0 V c 1 t) (iblk0 V c 2 t) (iblk0 V c 3 t) s.1,
   k0_pay1 s.2 (k0_pay6 (iblk0 V c 0 t) (iblk0 V c 1 t) (iblk0 V c 2 t) (iblk0 V c 3 t)))

/-- What the two carried rows hold after the body at point `n`: zeroed at the first point, then one step per point. -/
def acc0 (c : Dev nD) : ℕ → Vec F S1x256 .f32 × Vec F S1x256 .f32
  | 0 => R0.step0 V c (R0.pt0 0) (k0_pay2, k0_pay3)
  | n + 1 => R0.step0 V c (R0.pt0 (n + 1)) (acc0 c n)

theorem acc0_zero (c : Dev nD) (h0 : 0 < cfg0.N) :
    acc0 V c 0 = (k0_pay5 (iblk0 V c 0 ⟨0, h0⟩) (iblk0 V c 1 ⟨0, h0⟩) (iblk0 V c 2 ⟨0, h0⟩) (iblk0 V c 3 ⟨0, h0⟩) k0_pay2,
      k0_pay1 k0_pay3 (k0_pay6 (iblk0 V c 0 ⟨0, h0⟩) (iblk0 V c 1 ⟨0, h0⟩) (iblk0 V c 2 ⟨0, h0⟩) (iblk0 V c 3 ⟨0, h0⟩))) := by
  show R0.step0 V c (R0.pt0 0) _ = _
  rw [R0.pt0_eq 0 h0]; rfl

theorem acc0_succ (c : Dev nD) (n : ℕ) (hn : n + 1 < cfg0.N) :
    acc0 V c (n + 1) = (k0_pay5 (iblk0 V c 0 ⟨n + 1, hn⟩) (iblk0 V c 1 ⟨n + 1, hn⟩) (iblk0 V c 2 ⟨n + 1, hn⟩) (iblk0 V c 3 ⟨n + 1, hn⟩) (acc0 V c n).1,
      k0_pay1 (acc0 V c n).2 (k0_pay6 (iblk0 V c 0 ⟨n + 1, hn⟩) (iblk0 V c 1 ⟨n + 1, hn⟩) (iblk0 V c 2 ⟨n + 1, hn⟩) (iblk0 V c 3 ⟨n + 1, hn⟩))) := by
  show R0.step0 V c (R0.pt0 (n + 1)) _ = _
  rw [R0.pt0_eq (n + 1) hn]; rfl

/-- At a point `t`: the first point's rows, or one step from the rows of the point before. -/
theorem R0.acc0_at_zero (c : Dev nD) (t : Fin cfg0.N) (hz : t.val = 0) :
    acc0 V c t.val = R0.step0 V c t (k0_pay2, k0_pay3) := by
  obtain ⟨n, hn⟩ := t
  obtain rfl : n = 0 := hz
  show R0.step0 V c (R0.pt0 0) _ = _
  rw [R0.pt0_eq 0 hn]

theorem R0.acc0_at_pos (c : Dev nD) (t : Fin cfg0.N) (hz : t.val ≠ 0) :
    acc0 V c t.val = R0.step0 V c t (acc0 V c (t.val - 1)) := by
  obtain ⟨n, hn⟩ := t
  cases n with
  | zero => exact absurd rfl hz
  | succ n =>
    show R0.step0 V c (R0.pt0 (n + 1)) _ = _
    rw [R0.pt0_eq (n + 1) hn]; rfl

/-! ## The invariant between points -/

/-- Before point `n`: at the first point what the launch hands the region; afterwards the two carried rows at what
    the point before left, the rest of the scoped memory unopened, the generator register at some state. -/
def R0.PhiS (c : Dev nD) : ℕ → sProp 𝕄
  | 0 => Pipeline.ΦA spec0 c
  | n + 1 => iprop(iprop(iprop(owns (c : Thread nD τ) scM0_0 fullShare (acc0 V c n).1 ∗ owns (c : Thread nD τ) scM0_1 fullShare (acc0 V c n).2) ∗ rest0 c) ∗ (∃ r, prngReg c r))

theorem R0.PhiS_zero (c : Dev nD) (n : ℕ) (hz : n = 0) : R0.PhiS V c n = Pipeline.ΦA spec0 c := by
  subst hz; rfl

theorem R0.PhiS_succ (c : Dev nD) (n : ℕ) :
    R0.PhiS V c (n + 1) = iprop(iprop(iprop(owns (c : Thread nD τ) scM0_0 fullShare (acc0 V c n).1 ∗ owns (c : Thread nD τ) scM0_1 fullShare (acc0 V c n).2) ∗ rest0 c) ∗ (∃ r, prngReg c r)) := rfl

theorem R0.PhiS_pos (c : Dev nD) (n : ℕ) (hz : n ≠ 0) :
    R0.PhiS V c n = iprop(iprop(iprop(owns (c : Thread nD τ) scM0_0 fullShare (acc0 V c (n - 1)).1 ∗ owns (c : Thread nD τ) scM0_1 fullShare (acc0 V c (n - 1)).2) ∗ rest0 c) ∗ (∃ r, prngReg c r)) := by
  cases n with
  | zero => exact absurd rfl hz
  | succ n => rfl

/-! ## The pipeline's proof data -/

/-- The proof data of the pipeline on core `c`: the arrays as the region finds them; after the body at point `t`
    each input's buffer at its block, the two output rows at the carried rows (read at the last point only); the
    invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (acc0 V c t.val).1
    | ⟨5, _⟩ => (acc0 V c t.val).2
  Φ t := R0.PhiS V c t.val
  q _ := fullShare
  owed _ := 0

theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := rfl
theorem owed_eq0 (c : Dev nD) (t : Fin (cfg0.N + 1)) : (dat0 V c).owed t = 0 := rfl
theorem rec_eq0 (c : Dev nD) (t : Fin (cfg0.N + 1)) : (dat0 V c).recorded t = Set.univ := rfl

namespace R0

theorem PhiS_castSucc (c : Dev nD) (t : Fin cfg0.N) : (dat0 V c).Φ t.castSucc = PhiS V c t.val := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (acc0 V c t.val).1 := by dsimp only [dat0]
theorem after0_5 (c : Dev nD) (t : Fin cfg0.N) : (dat0 V c).after 5 t = (acc0 V c t.val).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

end R0

/-! ## The invariant at the region's ends -/

/-- What the launch hands the region is the invariant before the first point. -/
theorem hin0 (c : Dev nD) : (Pipeline.ΦA spec0 c : sProp 𝕄) ⊢ (dat0 V c).Φ 0 := by
  rw [show (dat0 V c).Φ 0 = R0.PhiS V c 0 from rfl, R0.PhiS_zero V c 0 rfl]
  try exact Idealize.SL.BI.Entails.refl _

/-- After any point the invariant gives it back: the carried rows' named contents are forgotten. -/
theorem R0.Phi_out (c : Dev nD) (t : Fin (cfg0.N + 1)) (ht : t.val ≠ 0) : (dat0 V c).Φ t ⊢ (Pipeline.ΦA spec0 c : sProp 𝕄) := by
  rw [show (dat0 V c).Φ t = R0.PhiS V c t.val from rfl, R0.PhiS_pos V c _ ht, R0.PhiA0_eq]
  iintro ⟨⟨⟨HS0, HS1⟩, Hr⟩, Hg⟩
  isplitl [HS0 HS1 Hr]
  · isplitl [HS0 HS1]
    · isplitl [HS0]
      · iexists _; iexact HS0
      · iexists _; iexact HS1
    · iexact Hr
  iexact Hg

theorem hout0 (c : Dev nD) : (dat0 V c).Φ (Fin.last cfg0.N) ⊢ (Pipeline.ΦA spec0 c : sProp 𝕄) :=
  R0.Phi_out V c _ (by rw [Fin.val_last]; have : cfg0.N = 64 := N_0; omega)

end Cert.Kernel.Hand

end
-- ==== Proof.K_R0Run.lean ====
/- Region 0, the body on whole memrefs, in each of its three control cases. At the first grid point
   the two carried rows are zeroed before the step; at every point they take the point's column sums
   and column sums of squares on top of what they held; at the last point they are copied into the two
   output rows. First the two facts every case reads its stores and loads back with: a store
   through the whole rectangle leaves its payload, a load through it reads the contents. -/
import proofs.«134035_j84430467104804_1_alg».proof.Proof.K_R0Base
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

open R0

namespace R0

/-- What any view reads after a last store through the whole rectangle at zero offsets: that store's payload. -/
theorem read_writes_cons_unit {sh : Shape} {e : EltTy} (v : View sig .tc .vmem sh e) (f : v.ty.Contents (Elt F))
    {off : Fin sh.rank → Nat} (hz : off = fun _ => 0) (inb : ∀ a, off a + sh.size a ≤ sh.size a)
    (w : sh.Idx → Elt F e) (L : List (View.Piece (Elt F) sh e)) :
    v.read (Elt F) (v.writes (Elt F) f ((⟨Rect.unit off sh.size inb, w⟩ : View.Piece (Elt F) sh e) :: L)) = w := by
  rw [View.read_writes_eq_canon _ _ _ (fun y => ⟨_, List.mem_cons_self, View.mem_set_unit_zero hz inb y⟩),
    View.canon_cons_unit_zero hz]

/-- A load of a whole memref through the whole rectangle at zero offsets reads its contents. -/
theorem readAt_unit {sh : Shape} {e : EltTy} (m : Memref sig .tc .vmem sh e) (h : m.IsWhole) (x : sh.Idx → Elt F e)
    {off : Fin sh.rank → Nat} (hz : off = fun _ => 0) (inb : ∀ a, off a + sh.size a ≤ sh.size a) :
    m.view.readAt (Elt F) (Rect.unit off sh.size inb).toLoadRect (h.unread x) = x := by
  rw [View.readAt_eq_ld, h.read_unread, View.ld_unit_zero hz]

theorem hz2 : (![0, 0] : Fin 2 → Nat) = fun _ => 0 := by funext a; fin_cases a <;> rfl
theorem hz3 : (![0, 0, 0] : Fin 3 → Nat) = fun _ => 0 := by funext a; fin_cases a <;> rfl

end R0

set_option maxHeartbeats 1000000 in
/-- The body at the first point, on whole memrefs: the inputs at their blocks, the two output rows at anything
    (handed back untouched), the carried rows at anything. It zeroes the carried rows and takes one step. -/
theorem R0.kernelRun0_A (c : Dev nD) (i : grid0.Coords) (arg1 : Memref sig .tc .vmem S4x32x128 .f32) (harg1 : arg1.IsWhole) (arg2 : Memref sig .tc .vmem S4x32x32 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : cond0_0 i) (hc1 : ¬cond0_1 i)
    (x0 : Vec F S4x32x128 .f32) (x1 : Vec F S4x32x32 .f32) (x2 : Vec F S256x256 .bf16) (x3 : Vec F S1x256 .f32)
    (xi4 xi5 : Vec F S1x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare xi4 ∗ owns (c : Thread nD τ) arg6 fullShare xi5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xi4 ∗ owns (c : Thread nD τ) arg6 fullShare xi5
            ∗ owns (c : Thread nD τ) arg7 fullShare (k0_pay5 x0 x1 x2 x3 k0_pay2) ∗ owns (c : Thread nD τ) arg8 fullShare (k0_pay1 k0_pay3 (k0_pay6 x0 x1 x2 x3))) -∗ K ⟨⟩))
      ⊢ wp frame (wpE (defs₀ (F := F)) Variants.none c none) E (cc0__msg_stats_kernel i arg1 harg1 arg2 harg2 arg3 harg3 arg4 harg4 arg5 harg5 arg6 harg6 arg7 harg7 arg8 harg8) K := by
  simp only [cc0__msg_stats_kernel_eq_skeleton]; unfold cc0__msg_stats_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    sl_unfold_words
    simp only [read_writes_cons_unit (sh := S1x256) _ _ hz2, View.readCov_unit_zero (S := S1x256) _ hz2, readAt_unit (sh := S1x256) _ _ _ hz2, readAt_unit (sh := S256x256) _ _ _ hz2, readAt_unit (sh := S4x32x128) _ _ _ hz3, readAt_unit (sh := S4x32x32) _ _ _ hz3]
  iexists _; isplitr
  swap; · iexact H7
  ipureintro
  sl_unfold_words
  simp only [read_writes_cons_unit (sh := S1x256) _ _ hz2, View.readCov_unit_zero (S := S1x256) _ hz2, readAt_unit (sh := S1x256) _ _ _ hz2, readAt_unit (sh := S256x256) _ _ _ hz2, readAt_unit (sh := S4x32x128) _ _ _ hz3, readAt_unit (sh := S4x32x32) _ _ _ hz3]

set_option maxHeartbeats 1000000 in
/-- The body at a point that is neither the first nor the last, on whole memrefs: the inputs at their blocks, the
    two output rows at anything (handed back untouched), the carried rows at `s0`, `s1`. It leaves the inputs and
    the output rows as they were and the carried rows one step further. -/
theorem R0.kernelRun0_B (c : Dev nD) (i : grid0.Coords) (arg1 : Memref sig .tc .vmem S4x32x128 .f32) (harg1 : arg1.IsWhole) (arg2 : Memref sig .tc .vmem S4x32x32 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : ¬cond0_1 i)
    (x0 : Vec F S4x32x128 .f32) (x1 : Vec F S4x32x32 .f32) (x2 : Vec F S256x256 .bf16) (x3 : Vec F S1x256 .f32)
    (s0 s1 xi4 xi5 : Vec F S1x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare xi4 ∗ owns (c : Thread nD τ) arg6 fullShare xi5
        ∗ owns (c : Thread nD τ) arg7 fullShare s0 ∗ owns (c : Thread nD τ) arg8 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xi4 ∗ owns (c : Thread nD τ) arg6 fullShare xi5
            ∗ owns (c : Thread nD τ) arg7 fullShare (k0_pay5 x0 x1 x2 x3 s0) ∗ owns (c : Thread nD τ) arg8 fullShare (k0_pay1 s1 (k0_pay6 x0 x1 x2 x3))) -∗ K ⟨⟩))
      ⊢ wp frame (wpE (defs₀ (F := F)) Variants.none c none) E (cc0__msg_stats_kernel i arg1 harg1 arg2 harg2 arg3 harg3 arg4 harg4 arg5 harg5 arg6 harg6 arg7 harg7 arg8 harg8) K := by
  simp only [cc0__msg_stats_kernel_eq_skeleton]; unfold cc0__msg_stats_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    sl_unfold_words
    simp only [read_writes_cons_unit (sh := S1x256) _ _ hz2, View.readCov_unit_zero (S := S1x256) _ hz2, readAt_unit (sh := S1x256) _ _ _ hz2, readAt_unit (sh := S256x256) _ _ _ hz2, readAt_unit (sh := S4x32x128) _ _ _ hz3, readAt_unit (sh := S4x32x32) _ _ _ hz3]
  iexists _; isplitr
  swap; · iexact H7
  ipureintro
  sl_unfold_words
  simp only [read_writes_cons_unit (sh := S1x256) _ _ hz2, View.readCov_unit_zero (S := S1x256) _ hz2, readAt_unit (sh := S1x256) _ _ _ hz2, readAt_unit (sh := S256x256) _ _ _ hz2, readAt_unit (sh := S4x32x128) _ _ _ hz3, readAt_unit (sh := S4x32x32) _ _ _ hz3]

set_option maxHeartbeats 1000000 in
/-- The body at the last point, on whole memrefs: the inputs at their blocks, the two output rows at anything,
    the carried rows at `s0`, `s1`. It takes one step and copies the carried rows into the output rows. -/
theorem R0.kernelRun0_C (c : Dev nD) (i : grid0.Coords) (arg1 : Memref sig .tc .vmem S4x32x128 .f32) (harg1 : arg1.IsWhole) (arg2 : Memref sig .tc .vmem S4x32x32 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : cond0_1 i)
    (x0 : Vec F S4x32x128 .f32) (x1 : Vec F S4x32x32 .f32) (x2 : Vec F S256x256 .bf16) (x3 : Vec F S1x256 .f32)
    (s0 s1 : Vec F S1x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ owns (c : Thread nD τ) arg7 fullShare s0 ∗ owns (c : Thread nD τ) arg8 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k0_pay5 x0 x1 x2 x3 s0) ∗ owns (c : Thread nD τ) arg6 fullShare (k0_pay1 s1 (k0_pay6 x0 x1 x2 x3))
            ∗ owns (c : Thread nD τ) arg7 fullShare (k0_pay5 x0 x1 x2 x3 s0) ∗ owns (c : Thread nD τ) arg8 fullShare (k0_pay1 s1 (k0_pay6 x0 x1 x2 x3))) -∗ K ⟨⟩))
      ⊢ wp frame (wpE (defs₀ (F := F)) Variants.none c none) E (cc0__msg_stats_kernel i arg1 harg1 arg2 harg2 arg3 harg3 arg4 harg4 arg5 harg5 arg6 harg6 arg7 harg7 arg8 harg8) K := by
  simp only [cc0__msg_stats_kernel_eq_skeleton]; unfold cc0__msg_stats_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
  obtain rfl := harg1.eq_unread hf0; obtain rfl := harg2.eq_unread hf1; obtain rfl := harg3.eq_unread hf2; obtain rfl := harg4.eq_unread hf3
  obtain rfl := harg7.eq_unread hf6; obtain rfl := harg8.eq_unread hf7
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    sl_unfold_words
    simp only [read_writes_cons_unit (sh := S1x256) _ _ hz2, View.readCov_unit_zero (S := S1x256) _ hz2, readAt_unit (sh := S1x256) _ _ _ hz2, readAt_unit (sh := S256x256) _ _ _ hz2, readAt_unit (sh := S4x32x128) _ _ _ hz3, readAt_unit (sh := S4x32x32) _ _ _ hz3]
  isplitl [H5]
  · iexists _; isplitr
    swap; · iexact H5
    ipureintro
    sl_unfold_words
    simp only [read_writes_cons_unit (sh := S1x256) _ _ hz2, View.readCov_unit_zero (S := S1x256) _ hz2, readAt_unit (sh := S1x256) _ _ _ hz2, readAt_unit (sh := S256x256) _ _ _ hz2, readAt_unit (sh := S4x32x128) _ _ _ hz3, readAt_unit (sh := S4x32x32) _ _ _ hz3]
  isplitl [H6]
  · iexists _; isplitr
    swap; · iexact H6
    ipureintro
    sl_unfold_words
    simp only [read_writes_cons_unit (sh := S1x256) _ _ hz2, View.readCov_unit_zero (S := S1x256) _ hz2, readAt_unit (sh := S1x256) _ _ _ hz2, readAt_unit (sh := S256x256) _ _ _ hz2, readAt_unit (sh := S4x32x128) _ _ _ hz3, readAt_unit (sh := S4x32x32) _ _ _ hz3]
  iexists _; isplitr
  swap; · iexact H7
  ipureintro
  sl_unfold_words
  simp only [read_writes_cons_unit (sh := S1x256) _ _ hz2, View.readCov_unit_zero (S := S1x256) _ hz2, readAt_unit (sh := S1x256) _ _ _ hz2, readAt_unit (sh := S256x256) _ _ _ hz2, readAt_unit (sh := S4x32x128) _ _ _ hz3, readAt_unit (sh := S4x32x32) _ _ _ hz3]

end Cert.Kernel.Hand

end
-- ==== Proof.K_R0.lean ====
/- Region 0 (the message statistics), the interface: the body obligation of the pipeline's proof data
   (the body at every grid point keeps the invariant of the two carried rows), and what the region's
   arrays hold after it: the two output rows at the carried rows after the last point, the inputs as
   the region found them. -/
import proofs.«134035_j84430467104804_1_alg».proof.Proof.K_R0Run
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

open R0

/-! ## The body obligation -/

namespace R0

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 4800000 in
/-- The body at any point. The inputs' memrefs hold their blocks; the closed forms say whether the point is the
    first, the last or neither, and that case's run applies: the invariant hands the body the carried rows at what
    the point before left (at anything at the first point) and takes them back one step further, which is this
    point's rows; before the last point the output rows go back as they came, at the last they take the carried rows. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3]
  rw [show (dat0 V c).owesAt () t.succ = (dat0 V c).owesAt () t.castSucc from rfl]
  rw [show (dat0 V c).Φ t.succ = PhiS V c (t.val + 1) from rfl, PhiS_succ]
  have hN : t.val < 64 := lt_of_lt_of_eq t.isLt (show cfg0.N = 64 from N_0)
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  rw [show (dat0 V c).leavesExact 3 t = owns (c : Thread nD τ) (ms0_3 t) fullShare ((dat0 V c).after 3 t) from by
      unfold Dat.leavesExact; rw [liveAt0_3 t], after0_3]
  by_cases h1 : t.val = 63
  · have h0 : ¬t.val = 0 := by omega
    have hc0 : ¬cond0_0 (grid0.coords t) := fun h => h0 ((hcond0_0 t).mp h)
    have hc1 : cond0_1 (grid0.coords t) := (hcond0_1 t).mpr h1
    rw [show (dat0 V c).leavesExact 4 t = owns (c : Thread nD τ) (ms0_4 t) fullShare ((dat0 V c).after 4 t) from by
        unfold Dat.leavesExact; rw [liveAt0_4 t hc1], after0_4]
    rw [show (dat0 V c).leavesExact 5 t = owns (c : Thread nD τ) (ms0_5 t) fullShare ((dat0 V c).after 5 t) from by
        unfold Dat.leavesExact; rw [liveAt0_5 t hc1], after0_5]
    rw [acc0_at_pos V c t h0]
    unfold step0; (try dsimp only)
    rw [PhiS_castSucc V c t, PhiS_pos V c _ h0]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩⟩
    iapply (kernelRun0_C c (grid0.coords t) _ _ _ _ _ _ _ _ _ _ _ _ _ _ _ _ hc0 hc1 (iblk0 V c 0 t) (iblk0 V c 1 t) (iblk0 V c 2 t) (iblk0 V c 3 t) (acc0 V c (t.val - 1)).1 (acc0 V c (t.val - 1)).2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    isplitl [H3]; · iexact H3
    isplitl [H4]; · iexact H4
    iexact H5
  · have hc1 : ¬cond0_1 (grid0.coords t) := fun h => h1 ((hcond0_1 t).mp h)
    rw [Dat.leavesExact_idle (dat0 V c) 4 t (idleAt0_4 t hc1) (noFlush0_4 t hc1)]
    rw [Dat.leavesExact_idle (dat0 V c) 5 t (idleAt0_5 t hc1) (noFlush0_5 t hc1)]
    by_cases h0 : t.val = 0
    · have hc0 : cond0_0 (grid0.coords t) := (hcond0_0 t).mpr h0
      rw [acc0_at_zero V c t h0]
      unfold step0; (try dsimp only)
      rw [PhiS_castSucc V c t, PhiS_zero V c _ h0, PhiA0_eq]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩⟩
      iapply (kernelRun0_A c (grid0.coords t) _ _ _ _ _ _ _ _ _ _ _ _ _ _ _ _ hc0 hc1 (iblk0 V c 0 t) (iblk0 V c 1 t) (iblk0 V c 2 t) (iblk0 V c 3 t) _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · have hc0 : ¬cond0_0 (grid0.coords t) := fun h => h0 ((hcond0_0 t).mp h)
      rw [acc0_at_pos V c t h0]
      unfold step0; (try dsimp only)
      rw [PhiS_castSucc V c t, PhiS_pos V c _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩⟩
      iapply (kernelRun0_B c (grid0.coords t) _ _ _ _ _ _ _ _ _ _ _ _ _ _ _ _ hc0 hc1 (iblk0 V c 0 t) (iblk0 V c 1 t) (iblk0 V c 2 t) (iblk0 V c 3 t) (acc0 V c (t.val - 1)).1 (acc0 V c (t.val - 1)).2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

end R0

/-- The library's body obligation, at every point. -/
theorem body_obligation0 (c : Dev nD) : BodyObligation (dat0 (F := F) V c) (defs₀ (F := F)) Variants.none () Set.univ := fun t => by
  rw [bigSep_W0, bigSep_W0]
  exact R0.sound_body V c t

/-! ## The arrays after the region -/

/-- The last grid point. -/
def R0.tLast : Fin cfg0.N := ⟨63, lt_of_lt_of_eq (by decide : 63 < 64) N_0.symm⟩

/-- The one write-back of the first output row, at the last point, writes the first carried row: the row's one block,
    read through zero offsets, is the array. -/
theorem R0.flushed0_4 (c : Dev nD) (t : Fin cfg0.N) (hf : (cfg0.win 4).flush t = true) :
    (dat0 V c).flushed 4 t = ((cfg0.win 4).blk t).view.read (Elt F) ((acc0 V c 63).1 : Buf (Elt F) ((c : Thread nD τ).loc main_v17_0)) := by
  have hN : cfg0.N = 64 := N_0
  have h63 : t.val = 63 := by have := (flush0_4 t).mp hf; have := t.isLt; omega
  obtain rfl : t = R0.tLast := Fin.ext h63
  show (cfg0.win 4).cut (grid0.coords R0.tLast) ((dat0 V c).after 4 R0.tLast) = _
  rw [R0.after0_4]
  have hz' : (fun a => win0_4.index R0.tLast a * main_v17_0.ty.shape.size a) = fun _ => 0 := funext fun a => by fin_cases a <;> decide
  exact (Memref.read_access_unit_zero (Elt F) main_v17_0 hz' (fun a => by rw [congrFun hz' a]; simp) ((acc0 V c 63).1 : Buf (Elt F) ((c : Thread nD τ).loc main_v17_0))).symm

theorem R0.flushed0_5 (c : Dev nD) (t : Fin cfg0.N) (hf : (cfg0.win 5).flush t = true) :
    (dat0 V c).flushed 5 t = ((cfg0.win 5).blk t).view.read (Elt F) ((acc0 V c 63).2 : Buf (Elt F) ((c : Thread nD τ).loc main_v17_1)) := by
  have hN : cfg0.N = 64 := N_0
  have h63 : t.val = 63 := by have := (flush0_5 t).mp hf; have := t.isLt; omega
  obtain rfl : t = R0.tLast := Fin.ext h63
  show (cfg0.win 5).cut (grid0.coords R0.tLast) ((dat0 V c).after 5 R0.tLast) = _
  rw [R0.after0_5]
  have hz' : (fun a => win0_5.index R0.tLast a * main_v17_1.ty.shape.size a) = fun _ => 0 := funext fun a => by fin_cases a <;> decide
  exact (Memref.read_access_unit_zero (Elt F) main_v17_1 hz' (fun a => by rw [congrFun hz' a]; simp) ((acc0 V c 63).2 : Buf (Elt F) ((c : Thread nD τ).loc main_v17_1))).symm

/-- After the region the first output row holds the first carried row after the last point (the column sums). -/
theorem arrAt0_4 (c : Dev nD) : (dat0 V c).arrAt 4 cfg0.N = ((acc0 V c 63).1 : Buf (Elt F) ((c : Thread nD τ).loc main_v17_0)) :=
  (dat0 V c).arrAt_eq_of_cover 4 _ (R0.flushed0_4 V c) fun i =>
    ⟨R0.tLast, (flush0_4 R0.tLast).mpr rfl, by
      show i ∈ ((View.whole main_v17_0).slice (win0_4.rect R0.tLast)).set
      rw [View.set_slice_whole, Rect.mem_set_unit]
      intro a
      have h0 : (i 0 : Nat) < 1 := (i 0).isLt
      have h1 : (i 1 : Nat) < 256 := (i 1).isLt
      match a with
      | ⟨0, _⟩ => show win0_4.index R0.tLast 0 * win0_4.size 0 ≤ (i 0 : Nat) ∧ (i 0 : Nat) < win0_4.index R0.tLast 0 * win0_4.size 0 + win0_4.xsize (grid0.coords R0.tLast) 0
                  rw [show win0_4.index R0.tLast 0 * win0_4.size 0 = 0 from by decide +kernel, show win0_4.xsize (grid0.coords R0.tLast) 0 = 1 from by decide +kernel]; omega
      | ⟨1, _⟩ => show win0_4.index R0.tLast 1 * win0_4.size 1 ≤ (i 1 : Nat) ∧ (i 1 : Nat) < win0_4.index R0.tLast 1 * win0_4.size 1 + win0_4.xsize (grid0.coords R0.tLast) 1
                  rw [show win0_4.index R0.tLast 1 * win0_4.size 1 = 0 from by decide +kernel, show win0_4.xsize (grid0.coords R0.tLast) 1 = 256 from by decide +kernel]; omega⟩

/-- After the region the second output row holds the second carried row after the last point (the column sums of squares). -/
theorem arrAt0_5 (c : Dev nD) : (dat0 V c).arrAt 5 cfg0.N = ((acc0 V c 63).2 : Buf (Elt F) ((c : Thread nD τ).loc main_v17_1)) :=
  (dat0 V c).arrAt_eq_of_cover 5 _ (R0.flushed0_5 V c) fun i =>
    ⟨R0.tLast, (flush0_5 R0.tLast).mpr rfl, by
      show i ∈ ((View.whole main_v17_1).slice (win0_5.rect R0.tLast)).set
      rw [View.set_slice_whole, Rect.mem_set_unit]
      intro a
      have h0 : (i 0 : Nat) < 1 := (i 0).isLt
      have h1 : (i 1 : Nat) < 256 := (i 1).isLt
      match a with
      | ⟨0, _⟩ => show win0_5.index R0.tLast 0 * win0_5.size 0 ≤ (i 0 : Nat) ∧ (i 0 : Nat) < win0_5.index R0.tLast 0 * win0_5.size 0 + win0_5.xsize (grid0.coords R0.tLast) 0
                  rw [show win0_5.index R0.tLast 0 * win0_5.size 0 = 0 from by decide +kernel, show win0_5.xsize (grid0.coords R0.tLast) 0 = 1 from by decide +kernel]; omega
      | ⟨1, _⟩ => show win0_5.index R0.tLast 1 * win0_5.size 1 ≤ (i 1 : Nat) ∧ (i 1 : Nat) < win0_5.index R0.tLast 1 * win0_5.size 1 + win0_5.xsize (grid0.coords R0.tLast) 1
                  rw [show win0_5.index R0.tLast 1 * win0_5.size 1 = 0 from by decide +kernel, show win0_5.xsize (grid0.coords R0.tLast) 1 = 256 from by decide +kernel]; omega⟩

/-- The region writes no input array. -/
theorem arrAt0_in (c : Dev nD) (w : Fin cfg0.W) (hw : w.val < 4) : (dat0 V c).arrAt w cfg0.N = V c (Pipeline.arrRef spec0 w) :=
  match w, hw with
  | ⟨0, _⟩, _ => ((dat0 V c).arrAt_in 0 rfl _).trans (A_eq0 V c 0)
  | ⟨1, _⟩, _ => ((dat0 V c).arrAt_in 1 rfl _).trans (A_eq0 V c 1)
  | ⟨2, _⟩, _ => ((dat0 V c).arrAt_in 2 rfl _).trans (A_eq0 V c 2)
  | ⟨3, _⟩, _ => ((dat0 V c).arrAt_in 3 rfl _).trans (A_eq0 V c 3)
  | ⟨n + 4, h⟩, hw => absurd hw (by simp)

end Cert.Kernel.Hand

end
-- ==== Proof.K_R1.lean ====
/- The second message pass on one block of four batch entries: from the state block, the edge block, the
   first weight matrix with its bias, the batch statistics (mean, variance) and the affine rows, the
   second weight matrix and its bias, the body writes the aggregated messages of the block. This module
   holds the region's proof data — what each staging buffer holds after the body at every grid point,
   as the named payloads of the loads — the body's triple, and the obligation the pipeline asks of it. -/
import proofs.«134035_j84430467104804_1_alg».proof.Proof.Gen.Kernel.Launch
import proofs.«134035_j84430467104804_1_alg».proof.Proof.Gen.Kernel.Skeleton
import proofs.«134035_j84430467104804_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents when the region is entered: every statement below is at this parameter
variable (V : (c : Dev nD) → (b : Ref sig .tc) → Buf (Elt F) ((c : Thread nD τ).loc b))

/-! ## The windows' blocks -/

/-- Window `w`'s block at grid point `t`: the window's rectangle of its array, read off the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

namespace Cc

/-- The whole rectangle of each window's block: every load and the one store of the body go through these. -/
abbrev rect1_0 : Rect S4x32x128 := Rect.unit (s := S4x32x128) ![0, 0, 0] S4x32x128.size inb_S4x32x128_S4x32x128_0_0_0
abbrev rect1_1 : Rect S4x32x32 := Rect.unit (s := S4x32x32) ![0, 0, 0] S4x32x32.size inb_S4x32x32_S4x32x32_0_0_0
abbrev rect1_2 : Rect S256x256 := Rect.unit (s := S256x256) ![0, 0] S256x256.size inb_S256x256_S256x256_0_0
abbrev rect1_3 : Rect S1x256 := Rect.unit (s := S1x256) ![0, 0] S1x256.size inb_S1x256_S1x256_0_0
abbrev rect1_4 : Rect S1x256 := Rect.unit (s := S1x256) ![0, 0] S1x256.size inb_S1x256_S1x256_0_0
abbrev rect1_5 : Rect S1x256 := Rect.unit (s := S1x256) ![0, 0] S1x256.size inb_S1x256_S1x256_0_0
abbrev rect1_6 : Rect S1x256 := Rect.unit (s := S1x256) ![0, 0] S1x256.size inb_S1x256_S1x256_0_0
abbrev rect1_7 : Rect S1x256 := Rect.unit (s := S1x256) ![0, 0] S1x256.size inb_S1x256_S1x256_0_0
abbrev rect1_8 : Rect S256x128 := Rect.unit (s := S256x128) ![0, 0] S256x128.size inb_S256x128_S256x128_0_0
abbrev rect1_9 : Rect S1x128 := Rect.unit (s := S1x128) ![0, 0] S1x128.size inb_S1x128_S1x128_0_0
abbrev rect1_10 : Rect S4x32x128 := Rect.unit (s := S4x32x128) ![0, 0, 0] S4x32x128.size inb_S4x32x128_S4x32x128_0_0_0

/-- The windows 0..9 are inputs. -/
theorem isIn1 : ∀ (w : Fin cfg1.W), w.val < 10 → (cfg1.win w).isOut = false
  | ⟨0, _⟩, _ => rfl
  | ⟨1, _⟩, _ => rfl
  | ⟨2, _⟩, _ => rfl
  | ⟨3, _⟩, _ => rfl
  | ⟨4, _⟩, _ => rfl
  | ⟨5, _⟩, _ => rfl
  | ⟨6, _⟩, _ => rfl
  | ⟨7, _⟩, _ => rfl
  | ⟨8, _⟩, _ => rfl
  | ⟨9, _⟩, _ => rfl
  | ⟨n + 10, _⟩, h => absurd h (by simp)

/-- The offsets of every rectangle are zero. -/
theorem zero2_1 : (![0, 0] : Fin 2 → Nat) = fun _ => 0 := funext fun a => by fin_cases a <;> rfl
theorem zero3_1 : (![0, 0, 0] : Fin 3 → Nat) = fun _ => 0 := funext fun a => by fin_cases a <;> rfl

end Cc

/-! ## What the body leaves in the output block -/

/-- The output block after the body, from the ten input blocks: the one store, whose value is the second
    payload (the normalised, scaled messages) fed with the rest of the rows to the first (shift, leaky
    rectifier, second matrix product, sum over the neighbour axis). -/
def out1_10 (x0 : Vec F S4x32x128 .f32) (x1 : Vec F S4x32x32 .f32) (x2 : Vec F S256x256 .bf16) (x3 : Vec F S1x256 .f32) (x4 : Vec F S1x256 .f32) (x5 : Vec F S1x256 .f32) (x6 : Vec F S1x256 .f32) (x7 : Vec F S1x256 .f32) (x8 : Vec F S256x128 .bf16) (x9 : Vec F S1x128 .f32) : Vec F S4x32x128 .f32 :=
  View.canon [⟨Cc.rect1_10, k1_pay1 (k1_pay2 (View.ld x0 Cc.rect1_0) (View.ld x1 Cc.rect1_1) (View.ld x2 Cc.rect1_2) (View.ld x3 Cc.rect1_3) (View.ld x5 Cc.rect1_5) (View.ld x4 Cc.rect1_4) (View.ld x6 Cc.rect1_6)) (View.ld x7 Cc.rect1_7) (View.ld x8 Cc.rect1_8) (View.ld x9 Cc.rect1_9)⟩]

/-- The one store covers the block. -/
theorem Cc.cover1_10 (p0 : Vec F S4x32x128 .f32) (y : S4x32x128.Idx) :
    ∃ pc ∈ ([⟨Cc.rect1_10, p0⟩] : List (View.Piece (Elt F) S4x32x128 .f32)), y ∈ pc.1.set :=
  View.cover_of_tiled [⟨Cc.rect1_10, p0⟩] S4x32x128.size (by rfl) y

/-- A store through the whole rectangle leaves its value, and a load through the whole rectangle of a block is
    the block: the output block is the payloads applied to the input blocks themselves. -/
theorem out1_10_eq (x0 : Vec F S4x32x128 .f32) (x1 : Vec F S4x32x32 .f32) (x2 : Vec F S256x256 .bf16) (x3 : Vec F S1x256 .f32) (x4 : Vec F S1x256 .f32) (x5 : Vec F S1x256 .f32) (x6 : Vec F S1x256 .f32) (x7 : Vec F S1x256 .f32) (x8 : Vec F S256x128 .bf16) (x9 : Vec F S1x128 .f32) :
    out1_10 x0 x1 x2 x3 x4 x5 x6 x7 x8 x9 = k1_pay1 (k1_pay2 x0 x1 x2 x3 x5 x4 x6) x7 x8 x9 := by
  unfold out1_10
  rw [View.canon_unit_zero Cc.zero3_1]
  simp only [View.ld_unit_zero (S := S4x32x128) Cc.zero3_1, View.ld_unit_zero (S := S4x32x32) Cc.zero3_1, View.ld_unit_zero (S := S256x256) Cc.zero2_1, View.ld_unit_zero (S := S1x256) Cc.zero2_1, View.ld_unit_zero (S := S256x128) Cc.zero2_1, View.ld_unit_zero (S := S1x128) Cc.zero2_1]

/-! ## The body's triple -/

set_option maxHeartbeats 4000000 in
/-- The body on whole staging buffers — the inputs at contents `xW`, the output at anything — runs to its
    continuation with the inputs unchanged and the output at `out1_10` of the inputs. -/
theorem Cc.sound_kernel1 (c : Dev nD) (E : Set ℕ) (i : grid1.Coords) (a0 : Memref sig .tc .vmem S4x32x128 .f32) (ha0 : a0.IsWhole) (a1 : Memref sig .tc .vmem S4x32x32 .f32) (ha1 : a1.IsWhole) (a2 : Memref sig .tc .vmem S256x256 .bf16) (ha2 : a2.IsWhole) (a3 : Memref sig .tc .vmem S1x256 .f32) (ha3 : a3.IsWhole) (a4 : Memref sig .tc .vmem S1x256 .f32) (ha4 : a4.IsWhole) (a5 : Memref sig .tc .vmem S1x256 .f32) (ha5 : a5.IsWhole) (a6 : Memref sig .tc .vmem S1x256 .f32) (ha6 : a6.IsWhole) (a7 : Memref sig .tc .vmem S1x256 .f32) (ha7 : a7.IsWhole) (a8 : Memref sig .tc .vmem S256x128 .bf16) (ha8 : a8.IsWhole) (a9 : Memref sig .tc .vmem S1x128 .f32) (ha9 : a9.IsWhole) (a10 : Memref sig .tc .vmem S4x32x128 .f32) (ha10 : a10.IsWhole)
    (x0 : Vec F S4x32x128 .f32) (x1 : Vec F S4x32x32 .f32) (x2 : Vec F S256x256 .bf16) (x3 : Vec F S1x256 .f32) (x4 : Vec F S1x256 .f32) (x5 : Vec F S1x256 .f32) (x6 : Vec F S1x256 .f32) (x7 : Vec F S1x256 .f32) (x8 : Vec F S256x128 .bf16) (x9 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ (∃ d, owns (c : Thread nD τ) a10 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare (out1_10 x0 x1 x2 x3 x4 x5 x6 x7 x8 x9)) -∗ K ⟨⟩))
      ⊢ wp frame (wpE (defs₀ (F := F)) Variants.none c none) E (cc1__msg_apply_kernel i a0 ha0 a1 ha1 a2 ha2 a3 ha3 a4 ha4 a5 ha5 a6 ha6 a7 ha7 a8 ha8 a9 ha9 a10 ha10) K := by
  simp only [cc1__msg_apply_kernel_eq_skeleton]; unfold cc1__msg_apply_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0
  subst hf1
  subst hf2
  subst hf3
  subst hf4
  subst hf5
  subst hf6
  subst hf7
  subst hf8
  subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (Cc.cover1_10 _)

/-! ## The pipeline's proof data -/

/-- The proof data of the region on core `c`: the arrays as the region finds them; after the body at point
    `t` each input's buffer at its block and the output's at `out1_10` of the input blocks; the
    invariant is the untouched rest; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem q_eq1 (c : Dev nD) (w : Fin cfg1.W) : (dat1 V c).q w = fullShare := rfl
theorem owed_eq1 (c : Dev nD) (t : Fin (cfg1.N + 1)) : (dat1 V c).owed t = 0 := rfl
theorem rec_eq1 (c : Dev nD) (t : Fin (cfg1.N + 1)) : (dat1 V c).recorded t = Set.univ := rfl

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]

/-- An input window's array is never written: at the end it holds the entry contents. -/
theorem arrAt1_in (c : Dev nD) (w : Fin cfg1.W) (hw : w.val < 10) : (dat1 V c).arrAt w cfg1.N = V c (Pipeline.arrRef spec1 w) :=
  ((dat1 V c).arrAt_in w (Cc.isIn1 w hw) _).trans (A_eq1 V c w)

/-- Each input's current staging buffer holds its block at every point, fetched there or not: unfetched, the
    block index has not moved since the fetch. -/
theorem Cc.before1_w0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem Cc.before1_w1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem Cc.before1_w2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem Cc.before1_w3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem Cc.before1_w4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem Cc.before1_w5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem Cc.before1_w6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)
theorem Cc.before1_w7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)
theorem Cc.before1_w8 (c : Dev nD) (t : Fin cfg1.N) (d) : (dat1 V c).before 8 t d = iblk1 V c 8 t :=
  ((dat1 V c).before_in_eq_fetched 8 rfl (fun _ => rfl) (fun _ _ _ => rfl)
    (fun t => by rw [after1_8]; unfold Dat.blockOf iblk1; rw [A_eq1]; try rfl) t d).trans
    (by unfold Dat.fetched Dat.blockOf iblk1; rw [A_eq1]; try rfl)
theorem Cc.before1_w9 (c : Dev nD) (t : Fin cfg1.N) (d) : (dat1 V c).before 9 t d = iblk1 V c 9 t :=
  ((dat1 V c).before_in_eq_fetched 9 rfl (fun _ => rfl) (fun _ _ _ => rfl)
    (fun t => by rw [after1_9]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def Cc.bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def Cc.bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

/-- The body at any point: the inputs' buffers hold their blocks, so the triple applies; the invariant and what
    the core owes pass through unread. -/
theorem Cc.sound_body1 (c : Dev nD) (t : Fin cfg1.N) :
    Cc.bodyPre1 V c t ⊢ wp frame (wpE (defs₀ (F := F)) Variants.none c none) Set.univ (bodyAt1 t) (fun _ => Cc.bodyPost1 V c t) := by
  unfold Cc.bodyPre1 Cc.bodyPost1 bodyAt1
  simp only [Cc.before1_w0, Cc.before1_w1, Cc.before1_w2, Cc.before1_w3, Cc.before1_w4, Cc.before1_w5, Cc.before1_w6, Cc.before1_w7, Cc.before1_w8, Cc.before1_w9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (Cc.sound_kernel1 c Set.univ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation1 (c : Dev nD) : BodyObligation (dat1 (F := F) V c) (defs₀ (F := F)) Variants.none () Set.univ := fun t => by
  rw [bigSep_W1, bigSep_W1]
  exact Cc.sound_body1 V c t

/-! ## The invariant at the region's ends -/

theorem hin1 (c : Dev nD) : (Pipeline.ΦA spec1 c : sProp 𝕄) ⊢ (dat1 V c).Φ 0 := by
  rw [show (dat1 V c).Φ 0 = Pipeline.ΦA spec1 c from rfl]

theorem hout1 (c : Dev nD) : (dat1 V c).Φ (Fin.last cfg1.N) ⊢ (Pipeline.ΦA spec1 c : sProp 𝕄) := by
  rw [show (dat1 V c).Φ (Fin.last cfg1.N) = Pipeline.ΦA spec1 c from rfl]

end Cert.Kernel.Hand

end
-- ==== Proof.K_R2Base.lean ====
/- Region 2 (the statistics pass over the four row blocks): the blocks the windows show at a grid point, the
   two branch conditions of the body decided over the grid, where the two result windows are idle, and the region's
   invariant with the two carried accumulators made explicit. -/
import proofs.«134035_j84430467104804_1_alg».proof.Proof.Gen.Kernel.Launch
import proofs.«134035_j84430467104804_1_alg».proof.Proof.Gen.Kernel.Skeleton
import proofs.«134035_j84430467104804_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

namespace R2

/-- An input window's current buffer holds its block at every point, fetched there or not, for any proof data
    whose array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions over the grid -/

/-- The first conditional (the accumulators are zeroed): the scalar chain over the grid coordinate. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val % 4 = 0 :=
  (by decide +kernel : ∀ t : Fin grid2.N, cond2_0 (grid2.coords t) ↔ t.val % 4 = 0)

/-- The second conditional (the accumulators are copied out). -/
abbrev cond2_1 (i : grid2.Coords) : Prop := k2_cond2 i = 1#1
/-- It holds at the last point only. -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Away from the last point the two result windows are idle and not written back. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
/-- At the last point they are live. -/
theorem liveAt2_4 : ∀ t : Fin cfg2.N, cond2_1 (grid2.coords t) → cfg2.idle 4 (grid2.coords t) = false := by decide +kernel
theorem liveAt2_5 : ∀ t : Fin cfg2.N, cond2_1 (grid2.coords t) → cfg2.idle 5 (grid2.coords t) = false := by decide +kernel

/-! ## The memrefs the body is called with -/

abbrev ms2_0 (t : Fin cfg2.N) : Memref sig .tc .vmem S64x32x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S64x32x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S256x256 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x256 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x256 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x256 .f32 := win2_5.stage (cfg2.slots t 5)
abbrev hs2_5 (t : Fin cfg2.N) : (ms2_5 t).IsWhole := hstage2_5 ((cfg2.slots t 5).cast nbuf2_5)
/-- The two accumulators: whole scoped buffers of the kernel's own. -/
abbrev scM2_0 : Memref sig .tc .vmem S1x256 .f32 := Memref.whole cc2_scratch0
abbrev scM2_1 : Memref sig .tc .vmem S1x256 .f32 := Memref.whole cc2_scratch1

/-- Everything scoped that is neither accumulator, unopened. -/
abbrev rest2 (c : Dev nD) : sProp 𝕄 :=
  Pipeline.scopedRestBut (Ix := Unit) (Name := ℕ) (U := UR sig nD τ) (Lvl := ℕ) (Val := Elt F) spec2 c [cc2_scratch0, cc2_scratch1]

/-- The region's invariant with the accumulators as memrefs owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ rest2 c) ∗ (∃ r, prngReg c r)) := by
  unfold Pipeline.ΦA; rw [scopedRest2_split]; simp only [scM2_0, scM2_1, owns_whole]; try rfl

end R2

end Cert.Kernel.Hand

end
-- ==== Proof.K_R2Run.lean ====
/- Region 2: the kernel body run on whole buffers, in each of the three positions a grid point can have — the
   first (the accumulators are zeroed first), a middle one, the last (the accumulators are copied out). Each
   buffer ends at a named function of what the body read. -/
import proofs.«134035_j84430467104804_1_alg».proof.Proof.K_R2Base
import Idealize.ShloMosaic.Lib.Pipeline.Value

set_option maxRecDepth 16384

noncomputable section

namespace Cert.Kernel.Hand.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 1000000 in
/-- The body at the first point: both accumulators, whatever they held, are zeroed and take the point's
    contribution; the inputs are left as they were and the two result buffers are not touched. -/
theorem run2_A (c : Dev nD) (i : grid2.Coords) (arg1 : Memref sig .tc .vmem S64x32x128 .f32) (harg1 : arg1.IsWhole) (arg2 : Memref sig .tc .vmem S64x32x128 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole)
    (hc0 : cond2_0 i) (hc1 : ¬cond2_1 i)
    (x0 x1 : Vec F S64x32x128 .f32) (x2 : Vec F S256x256 .bf16) (x3 xi4 xi5 : Vec F S1x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare xi4 ∗ owns (c : Thread nD τ) arg6 fullShare xi5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xi4 ∗ owns (c : Thread nD τ) arg6 fullShare xi5
            ∗ owns (c : Thread nD τ) arg7 fullShare (k2_pay4 x0 x1 x2 x3 k2_pay1) ∗ owns (c : Thread nD τ) arg8 fullShare (k2_pay5 x0 x1 x2 x3 k2_pay2)) -∗ K ⟨⟩))
      ⊢ wp frame (wpE (defs₀ (F := F)) Variants.none c none) E (cc2__fin_stats_kernel i arg1 harg1 arg2 harg2 arg3 harg3 arg4 harg4 arg5 harg5 arg6 harg6 arg7 harg7 arg8 harg8) K := by
  simp only [cc2__fin_stats_kernel_eq_skeleton]; unfold cc2__fin_stats_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
  subst hf0 hf1 hf2 hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; exact hf4
    iexact H4
  isplitl [H5]
  · iexists f5; isplitr; · ipureintro; exact hf5
    iexact H5
  isplitl [HS0]
  · iexists _; isplitr
    swap; · iexact HS0
    ipureintro
    sl_unfold_run_names
    refine (View.read_writes_eq_canon _ _ _ (fun y => ⟨_, List.mem_cons_self, ?cov⟩)).trans ?_
    case cov => exact View.mem_set_unit_zero (S := S1x256) hz2 inb_S1x256_S1x256_0_0 y
    rw [View.canon_cons_unit_zero (S := S1x256) hz2]
    rw [View.readCov_unit_zero (S := S1x256) _ hz2]
    simp only [View.readAt_eq_ld, View.ld_unit_zero (S := S64x32x128) hz3, View.ld_unit_zero (S := S256x256) hz2, View.ld_unit_zero (S := S1x256) hz2]
  iexists _; isplitr
  swap; · iexact HS1
  ipureintro
  sl_unfold_run_names
  refine (View.read_writes_eq_canon _ _ _ (fun y => ⟨_, List.mem_cons_self, ?cov⟩)).trans ?_
  case cov => exact View.mem_set_unit_zero (S := S1x256) hz2 inb_S1x256_S1x256_0_0 y
  rw [View.canon_cons_unit_zero (S := S1x256) hz2]
  rw [View.readCov_unit_zero (S := S1x256) _ hz2]
  simp only [View.readAt_eq_ld, View.ld_unit_zero (S := S64x32x128) hz3, View.ld_unit_zero (S := S256x256) hz2, View.ld_unit_zero (S := S1x256) hz2]

set_option maxHeartbeats 1000000 in
/-- The body at a middle point: each accumulator takes the point's contribution on top of what it held; the inputs
    are left as they were and the two result buffers are not touched. -/
theorem run2_B (c : Dev nD) (i : grid2.Coords) (arg1 : Memref sig .tc .vmem S64x32x128 .f32) (harg1 : arg1.IsWhole) (arg2 : Memref sig .tc .vmem S64x32x128 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole)
    (hc0 : ¬cond2_0 i) (hc1 : ¬cond2_1 i)
    (x0 x1 : Vec F S64x32x128 .f32) (x2 : Vec F S256x256 .bf16) (x3 xi4 xi5 xs0 xs1 : Vec F S1x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare xi4 ∗ owns (c : Thread nD τ) arg6 fullShare xi5
        ∗ owns (c : Thread nD τ) arg7 fullShare xs0 ∗ owns (c : Thread nD τ) arg8 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xi4 ∗ owns (c : Thread nD τ) arg6 fullShare xi5
            ∗ owns (c : Thread nD τ) arg7 fullShare (k2_pay4 x0 x1 x2 x3 xs0) ∗ owns (c : Thread nD τ) arg8 fullShare (k2_pay5 x0 x1 x2 x3 xs1)) -∗ K ⟨⟩))
      ⊢ wp frame (wpE (defs₀ (F := F)) Variants.none c none) E (cc2__fin_stats_kernel i arg1 harg1 arg2 harg2 arg3 harg3 arg4 harg4 arg5 harg5 arg6 harg6 arg7 harg7 arg8 harg8) K := by
  simp only [cc2__fin_stats_kernel_eq_skeleton]; unfold cc2__fin_stats_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
  subst hf0 hf1 hf2 hf3 hfs0 hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; exact hf4
    iexact H4
  isplitl [H5]
  · iexists f5; isplitr; · ipureintro; exact hf5
    iexact H5
  isplitl [HS0]
  · iexists _; isplitr
    swap; · iexact HS0
    ipureintro
    sl_unfold_run_names
    refine (View.read_writes_eq_canon _ _ _ (fun y => ⟨_, List.mem_cons_self, ?cov⟩)).trans ?_
    case cov => exact View.mem_set_unit_zero (S := S1x256) hz2 inb_S1x256_S1x256_0_0 y
    rw [View.canon_cons_unit_zero (S := S1x256) hz2]
    simp only [View.readAt_eq_ld, View.ld_unit_zero (S := S64x32x128) hz3, View.ld_unit_zero (S := S256x256) hz2, View.ld_unit_zero (S := S1x256) hz2]
  iexists _; isplitr
  swap; · iexact HS1
  ipureintro
  sl_unfold_run_names
  refine (View.read_writes_eq_canon _ _ _ (fun y => ⟨_, List.mem_cons_self, ?cov⟩)).trans ?_
  case cov => exact View.mem_set_unit_zero (S := S1x256) hz2 inb_S1x256_S1x256_0_0 y
  rw [View.canon_cons_unit_zero (S := S1x256) hz2]
  simp only [View.readAt_eq_ld, View.ld_unit_zero (S := S64x32x128) hz3, View.ld_unit_zero (S := S256x256) hz2, View.ld_unit_zero (S := S1x256) hz2]

set_option maxHeartbeats 1000000 in
/-- The body at the last point: each accumulator takes the point's contribution on top of what it held, and is
    then copied into its result buffer, whatever that held; the inputs are left as they were. -/
theorem run2_C (c : Dev nD) (i : grid2.Coords) (arg1 : Memref sig .tc .vmem S64x32x128 .f32) (harg1 : arg1.IsWhole) (arg2 : Memref sig .tc .vmem S64x32x128 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole)
    (hc0 : ¬cond2_0 i) (hc1 : cond2_1 i)
    (x0 x1 : Vec F S64x32x128 .f32) (x2 : Vec F S256x256 .bf16) (x3 xs0 xs1 : Vec F S1x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ owns (c : Thread nD τ) arg7 fullShare xs0 ∗ owns (c : Thread nD τ) arg8 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k2_pay4 x0 x1 x2 x3 xs0) ∗ owns (c : Thread nD τ) arg6 fullShare (k2_pay5 x0 x1 x2 x3 xs1)
            ∗ owns (c : Thread nD τ) arg7 fullShare (k2_pay4 x0 x1 x2 x3 xs0) ∗ owns (c : Thread nD τ) arg8 fullShare (k2_pay5 x0 x1 x2 x3 xs1)) -∗ K ⟨⟩))
      ⊢ wp frame (wpE (defs₀ (F := F)) Variants.none c none) E (cc2__fin_stats_kernel i arg1 harg1 arg2 harg2 arg3 harg3 arg4 harg4 arg5 harg5 arg6 harg6 arg7 harg7 arg8 harg8) K := by
  simp only [cc2__fin_stats_kernel_eq_skeleton]; unfold cc2__fin_stats_kernel_skel
  simp only [k2_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
  subst hf0 hf1 hf2 hf3 hfs0 hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    refine (View.read_writes_eq_canon _ _ _ (fun y => ⟨_, List.mem_cons_self, ?cov⟩)).trans ?_
    case cov => exact View.mem_set_unit_zero (S := S1x256) hz2 inb_S1x256_S1x256_0_0 y
    rw [View.canon_cons_unit_zero (S := S1x256) hz2]
    rw [View.readCov_unit_zero (S := S1x256) _ hz2]
    simp only [View.readAt_eq_ld, View.ld_unit_zero (S := S64x32x128) hz3, View.ld_unit_zero (S := S256x256) hz2, View.ld_unit_zero (S := S1x256) hz2]
  isplitl [H5]
  · iexists _; isplitr
    swap; · iexact H5
    ipureintro
    sl_unfold_run_names
    refine (View.read_writes_eq_canon _ _ _ (fun y => ⟨_, List.mem_cons_self, ?cov⟩)).trans ?_
    case cov => exact View.mem_set_unit_zero (S := S1x256) hz2 inb_S1x256_S1x256_0_0 y
    rw [View.canon_cons_unit_zero (S := S1x256) hz2]
    rw [View.readCov_unit_zero (S := S1x256) _ hz2]
    simp only [View.readAt_eq_ld, View.ld_unit_zero (S := S64x32x128) hz3, View.ld_unit_zero (S := S256x256) hz2, View.ld_unit_zero (S := S1x256) hz2]
  isplitl [HS0]
  · iexists _; isplitr
    swap; · iexact HS0
    ipureintro
    sl_unfold_run_names
    refine (View.read_writes_eq_canon _ _ _ (fun y => ⟨_, List.mem_cons_self, ?cov⟩)).trans ?_
    case cov => exact View.mem_set_unit_zero (S := S1x256) hz2 inb_S1x256_S1x256_0_0 y
    rw [View.canon_cons_unit_zero (S := S1x256) hz2]
    simp only [View.readAt_eq_ld, View.ld_unit_zero (S := S64x32x128) hz3, View.ld_unit_zero (S := S256x256) hz2, View.ld_unit_zero (S := S1x256) hz2]
  iexists _; isplitr
  swap; · iexact HS1
  ipureintro
  sl_unfold_run_names
  refine (View.read_writes_eq_canon _ _ _ (fun y => ⟨_, List.mem_cons_self, ?cov⟩)).trans ?_
  case cov => exact View.mem_set_unit_zero (S := S1x256) hz2 inb_S1x256_S1x256_0_0 y
  rw [View.canon_cons_unit_zero (S := S1x256) hz2]
  simp only [View.readAt_eq_ld, View.ld_unit_zero (S := S64x32x128) hz3, View.ld_unit_zero (S := S256x256) hz2, View.ld_unit_zero (S := S1x256) hz2]

end Cert.Kernel.Hand.R2

end
-- ==== Proof.K_R2.lean ====
/- Region 2 (the statistics pass): the two accumulators after each grid point as a recursion over the row
   blocks, the pipeline's proof data over them, the body's obligation at every point, and what the region leaves in
   its arrays. -/
import proofs.«134035_j84430467104804_1_alg».proof.Proof.K_R2Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

open R2

/-! ## The accumulators, point by point -/

namespace R2

/-- One point's step on the pair of accumulators: each takes its payload of the point's four blocks and of what it
    held (the first adds the column sums of the point's projected rows, the second those of their squares). -/
def step2 (c : Dev nD) (t : Fin cfg2.N) (s : Vec F S1x256 .f32 × Vec F S1x256 .f32) : Vec F S1x256 .f32 × Vec F S1x256 .f32 :=
  (k2_pay4 (iblk2 V c 0 t) (iblk2 V c 1 t) (iblk2 V c 2 t) (iblk2 V c 3 t) s.1,
   k2_pay5 (iblk2 V c 0 t) (iblk2 V c 1 t) (iblk2 V c 2 t) (iblk2 V c 3 t) s.2)

end R2

/-- What the two accumulators hold after the body at point `n`: zeroed at the first point, every point adds its
    contribution. Beyond the grid it stays at the last point's value. -/
def acc2 (c : Dev nD) : ℕ → Vec F S1x256 .f32 × Vec F S1x256 .f32
  | 0 => if h : 0 < cfg2.N then step2 V c ⟨0, h⟩ (k2_pay1, k2_pay2) else (k2_pay1, k2_pay2)
  | n + 1 => if h : n + 1 < cfg2.N then step2 V c ⟨n + 1, h⟩ (acc2 c n) else acc2 c n

theorem acc2_zero (c : Dev nD) :
    acc2 V c 0 = (k2_pay4 (iblk2 V c 0 t2_0) (iblk2 V c 1 t2_0) (iblk2 V c 2 t2_0) (iblk2 V c 3 t2_0) k2_pay1,
                  k2_pay5 (iblk2 V c 0 t2_0) (iblk2 V c 1 t2_0) (iblk2 V c 2 t2_0) (iblk2 V c 3 t2_0) k2_pay2) := by
  unfold acc2; rw [dif_pos (by rw [show cfg2.N = 4 from N_2]; decide)]; rfl

theorem acc2_succ (c : Dev nD) (n : ℕ) (h : n + 1 < cfg2.N) :
    acc2 V c (n + 1) = (k2_pay4 (iblk2 V c 0 ⟨n + 1, h⟩) (iblk2 V c 1 ⟨n + 1, h⟩) (iblk2 V c 2 ⟨n + 1, h⟩) (iblk2 V c 3 ⟨n + 1, h⟩) (acc2 V c n).1,
                        k2_pay5 (iblk2 V c 0 ⟨n + 1, h⟩) (iblk2 V c 1 ⟨n + 1, h⟩) (iblk2 V c 2 ⟨n + 1, h⟩) (iblk2 V c 3 ⟨n + 1, h⟩) (acc2 V c n).2) := by
  rw [acc2, dif_pos h]; rfl

namespace R2

/-- The accumulators at a point, from the point before (or from zero). -/
theorem acc2_at (c : Dev nD) (t : Fin cfg2.N) :
    acc2 V c t.val = step2 V c t (if t.val = 0 then (k2_pay1, k2_pay2) else acc2 V c (t.val - 1)) := by
  obtain ⟨n, hn⟩ := t
  cases n with
  | zero => rw [if_pos rfl]; unfold acc2; rw [dif_pos hn]
  | succ n => rw [if_neg (Nat.succ_ne_zero n)]; show acc2 V c (n + 1) = _; rw [acc2, dif_pos hn]; rfl

/-- The region invariant before position `n`: before the first point every scoped buffer at anything; afterwards
    the two accumulators at what the point before left, the other scoped buffers unopened, the generator register
    at some state. -/
def PhiS2 (c : Dev nD) : ℕ → sProp 𝕄
  | 0 => Pipeline.ΦA spec2 c
  | n + 1 => iprop(iprop(iprop(owns (c : Thread nD τ) scM2_0 fullShare (acc2 V c n).1 ∗ owns (c : Thread nD τ) scM2_1 fullShare (acc2 V c n).2) ∗ rest2 (F := F) c) ∗ (∃ r, prngReg c r))

theorem PhiS2_zero (c : Dev nD) (n : ℕ) (hz : n = 0) : PhiS2 V c n = Pipeline.ΦA spec2 c := by
  subst hz; rfl

theorem PhiS2_succ (c : Dev nD) (n : ℕ) :
    PhiS2 V c (n + 1) = iprop(iprop(iprop(owns (c : Thread nD τ) scM2_0 fullShare (acc2 V c n).1 ∗ owns (c : Thread nD τ) scM2_1 fullShare (acc2 V c n).2) ∗ rest2 (F := F) c) ∗ (∃ r, prngReg c r)) := rfl

theorem PhiS2_pos (c : Dev nD) (n : ℕ) (hz : n ≠ 0) :
    PhiS2 V c n = iprop(iprop(iprop(owns (c : Thread nD τ) scM2_0 fullShare (acc2 V c (n - 1)).1 ∗ owns (c : Thread nD τ) scM2_1 fullShare (acc2 V c (n - 1)).2) ∗ rest2 (F := F) c) ∗ (∃ r, prngReg c r)) := by
  cases n with
  | zero => exact absurd rfl hz
  | succ n => rfl

end R2

/-! ## The pipeline's proof data -/

/-- The proof data of the pipeline on core `c`: the arrays as the region finds them; after the body at point `t`
    each input's buffer at its block and the two results' at the accumulators; the invariant above; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (acc2 V c t.val).1
    | ⟨5, _⟩ => (acc2 V c t.val).2
  Φ t := PhiS2 V c t.val
  q _ := fullShare
  owed _ := 0

theorem A_eq2 (c : Dev nD) (w : Fin cfg2.W) : (dat2 V c).A w = V c (Pipeline.arrRef spec2 w) := by
  dsimp only [dat2]

theorem q_eq2 (c : Dev nD) (w : Fin cfg2.W) : (dat2 V c).q w = fullShare := rfl

theorem owed_eq2 (c : Dev nD) (t) : (dat2 V c).owed t = 0 := rfl

theorem rec_eq2 (c : Dev nD) (t) : (dat2 V c).recorded t = Set.univ := rfl

namespace R2

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (acc2 V c t.val).1 := by dsimp only [dat2]
theorem after2_5 (c : Dev nD) (t : Fin cfg2.N) : (dat2 V c).after 5 t = (acc2 V c t.val).2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

theorem PhiS2_castSucc (c : Dev nD) (t : Fin cfg2.N) : (dat2 V c).Φ t.castSucc = PhiS2 V c t.val := by
  dsimp only [dat2]; simp only [Fin.coe_castSucc]

end R2

namespace R2

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point: the inputs' buffers hold their blocks; the point's position decides which run applies;
    the invariant hands over the accumulators at what the point before left (at anything at the first point) and
    takes them back at this point's values; away from the last point the result buffers pass through untouched,
    at the last point they end at the accumulators' values. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  have hN : t.val < 4 := lt_of_lt_of_eq t.isLt (show cfg2.N = 4 from N_2)
  by_cases h0 : t.val % 4 = 0
  · have hz : t.val = 0 := by omega
    have h1 : ¬t.val % 4 = 3 := by omega
    have hc1 : ¬cond2_1 (grid2.coords t) := fun h => h1 ((hcond2_1 t).mp h)
    rw [Dat.leavesExact_idle (dat2 V c) 4 t (idleAt2_4 t hc1) (noFlush2_4 t hc1),
      Dat.leavesExact_idle (dat2 V c) 5 t (idleAt2_5 t hc1) (noFlush2_5 t hc1)]
    rw [acc2_at V c t, if_pos hz]
    unfold step2; dsimp only
    rw [PhiS2_castSucc V c t, PhiS2_zero V c _ hz, PhiA2_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
    iapply (run2_A c (grid2.coords t) _ _ _ _ _ _ _ _ _ _ _ _ _ _ _ _ ((hcond2_0 t).mpr h0) hc1 (iblk2 V c 0 t) (iblk2 V c 1 t) (iblk2 V c 2 t) (iblk2 V c 3 t) _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · have hz : t.val ≠ 0 := by omega
    have hc0 : ¬cond2_0 (grid2.coords t) := fun h => h0 ((hcond2_0 t).mp h)
    by_cases h1 : t.val % 4 = 3
    · have hc1 : cond2_1 (grid2.coords t) := (hcond2_1 t).mpr h1
      rw [show (dat2 V c).leavesExact 4 t = owns (c : Thread nD τ) (ms2_4 t) fullShare ((dat2 V c).after 4 t) from by
        unfold Dat.leavesExact; rw [liveAt2_4 t hc1], after2_4]
      rw [show (dat2 V c).leavesExact 5 t = owns (c : Thread nD τ) (ms2_5 t) fullShare ((dat2 V c).after 5 t) from by
        unfold Dat.leavesExact; rw [liveAt2_5 t hc1], after2_5]
      rw [acc2_at V c t, if_neg hz]
      unfold step2; dsimp only
      rw [PhiS2_castSucc V c t, PhiS2_pos V c _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
      iapply (run2_C c (grid2.coords t) _ _ _ _ _ _ _ _ _ _ _ _ _ _ _ _ hc0 hc1 (iblk2 V c 0 t) (iblk2 V c 1 t) (iblk2 V c 2 t) (iblk2 V c 3 t) _ _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, H4, H5, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond2_1 (grid2.coords t) := fun h => h1 ((hcond2_1 t).mp h)
      rw [Dat.leavesExact_idle (dat2 V c) 4 t (idleAt2_4 t hc1) (noFlush2_4 t hc1),
        Dat.leavesExact_idle (dat2 V c) 5 t (idleAt2_5 t hc1) (noFlush2_5 t hc1)]
      rw [acc2_at V c t, if_neg hz]
      unfold step2; dsimp only
      rw [PhiS2_castSucc V c t, PhiS2_pos V c _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
      iapply (run2_B c (grid2.coords t) _ _ _ _ _ _ _ _ _ _ _ _ _ _ _ _ hc0 hc1 (iblk2 V c 0 t) (iblk2 V c 1 t) (iblk2 V c 2 t) (iblk2 V c 3 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

end R2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS2 V c 0 from rfl, PhiS2_zero V c 0 rfl]
  try exact Idealize.SL.BI.Entails.refl _

/-- After the last point the invariant gives it back: the accumulators' named contents are forgotten. -/
theorem hout2 (c : Dev nD) : (dat2 V c).Φ (Fin.last cfg2.N) ⊢ (Pipeline.ΦA spec2 c : sProp 𝕄) := by
  rw [show (dat2 V c).Φ (Fin.last cfg2.N) = PhiS2 V c (Fin.last cfg2.N).val from rfl,
    PhiS2_pos V c _ (by rw [Fin.val_last]; have : cfg2.N = 4 := N_2; omega), PhiA2_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

/-! ## What the region leaves in its arrays -/

/-- An input array is as the region found it. -/
theorem arrAt2_in (c : Dev nD) (w : Fin cfg2.W) (hw : w.val < 4) : (dat2 V c).arrAt w cfg2.N = V c (Pipeline.arrRef spec2 w) := by
  have hin : (cfg2.win w).isOut = false := by
    match w, hw with
    | ⟨0, _⟩, _ => rfl
    | ⟨1, _⟩, _ => rfl
    | ⟨2, _⟩, _ => rfl
    | ⟨3, _⟩, _ => rfl
    | ⟨n + 4, _⟩, h => exact absurd h (by simp)
  exact ((dat2 V c).arrAt_in w hin _).trans (A_eq2 V c w)

namespace R2

/-- The accumulator's final value as contents of result array 0 (its one block is the whole array). -/
abbrev out2_4 (c : Dev nD) : Buf (Elt F) ((c : Thread nD τ).loc main_v25_0) := (acc2 V c 3).1

/-- The one write-back, at the last point, writes it: the block at index (0, 0) read through zero offsets is the array. -/
theorem flushed2_4 (c : Dev nD) (t : Fin cfg2.N) (hf : (cfg2.win 4).flush t = true) :
    (dat2 V c).flushed 4 t = ((cfg2.win 4).blk t).view.read (Elt F) (out2_4 V c) := by
  have hN : cfg2.N = 4 := N_2
  have h3 : t.val = 3 := by have := (flush2_4 t).mp hf; have := t.isLt; omega
  obtain rfl : t = t2_3 := Fin.ext h3
  show (cfg2.win 4).cut (grid2.coords t2_3) ((dat2 V c).after 4 t2_3) = _
  rw [after2_4]
  have hz' : (fun a => win2_4.index t2_3 a * main_v25_0.ty.shape.size a) = fun _ => 0 := funext fun a => by fin_cases a <;> decide
  exact (Memref.read_access_unit_zero (Elt F) main_v25_0 hz' (fun a => by rw [congrFun hz' a]; simp) (out2_4 V c)).symm

end R2

/-- Result array 0 ends holding the first accumulator's value after the last point. -/
theorem arrAt2_4 (c : Dev nD) : (dat2 V c).arrAt 4 cfg2.N = (acc2 V c 3).1 :=
  (dat2 V c).arrAt_eq_of_cover 4 (out2_4 V c) (flushed2_4 V c) fun i =>
    ⟨t2_3, (flush2_4 t2_3).mpr rfl, by
      show i ∈ ((View.whole main_v25_0).slice (win2_4.rect t2_3)).set
      rw [View.set_slice_whole, Rect.mem_set_unit]
      intro a
      have h0 : (i 0 : Nat) < 1 := (i 0).isLt
      have h1 : (i 1 : Nat) < 256 := (i 1).isLt
      match a with
      | ⟨0, _⟩ => show win2_4.index t2_3 0 * win2_4.size 0 ≤ (i 0 : Nat) ∧ (i 0 : Nat) < win2_4.index t2_3 0 * win2_4.size 0 + win2_4.xsize (grid2.coords t2_3) 0
                  rw [show win2_4.index t2_3 0 * win2_4.size 0 = 0 from by decide +kernel, show win2_4.xsize (grid2.coords t2_3) 0 = 1 from by decide +kernel]; omega
      | ⟨1, _⟩ => show win2_4.index t2_3 1 * win2_4.size 1 ≤ (i 1 : Nat) ∧ (i 1 : Nat) < win2_4.index t2_3 1 * win2_4.size 1 + win2_4.xsize (grid2.coords t2_3) 1
                  rw [show win2_4.index t2_3 1 * win2_4.size 1 = 0 from by decide +kernel, show win2_4.xsize (grid2.coords t2_3) 1 = 256 from by decide +kernel]; omega⟩

namespace R2

/-- The accumulator's final value as contents of result array 1 (its one block is the whole array). -/
abbrev out2_5 (c : Dev nD) : Buf (Elt F) ((c : Thread nD τ).loc main_v25_1) := (acc2 V c 3).2

/-- The one write-back, at the last point, writes it: the block at index (0, 0) read through zero offsets is the array. -/
theorem flushed2_5 (c : Dev nD) (t : Fin cfg2.N) (hf : (cfg2.win 5).flush t = true) :
    (dat2 V c).flushed 5 t = ((cfg2.win 5).blk t).view.read (Elt F) (out2_5 V c) := by
  have hN : cfg2.N = 4 := N_2
  have h3 : t.val = 3 := by have := (flush2_5 t).mp hf; have := t.isLt; omega
  obtain rfl : t = t2_3 := Fin.ext h3
  show (cfg2.win 5).cut (grid2.coords t2_3) ((dat2 V c).after 5 t2_3) = _
  rw [after2_5]
  have hz' : (fun a => win2_5.index t2_3 a * main_v25_1.ty.shape.size a) = fun _ => 0 := funext fun a => by fin_cases a <;> decide
  exact (Memref.read_access_unit_zero (Elt F) main_v25_1 hz' (fun a => by rw [congrFun hz' a]; simp) (out2_5 V c)).symm

end R2

/-- Result array 1 ends holding the second accumulator's value after the last point. -/
theorem arrAt2_5 (c : Dev nD) : (dat2 V c).arrAt 5 cfg2.N = (acc2 V c 3).2 :=
  (dat2 V c).arrAt_eq_of_cover 5 (out2_5 V c) (flushed2_5 V c) fun i =>
    ⟨t2_3, (flush2_5 t2_3).mpr rfl, by
      show i ∈ ((View.whole main_v25_1).slice (win2_5.rect t2_3)).set
      rw [View.set_slice_whole, Rect.mem_set_unit]
      intro a
      have h0 : (i 0 : Nat) < 1 := (i 0).isLt
      have h1 : (i 1 : Nat) < 256 := (i 1).isLt
      match a with
      | ⟨0, _⟩ => show win2_5.index t2_3 0 * win2_5.size 0 ≤ (i 0 : Nat) ∧ (i 0 : Nat) < win2_5.index t2_3 0 * win2_5.size 0 + win2_5.xsize (grid2.coords t2_3) 0
                  rw [show win2_5.index t2_3 0 * win2_5.size 0 = 0 from by decide +kernel, show win2_5.xsize (grid2.coords t2_3) 0 = 1 from by decide +kernel]; omega
      | ⟨1, _⟩ => show win2_5.index t2_3 1 * win2_5.size 1 ≤ (i 1 : Nat) ∧ (i 1 : Nat) < win2_5.index t2_3 1 * win2_5.size 1 + win2_5.xsize (grid2.coords t2_3) 1
                  rw [show win2_5.index t2_3 1 * win2_5.size 1 = 0 from by decide +kernel, show win2_5.xsize (grid2.coords t2_3) 1 = 256 from by decide +kernel]; omega⟩

end Cert.Kernel.Hand

end
-- ==== Proof.K_R3.lean ====
/- The second pass of the final update on one block of sixty-four batch entries: from the state block, the
   block of aggregated messages, the first weight matrix with its bias, the batch statistics (mean,
   variance) and the affine rows, the second weight matrix and its bias, the body writes the new state
   block. This module holds the region's proof data — what each staging buffer holds after the body at
   every grid point, as the named payloads of the loads — the body's triple, and the obligation the
   pipeline asks of it. -/
import proofs.«134035_j84430467104804_1_alg».proof.Proof.Gen.Kernel.Launch
import proofs.«134035_j84430467104804_1_alg».proof.Proof.Gen.Kernel.Skeleton
import proofs.«134035_j84430467104804_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents when the region is entered: every statement below is at this parameter
variable (V : (c : Dev nD) → (b : Ref sig .tc) → Buf (Elt F) ((c : Thread nD τ).loc b))

/-! ## The windows' blocks -/

/-- Window `w`'s block at grid point `t`: the window's rectangle of its array, read off the entry contents. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

namespace Cc

/-- The whole rectangle of each window's block: every load and the one store of the body go through these. -/
abbrev rect3_0 : Rect S64x32x128 := Rect.unit (s := S64x32x128) ![0, 0, 0] S64x32x128.size inb_S64x32x128_S64x32x128_0_0_0
abbrev rect3_1 : Rect S64x32x128 := Rect.unit (s := S64x32x128) ![0, 0, 0] S64x32x128.size inb_S64x32x128_S64x32x128_0_0_0
abbrev rect3_2 : Rect S256x256 := Rect.unit (s := S256x256) ![0, 0] S256x256.size inb_S256x256_S256x256_0_0
abbrev rect3_3 : Rect S1x256 := Rect.unit (s := S1x256) ![0, 0] S1x256.size inb_S1x256_S1x256_0_0
abbrev rect3_4 : Rect S1x256 := Rect.unit (s := S1x256) ![0, 0] S1x256.size inb_S1x256_S1x256_0_0
abbrev rect3_5 : Rect S1x256 := Rect.unit (s := S1x256) ![0, 0] S1x256.size inb_S1x256_S1x256_0_0
abbrev rect3_6 : Rect S1x256 := Rect.unit (s := S1x256) ![0, 0] S1x256.size inb_S1x256_S1x256_0_0
abbrev rect3_7 : Rect S1x256 := Rect.unit (s := S1x256) ![0, 0] S1x256.size inb_S1x256_S1x256_0_0
abbrev rect3_8 : Rect S256x128 := Rect.unit (s := S256x128) ![0, 0] S256x128.size inb_S256x128_S256x128_0_0
abbrev rect3_9 : Rect S1x128 := Rect.unit (s := S1x128) ![0, 0] S1x128.size inb_S1x128_S1x128_0_0
abbrev rect3_10 : Rect S64x32x128 := Rect.unit (s := S64x32x128) ![0, 0, 0] S64x32x128.size inb_S64x32x128_S64x32x128_0_0_0

/-- The windows 0..9 are inputs. -/
theorem isIn3 : ∀ (w : Fin cfg3.W), w.val < 10 → (cfg3.win w).isOut = false
  | ⟨0, _⟩, _ => rfl
  | ⟨1, _⟩, _ => rfl
  | ⟨2, _⟩, _ => rfl
  | ⟨3, _⟩, _ => rfl
  | ⟨4, _⟩, _ => rfl
  | ⟨5, _⟩, _ => rfl
  | ⟨6, _⟩, _ => rfl
  | ⟨7, _⟩, _ => rfl
  | ⟨8, _⟩, _ => rfl
  | ⟨9, _⟩, _ => rfl
  | ⟨n + 10, _⟩, h => absurd h (by simp)

/-- The offsets of every rectangle are zero. -/
theorem zero2_3 : (![0, 0] : Fin 2 → Nat) = fun _ => 0 := funext fun a => by fin_cases a <;> rfl
theorem zero3_3 : (![0, 0, 0] : Fin 3 → Nat) = fun _ => 0 := funext fun a => by fin_cases a <;> rfl

end Cc

/-! ## What the body leaves in the output block -/

/-- The output block after the body, from the ten input blocks: the one store, whose value is the second
    payload (the hidden layer: state and aggregate side by side, first matrix product with its bias,
    normalised by the mean and variance rows, scaled, shifted, leaky rectifier) fed with the second weight
    matrix and its bias to the first (second matrix product, reshaped to the block). -/
def out3_10 (x0 : Vec F S64x32x128 .f32) (x1 : Vec F S64x32x128 .f32) (x2 : Vec F S256x256 .bf16) (x3 : Vec F S1x256 .f32) (x4 : Vec F S1x256 .f32) (x5 : Vec F S1x256 .f32) (x6 : Vec F S1x256 .f32) (x7 : Vec F S1x256 .f32) (x8 : Vec F S256x128 .bf16) (x9 : Vec F S1x128 .f32) : Vec F S64x32x128 .f32 :=
  View.canon [⟨Cc.rect3_10, k3_pay1 (k3_pay2 (View.ld x0 Cc.rect3_0) (View.ld x1 Cc.rect3_1) (View.ld x2 Cc.rect3_2) (View.ld x3 Cc.rect3_3) (View.ld x5 Cc.rect3_5) (View.ld x4 Cc.rect3_4) (View.ld x6 Cc.rect3_6) (View.ld x7 Cc.rect3_7)) (View.ld x8 Cc.rect3_8) (View.ld x9 Cc.rect3_9)⟩]

/-- The one store covers the block. -/
theorem Cc.cover3_10 (p0 : Vec F S64x32x128 .f32) (y : S64x32x128.Idx) :
    ∃ pc ∈ ([⟨Cc.rect3_10, p0⟩] : List (View.Piece (Elt F) S64x32x128 .f32)), y ∈ pc.1.set :=
  View.cover_of_tiled [⟨Cc.rect3_10, p0⟩] S64x32x128.size (by rfl) y

/-- A store through the whole rectangle leaves its value, and a load through the whole rectangle of a block is
    the block: the output block is the payloads applied to the input blocks themselves. -/
theorem out3_10_eq (x0 : Vec F S64x32x128 .f32) (x1 : Vec F S64x32x128 .f32) (x2 : Vec F S256x256 .bf16) (x3 : Vec F S1x256 .f32) (x4 : Vec F S1x256 .f32) (x5 : Vec F S1x256 .f32) (x6 : Vec F S1x256 .f32) (x7 : Vec F S1x256 .f32) (x8 : Vec F S256x128 .bf16) (x9 : Vec F S1x128 .f32) :
    out3_10 x0 x1 x2 x3 x4 x5 x6 x7 x8 x9 = k3_pay1 (k3_pay2 x0 x1 x2 x3 x5 x4 x6 x7) x8 x9 := by
  unfold out3_10
  rw [View.canon_unit_zero Cc.zero3_3]
  simp only [View.ld_unit_zero (S := S64x32x128) Cc.zero3_3, View.ld_unit_zero (S := S256x256) Cc.zero2_3, View.ld_unit_zero (S := S1x256) Cc.zero2_3, View.ld_unit_zero (S := S256x128) Cc.zero2_3, View.ld_unit_zero (S := S1x128) Cc.zero2_3]

/-! ## The body's triple -/

set_option maxHeartbeats 4000000 in
/-- The body on whole staging buffers — the inputs at contents `xW`, the output at anything — runs to its
    continuation with the inputs unchanged and the output at `out3_10` of the inputs. -/
theorem Cc.sound_kernel3 (c : Dev nD) (E : Set ℕ) (i : grid3.Coords) (a0 : Memref sig .tc .vmem S64x32x128 .f32) (ha0 : a0.IsWhole) (a1 : Memref sig .tc .vmem S64x32x128 .f32) (ha1 : a1.IsWhole) (a2 : Memref sig .tc .vmem S256x256 .bf16) (ha2 : a2.IsWhole) (a3 : Memref sig .tc .vmem S1x256 .f32) (ha3 : a3.IsWhole) (a4 : Memref sig .tc .vmem S1x256 .f32) (ha4 : a4.IsWhole) (a5 : Memref sig .tc .vmem S1x256 .f32) (ha5 : a5.IsWhole) (a6 : Memref sig .tc .vmem S1x256 .f32) (ha6 : a6.IsWhole) (a7 : Memref sig .tc .vmem S1x256 .f32) (ha7 : a7.IsWhole) (a8 : Memref sig .tc .vmem S256x128 .bf16) (ha8 : a8.IsWhole) (a9 : Memref sig .tc .vmem S1x128 .f32) (ha9 : a9.IsWhole) (a10 : Memref sig .tc .vmem S64x32x128 .f32) (ha10 : a10.IsWhole)
    (x0 : Vec F S64x32x128 .f32) (x1 : Vec F S64x32x128 .f32) (x2 : Vec F S256x256 .bf16) (x3 : Vec F S1x256 .f32) (x4 : Vec F S1x256 .f32) (x5 : Vec F S1x256 .f32) (x6 : Vec F S1x256 .f32) (x7 : Vec F S1x256 .f32) (x8 : Vec F S256x128 .bf16) (x9 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ (∃ d, owns (c : Thread nD τ) a10 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare (out3_10 x0 x1 x2 x3 x4 x5 x6 x7 x8 x9)) -∗ K ⟨⟩))
      ⊢ wp frame (wpE (defs₀ (F := F)) Variants.none c none) E (cc3__fin_apply_kernel i a0 ha0 a1 ha1 a2 ha2 a3 ha3 a4 ha4 a5 ha5 a6 ha6 a7 ha7 a8 ha8 a9 ha9 a10 ha10) K := by
  simp only [cc3__fin_apply_kernel_eq_skeleton]; unfold cc3__fin_apply_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0
  subst hf1
  subst hf2
  subst hf3
  subst hf4
  subst hf5
  subst hf6
  subst hf7
  subst hf8
  subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (Cc.cover3_10 _)

/-! ## The pipeline's proof data -/

/-- The proof data of the region on core `c`: the arrays as the region finds them; after the body at point
    `t` each input's buffer at its block and the output's at `out3_10` of the input blocks; the
    invariant is the untouched rest; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => out3_10 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem q_eq3 (c : Dev nD) (w : Fin cfg3.W) : (dat3 V c).q w = fullShare := rfl
theorem owed_eq3 (c : Dev nD) (t : Fin (cfg3.N + 1)) : (dat3 V c).owed t = 0 := rfl
theorem rec_eq3 (c : Dev nD) (t : Fin (cfg3.N + 1)) : (dat3 V c).recorded t = Set.univ := rfl

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = out3_10 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) := by dsimp only [dat3]

/-- An input window's array is never written: at the end it holds the entry contents. -/
theorem arrAt3_in (c : Dev nD) (w : Fin cfg3.W) (hw : w.val < 10) : (dat3 V c).arrAt w cfg3.N = V c (Pipeline.arrRef spec3 w) :=
  ((dat3 V c).arrAt_in w (Cc.isIn3 w hw) _).trans (A_eq3 V c w)

/-- Each input's current staging buffer holds its block at every point, fetched there or not: unfetched, the
    block index has not moved since the fetch. -/
theorem Cc.before3_w0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem Cc.before3_w1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem Cc.before3_w2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)
theorem Cc.before3_w3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)
theorem Cc.before3_w4 (c : Dev nD) (t : Fin cfg3.N) (d) : (dat3 V c).before 4 t d = iblk3 V c 4 t :=
  ((dat3 V c).before_in_eq_fetched 4 rfl (fun _ => rfl) (fun _ _ _ => rfl)
    (fun t => by rw [after3_4]; unfold Dat.blockOf iblk3; rw [A_eq3]; try rfl) t d).trans
    (by unfold Dat.fetched Dat.blockOf iblk3; rw [A_eq3]; try rfl)
theorem Cc.before3_w5 (c : Dev nD) (t : Fin cfg3.N) (d) : (dat3 V c).before 5 t d = iblk3 V c 5 t :=
  ((dat3 V c).before_in_eq_fetched 5 rfl (fun _ => rfl) (fun _ _ _ => rfl)
    (fun t => by rw [after3_5]; unfold Dat.blockOf iblk3; rw [A_eq3]; try rfl) t d).trans
    (by unfold Dat.fetched Dat.blockOf iblk3; rw [A_eq3]; try rfl)
theorem Cc.before3_w6 (c : Dev nD) (t : Fin cfg3.N) (d) : (dat3 V c).before 6 t d = iblk3 V c 6 t :=
  ((dat3 V c).before_in_eq_fetched 6 rfl (fun _ => rfl) (fun _ _ _ => rfl)
    (fun t => by rw [after3_6]; unfold Dat.blockOf iblk3; rw [A_eq3]; try rfl) t d).trans
    (by unfold Dat.fetched Dat.blockOf iblk3; rw [A_eq3]; try rfl)
theorem Cc.before3_w7 (c : Dev nD) (t : Fin cfg3.N) (d) : (dat3 V c).before 7 t d = iblk3 V c 7 t :=
  ((dat3 V c).before_in_eq_fetched 7 rfl (fun _ => rfl) (fun _ _ _ => rfl)
    (fun t => by rw [after3_7]; unfold Dat.blockOf iblk3; rw [A_eq3]; try rfl) t d).trans
    (by unfold Dat.fetched Dat.blockOf iblk3; rw [A_eq3]; try rfl)
theorem Cc.before3_w8 (c : Dev nD) (t : Fin cfg3.N) (d) : (dat3 V c).before 8 t d = iblk3 V c 8 t :=
  ((dat3 V c).before_in_eq_fetched 8 rfl (fun _ => rfl) (fun _ _ _ => rfl)
    (fun t => by rw [after3_8]; unfold Dat.blockOf iblk3; rw [A_eq3]; try rfl) t d).trans
    (by unfold Dat.fetched Dat.blockOf iblk3; rw [A_eq3]; try rfl)
theorem Cc.before3_w9 (c : Dev nD) (t : Fin cfg3.N) (d) : (dat3 V c).before 9 t d = iblk3 V c 9 t :=
  ((dat3 V c).before_in_eq_fetched 9 rfl (fun _ => rfl) (fun _ _ _ => rfl)
    (fun t => by rw [after3_9]; unfold Dat.blockOf iblk3; rw [A_eq3]; try rfl) t d).trans
    (by unfold Dat.fetched Dat.blockOf iblk3; rw [A_eq3]; try rfl)

/-! ## The body obligation, at a generic point -/

/-- What the body is called with at point `t`, the windows one by one, -/
def Cc.bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d)))

/-- and what it returns. -/
def Cc.bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t))

/-- The body at any point: the inputs' buffers hold their blocks, so the triple applies; the invariant and what
    the core owes pass through unread. -/
theorem Cc.sound_body3 (c : Dev nD) (t : Fin cfg3.N) :
    Cc.bodyPre3 V c t ⊢ wp frame (wpE (defs₀ (F := F)) Variants.none c none) Set.univ (bodyAt3 t) (fun _ => Cc.bodyPost3 V c t) := by
  unfold Cc.bodyPre3 Cc.bodyPost3 bodyAt3
  simp only [Cc.before3_w0, Cc.before3_w1, Cc.before3_w2, Cc.before3_w3, Cc.before3_w4, Cc.before3_w5, Cc.before3_w6, Cc.before3_w7, Cc.before3_w8, Cc.before3_w9]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (Cc.sound_kernel3 c Set.univ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation3 (c : Dev nD) : BodyObligation (dat3 (F := F) V c) (defs₀ (F := F)) Variants.none () Set.univ := fun t => by
  rw [bigSep_W3, bigSep_W3]
  exact Cc.sound_body3 V c t

/-! ## The invariant at the region's ends -/

theorem hin3 (c : Dev nD) : (Pipeline.ΦA spec3 c : sProp 𝕄) ⊢ (dat3 V c).Φ 0 := by
  rw [show (dat3 V c).Φ 0 = Pipeline.ΦA spec3 c from rfl]

theorem hout3 (c : Dev nD) : (dat3 V c).Φ (Fin.last cfg3.N) ⊢ (Pipeline.ΦA spec3 c : sProp 𝕄) := by
  rw [show (dat3 V c).Φ (Fin.last cfg3.N) = Pipeline.ΦA spec3 c from rfl]

end Cert.Kernel.Hand

end
-- ==== Proof.K_Frame.lean ====
/-
  The four regions' proof data put together, and the kernel program's frame: every weakly fair execution of @main
  terminates, nothing faulting, and every argument array ends holding its launch contents. The run of the whole
  program ends with every unscoped buffer at the fold of the host stretches and the regions' write-backs; an
  argument array read through that fold is the launch memory's.
-/
import proofs.«134035_j84430467104804_1_alg».proof.Proof.K_RunArgs
import proofs.«134035_j84430467104804_1_alg».proof.Proof.K_R0
import proofs.«134035_j84430467104804_1_alg».proof.Proof.K_R1
import proofs.«134035_j84430467104804_1_alg».proof.Proof.K_R2
import proofs.«134035_j84430467104804_1_alg».proof.Proof.K_R3

set_option maxRecDepth 16384

noncomputable section

namespace Cert.Kernel.Hand

open Idealize.ShloMosaic Idealize.ShloMosaic.TcCoe
open Idealize.SL Idealize.SL.Sem
open Cert.Kernel

variable {F : FTy → Type} [FloatOps F]

/-- The regions' proof data and their obligations, each as a function of the contents its region is entered with. -/
def theData : Data F where
  d0 V c := dat0 V c
  hA0 V c w := A_eq0 V c w
  hq0 V c w := q_eq0 V c w
  ho0 V c t := owed_eq0 V c t
  hr0 V c t := rfl
  hb0 V c := body_obligation0 V c
  hin0 V c := hin0 V c
  hout0 V c := hout0 V c
  d1 V c := dat1 V c
  hA1 V c w := A_eq1 V c w
  hq1 V c w := q_eq1 V c w
  ho1 V c t := owed_eq1 V c t
  hr1 V c t := rfl
  hb1 V c := body_obligation1 V c
  hin1 V c := hin1 V c
  hout1 V c := hout1 V c
  d2 V c := dat2 V c
  hA2 V c w := A_eq2 V c w
  hq2 V c w := q_eq2 V c w
  ho2 V c t := owed_eq2 V c t
  hr2 V c t := rfl
  hb2 V c := body_obligation2 V c
  hin2 V c := hin2 V c
  hout2 V c := hout2 V c
  d3 V c := dat3 V c
  hA3 V c w := A_eq3 V c w
  hq3 V c w := q_eq3 V c w
  ho3 V c t := owed_eq3 V c t
  hr3 V c t := rfl
  hb3 V c := body_obligation3 V c
  hin3 V c := hin3 V c
  hout3 V c := hout3 V c

variable (m : (ℓ : Loc nD τ sig) → Buf (Elt F) ℓ) (ρ : Dev nD → PrngReg)

/-- The run of the whole program with these proof data. -/
theorem theRun : θ_run defs (onTc (τ := τ) (main (F := F))) ⟨m, fun _ => 0, ρ⟩
    (fun r => ∀ c : Dev nD, ∀ b ∈ Pipeline.ucRefs τ sig, r.2.mem (((c : Thread nD τ)).1, b) = W7 m theData c b) :=
  run m theData ρ

/-- THE FRAME: the program runs and its fourteen argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_arg0 (by decide))).trans (W7_main_arg0 m theData c),
     (h c _ (mem_uc main_arg1 (by decide))).trans (W7_main_arg1 m theData c),
     (h c _ (mem_uc main_arg2 (by decide))).trans (W7_main_arg2 m theData c),
     (h c _ (mem_uc main_arg3 (by decide))).trans (W7_main_arg3 m theData c),
     (h c _ (mem_uc main_arg4 (by decide))).trans (W7_main_arg4 m theData c),
     (h c _ (mem_uc main_arg5 (by decide))).trans (W7_main_arg5 m theData c),
     (h c _ (mem_uc main_arg6 (by decide))).trans (W7_main_arg6 m theData c),
     (h c _ (mem_uc main_arg7 (by decide))).trans (W7_main_arg7 m theData c),
     (h c _ (mem_uc main_arg8 (by decide))).trans (W7_main_arg8 m theData c),
     (h c _ (mem_uc main_arg9 (by decide))).trans (W7_main_arg9 m theData c),
     (h c _ (mem_uc main_arg10 (by decide))).trans (W7_main_arg10 m theData c),
     (h c _ (mem_uc main_arg11 (by decide))).trans (W7_main_arg11 m theData c),
     (h c _ (mem_uc main_arg12 (by decide))).trans (W7_main_arg12 m theData c),
     (h c _ (mem_uc main_arg13 (by decide))).trans (W7_main_arg13 m theData c)⟩)
    (theRun m ρ)

/-- The run's result buffer, read off the same run: what the last region's write-backs leave. -/
theorem result_read (r : PUnit × MemSt nD τ sig (Elt F))
    (h : ∀ c : Dev nD, ∀ b ∈ Pipeline.ucRefs τ sig, r.2.mem (((c : Thread nD τ)).1, b) = W7 m theData c b) (c : Dev nD) :
    r.2.mem ((c.tc : Thread nD τ).loc main_v32) = (dat3 (V6 m theData) c).arrAt 10 cfg3.N :=
  (h c _ (mem_uc main_v32 (by decide))).trans (W7_main_v32 m theData c)

end Cert.Kernel.Hand

end
-- ==== Proof.KI_Run.lean ====
/-
  The kernel program as a whole: four kernel regions among three stretches of host operations.

  Between two items of @main a core holds every unscoped buffer at known contents. A host stretch changes them as
  its operations say. A kernel region changes only the arrays behind its output windows: after the region each of
  its arrays holds what the write-backs of its grid points leave there (the fold of the blocks written back, point
  after point), and every other buffer holds what it held at entry. Reading the last contents gives both facts the
  certificate needs of this program: every argument array ends as launched (no host operation writes one, no region
  has one behind an output window), and the result array ends at what the last region's write-backs leave.

  The regions' own proof data (what each grid point leaves in each staging buffer, the invariant carried from point
  to point, the body's triple) are parameters here, bundled in `Data`: this module is the composition only.
-/
import proofs.«134035_j84430467104804_1_alg».proof.Proof.Gen.KernelIdeal.Launch
import proofs.«134035_j84430467104804_1_alg».proof.Proof.Gen.KernelIdeal.Skeleton
import proofs.«134035_j84430467104804_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The TensorCores' buffer contents, per core and reference: what a region is entered with. -/
abbrev Entry (F : FTy → Type) [FloatOps F] : Type :=
  (c : Dev nD) → (b : Ref sig .tc) → Buf (Elt F) ((c : Thread nD τ).loc b)

/-- The four regions' proof data, each as a function of the contents its region is entered with, and what the
    composition needs of them: the arrays are the entry contents, full shares, nothing owed and no bound on the recorded pairs, the body obligation,
    and the invariant's two ends against the scoped rest beside the generator register. -/
structure Data (F : FTy → Type) [FloatOps F] where
  d0 : Entry F → (c : Dev nD) → Dat τ (Elt F) Unit ℕ (UR sig nD τ) ℕ cfg0 c
  hA0 : ∀ V c w, (d0 V c).A w = V c (Pipeline.arrRef spec0 w)
  hq0 : ∀ V c w, (d0 V c).q w = fullShare
  ho0 : ∀ V c t, (d0 V c).owed t = 0
  hr0 : ∀ V c t, (d0 V c).recorded t = Set.univ
  hb0 : ∀ V c, BodyObligation (d0 V c) (defs₀ (F := F)) Variants.none () Set.univ
  hin0 : ∀ V c, (Pipeline.ΦA spec0 c : sProp (MT nD τ sig Unit (Elt F) ℕ (UR sig nD τ) ℕ)) ⊢ (d0 V c).Φ 0
  hout0 : ∀ V c, (d0 V c).Φ (Fin.last cfg0.N) ⊢ (Pipeline.ΦA spec0 c : sProp (MT nD τ sig Unit (Elt F) ℕ (UR sig nD τ) ℕ))
  d1 : Entry F → (c : Dev nD) → Dat τ (Elt F) Unit ℕ (UR sig nD τ) ℕ cfg1 c
  hA1 : ∀ V c w, (d1 V c).A w = V c (Pipeline.arrRef spec1 w)
  hq1 : ∀ V c w, (d1 V c).q w = fullShare
  ho1 : ∀ V c t, (d1 V c).owed t = 0
  hr1 : ∀ V c t, (d1 V c).recorded t = Set.univ
  hb1 : ∀ V c, BodyObligation (d1 V c) (defs₀ (F := F)) Variants.none () Set.univ
  hin1 : ∀ V c, (Pipeline.ΦA spec1 c : sProp (MT nD τ sig Unit (Elt F) ℕ (UR sig nD τ) ℕ)) ⊢ (d1 V c).Φ 0
  hout1 : ∀ V c, (d1 V c).Φ (Fin.last cfg1.N) ⊢ (Pipeline.ΦA spec1 c : sProp (MT nD τ sig Unit (Elt F) ℕ (UR sig nD τ) ℕ))
  d2 : Entry F → (c : Dev nD) → Dat τ (Elt F) Unit ℕ (UR sig nD τ) ℕ cfg2 c
  hA2 : ∀ V c w, (d2 V c).A w = V c (Pipeline.arrRef spec2 w)
  hq2 : ∀ V c w, (d2 V c).q w = fullShare
  ho2 : ∀ V c t, (d2 V c).owed t = 0
  hr2 : ∀ V c t, (d2 V c).recorded t = Set.univ
  hb2 : ∀ V c, BodyObligation (d2 V c) (defs₀ (F := F)) Variants.none () Set.univ
  hin2 : ∀ V c, (Pipeline.ΦA spec2 c : sProp (MT nD τ sig Unit (Elt F) ℕ (UR sig nD τ) ℕ)) ⊢ (d2 V c).Φ 0
  hout2 : ∀ V c, (d2 V c).Φ (Fin.last cfg2.N) ⊢ (Pipeline.ΦA spec2 c : sProp (MT nD τ sig Unit (Elt F) ℕ (UR sig nD τ) ℕ))
  d3 : Entry F → (c : Dev nD) → Dat τ (Elt F) Unit ℕ (UR sig nD τ) ℕ cfg3 c
  hA3 : ∀ V c w, (d3 V c).A w = V c (Pipeline.arrRef spec3 w)
  hq3 : ∀ V c w, (d3 V c).q w = fullShare
  ho3 : ∀ V c t, (d3 V c).owed t = 0
  hr3 : ∀ V c t, (d3 V c).recorded t = Set.univ
  hb3 : ∀ V c, BodyObligation (d3 V c) (defs₀ (F := F)) Variants.none () Set.univ
  hin3 : ∀ V c, (Pipeline.ΦA spec3 c : sProp (MT nD τ sig Unit (Elt F) ℕ (UR sig nD τ) ℕ)) ⊢ (d3 V c).Φ 0
  hout3 : ∀ V c, (d3 V c).Φ (Fin.last cfg3.N) ⊢ (Pipeline.ΦA spec3 c : sProp (MT nD τ sig Unit (Elt F) ℕ (UR sig nD τ) ℕ))

variable (m : (ℓ : Loc nD τ sig) → Buf (Elt F) ℓ) (D : Data F)

/-! ## The buffers' contents at each boundary of @main -/

/-- At launch. -/
abbrev W0 (c : Dev nD) : Valuation τ sig (Elt F) := fun b => m (c, b)
/-- After the first host stretch: region 0 is entered with these. -/
abbrev W1 (c : Dev nD) : Valuation τ sig (Elt F) := StableHlo.after hostOps0 (W0 m c)
abbrev V1 : Entry F := fun c b => W1 m c b
/-- After region 0: its arrays at what its write-backs leave, every other buffer as entered. -/
def W2 (c : Dev nD) : Valuation τ sig (Elt F) :=
  Pipeline.withArrays spec0 c (W1 m c) fun w => (D.d0 (V1 m) c).arrAt w cfg0.N
theorem W2_arr (c : Dev nD) (w : Fin cfg0.W) :
    W2 m D c (Proc.devRef .tc (Pipeline.arrRef spec0 w)) = (D.d0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m D c (Proc.devRef .tc b) = W1 m c (Proc.devRef .tc b) := by
  unfold W2; exact Pipeline.withArrays_of_ne spec0 c _ _ b hb
abbrev V2 : Entry F := fun c b => W2 m D c b
theorem hF0 (c : Dev nD) (w : Fin cfg0.W) : (D.d0 (V1 m) c).arrAt w cfg0.N = V2 m D c (Pipeline.arrRef spec0 w) :=
  (W2_arr m D c w).symm
theorem hrest0 (c : Dev nD) : ∀ b, b ∉ Finset.univ.image (Pipeline.arrRef spec0) → V2 m D c b = V1 m c b :=
  fun b hb => W2_of_ne m D c b fun w e => hb (Finset.mem_image.mpr ⟨w, Finset.mem_univ _, e⟩)

/-- After the second host stretch: region 1 is entered with these. -/
abbrev W3 (c : Dev nD) : Valuation τ sig (Elt F) := StableHlo.after hostOps1 (W2 m D c)
abbrev V3 : Entry F := fun c b => W3 m D c b
/-- After region 1. Region 2 follows it directly and is entered with the same contents. -/
def W4 (c : Dev nD) : Valuation τ sig (Elt F) :=
  Pipeline.withArrays spec1 c (W3 m D c) fun w => (D.d1 (V3 m D) c).arrAt w cfg1.N
theorem W4_arr (c : Dev nD) (w : Fin cfg1.W) :
    W4 m D c (Proc.devRef .tc (Pipeline.arrRef spec1 w)) = (D.d1 (V3 m D) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m D c (Proc.devRef .tc b) = W3 m D c (Proc.devRef .tc b) := by
  unfold W4; exact Pipeline.withArrays_of_ne spec1 c _ _ b hb
abbrev V4 : Entry F := fun c b => W4 m D c b
theorem hF1 (c : Dev nD) (w : Fin cfg1.W) : (D.d1 (V3 m D) c).arrAt w cfg1.N = V4 m D c (Pipeline.arrRef spec1 w) :=
  (W4_arr m D c w).symm
theorem hrest1 (c : Dev nD) : ∀ b, b ∉ Finset.univ.image (Pipeline.arrRef spec1) → V4 m D c b = V3 m D c b :=
  fun b hb => W4_of_ne m D c b fun w e => hb (Finset.mem_image.mpr ⟨w, Finset.mem_univ _, e⟩)

/-- After region 2. -/
def W5 (c : Dev nD) : Valuation τ sig (Elt F) :=
  Pipeline.withArrays spec2 c (W4 m D c) fun w => (D.d2 (V4 m D) c).arrAt w cfg2.N
theorem W5_arr (c : Dev nD) (w : Fin cfg2.W) :
    W5 m D c (Proc.devRef .tc (Pipeline.arrRef spec2 w)) = (D.d2 (V4 m D) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m D c (Proc.devRef .tc b) = W4 m D c (Proc.devRef .tc b) := by
  unfold W5; exact Pipeline.withArrays_of_ne spec2 c _ _ b hb
abbrev V5 : Entry F := fun c b => W5 m D c b
theorem hF2 (c : Dev nD) (w : Fin cfg2.W) : (D.d2 (V4 m D) c).arrAt w cfg2.N = V5 m D c (Pipeline.arrRef spec2 w) :=
  (W5_arr m D c w).symm
theorem hrest2 (c : Dev nD) : ∀ b, b ∉ Finset.univ.image (Pipeline.arrRef spec2) → V5 m D c b = V4 m D c b :=
  fun b hb => W5_of_ne m D c b fun w e => hb (Finset.mem_image.mpr ⟨w, Finset.mem_univ _, e⟩)

/-- After the third host stretch: region 3 is entered with these. -/
abbrev W6 (c : Dev nD) : Valuation τ sig (Elt F) := StableHlo.after hostOps3 (W5 m D c)
abbrev V6 : Entry F := fun c b => W6 m D c b
/-- After region 3: the contents @main returns with. -/
def W7 (c : Dev nD) : Valuation τ sig (Elt F) :=
  Pipeline.withArrays spec3 c (W6 m D c) fun w => (D.d3 (V6 m D) c).arrAt w cfg3.N
theorem W7_arr (c : Dev nD) (w : Fin cfg3.W) :
    W7 m D c (Proc.devRef .tc (Pipeline.arrRef spec3 w)) = (D.d3 (V6 m D) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m D c (Proc.devRef .tc b) = W6 m D c (Proc.devRef .tc b) := by
  unfold W7; exact Pipeline.withArrays_of_ne spec3 c _ _ b hb
abbrev V7 : Entry F := fun c b => W7 m D c b
theorem hF3 (c : Dev nD) (w : Fin cfg3.W) : (D.d3 (V6 m D) c).arrAt w cfg3.N = V7 m D c (Pipeline.arrRef spec3 w) :=
  (W7_arr m D c w).symm
theorem hrest3 (c : Dev nD) : ∀ b, b ∉ Finset.univ.image (Pipeline.arrRef spec3) → V7 m D c b = V6 m D c b :=
  fun b hb => W7_of_ne m D c b fun w e => hb (Finset.mem_image.mpr ⟨w, Finset.mem_univ _, e⟩)

/-! ## The proof data family and what rides beside the buffers -/

/-- No region of this program reads a prefetched table. -/
abbrev adm : (p : Fin 4) → (pcfgs (F := F) p).Adm := fun p => (cfgs p).toPCfg_adm
abbrev 𝒱₀ : Variants := Variants.none
/-- No core owes another anything: no level is assigned. -/
abbrev L : GSem nD τ sig → Finset Unit := fun _ => ∅
abbrev lv : GSem nD τ sig → Unit → ℕ := fun _ _ => 0
/-- Beside the buffers a core keeps its generator register, at some state, and owes nothing. -/
abbrev R (c : Dev nD) : sProp 𝕄 := iprop((∃ r, prngReg c r) ∗ ∃ W, owes (c : Thread nD τ) (0 : CellTallies nD τ sig Unit) W)

/-- Every pipeline's proof data, each at the contents its region is entered with: a literal match, so that the pinned
    configuration at a numeral reduces to the printed one. -/
def pdats : (p : Fin 4) → (c : Dev nD) → Dat τ (Elt F) Unit ℕ (UR sig nD τ) ℕ (Pipeline.pin (pcfgs (F := F)) adm p) c
  | ⟨0, _⟩ => fun c => D.d0 (V1 m) c
  | ⟨1, _⟩ => fun c => D.d1 (V3 m D) c
  | ⟨2, _⟩ => fun c => D.d2 (V4 m D) c
  | ⟨3, _⟩ => fun c => D.d3 (V6 m D) c

/-- A host stretch as a segment: its operations over the unscoped references from the contents `W`, the rest riding
    along; it leaves those references at the operations' fold over `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation of this program allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the generator register. -/
abbrev Tₙ (c : Dev nD) : sProp 𝕄 := iprop(StableHlo.held (c : Thread nD τ) (Pipeline.ucRefs τ sig) (W7 m D c) ∗ ∃ r, prngReg c r)

/-! ## The regions as segments -/

-- unifying a library lemma stated over the pinned configuration with the printed one unfolds plain definitions in a
-- metavariable's type
set_option backward.isDefEq.respectTransparency.types false in
/-- Region 0 over the thread state: entered with every unscoped buffer at the contents after the first host stretch,
    left with them at the contents after the region. Its windows' arrays are split out of the unscoped buffers at entry
    and put back, at what the write-backs leave, at exit; the generator register and the scoped rest pass through the
    region's invariant; nothing is owed and the kernel has no semaphore of its own. -/
def reg0 : Pipeline.RegionSeg (pcfgs (F := F)) adm (pdats m D) () defs₀ 𝒱₀ L lv 0 where
  win := launch0.win.to₀
  block_pos := launch0.block_pos
  stage_whole := launch0.stage_whole
  K := PEmpty
  osem k := k.elim
  ho := Pipeline.OwnSemFacts.none _
  hbody c := (D.hb0 (V1 m) c).loose
  hwaits := Pipeline.hwaits_of_owed_zero _ _ _ _ L lv 0 fun c t => D.ho0 (V1 m) c t
  pre c := iprop(StableHlo.held (c : Thread nD τ) (Pipeline.ucRefs τ sig) (W1 m c) ∗ R c)
  post c := iprop(StableHlo.held (c : Thread nD τ) (Pipeline.ucRefs τ sig) (W2 m D c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    unfold Pipeline.Dat.owesAt Pipeline.owesWithin
    rw [show (pdats m D 0 c).owed 0 = 0 from D.ho0 (V1 m) c 0]
    have hsplit := Pipeline.arrays_of_unscopedBufs (p := 0) (pcfgs (F := F)) adm (pdats m D) launch0.win launch0.arr_whole c
      ((pdats m D 0 c).share_full fun w => D.hq0 (V1 m) c w) (V1 m c) fun w => D.hA0 (V1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr
      · ipureintro; exact fun x _ => Or.inl (by rw [show (pdats m D 0 c).recorded 0 = Set.univ from D.hr0 (V1 m) c 0]; trivial)
      iexact HO
    isplitl [Hp]; · iexact Hp
    iexact Hrest
  hin c := by
    have h : iprop((∃ r, prngReg c r) ∗ Pipeline.prefHeld (pcfgs (F := F) 0).pre c (fun _ => fullShare) (adm (F := F) 0).1
          ∗ Pipeline.scopedRest (Pipeline.pin (pcfgs (F := F)) adm 0).spec c) ⊢ (Pipeline.ΦA spec0 c : sProp 𝕄) := by
      unfold Pipeline.ΦA
      iintro ⟨Hp, -, Hr⟩
      isplitl [Hr]; · iexact Hr
      iexact Hp
    exact h.trans (D.hin0 (V1 m) c)
  hout c := by
    rw [Pipeline.ownSems0_none]
    have h : (Pipeline.ΦA spec0 c : sProp 𝕄) ⊢ iprop((∃ r, prngReg c r) ∗ BI.emp
          ∗ Pipeline.scopedRest (Pipeline.pin (pcfgs (F := F)) adm 0).spec c) := by
      unfold Pipeline.ΦA
      iintro ⟨Hr, Hp⟩
      isplitl [Hp]; · iexact Hp
      isplitr; · iempintro
      iexact Hr
    exact (D.hout0 (V1 m) c).trans h
  hexit c := by
    unfold Pipeline.Dat.owesAt Pipeline.owesWithin
    rw [show (pdats m D 0 c).owed (Fin.last (Pipeline.pin (pcfgs (F := F)) adm 0).N) = 0 from D.ho0 (V1 m) c _]
    have hjoin := Pipeline.unscopedBufs_of_arrays (p := 0) (pcfgs (F := F)) adm (Ix := Unit) (Name := ℕ) (U := UR sig nD τ) (Lvl := ℕ)
      launch0.win launch0.arr_whole c (pdats m D) ((pdats m D 0 c).share_full fun w => D.hq0 (V1 m) c w)
      (V1 m c) (V2 m D c) ((pdats m D 0 c).arrAt · cfg0.N) (hF0 m D c) (hrest0 m D c)
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W, -, HO⟩; iexists W; iexact HO

-- unifying a library lemma stated over the pinned configuration with the printed one unfolds plain definitions in a
-- metavariable's type
set_option backward.isDefEq.respectTransparency.types false in
/-- Region 1 over the thread state: entered with every unscoped buffer at the contents after the second host stretch,
    left with them at the contents after the region. Its windows' arrays are split out of the unscoped buffers at entry
    and put back, at what the write-backs leave, at exit; the generator register and the scoped rest pass through the
    region's invariant; nothing is owed and the kernel has no semaphore of its own. -/
def reg1 : Pipeline.RegionSeg (pcfgs (F := F)) adm (pdats m D) () defs₀ 𝒱₀ L lv 1 where
  win := launch1.win.to₀
  block_pos := launch1.block_pos
  stage_whole := launch1.stage_whole
  K := PEmpty
  osem k := k.elim
  ho := Pipeline.OwnSemFacts.none _
  hbody c := (D.hb1 (V3 m D) c).loose
  hwaits := Pipeline.hwaits_of_owed_zero _ _ _ _ L lv 1 fun c t => D.ho1 (V3 m D) c t
  pre c := iprop(StableHlo.held (c : Thread nD τ) (Pipeline.ucRefs τ sig) (W3 m D c) ∗ R c)
  post c := iprop(StableHlo.held (c : Thread nD τ) (Pipeline.ucRefs τ sig) (W4 m D c) ∗ R c)
  X c := iprop(∃ r, prngReg c r)
  Y c := iprop(∃ r, prngReg c r)
  Z c := Pipeline.unscopedRest (Ix := Unit) (Name := ℕ) (U := UR sig nD τ) (Lvl := ℕ) spec1 c (V3 m D c)
  hentry c := by
    rw [Pipeline.ownSems0_none]
    unfold Pipeline.Dat.owesAt Pipeline.owesWithin
    rw [show (pdats m D 1 c).owed 0 = 0 from D.ho1 (V3 m D) c 0]
    have hsplit := Pipeline.arrays_of_unscopedBufs (p := 1) (pcfgs (F := F)) adm (pdats m D) launch1.win launch1.arr_whole c
      ((pdats m D 1 c).share_full fun w => D.hq1 (V3 m D) c w) (V3 m D c) fun w => D.hA1 (V3 m D) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr
      · ipureintro; exact fun x _ => Or.inl (by rw [show (pdats m D 1 c).recorded 0 = Set.univ from D.hr1 (V3 m D) c 0]; trivial)
      iexact HO
    isplitl [Hp]; · iexact Hp
    iexact Hrest
  hin c := by
    have h : iprop((∃ r, prngReg c r) ∗ Pipeline.prefHeld (pcfgs (F := F) 1).pre c (fun _ => fullShare) (adm (F := F) 1).1
          ∗ Pipeline.scopedRest (Pipeline.pin (pcfgs (F := F)) adm 1).spec c) ⊢ (Pipeline.ΦA spec1 c : sProp 𝕄) := by
      unfold Pipeline.ΦA
      iintro ⟨Hp, -, Hr⟩
      isplitl [Hr]; · iexact Hr
      iexact Hp
    exact h.trans (D.hin1 (V3 m D) c)
  hout c := by
    rw [Pipeline.ownSems0_none]
    have h : (Pipeline.ΦA spec1 c : sProp 𝕄) ⊢ iprop((∃ r, prngReg c r) ∗ BI.emp
          ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (D.hout1 (V3 m D) c).trans h
  hexit c := by
    unfold Pipeline.Dat.owesAt Pipeline.owesWithin
    rw [show (pdats m D 1 c).owed (Fin.last (Pipeline.pin (pcfgs (F := F)) adm 1).N) = 0 from D.ho1 (V3 m D) c _]
    have hjoin := Pipeline.unscopedBufs_of_arrays (p := 1) (pcfgs (F := F)) adm (Ix := Unit) (Name := ℕ) (U := UR sig nD τ) (Lvl := ℕ)
      launch1.win launch1.arr_whole c (pdats m D) ((pdats m D 1 c).share_full fun w => D.hq1 (V3 m D) c w)
      (V3 m D c) (V4 m D c) ((pdats m D 1 c).arrAt · cfg1.N) (hF1 m D c) (hrest1 m D c)
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W, -, HO⟩; iexists W; iexact HO

-- unifying a library lemma stated over the pinned configuration with the printed one unfolds plain definitions in a
-- metavariable's type
set_option backward.isDefEq.respectTransparency.types false in
/-- Region 2 over the thread state: entered with every unscoped buffer at the contents region 1 left (no host operation stands between them),
    left with them at the contents after the region. Its windows' arrays are split out of the unscoped buffers at entry
    and put back, at what the write-backs leave, at exit; the generator register and the scoped rest pass through the
    region's invariant; nothing is owed and the kernel has no semaphore of its own. -/
def reg2 : Pipeline.RegionSeg (pcfgs (F := F)) adm (pdats m D) () defs₀ 𝒱₀ L lv 2 where
  win := launch2.win.to₀
  block_pos := launch2.block_pos
  stage_whole := launch2.stage_whole
  K := PEmpty
  osem k := k.elim
  ho := Pipeline.OwnSemFacts.none _
  hbody c := (D.hb2 (V4 m D) c).loose
  hwaits := Pipeline.hwaits_of_owed_zero _ _ _ _ L lv 2 fun c t => D.ho2 (V4 m D) c t
  pre c := iprop(StableHlo.held (c : Thread nD τ) (Pipeline.ucRefs τ sig) (W4 m D c) ∗ R c)
  post c := iprop(StableHlo.held (c : Thread nD τ) (Pipeline.ucRefs τ sig) (W5 m D c) ∗ R c)
  X c := iprop(∃ r, prngReg c r)
  Y c := iprop(∃ r, prngReg c r)
  Z c := Pipeline.unscopedRest (Ix := Unit) (Name := ℕ) (U := UR sig nD τ) (Lvl := ℕ) spec2 c (V4 m D c)
  hentry c := by
    rw [Pipeline.ownSems0_none]
    unfold Pipeline.Dat.owesAt Pipeline.owesWithin
    rw [show (pdats m D 2 c).owed 0 = 0 from D.ho2 (V4 m D) c 0]
    have hsplit := Pipeline.arrays_of_unscopedBufs (p := 2) (pcfgs (F := F)) adm (pdats m D) launch2.win launch2.arr_whole c
      ((pdats m D 2 c).share_full fun w => D.hq2 (V4 m D) c w) (V4 m D c) fun w => D.hA2 (V4 m D) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr
      · ipureintro; exact fun x _ => Or.inl (by rw [show (pdats m D 2 c).recorded 0 = Set.univ from D.hr2 (V4 m D) c 0]; trivial)
      iexact HO
    isplitl [Hp]; · iexact Hp
    iexact Hrest
  hin c := by
    have h : iprop((∃ r, prngReg c r) ∗ Pipeline.prefHeld (pcfgs (F := F) 2).pre c (fun _ => fullShare) (adm (F := F) 2).1
          ∗ Pipeline.scopedRest (Pipeline.pin (pcfgs (F := F)) adm 2).spec c) ⊢ (Pipeline.ΦA spec2 c : sProp 𝕄) := by
      unfold Pipeline.ΦA
      iintro ⟨Hp, -, Hr⟩
      isplitl [Hr]; · iexact Hr
      iexact Hp
    exact h.trans (D.hin2 (V4 m D) c)
  hout c := by
    rw [Pipeline.ownSems0_none]
    have h : (Pipeline.ΦA spec2 c : sProp 𝕄) ⊢ iprop((∃ r, prngReg c r) ∗ BI.emp
          ∗ Pipeline.scopedRest (Pipeline.pin (pcfgs (F := F)) adm 2).spec c) := by
      unfold Pipeline.ΦA
      iintro ⟨Hr, Hp⟩
      isplitl [Hp]; · iexact Hp
      isplitr; · iempintro
      iexact Hr
    exact (D.hout2 (V4 m D) c).trans h
  hexit c := by
    unfold Pipeline.Dat.owesAt Pipeline.owesWithin
    rw [show (pdats m D 2 c).owed (Fin.last (Pipeline.pin (pcfgs (F := F)) adm 2).N) = 0 from D.ho2 (V4 m D) c _]
    have hjoin := Pipeline.unscopedBufs_of_arrays (p := 2) (pcfgs (F := F)) adm (Ix := Unit) (Name := ℕ) (U := UR sig nD τ) (Lvl := ℕ)
      launch2.win launch2.arr_whole c (pdats m D) ((pdats m D 2 c).share_full fun w => D.hq2 (V4 m D) c w)
      (V4 m D c) (V5 m D c) ((pdats m D 2 c).arrAt · cfg2.N) (hF2 m D c) (hrest2 m D c)
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W, -, HO⟩; iexists W; iexact HO

-- unifying a library lemma stated over the pinned configuration with the printed one unfolds plain definitions in a
-- metavariable's type
set_option backward.isDefEq.respectTransparency.types false in
/-- Region 3 over the thread state: entered with every unscoped buffer at the contents after the third host stretch,
    left with them at the contents @main returns with, beside the core owing nothing. Its windows' arrays are split out of the unscoped buffers at entry
    and put back, at what the write-backs leave, at exit; the generator register and the scoped rest pass through the
    region's invariant; nothing is owed and the kernel has no semaphore of its own. -/
def reg3 : Pipeline.RegionSeg (pcfgs (F := F)) adm (pdats m D) () defs₀ 𝒱₀ L lv 3 where
  win := launch3.win.to₀
  block_pos := launch3.block_pos
  stage_whole := launch3.stage_whole
  K := PEmpty
  osem k := k.elim
  ho := Pipeline.OwnSemFacts.none _
  hbody c := (D.hb3 (V6 m D) c).loose
  hwaits := Pipeline.hwaits_of_owed_zero _ _ _ _ L lv 3 fun c t => D.ho3 (V6 m D) c t
  pre c := iprop(StableHlo.held (c : Thread nD τ) (Pipeline.ucRefs τ sig) (W6 m D c) ∗ R c)
  post c := iprop(Tₙ m D c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V6 m D c)
  hentry c := by
    rw [Pipeline.ownSems0_none]
    unfold Pipeline.Dat.owesAt Pipeline.owesWithin
    rw [show (pdats m D 3 c).owed 0 = 0 from D.ho3 (V6 m D) c 0]
    have hsplit := Pipeline.arrays_of_unscopedBufs (p := 3) (pcfgs (F := F)) adm (pdats m D) launch3.win launch3.arr_whole c
      ((pdats m D 3 c).share_full fun w => D.hq3 (V6 m D) c w) (V6 m D c) fun w => D.hA3 (V6 m D) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr
      · ipureintro; exact fun x _ => Or.inl (by rw [show (pdats m D 3 c).recorded 0 = Set.univ from D.hr3 (V6 m D) c 0]; trivial)
      iexact HO
    isplitl [Hp]; · iexact Hp
    iexact Hrest
  hin c := by
    have h : iprop((∃ r, prngReg c r) ∗ Pipeline.prefHeld (pcfgs (F := F) 3).pre c (fun _ => fullShare) (adm (F := F) 3).1
          ∗ Pipeline.scopedRest (Pipeline.pin (pcfgs (F := F)) adm 3).spec c) ⊢ (Pipeline.ΦA spec3 c : sProp 𝕄) := by
      unfold Pipeline.ΦA
      iintro ⟨Hp, -, Hr⟩
      isplitl [Hr]; · iexact Hr
      iexact Hp
    exact h.trans (D.hin3 (V6 m D) c)
  hout c := by
    rw [Pipeline.ownSems0_none]
    have h : (Pipeline.ΦA spec3 c : sProp 𝕄) ⊢ iprop((∃ r, prngReg c r) ∗ BI.emp
          ∗ Pipeline.scopedRest (Pipeline.pin (pcfgs (F := F)) adm 3).spec c) := by
      unfold Pipeline.ΦA
      iintro ⟨Hr, Hp⟩
      isplitl [Hp]; · iexact Hp
      isplitr; · iempintro
      iexact Hr
    exact (D.hout3 (V6 m D) c).trans h
  hexit c := by
    unfold Pipeline.Dat.owesAt Pipeline.owesWithin
    rw [show (pdats m D 3 c).owed (Fin.last (Pipeline.pin (pcfgs (F := F)) adm 3).N) = 0 from D.ho3 (V6 m D) c _]
    have hjoin := Pipeline.unscopedBufs_of_arrays (p := 3) (pcfgs (F := F)) adm (Ix := Unit) (Name := ℕ) (U := UR sig nD τ) (Lvl := ℕ)
      launch3.win launch3.arr_whole c (pdats m D) ((pdats m D 3 c).share_full fun w => D.hq3 (V6 m D) c w)
      (V6 m D c) (V7 m D c) ((pdats m D 3 c).arrAt · cfg3.N) (hF3 m D c) (hrest3 m D c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    icases HO with ⟨%W, -, HO⟩; iexists W; iexact HO

/-! ## @main as segments, and the launch -/

/-- @main's seven items in order: a host segment per stretch from its boundary's contents, a region per kernel call. -/
abbrev segs : List (Pipeline.Seg (pcfgs (F := F)) adm (pdats m D) () defs₀ 𝒱₀ L lv) :=
  [ .host (hseg hostOps0 hostOps0_sub hostOps0_fresh (W0 m)),
    .region (reg0 m D),
    .host (hseg hostOps1 hostOps1_sub hostOps1_fresh (W2 m D)),
    .region (reg1 m D),
    .region (reg2 m D),
    .host (hseg hostOps3 hostOps3_sub hostOps3_fresh (W5 m D)),
    .region (reg3 m D) ]
/-- @main is the run of these segments: the generated chain of its items, the segments' run against it by
    definitional unfolding. -/
theorem main_run (c : Dev nD) : main (F := F) c = Pipeline.Seg.run (segs m D) := (main_chain c).trans (by chain_rfl)

-- the launch theorem's implicit arguments are found by unifying its conclusion with this one, which takes unfolding plain
-- definitions in a metavariable's type
set_option backward.isDefEq.respectTransparency.types false in
/-- THE RUN. From any memory with zero counters every weakly fair execution of @main on the TensorCores terminates,
    nothing faulting, and in the final memory every unscoped buffer of every core holds the contents `W7`: the fold
    through @main of the host stretches' operations and the regions' write-backs. -/
theorem run (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W7 m D c b) :=
  Pipeline.θ_run_regions_kit (pcfgs (F := F)) adm (pdats m D) () cellOf_inj emb₁ defs₀ 𝒱₀ L lv m ρ main (segs m D)
    (fun c Q => by rw [main_run m D c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m D)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m D c b)
    (hfin := fun c s' => by
      iintro ⟨⟨Hh, -⟩, HSI⟩
      unfold StableHlo.held
      imodintro
      iapply (pointsTo_read_all (Pipeline.ucRefs τ sig) (fun b => (((c : Thread nD τ)).1, b)) (W7 m D c) s')
      isplitl [Hh] <;> iassumption)
    (hQ := fun s h => h)

end Cert.KernelIdeal.Hand

end
-- ==== Proof.KI_RunArgs.lean ====
/-
  What the kernel program's last contents are at the buffers the certificate speaks of.

  An argument array is written by no host operation, and no kernel region has one behind an output window: the
  first argument is behind an INPUT window of every region (an input window's array is never written back, so it
  holds at the region's exit what it held at entry), the others are read by host operations only. So the fold
  through @main, read at an argument, walks back to the launch memory. The result array is behind the last region's
  output window and is read by nothing after it: it ends at what that region's write-backs leave.
-/
import proofs.«134035_j84430467104804_1_alg».proof.Proof.KI_Run
import proofs.«134035_j84430467104804_1_alg».proof.Proof.Gen.KernelIdeal.Regions

set_option maxRecDepth 16384

noncomputable section

namespace Cert.KernelIdeal.Hand

open Idealize.ShloMosaic Idealize.ShloMosaic.TcCoe
open Idealize.SL Idealize.SL.Sem
open Idealize.ShloMosaic.Pipeline (Dat)
open Cert.KernelIdeal

variable {F : FTy → Type} [FloatOps F]
variable (m : (ℓ : Loc nD τ sig) → Buf (Elt F) ℓ) (D : Data F)

/-! ## A host stretch leaves alone what it does not write -/

theorem W1_of (c : Dev nD) (r : Ref sig .tc) (h : r ∉ Gen.hostOps0_W) : W1 m c (Proc.devRef .tc r) = W0 m c (Proc.devRef .tc r) :=
  StableHlo.after_of_writes_sub Gen.hostOps0 _ Gen.hostOps0_writes h
theorem W3_of (c : Dev nD) (r : Ref sig .tc) (h : r ∉ Gen.hostOps1_W) : W3 m D c (Proc.devRef .tc r) = W2 m D c (Proc.devRef .tc r) :=
  StableHlo.after_of_writes_sub Gen.hostOps1 _ Gen.hostOps1_writes h
theorem W6_of (c : Dev nD) (r : Ref sig .tc) (h : r ∉ Gen.hostOps3_W) : W6 m D c (Proc.devRef .tc r) = W5 m D c (Proc.devRef .tc r) :=
  StableHlo.after_of_writes_sub Gen.hostOps3 _ Gen.hostOps3_writes h

/-! ## The first argument: behind input window 0 of every region -/

theorem W2_arg0 (c : Dev nD) : W2 m D c (Proc.devRef .tc main_arg0) = W1 m c (Proc.devRef .tc main_arg0) :=
  (W2_arr m D c 0).trans (((D.d0 (V1 m) c).arrAt_in 0 rfl _).trans (D.hA0 (V1 m) c 0))
theorem W4_arg0 (c : Dev nD) : W4 m D c (Proc.devRef .tc main_arg0) = W3 m D c (Proc.devRef .tc main_arg0) :=
  (W4_arr m D c 0).trans (((D.d1 (V3 m D) c).arrAt_in 0 rfl _).trans (D.hA1 (V3 m D) c 0))
theorem W5_arg0 (c : Dev nD) : W5 m D c (Proc.devRef .tc main_arg0) = W4 m D c (Proc.devRef .tc main_arg0) :=
  (W5_arr m D c 0).trans (((D.d2 (V4 m D) c).arrAt_in 0 rfl _).trans (D.hA2 (V4 m D) c 0))
theorem W7_arg0 (c : Dev nD) : W7 m D c (Proc.devRef .tc main_arg0) = W6 m D c (Proc.devRef .tc main_arg0) :=
  (W7_arr m D c 0).trans (((D.d3 (V6 m D) c).arrAt_in 0 rfl _).trans (D.hA3 (V6 m D) c 0))

/-- The first argument ends as launched. -/
theorem W7_main_arg0 (c : Dev nD) : W7 m D c (Proc.devRef .tc main_arg0) = m ((c : Thread nD τ).loc main_arg0) :=
  (W7_arg0 m D c).trans <| (W6_of m D c main_arg0 (by decide)).trans <| (W5_arg0 m D c).trans <| (W4_arg0 m D c).trans <|
    (W3_of m D c main_arg0 (by decide)).trans <| (W2_arg0 m D c).trans <| (W1_of m c main_arg0 (by decide)).trans rfl

/-! ## The other arguments: behind no window of any region -/

/-- A buffer that is no window's array of any region and that no host stretch writes ends as launched. -/
theorem W7_of_untouched (c : Dev nD) (r : Ref sig .tc)
    (h0 : ∀ w, Pipeline.arrRef spec0 w ≠ r) (h1 : ∀ w, Pipeline.arrRef spec1 w ≠ r) (h2 : ∀ w, Pipeline.arrRef spec2 w ≠ r)
    (h3 : ∀ w, Pipeline.arrRef spec3 w ≠ r) (g0 : r ∉ Gen.hostOps0_W) (g1 : r ∉ Gen.hostOps1_W) (g3 : r ∉ Gen.hostOps3_W) :
    W7 m D c (Proc.devRef .tc r) = m ((c : Thread nD τ).loc r) :=
  (W7_of_ne m D c r h3).trans <| (W6_of m D c r g3).trans <| (W5_of_ne m D c r h2).trans <| (W4_of_ne m D c r h1).trans <|
    (W3_of m D c r g1).trans <| (W2_of_ne m D c r h0).trans <| (W1_of m c r g0).trans rfl

theorem W7_main_arg1 (c : Dev nD) : W7 m D c (Proc.devRef .tc main_arg1) = m ((c : Thread nD τ).loc main_arg1) :=
  W7_of_untouched m D c main_arg1 (by decide) (by decide) (by decide) (by decide) (by decide) (by decide) (by decide)
theorem W7_main_arg2 (c : Dev nD) : W7 m D c (Proc.devRef .tc main_arg2) = m ((c : Thread nD τ).loc main_arg2) :=
  W7_of_untouched m D c main_arg2 (by decide) (by decide) (by decide) (by decide) (by decide) (by decide) (by decide)
theorem W7_main_arg3 (c : Dev nD) : W7 m D c (Proc.devRef .tc main_arg3) = m ((c : Thread nD τ).loc main_arg3) :=
  W7_of_untouched m D c main_arg3 (by decide) (by decide) (by decide) (by decide) (by decide) (by decide) (by decide)
theorem W7_main_arg4 (c : Dev nD) : W7 m D c (Proc.devRef .tc main_arg4) = m ((c : Thread nD τ).loc main_arg4) :=
  W7_of_untouched m D c main_arg4 (by decide) (by decide) (by decide) (by decide) (by decide) (by decide) (by decide)
theorem W7_main_arg5 (c : Dev nD) : W7 m D c (Proc.devRef .tc main_arg5) = m ((c : Thread nD τ).loc main_arg5) :=
  W7_of_untouched m D c main_arg5 (by decide) (by decide) (by decide) (by decide) (by decide) (by decide) (by decide)
theorem W7_main_arg6 (c : Dev nD) : W7 m D c (Proc.devRef .tc main_arg6) = m ((c : Thread nD τ).loc main_arg6) :=
  W7_of_untouched m D c main_arg6 (by decide) (by decide) (by decide) (by decide) (by decide) (by decide) (by decide)
theorem W7_main_arg7 (c : Dev nD) : W7 m D c (Proc.devRef .tc main_arg7) = m ((c : Thread nD τ).loc main_arg7) :=
  W7_of_untouched m D c main_arg7 (by decide) (by decide) (by decide) (by decide) (by decide) (by decide) (by decide)
theorem W7_main_arg8 (c : Dev nD) : W7 m D c (Proc.devRef .tc main_arg8) = m ((c : Thread nD τ).loc main_arg8) :=
  W7_of_untouched m D c main_arg8 (by decide) (by decide) (by decide) (by decide) (by decide) (by decide) (by decide)
theorem W7_main_arg9 (c : Dev nD) : W7 m D c (Proc.devRef .tc main_arg9) = m ((c : Thread nD τ).loc main_arg9) :=
  W7_of_untouched m D c main_arg9 (by decide) (by decide) (by decide) (by decide) (by decide) (by decide) (by decide)
theorem W7_main_arg10 (c : Dev nD) : W7 m D c (Proc.devRef .tc main_arg10) = m ((c : Thread nD τ).loc main_arg10) :=
  W7_of_untouched m D c main_arg10 (by decide) (by decide) (by decide) (by decide) (by decide) (by decide) (by decide)
theorem W7_main_arg11 (c : Dev nD) : W7 m D c (Proc.devRef .tc main_arg11) = m ((c : Thread nD τ).loc main_arg11) :=
  W7_of_untouched m D c main_arg11 (by decide) (by decide) (by decide) (by decide) (by decide) (by decide) (by decide)
theorem W7_main_arg12 (c : Dev nD) : W7 m D c (Proc.devRef .tc main_arg12) = m ((c : Thread nD τ).loc main_arg12) :=
  W7_of_untouched m D c main_arg12 (by decide) (by decide) (by decide) (by decide) (by decide) (by decide) (by decide)
theorem W7_main_arg13 (c : Dev nD) : W7 m D c (Proc.devRef .tc main_arg13) = m ((c : Thread nD τ).loc main_arg13) :=
  W7_of_untouched m D c main_arg13 (by decide) (by decide) (by decide) (by decide) (by decide) (by decide) (by decide)

/-- The result array ends at what the last region's write-backs leave. -/
theorem W7_main_v32 (c : Dev nD) : W7 m D c (Proc.devRef .tc main_v32) = (D.d3 (V6 m D) c).arrAt 10 cfg3.N :=
  W7_arr m D c 10

end Cert.KernelIdeal.Hand

end
-- ==== Proof.KI_R0Base.lean ====
/- Region 0 (the message statistics): the column sums and the column sums of squares of the
   4096 x 256 pre-activation block of each of the 64 grid points, accumulated in two 1 x 256 rows that
   the body carries from point to point and copies into the two output rows at the last point.
   This module holds the mathematics of the carried rows: the blocks each point reads, the branch
   conditions in closed form, the rows after each point by recursion on the point, the invariant
   between points and the pipeline's proof data. -/
import proofs.«134035_j84430467104804_1_alg».proof.Proof.Gen.KernelIdeal.Launch
import proofs.«134035_j84430467104804_1_alg».proof.Proof.Gen.KernelIdeal.Skeleton
import proofs.«134035_j84430467104804_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

namespace R0

/-- An input window's current staging buffer holds its block at every point, fetched there or not, for any
    proof data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, in closed form -/

/-- The first conditional's condition (the rows are zeroed), from the grid coordinates. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The second conditional's condition (the rows are copied out), from the grid coordinates. -/
abbrev cond0_1 (i : grid0.Coords) : Prop := k0_cond2 i = 1#1
/-- It holds at the last point only. -/
theorem hcond0_1 : ∀ t : Fin cfg0.N, cond0_1 (grid0.coords t) ↔ t.val = 63 :=
  (by decide +kernel : ∀ t : Fin grid0.N, cond0_1 (grid0.coords t) ↔ t.val = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Before the last point the two output rows are idle and not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- At the last point they are live. -/
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The memrefs the body is called with -/

abbrev ms0_0 (t : Fin cfg0.N) : Memref sig .tc .vmem S4x32x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x32x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
/-- The two carried rows: whole scoped buffers of the kernel's own. -/
abbrev scM0_0 : Memref sig .tc .vmem S1x256 .f32 := Memref.whole cc0_scratch0
abbrev scM0_1 : Memref sig .tc .vmem S1x256 .f32 := Memref.whole cc0_scratch1

/-- The rest of the core's scoped memory, unopened. -/
abbrev rest0 (c : Dev nD) : sProp 𝕄 :=
  Pipeline.scopedRestBut (Ix := Unit) (Name := ℕ) (U := UR sig nD τ) (Lvl := ℕ) (Val := Elt F) spec0 c [cc0_scratch0, cc0_scratch1]

/-- What the launch hands the region, with the two carried rows as memrefs owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ rest0 c) ∗ (∃ r, prngReg c r)) := by
  unfold Pipeline.ΦA; rw [scopedRest0_split]; simp only [scM0_0, scM0_1, owns_whole]; try rfl

end R0

open R0

/-! ## The carried rows after each point -/

/-- The grid point numbered `n` (the first point for a number beyond the grid). -/
def R0.pt0 (n : ℕ) : Fin cfg0.N := if h : n < cfg0.N then ⟨n, h⟩ else ⟨0, lt_of_lt_of_eq (by decide : 0 < 64) N_0.symm⟩

theorem R0.pt0_eq (n : ℕ) (h : n < cfg0.N) : R0.pt0 n = ⟨n, h⟩ := dif_pos h

/-- One point's step of the two rows `s`: the first row takes the column sums of the point's block, the second
    the column sums of its squares, each added to what the row held. -/
def R0.step0 (c : Dev nD) (t : Fin cfg0.N) (s : Vec F S1x256 .f32 × Vec F S1x256 .f32) : Vec F S1x256 .f32 × Vec F S1x256 .f32 :=
  (k0_pay5 (iblk0 V c 0 t) (iblk0 V c 1 t) (iblk0 V c 2 t) (iblk0 V c 3 t) s.1,
   k0_pay1 s.2 (k0_pay6 (iblk0 V c 0 t) (iblk0 V c 1 t) (iblk0 V c 2 t) (iblk0 V c 3 t)))

/-- What the two carried rows hold after the body at point `n`: zeroed at the first point, then one step per point. -/
def acc0 (c : Dev nD) : ℕ → Vec F S1x256 .f32 × Vec F S1x256 .f32
  | 0 => R0.step0 V c (R0.pt0 0) (k0_pay2, k0_pay3)
  | n + 1 => R0.step0 V c (R0.pt0 (n + 1)) (acc0 c n)

theorem acc0_zero (c : Dev nD) (h0 : 0 < cfg0.N) :
    acc0 V c 0 = (k0_pay5 (iblk0 V c 0 ⟨0, h0⟩) (iblk0 V c 1 ⟨0, h0⟩) (iblk0 V c 2 ⟨0, h0⟩) (iblk0 V c 3 ⟨0, h0⟩) k0_pay2,
      k0_pay1 k0_pay3 (k0_pay6 (iblk0 V c 0 ⟨0, h0⟩) (iblk0 V c 1 ⟨0, h0⟩) (iblk0 V c 2 ⟨0, h0⟩) (iblk0 V c 3 ⟨0, h0⟩))) := by
  show R0.step0 V c (R0.pt0 0) _ = _
  rw [R0.pt0_eq 0 h0]; rfl

theorem acc0_succ (c : Dev nD) (n : ℕ) (hn : n + 1 < cfg0.N) :
    acc0 V c (n + 1) = (k0_pay5 (iblk0 V c 0 ⟨n + 1, hn⟩) (iblk0 V c 1 ⟨n + 1, hn⟩) (iblk0 V c 2 ⟨n + 1, hn⟩) (iblk0 V c 3 ⟨n + 1, hn⟩) (acc0 V c n).1,
      k0_pay1 (acc0 V c n).2 (k0_pay6 (iblk0 V c 0 ⟨n + 1, hn⟩) (iblk0 V c 1 ⟨n + 1, hn⟩) (iblk0 V c 2 ⟨n + 1, hn⟩) (iblk0 V c 3 ⟨n + 1, hn⟩))) := by
  show R0.step0 V c (R0.pt0 (n + 1)) _ = _
  rw [R0.pt0_eq (n + 1) hn]; rfl

/-- At a point `t`: the first point's rows, or one step from the rows of the point before. -/
theorem R0.acc0_at_zero (c : Dev nD) (t : Fin cfg0.N) (hz : t.val = 0) :
    acc0 V c t.val = R0.step0 V c t (k0_pay2, k0_pay3) := by
  obtain ⟨n, hn⟩ := t
  obtain rfl : n = 0 := hz
  show R0.step0 V c (R0.pt0 0) _ = _
  rw [R0.pt0_eq 0 hn]

theorem R0.acc0_at_pos (c : Dev nD) (t : Fin cfg0.N) (hz : t.val ≠ 0) :
    acc0 V c t.val = R0.step0 V c t (acc0 V c (t.val - 1)) := by
  obtain ⟨n, hn⟩ := t
  cases n with
  | zero => exact absurd rfl hz
  | succ n =>
    show R0.step0 V c (R0.pt0 (n + 1)) _ = _
    rw [R0.pt0_eq (n + 1) hn]; rfl

/-! ## The invariant between points -/

/-- Before point `n`: at the first point what the launch hands the region; afterwards the two carried rows at what
    the point before left, the rest of the scoped memory unopened, the generator register at some state. -/
def R0.PhiS (c : Dev nD) : ℕ → sProp 𝕄
  | 0 => Pipeline.ΦA spec0 c
  | n + 1 => iprop(iprop(iprop(owns (c : Thread nD τ) scM0_0 fullShare (acc0 V c n).1 ∗ owns (c : Thread nD τ) scM0_1 fullShare (acc0 V c n).2) ∗ rest0 c) ∗ (∃ r, prngReg c r))

theorem R0.PhiS_zero (c : Dev nD) (n : ℕ) (hz : n = 0) : R0.PhiS V c n = Pipeline.ΦA spec0 c := by
  subst hz; rfl

theorem R0.PhiS_succ (c : Dev nD) (n : ℕ) :
    R0.PhiS V c (n + 1) = iprop(iprop(iprop(owns (c : Thread nD τ) scM0_0 fullShare (acc0 V c n).1 ∗ owns (c : Thread nD τ) scM0_1 fullShare (acc0 V c n).2) ∗ rest0 c) ∗ (∃ r, prngReg c r)) := rfl

theorem R0.PhiS_pos (c : Dev nD) (n : ℕ) (hz : n ≠ 0) :
    R0.PhiS V c n = iprop(iprop(iprop(owns (c : Thread nD τ) scM0_0 fullShare (acc0 V c (n - 1)).1 ∗ owns (c : Thread nD τ) scM0_1 fullShare (acc0 V c (n - 1)).2) ∗ rest0 c) ∗ (∃ r, prngReg c r)) := by
  cases n with
  | zero => exact absurd rfl hz
  | succ n => rfl

/-! ## The pipeline's proof data -/

/-- The proof data of the pipeline on core `c`: the arrays as the region finds them; after the body at point `t`
    each input's buffer at its block, the two output rows at the carried rows (read at the last point only); the
    invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (acc0 V c t.val).1
    | ⟨5, _⟩ => (acc0 V c t.val).2
  Φ t := R0.PhiS V c t.val
  q _ := fullShare
  owed _ := 0

theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := rfl
theorem owed_eq0 (c : Dev nD) (t : Fin (cfg0.N + 1)) : (dat0 V c).owed t = 0 := rfl
theorem rec_eq0 (c : Dev nD) (t : Fin (cfg0.N + 1)) : (dat0 V c).recorded t = Set.univ := rfl

namespace R0

theorem PhiS_castSucc (c : Dev nD) (t : Fin cfg0.N) : (dat0 V c).Φ t.castSucc = PhiS V c t.val := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (acc0 V c t.val).1 := by dsimp only [dat0]
theorem after0_5 (c : Dev nD) (t : Fin cfg0.N) : (dat0 V c).after 5 t = (acc0 V c t.val).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

end R0

/-! ## The invariant at the region's ends -/

/-- What the launch hands the region is the invariant before the first point. -/
theorem hin0 (c : Dev nD) : (Pipeline.ΦA spec0 c : sProp 𝕄) ⊢ (dat0 V c).Φ 0 := by
  rw [show (dat0 V c).Φ 0 = R0.PhiS V c 0 from rfl, R0.PhiS_zero V c 0 rfl]
  try exact Idealize.SL.BI.Entails.refl _

/-- After any point the invariant gives it back: the carried rows' named contents are forgotten. -/
theorem R0.Phi_out (c : Dev nD) (t : Fin (cfg0.N + 1)) (ht : t.val ≠ 0) : (dat0 V c).Φ t ⊢ (Pipeline.ΦA spec0 c : sProp 𝕄) := by
  rw [show (dat0 V c).Φ t = R0.PhiS V c t.val from rfl, R0.PhiS_pos V c _ ht, R0.PhiA0_eq]
  iintro ⟨⟨⟨HS0, HS1⟩, Hr⟩, Hg⟩
  isplitl [HS0 HS1 Hr]
  · isplitl [HS0 HS1]
    · isplitl [HS0]
      · iexists _; iexact HS0
      · iexists _; iexact HS1
    · iexact Hr
  iexact Hg

theorem hout0 (c : Dev nD) : (dat0 V c).Φ (Fin.last cfg0.N) ⊢ (Pipeline.ΦA spec0 c : sProp 𝕄) :=
  R0.Phi_out V c _ (by rw [Fin.val_last]; have : cfg0.N = 64 := N_0; omega)

end Cert.KernelIdeal.Hand

end
-- ==== Proof.KI_R0Run.lean ====
/- Region 0, the body on whole memrefs, in each of its three control cases. At the first grid point
   the two carried rows are zeroed before the step; at every point they take the point's column sums
   and column sums of squares on top of what they held; at the last point they are copied into the two
   output rows. First the two facts every case reads its stores and loads back with: a store
   through the whole rectangle leaves its payload, a load through it reads the contents. -/
import proofs.«134035_j84430467104804_1_alg».proof.Proof.KI_R0Base
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

open R0

namespace R0

/-- What any view reads after a last store through the whole rectangle at zero offsets: that store's payload. -/
theorem read_writes_cons_unit {sh : Shape} {e : EltTy} (v : View sig .tc .vmem sh e) (f : v.ty.Contents (Elt F))
    {off : Fin sh.rank → Nat} (hz : off = fun _ => 0) (inb : ∀ a, off a + sh.size a ≤ sh.size a)
    (w : sh.Idx → Elt F e) (L : List (View.Piece (Elt F) sh e)) :
    v.read (Elt F) (v.writes (Elt F) f ((⟨Rect.unit off sh.size inb, w⟩ : View.Piece (Elt F) sh e) :: L)) = w := by
  rw [View.read_writes_eq_canon _ _ _ (fun y => ⟨_, List.mem_cons_self, View.mem_set_unit_zero hz inb y⟩),
    View.canon_cons_unit_zero hz]

/-- A load of a whole memref through the whole rectangle at zero offsets reads its contents. -/
theorem readAt_unit {sh : Shape} {e : EltTy} (m : Memref sig .tc .vmem sh e) (h : m.IsWhole) (x : sh.Idx → Elt F e)
    {off : Fin sh.rank → Nat} (hz : off = fun _ => 0) (inb : ∀ a, off a + sh.size a ≤ sh.size a) :
    m.view.readAt (Elt F) (Rect.unit off sh.size inb).toLoadRect (h.unread x) = x := by
  rw [View.readAt_eq_ld, h.read_unread, View.ld_unit_zero hz]

theorem hz2 : (![0, 0] : Fin 2 → Nat) = fun _ => 0 := by funext a; fin_cases a <;> rfl
theorem hz3 : (![0, 0, 0] : Fin 3 → Nat) = fun _ => 0 := by funext a; fin_cases a <;> rfl

end R0

set_option maxHeartbeats 1000000 in
/-- The body at the first point, on whole memrefs: the inputs at their blocks, the two output rows at anything
    (handed back untouched), the carried rows at anything. It zeroes the carried rows and takes one step. -/
theorem R0.kernelRun0_A (c : Dev nD) (i : grid0.Coords) (arg1 : Memref sig .tc .vmem S4x32x128 .f32) (harg1 : arg1.IsWhole) (arg2 : Memref sig .tc .vmem S4x32x32 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : cond0_0 i) (hc1 : ¬cond0_1 i)
    (x0 : Vec F S4x32x128 .f32) (x1 : Vec F S4x32x32 .f32) (x2 : Vec F S256x256 .bf16) (x3 : Vec F S1x256 .f32)
    (xi4 xi5 : Vec F S1x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare xi4 ∗ owns (c : Thread nD τ) arg6 fullShare xi5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xi4 ∗ owns (c : Thread nD τ) arg6 fullShare xi5
            ∗ owns (c : Thread nD τ) arg7 fullShare (k0_pay5 x0 x1 x2 x3 k0_pay2) ∗ owns (c : Thread nD τ) arg8 fullShare (k0_pay1 k0_pay3 (k0_pay6 x0 x1 x2 x3))) -∗ K ⟨⟩))
      ⊢ wp frame (wpE (defs₀ (F := F)) Variants.none c none) E (cc0__msg_stats_kernel i arg1 harg1 arg2 harg2 arg3 harg3 arg4 harg4 arg5 harg5 arg6 harg6 arg7 harg7 arg8 harg8) K := by
  simp only [cc0__msg_stats_kernel_eq_skeleton]; unfold cc0__msg_stats_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    sl_unfold_words
    simp only [read_writes_cons_unit (sh := S1x256) _ _ hz2, View.readCov_unit_zero (S := S1x256) _ hz2, readAt_unit (sh := S1x256) _ _ _ hz2, readAt_unit (sh := S256x256) _ _ _ hz2, readAt_unit (sh := S4x32x128) _ _ _ hz3, readAt_unit (sh := S4x32x32) _ _ _ hz3]
  iexists _; isplitr
  swap; · iexact H7
  ipureintro
  sl_unfold_words
  simp only [read_writes_cons_unit (sh := S1x256) _ _ hz2, View.readCov_unit_zero (S := S1x256) _ hz2, readAt_unit (sh := S1x256) _ _ _ hz2, readAt_unit (sh := S256x256) _ _ _ hz2, readAt_unit (sh := S4x32x128) _ _ _ hz3, readAt_unit (sh := S4x32x32) _ _ _ hz3]

set_option maxHeartbeats 1000000 in
/-- The body at a point that is neither the first nor the last, on whole memrefs: the inputs at their blocks, the
    two output rows at anything (handed back untouched), the carried rows at `s0`, `s1`. It leaves the inputs and
    the output rows as they were and the carried rows one step further. -/
theorem R0.kernelRun0_B (c : Dev nD) (i : grid0.Coords) (arg1 : Memref sig .tc .vmem S4x32x128 .f32) (harg1 : arg1.IsWhole) (arg2 : Memref sig .tc .vmem S4x32x32 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : ¬cond0_1 i)
    (x0 : Vec F S4x32x128 .f32) (x1 : Vec F S4x32x32 .f32) (x2 : Vec F S256x256 .bf16) (x3 : Vec F S1x256 .f32)
    (s0 s1 xi4 xi5 : Vec F S1x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare xi4 ∗ owns (c : Thread nD τ) arg6 fullShare xi5
        ∗ owns (c : Thread nD τ) arg7 fullShare s0 ∗ owns (c : Thread nD τ) arg8 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xi4 ∗ owns (c : Thread nD τ) arg6 fullShare xi5
            ∗ owns (c : Thread nD τ) arg7 fullShare (k0_pay5 x0 x1 x2 x3 s0) ∗ owns (c : Thread nD τ) arg8 fullShare (k0_pay1 s1 (k0_pay6 x0 x1 x2 x3))) -∗ K ⟨⟩))
      ⊢ wp frame (wpE (defs₀ (F := F)) Variants.none c none) E (cc0__msg_stats_kernel i arg1 harg1 arg2 harg2 arg3 harg3 arg4 harg4 arg5 harg5 arg6 harg6 arg7 harg7 arg8 harg8) K := by
  simp only [cc0__msg_stats_kernel_eq_skeleton]; unfold cc0__msg_stats_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    sl_unfold_words
    simp only [read_writes_cons_unit (sh := S1x256) _ _ hz2, View.readCov_unit_zero (S := S1x256) _ hz2, readAt_unit (sh := S1x256) _ _ _ hz2, readAt_unit (sh := S256x256) _ _ _ hz2, readAt_unit (sh := S4x32x128) _ _ _ hz3, readAt_unit (sh := S4x32x32) _ _ _ hz3]
  iexists _; isplitr
  swap; · iexact H7
  ipureintro
  sl_unfold_words
  simp only [read_writes_cons_unit (sh := S1x256) _ _ hz2, View.readCov_unit_zero (S := S1x256) _ hz2, readAt_unit (sh := S1x256) _ _ _ hz2, readAt_unit (sh := S256x256) _ _ _ hz2, readAt_unit (sh := S4x32x128) _ _ _ hz3, readAt_unit (sh := S4x32x32) _ _ _ hz3]

set_option maxHeartbeats 1000000 in
/-- The body at the last point, on whole memrefs: the inputs at their blocks, the two output rows at anything,
    the carried rows at `s0`, `s1`. It takes one step and copies the carried rows into the output rows. -/
theorem R0.kernelRun0_C (c : Dev nD) (i : grid0.Coords) (arg1 : Memref sig .tc .vmem S4x32x128 .f32) (harg1 : arg1.IsWhole) (arg2 : Memref sig .tc .vmem S4x32x32 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : cond0_1 i)
    (x0 : Vec F S4x32x128 .f32) (x1 : Vec F S4x32x32 .f32) (x2 : Vec F S256x256 .bf16) (x3 : Vec F S1x256 .f32)
    (s0 s1 : Vec F S1x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ owns (c : Thread nD τ) arg7 fullShare s0 ∗ owns (c : Thread nD τ) arg8 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k0_pay5 x0 x1 x2 x3 s0) ∗ owns (c : Thread nD τ) arg6 fullShare (k0_pay1 s1 (k0_pay6 x0 x1 x2 x3))
            ∗ owns (c : Thread nD τ) arg7 fullShare (k0_pay5 x0 x1 x2 x3 s0) ∗ owns (c : Thread nD τ) arg8 fullShare (k0_pay1 s1 (k0_pay6 x0 x1 x2 x3))) -∗ K ⟨⟩))
      ⊢ wp frame (wpE (defs₀ (F := F)) Variants.none c none) E (cc0__msg_stats_kernel i arg1 harg1 arg2 harg2 arg3 harg3 arg4 harg4 arg5 harg5 arg6 harg6 arg7 harg7 arg8 harg8) K := by
  simp only [cc0__msg_stats_kernel_eq_skeleton]; unfold cc0__msg_stats_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
  obtain rfl := harg1.eq_unread hf0; obtain rfl := harg2.eq_unread hf1; obtain rfl := harg3.eq_unread hf2; obtain rfl := harg4.eq_unread hf3
  obtain rfl := harg7.eq_unread hf6; obtain rfl := harg8.eq_unread hf7
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    sl_unfold_words
    simp only [read_writes_cons_unit (sh := S1x256) _ _ hz2, View.readCov_unit_zero (S := S1x256) _ hz2, readAt_unit (sh := S1x256) _ _ _ hz2, readAt_unit (sh := S256x256) _ _ _ hz2, readAt_unit (sh := S4x32x128) _ _ _ hz3, readAt_unit (sh := S4x32x32) _ _ _ hz3]
  isplitl [H5]
  · iexists _; isplitr
    swap; · iexact H5
    ipureintro
    sl_unfold_words
    simp only [read_writes_cons_unit (sh := S1x256) _ _ hz2, View.readCov_unit_zero (S := S1x256) _ hz2, readAt_unit (sh := S1x256) _ _ _ hz2, readAt_unit (sh := S256x256) _ _ _ hz2, readAt_unit (sh := S4x32x128) _ _ _ hz3, readAt_unit (sh := S4x32x32) _ _ _ hz3]
  isplitl [H6]
  · iexists _; isplitr
    swap; · iexact H6
    ipureintro
    sl_unfold_words
    simp only [read_writes_cons_unit (sh := S1x256) _ _ hz2, View.readCov_unit_zero (S := S1x256) _ hz2, readAt_unit (sh := S1x256) _ _ _ hz2, readAt_unit (sh := S256x256) _ _ _ hz2, readAt_unit (sh := S4x32x128) _ _ _ hz3, readAt_unit (sh := S4x32x32) _ _ _ hz3]
  iexists _; isplitr
  swap; · iexact H7
  ipureintro
  sl_unfold_words
  simp only [read_writes_cons_unit (sh := S1x256) _ _ hz2, View.readCov_unit_zero (S := S1x256) _ hz2, readAt_unit (sh := S1x256) _ _ _ hz2, readAt_unit (sh := S256x256) _ _ _ hz2, readAt_unit (sh := S4x32x128) _ _ _ hz3, readAt_unit (sh := S4x32x32) _ _ _ hz3]

end Cert.KernelIdeal.Hand

end
-- ==== Proof.KI_R0.lean ====
/- Region 0 (the message statistics), the interface: the body obligation of the pipeline's proof data
   (the body at every grid point keeps the invariant of the two carried rows), and what the region's
   arrays hold after it: the two output rows at the carried rows after the last point, the inputs as
   the region found them. -/
import proofs.«134035_j84430467104804_1_alg».proof.Proof.KI_R0Run
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

open R0

/-! ## The body obligation -/

namespace R0

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 4800000 in
/-- The body at any point. The inputs' memrefs hold their blocks; the closed forms say whether the point is the
    first, the last or neither, and that case's run applies: the invariant hands the body the carried rows at what
    the point before left (at anything at the first point) and takes them back one step further, which is this
    point's rows; before the last point the output rows go back as they came, at the last they take the carried rows. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3]
  rw [show (dat0 V c).owesAt () t.succ = (dat0 V c).owesAt () t.castSucc from rfl]
  rw [show (dat0 V c).Φ t.succ = PhiS V c (t.val + 1) from rfl, PhiS_succ]
  have hN : t.val < 64 := lt_of_lt_of_eq t.isLt (show cfg0.N = 64 from N_0)
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  rw [show (dat0 V c).leavesExact 3 t = owns (c : Thread nD τ) (ms0_3 t) fullShare ((dat0 V c).after 3 t) from by
      unfold Dat.leavesExact; rw [liveAt0_3 t], after0_3]
  by_cases h1 : t.val = 63
  · have h0 : ¬t.val = 0 := by omega
    have hc0 : ¬cond0_0 (grid0.coords t) := fun h => h0 ((hcond0_0 t).mp h)
    have hc1 : cond0_1 (grid0.coords t) := (hcond0_1 t).mpr h1
    rw [show (dat0 V c).leavesExact 4 t = owns (c : Thread nD τ) (ms0_4 t) fullShare ((dat0 V c).after 4 t) from by
        unfold Dat.leavesExact; rw [liveAt0_4 t hc1], after0_4]
    rw [show (dat0 V c).leavesExact 5 t = owns (c : Thread nD τ) (ms0_5 t) fullShare ((dat0 V c).after 5 t) from by
        unfold Dat.leavesExact; rw [liveAt0_5 t hc1], after0_5]
    rw [acc0_at_pos V c t h0]
    unfold step0; (try dsimp only)
    rw [PhiS_castSucc V c t, PhiS_pos V c _ h0]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩⟩
    iapply (kernelRun0_C c (grid0.coords t) _ _ _ _ _ _ _ _ _ _ _ _ _ _ _ _ hc0 hc1 (iblk0 V c 0 t) (iblk0 V c 1 t) (iblk0 V c 2 t) (iblk0 V c 3 t) (acc0 V c (t.val - 1)).1 (acc0 V c (t.val - 1)).2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    isplitl [H3]; · iexact H3
    isplitl [H4]; · iexact H4
    iexact H5
  · have hc1 : ¬cond0_1 (grid0.coords t) := fun h => h1 ((hcond0_1 t).mp h)
    rw [Dat.leavesExact_idle (dat0 V c) 4 t (idleAt0_4 t hc1) (noFlush0_4 t hc1)]
    rw [Dat.leavesExact_idle (dat0 V c) 5 t (idleAt0_5 t hc1) (noFlush0_5 t hc1)]
    by_cases h0 : t.val = 0
    · have hc0 : cond0_0 (grid0.coords t) := (hcond0_0 t).mpr h0
      rw [acc0_at_zero V c t h0]
      unfold step0; (try dsimp only)
      rw [PhiS_castSucc V c t, PhiS_zero V c _ h0, PhiA0_eq]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩⟩
      iapply (kernelRun0_A c (grid0.coords t) _ _ _ _ _ _ _ _ _ _ _ _ _ _ _ _ hc0 hc1 (iblk0 V c 0 t) (iblk0 V c 1 t) (iblk0 V c 2 t) (iblk0 V c 3 t) _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · have hc0 : ¬cond0_0 (grid0.coords t) := fun h => h0 ((hcond0_0 t).mp h)
      rw [acc0_at_pos V c t h0]
      unfold step0; (try dsimp only)
      rw [PhiS_castSucc V c t, PhiS_pos V c _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩⟩
      iapply (kernelRun0_B c (grid0.coords t) _ _ _ _ _ _ _ _ _ _ _ _ _ _ _ _ hc0 hc1 (iblk0 V c 0 t) (iblk0 V c 1 t) (iblk0 V c 2 t) (iblk0 V c 3 t) (acc0 V c (t.val - 1)).1 (acc0 V c (t.val - 1)).2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

end R0

/-- The library's body obligation, at every point. -/
theorem body_obligation0 (c : Dev nD) : BodyObligation (dat0 (F := F) V c) (defs₀ (F := F)) Variants.none () Set.univ := fun t => by
  rw [bigSep_W0, bigSep_W0]
  exact R0.sound_body V c t

/-! ## The arrays after the region -/

/-- The last grid point. -/
def R0.tLast : Fin cfg0.N := ⟨63, lt_of_lt_of_eq (by decide : 63 < 64) N_0.symm⟩

/-- The one write-back of the first output row, at the last point, writes the first carried row: the row's one block,
    read through zero offsets, is the array. -/
theorem R0.flushed0_4 (c : Dev nD) (t : Fin cfg0.N) (hf : (cfg0.win 4).flush t = true) :
    (dat0 V c).flushed 4 t = ((cfg0.win 4).blk t).view.read (Elt F) ((acc0 V c 63).1 : Buf (Elt F) ((c : Thread nD τ).loc main_v17_0)) := by
  have hN : cfg0.N = 64 := N_0
  have h63 : t.val = 63 := by have := (flush0_4 t).mp hf; have := t.isLt; omega
  obtain rfl : t = R0.tLast := Fin.ext h63
  show (cfg0.win 4).cut (grid0.coords R0.tLast) ((dat0 V c).after 4 R0.tLast) = _
  rw [R0.after0_4]
  have hz' : (fun a => win0_4.index R0.tLast a * main_v17_0.ty.shape.size a) = fun _ => 0 := funext fun a => by fin_cases a <;> decide
  exact (Memref.read_access_unit_zero (Elt F) main_v17_0 hz' (fun a => by rw [congrFun hz' a]; simp) ((acc0 V c 63).1 : Buf (Elt F) ((c : Thread nD τ).loc main_v17_0))).symm

theorem R0.flushed0_5 (c : Dev nD) (t : Fin cfg0.N) (hf : (cfg0.win 5).flush t = true) :
    (dat0 V c).flushed 5 t = ((cfg0.win 5).blk t).view.read (Elt F) ((acc0 V c 63).2 : Buf (Elt F) ((c : Thread nD τ).loc main_v17_1)) := by
  have hN : cfg0.N = 64 := N_0
  have h63 : t.val = 63 := by have := (flush0_5 t).mp hf; have := t.isLt; omega
  obtain rfl : t = R0.tLast := Fin.ext h63
  show (cfg0.win 5).cut (grid0.coords R0.tLast) ((dat0 V c).after 5 R0.tLast) = _
  rw [R0.after0_5]
  have hz' : (fun a => win0_5.index R0.tLast a * main_v17_1.ty.shape.size a) = fun _ => 0 := funext fun a => by fin_cases a <;> decide
  exact (Memref.read_access_unit_zero (Elt F) main_v17_1 hz' (fun a => by rw [congrFun hz' a]; simp) ((acc0 V c 63).2 : Buf (Elt F) ((c : Thread nD τ).loc main_v17_1))).symm

/-- After the region the first output row holds the first carried row after the last point (the column sums). -/
theorem arrAt0_4 (c : Dev nD) : (dat0 V c).arrAt 4 cfg0.N = ((acc0 V c 63).1 : Buf (Elt F) ((c : Thread nD τ).loc main_v17_0)) :=
  (dat0 V c).arrAt_eq_of_cover 4 _ (R0.flushed0_4 V c) fun i =>
    ⟨R0.tLast, (flush0_4 R0.tLast).mpr rfl, by
      show i ∈ ((View.whole main_v17_0).slice (win0_4.rect R0.tLast)).set
      rw [View.set_slice_whole, Rect.mem_set_unit]
      intro a
      have h0 : (i 0 : Nat) < 1 := (i 0).isLt
      have h1 : (i 1 : Nat) < 256 := (i 1).isLt
      match a with
      | ⟨0, _⟩ => show win0_4.index R0.tLast 0 * win0_4.size 0 ≤ (i 0 : Nat) ∧ (i 0 : Nat) < win0_4.index R0.tLast 0 * win0_4.size 0 + win0_4.xsize (grid0.coords R0.tLast) 0
                  rw [show win0_4.index R0.tLast 0 * win0_4.size 0 = 0 from by decide +kernel, show win0_4.xsize (grid0.coords R0.tLast) 0 = 1 from by decide +kernel]; omega
      | ⟨1, _⟩ => show win0_4.index R0.tLast 1 * win0_4.size 1 ≤ (i 1 : Nat) ∧ (i 1 : Nat) < win0_4.index R0.tLast 1 * win0_4.size 1 + win0_4.xsize (grid0.coords R0.tLast) 1
                  rw [show win0_4.index R0.tLast 1 * win0_4.size 1 = 0 from by decide +kernel, show win0_4.xsize (grid0.coords R0.tLast) 1 = 256 from by decide +kernel]; omega⟩

/-- After the region the second output row holds the second carried row after the last point (the column sums of squares). -/
theorem arrAt0_5 (c : Dev nD) : (dat0 V c).arrAt 5 cfg0.N = ((acc0 V c 63).2 : Buf (Elt F) ((c : Thread nD τ).loc main_v17_1)) :=
  (dat0 V c).arrAt_eq_of_cover 5 _ (R0.flushed0_5 V c) fun i =>
    ⟨R0.tLast, (flush0_5 R0.tLast).mpr rfl, by
      show i ∈ ((View.whole main_v17_1).slice (win0_5.rect R0.tLast)).set
      rw [View.set_slice_whole, Rect.mem_set_unit]
      intro a
      have h0 : (i 0 : Nat) < 1 := (i 0).isLt
      have h1 : (i 1 : Nat) < 256 := (i 1).isLt
      match a with
      | ⟨0, _⟩ => show win0_5.index R0.tLast 0 * win0_5.size 0 ≤ (i 0 : Nat) ∧ (i 0 : Nat) < win0_5.index R0.tLast 0 * win0_5.size 0 + win0_5.xsize (grid0.coords R0.tLast) 0
                  rw [show win0_5.index R0.tLast 0 * win0_5.size 0 = 0 from by decide +kernel, show win0_5.xsize (grid0.coords R0.tLast) 0 = 1 from by decide +kernel]; omega
      | ⟨1, _⟩ => show win0_5.index R0.tLast 1 * win0_5.size 1 ≤ (i 1 : Nat) ∧ (i 1 : Nat) < win0_5.index R0.tLast 1 * win0_5.size 1 + win0_5.xsize (grid0.coords R0.tLast) 1
                  rw [show win0_5.index R0.tLast 1 * win0_5.size 1 = 0 from by decide +kernel, show win0_5.xsize (grid0.coords R0.tLast) 1 = 256 from by decide +kernel]; omega⟩

/-- The region writes no input array. -/
theorem arrAt0_in (c : Dev nD) (w : Fin cfg0.W) (hw : w.val < 4) : (dat0 V c).arrAt w cfg0.N = V c (Pipeline.arrRef spec0 w) :=
  match w, hw with
  | ⟨0, _⟩, _ => ((dat0 V c).arrAt_in 0 rfl _).trans (A_eq0 V c 0)
  | ⟨1, _⟩, _ => ((dat0 V c).arrAt_in 1 rfl _).trans (A_eq0 V c 1)
  | ⟨2, _⟩, _ => ((dat0 V c).arrAt_in 2 rfl _).trans (A_eq0 V c 2)
  | ⟨3, _⟩, _ => ((dat0 V c).arrAt_in 3 rfl _).trans (A_eq0 V c 3)
  | ⟨n + 4, h⟩, hw => absurd hw (by simp)

end Cert.KernelIdeal.Hand

end
-- ==== Proof.KI_R1.lean ====
/- The second message pass on one block of four batch entries: from the state block, the edge block, the
   first weight matrix with its bias, the batch statistics (mean, variance) and the affine rows, the
   second weight matrix and its bias, the body writes the aggregated messages of the block. This module
   holds the region's proof data — what each staging buffer holds after the body at every grid point,
   as the named payloads of the loads — the body's triple, and the obligation the pipeline asks of it. -/
import proofs.«134035_j84430467104804_1_alg».proof.Proof.Gen.KernelIdeal.Launch
import proofs.«134035_j84430467104804_1_alg».proof.Proof.Gen.KernelIdeal.Skeleton
import proofs.«134035_j84430467104804_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents when the region is entered: every statement below is at this parameter
variable (V : (c : Dev nD) → (b : Ref sig .tc) → Buf (Elt F) ((c : Thread nD τ).loc b))

/-! ## The windows' blocks -/

/-- Window `w`'s block at grid point `t`: the window's rectangle of its array, read off the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

namespace Cc

/-- The whole rectangle of each window's block: every load and the one store of the body go through these. -/
abbrev rect1_0 : Rect S4x32x128 := Rect.unit (s := S4x32x128) ![0, 0, 0] S4x32x128.size inb_S4x32x128_S4x32x128_0_0_0
abbrev rect1_1 : Rect S4x32x32 := Rect.unit (s := S4x32x32) ![0, 0, 0] S4x32x32.size inb_S4x32x32_S4x32x32_0_0_0
abbrev rect1_2 : Rect S256x256 := Rect.unit (s := S256x256) ![0, 0] S256x256.size inb_S256x256_S256x256_0_0
abbrev rect1_3 : Rect S1x256 := Rect.unit (s := S1x256) ![0, 0] S1x256.size inb_S1x256_S1x256_0_0
abbrev rect1_4 : Rect S1x256 := Rect.unit (s := S1x256) ![0, 0] S1x256.size inb_S1x256_S1x256_0_0
abbrev rect1_5 : Rect S1x256 := Rect.unit (s := S1x256) ![0, 0] S1x256.size inb_S1x256_S1x256_0_0
abbrev rect1_6 : Rect S1x256 := Rect.unit (s := S1x256) ![0, 0] S1x256.size inb_S1x256_S1x256_0_0
abbrev rect1_7 : Rect S1x256 := Rect.unit (s := S1x256) ![0, 0] S1x256.size inb_S1x256_S1x256_0_0
abbrev rect1_8 : Rect S256x128 := Rect.unit (s := S256x128) ![0, 0] S256x128.size inb_S256x128_S256x128_0_0
abbrev rect1_9 : Rect S1x128 := Rect.unit (s := S1x128) ![0, 0] S1x128.size inb_S1x128_S1x128_0_0
abbrev rect1_10 : Rect S4x32x128 := Rect.unit (s := S4x32x128) ![0, 0, 0] S4x32x128.size inb_S4x32x128_S4x32x128_0_0_0

/-- The windows 0..9 are inputs. -/
theorem isIn1 : ∀ (w : Fin cfg1.W), w.val < 10 → (cfg1.win w).isOut = false
  | ⟨0, _⟩, _ => rfl
  | ⟨1, _⟩, _ => rfl
  | ⟨2, _⟩, _ => rfl
  | ⟨3, _⟩, _ => rfl
  | ⟨4, _⟩, _ => rfl
  | ⟨5, _⟩, _ => rfl
  | ⟨6, _⟩, _ => rfl
  | ⟨7, _⟩, _ => rfl
  | ⟨8, _⟩, _ => rfl
  | ⟨9, _⟩, _ => rfl
  | ⟨n + 10, _⟩, h => absurd h (by simp)

/-- The offsets of every rectangle are zero. -/
theorem zero2_1 : (![0, 0] : Fin 2 → Nat) = fun _ => 0 := funext fun a => by fin_cases a <;> rfl
theorem zero3_1 : (![0, 0, 0] : Fin 3 → Nat) = fun _ => 0 := funext fun a => by fin_cases a <;> rfl

end Cc

/-! ## What the body leaves in the output block -/

/-- The output block after the body, from the ten input blocks: the one store, whose value is the second
    payload (the normalised, scaled messages) fed with the rest of the rows to the first (shift, leaky
    rectifier, second matrix product, sum over the neighbour axis). -/
def out1_10 (x0 : Vec F S4x32x128 .f32) (x1 : Vec F S4x32x32 .f32) (x2 : Vec F S256x256 .bf16) (x3 : Vec F S1x256 .f32) (x4 : Vec F S1x256 .f32) (x5 : Vec F S1x256 .f32) (x6 : Vec F S1x256 .f32) (x7 : Vec F S1x256 .f32) (x8 : Vec F S256x128 .bf16) (x9 : Vec F S1x128 .f32) : Vec F S4x32x128 .f32 :=
  View.canon [⟨Cc.rect1_10, k1_pay1 (k1_pay2 (View.ld x0 Cc.rect1_0) (View.ld x1 Cc.rect1_1) (View.ld x2 Cc.rect1_2) (View.ld x3 Cc.rect1_3) (View.ld x5 Cc.rect1_5) (View.ld x4 Cc.rect1_4) (View.ld x6 Cc.rect1_6)) (View.ld x7 Cc.rect1_7) (View.ld x8 Cc.rect1_8) (View.ld x9 Cc.rect1_9)⟩]

/-- The one store covers the block. -/
theorem Cc.cover1_10 (p0 : Vec F S4x32x128 .f32) (y : S4x32x128.Idx) :
    ∃ pc ∈ ([⟨Cc.rect1_10, p0⟩] : List (View.Piece (Elt F) S4x32x128 .f32)), y ∈ pc.1.set :=
  View.cover_of_tiled [⟨Cc.rect1_10, p0⟩] S4x32x128.size (by rfl) y

/-- A store through the whole rectangle leaves its value, and a load through the whole rectangle of a block is
    the block: the output block is the payloads applied to the input blocks themselves. -/
theorem out1_10_eq (x0 : Vec F S4x32x128 .f32) (x1 : Vec F S4x32x32 .f32) (x2 : Vec F S256x256 .bf16) (x3 : Vec F S1x256 .f32) (x4 : Vec F S1x256 .f32) (x5 : Vec F S1x256 .f32) (x6 : Vec F S1x256 .f32) (x7 : Vec F S1x256 .f32) (x8 : Vec F S256x128 .bf16) (x9 : Vec F S1x128 .f32) :
    out1_10 x0 x1 x2 x3 x4 x5 x6 x7 x8 x9 = k1_pay1 (k1_pay2 x0 x1 x2 x3 x5 x4 x6) x7 x8 x9 := by
  unfold out1_10
  rw [View.canon_unit_zero Cc.zero3_1]
  simp only [View.ld_unit_zero (S := S4x32x128) Cc.zero3_1, View.ld_unit_zero (S := S4x32x32) Cc.zero3_1, View.ld_unit_zero (S := S256x256) Cc.zero2_1, View.ld_unit_zero (S := S1x256) Cc.zero2_1, View.ld_unit_zero (S := S256x128) Cc.zero2_1, View.ld_unit_zero (S := S1x128) Cc.zero2_1]

/-! ## The body's triple -/

set_option maxHeartbeats 4000000 in
/-- The body on whole staging buffers — the inputs at contents `xW`, the output at anything — runs to its
    continuation with the inputs unchanged and the output at `out1_10` of the inputs. -/
theorem Cc.sound_kernel1 (c : Dev nD) (E : Set ℕ) (i : grid1.Coords) (a0 : Memref sig .tc .vmem S4x32x128 .f32) (ha0 : a0.IsWhole) (a1 : Memref sig .tc .vmem S4x32x32 .f32) (ha1 : a1.IsWhole) (a2 : Memref sig .tc .vmem S256x256 .bf16) (ha2 : a2.IsWhole) (a3 : Memref sig .tc .vmem S1x256 .f32) (ha3 : a3.IsWhole) (a4 : Memref sig .tc .vmem S1x256 .f32) (ha4 : a4.IsWhole) (a5 : Memref sig .tc .vmem S1x256 .f32) (ha5 : a5.IsWhole) (a6 : Memref sig .tc .vmem S1x256 .f32) (ha6 : a6.IsWhole) (a7 : Memref sig .tc .vmem S1x256 .f32) (ha7 : a7.IsWhole) (a8 : Memref sig .tc .vmem S256x128 .bf16) (ha8 : a8.IsWhole) (a9 : Memref sig .tc .vmem S1x128 .f32) (ha9 : a9.IsWhole) (a10 : Memref sig .tc .vmem S4x32x128 .f32) (ha10 : a10.IsWhole)
    (x0 : Vec F S4x32x128 .f32) (x1 : Vec F S4x32x32 .f32) (x2 : Vec F S256x256 .bf16) (x3 : Vec F S1x256 .f32) (x4 : Vec F S1x256 .f32) (x5 : Vec F S1x256 .f32) (x6 : Vec F S1x256 .f32) (x7 : Vec F S1x256 .f32) (x8 : Vec F S256x128 .bf16) (x9 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ (∃ d, owns (c : Thread nD τ) a10 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare (out1_10 x0 x1 x2 x3 x4 x5 x6 x7 x8 x9)) -∗ K ⟨⟩))
      ⊢ wp frame (wpE (defs₀ (F := F)) Variants.none c none) E (cc1__msg_apply_kernel i a0 ha0 a1 ha1 a2 ha2 a3 ha3 a4 ha4 a5 ha5 a6 ha6 a7 ha7 a8 ha8 a9 ha9 a10 ha10) K := by
  simp only [cc1__msg_apply_kernel_eq_skeleton]; unfold cc1__msg_apply_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0
  subst hf1
  subst hf2
  subst hf3
  subst hf4
  subst hf5
  subst hf6
  subst hf7
  subst hf8
  subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (Cc.cover1_10 _)

/-! ## The pipeline's proof data -/

/-- The proof data of the region on core `c`: the arrays as the region finds them; after the body at point
    `t` each input's buffer at its block and the output's at `out1_10` of the input blocks; the
    invariant is the untouched rest; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem q_eq1 (c : Dev nD) (w : Fin cfg1.W) : (dat1 V c).q w = fullShare := rfl
theorem owed_eq1 (c : Dev nD) (t : Fin (cfg1.N + 1)) : (dat1 V c).owed t = 0 := rfl
theorem rec_eq1 (c : Dev nD) (t : Fin (cfg1.N + 1)) : (dat1 V c).recorded t = Set.univ := rfl

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]

/-- An input window's array is never written: at the end it holds the entry contents. -/
theorem arrAt1_in (c : Dev nD) (w : Fin cfg1.W) (hw : w.val < 10) : (dat1 V c).arrAt w cfg1.N = V c (Pipeline.arrRef spec1 w) :=
  ((dat1 V c).arrAt_in w (Cc.isIn1 w hw) _).trans (A_eq1 V c w)

/-- Each input's current staging buffer holds its block at every point, fetched there or not: unfetched, the
    block index has not moved since the fetch. -/
theorem Cc.before1_w0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem Cc.before1_w1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem Cc.before1_w2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem Cc.before1_w3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem Cc.before1_w4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem Cc.before1_w5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem Cc.before1_w6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)
theorem Cc.before1_w7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)
theorem Cc.before1_w8 (c : Dev nD) (t : Fin cfg1.N) (d) : (dat1 V c).before 8 t d = iblk1 V c 8 t :=
  ((dat1 V c).before_in_eq_fetched 8 rfl (fun _ => rfl) (fun _ _ _ => rfl)
    (fun t => by rw [after1_8]; unfold Dat.blockOf iblk1; rw [A_eq1]; try rfl) t d).trans
    (by unfold Dat.fetched Dat.blockOf iblk1; rw [A_eq1]; try rfl)
theorem Cc.before1_w9 (c : Dev nD) (t : Fin cfg1.N) (d) : (dat1 V c).before 9 t d = iblk1 V c 9 t :=
  ((dat1 V c).before_in_eq_fetched 9 rfl (fun _ => rfl) (fun _ _ _ => rfl)
    (fun t => by rw [after1_9]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def Cc.bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def Cc.bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

/-- The body at any point: the inputs' buffers hold their blocks, so the triple applies; the invariant and what
    the core owes pass through unread. -/
theorem Cc.sound_body1 (c : Dev nD) (t : Fin cfg1.N) :
    Cc.bodyPre1 V c t ⊢ wp frame (wpE (defs₀ (F := F)) Variants.none c none) Set.univ (bodyAt1 t) (fun _ => Cc.bodyPost1 V c t) := by
  unfold Cc.bodyPre1 Cc.bodyPost1 bodyAt1
  simp only [Cc.before1_w0, Cc.before1_w1, Cc.before1_w2, Cc.before1_w3, Cc.before1_w4, Cc.before1_w5, Cc.before1_w6, Cc.before1_w7, Cc.before1_w8, Cc.before1_w9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (Cc.sound_kernel1 c Set.univ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation1 (c : Dev nD) : BodyObligation (dat1 (F := F) V c) (defs₀ (F := F)) Variants.none () Set.univ := fun t => by
  rw [bigSep_W1, bigSep_W1]
  exact Cc.sound_body1 V c t

/-! ## The invariant at the region's ends -/

theorem hin1 (c : Dev nD) : (Pipeline.ΦA spec1 c : sProp 𝕄) ⊢ (dat1 V c).Φ 0 := by
  rw [show (dat1 V c).Φ 0 = Pipeline.ΦA spec1 c from rfl]

theorem hout1 (c : Dev nD) : (dat1 V c).Φ (Fin.last cfg1.N) ⊢ (Pipeline.ΦA spec1 c : sProp 𝕄) := by
  rw [show (dat1 V c).Φ (Fin.last cfg1.N) = Pipeline.ΦA spec1 c from rfl]

end Cert.KernelIdeal.Hand

end
-- ==== Proof.KI_R2Base.lean ====
/- Region 2 (the statistics pass over the four row blocks): the blocks the windows show at a grid point, the
   two branch conditions of the body decided over the grid, where the two result windows are idle, and the region's
   invariant with the two carried accumulators made explicit. -/
import proofs.«134035_j84430467104804_1_alg».proof.Proof.Gen.KernelIdeal.Launch
import proofs.«134035_j84430467104804_1_alg».proof.Proof.Gen.KernelIdeal.Skeleton
import proofs.«134035_j84430467104804_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

namespace R2

/-- An input window's current buffer holds its block at every point, fetched there or not, for any proof data
    whose array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions over the grid -/

/-- The first conditional (the accumulators are zeroed): the scalar chain over the grid coordinate. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val % 4 = 0 :=
  (by decide +kernel : ∀ t : Fin grid2.N, cond2_0 (grid2.coords t) ↔ t.val % 4 = 0)

/-- The second conditional (the accumulators are copied out). -/
abbrev cond2_1 (i : grid2.Coords) : Prop := k2_cond2 i = 1#1
/-- It holds at the last point only. -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Away from the last point the two result windows are idle and not written back. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
/-- At the last point they are live. -/
theorem liveAt2_4 : ∀ t : Fin cfg2.N, cond2_1 (grid2.coords t) → cfg2.idle 4 (grid2.coords t) = false := by decide +kernel
theorem liveAt2_5 : ∀ t : Fin cfg2.N, cond2_1 (grid2.coords t) → cfg2.idle 5 (grid2.coords t) = false := by decide +kernel

/-! ## The memrefs the body is called with -/

abbrev ms2_0 (t : Fin cfg2.N) : Memref sig .tc .vmem S64x32x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S64x32x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S256x256 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x256 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x256 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x256 .f32 := win2_5.stage (cfg2.slots t 5)
abbrev hs2_5 (t : Fin cfg2.N) : (ms2_5 t).IsWhole := hstage2_5 ((cfg2.slots t 5).cast nbuf2_5)
/-- The two accumulators: whole scoped buffers of the kernel's own. -/
abbrev scM2_0 : Memref sig .tc .vmem S1x256 .f32 := Memref.whole cc2_scratch0
abbrev scM2_1 : Memref sig .tc .vmem S1x256 .f32 := Memref.whole cc2_scratch1

/-- Everything scoped that is neither accumulator, unopened. -/
abbrev rest2 (c : Dev nD) : sProp 𝕄 :=
  Pipeline.scopedRestBut (Ix := Unit) (Name := ℕ) (U := UR sig nD τ) (Lvl := ℕ) (Val := Elt F) spec2 c [cc2_scratch0, cc2_scratch1]

/-- The region's invariant with the accumulators as memrefs owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ rest2 c) ∗ (∃ r, prngReg c r)) := by
  unfold Pipeline.ΦA; rw [scopedRest2_split]; simp only [scM2_0, scM2_1, owns_whole]; try rfl

end R2

end Cert.KernelIdeal.Hand

end
-- ==== Proof.KI_R2Run.lean ====
/- Region 2: the kernel body run on whole buffers, in each of the three positions a grid point can have — the
   first (the accumulators are zeroed first), a middle one, the last (the accumulators are copied out). Each
   buffer ends at a named function of what the body read. -/
import proofs.«134035_j84430467104804_1_alg».proof.Proof.KI_R2Base
import Idealize.ShloMosaic.Lib.Pipeline.Value

set_option maxRecDepth 16384

noncomputable section

namespace Cert.KernelIdeal.Hand.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 1000000 in
/-- The body at the first point: both accumulators, whatever they held, are zeroed and take the point's
    contribution; the inputs are left as they were and the two result buffers are not touched. -/
theorem run2_A (c : Dev nD) (i : grid2.Coords) (arg1 : Memref sig .tc .vmem S64x32x128 .f32) (harg1 : arg1.IsWhole) (arg2 : Memref sig .tc .vmem S64x32x128 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole)
    (hc0 : cond2_0 i) (hc1 : ¬cond2_1 i)
    (x0 x1 : Vec F S64x32x128 .f32) (x2 : Vec F S256x256 .bf16) (x3 xi4 xi5 : Vec F S1x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare xi4 ∗ owns (c : Thread nD τ) arg6 fullShare xi5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xi4 ∗ owns (c : Thread nD τ) arg6 fullShare xi5
            ∗ owns (c : Thread nD τ) arg7 fullShare (k2_pay4 x0 x1 x2 x3 k2_pay1) ∗ owns (c : Thread nD τ) arg8 fullShare (k2_pay5 x0 x1 x2 x3 k2_pay2)) -∗ K ⟨⟩))
      ⊢ wp frame (wpE (defs₀ (F := F)) Variants.none c none) E (cc2__fin_stats_kernel i arg1 harg1 arg2 harg2 arg3 harg3 arg4 harg4 arg5 harg5 arg6 harg6 arg7 harg7 arg8 harg8) K := by
  simp only [cc2__fin_stats_kernel_eq_skeleton]; unfold cc2__fin_stats_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
  subst hf0 hf1 hf2 hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; exact hf4
    iexact H4
  isplitl [H5]
  · iexists f5; isplitr; · ipureintro; exact hf5
    iexact H5
  isplitl [HS0]
  · iexists _; isplitr
    swap; · iexact HS0
    ipureintro
    sl_unfold_run_names
    refine (View.read_writes_eq_canon _ _ _ (fun y => ⟨_, List.mem_cons_self, ?cov⟩)).trans ?_
    case cov => exact View.mem_set_unit_zero (S := S1x256) hz2 inb_S1x256_S1x256_0_0 y
    rw [View.canon_cons_unit_zero (S := S1x256) hz2]
    rw [View.readCov_unit_zero (S := S1x256) _ hz2]
    simp only [View.readAt_eq_ld, View.ld_unit_zero (S := S64x32x128) hz3, View.ld_unit_zero (S := S256x256) hz2, View.ld_unit_zero (S := S1x256) hz2]
  iexists _; isplitr
  swap; · iexact HS1
  ipureintro
  sl_unfold_run_names
  refine (View.read_writes_eq_canon _ _ _ (fun y => ⟨_, List.mem_cons_self, ?cov⟩)).trans ?_
  case cov => exact View.mem_set_unit_zero (S := S1x256) hz2 inb_S1x256_S1x256_0_0 y
  rw [View.canon_cons_unit_zero (S := S1x256) hz2]
  rw [View.readCov_unit_zero (S := S1x256) _ hz2]
  simp only [View.readAt_eq_ld, View.ld_unit_zero (S := S64x32x128) hz3, View.ld_unit_zero (S := S256x256) hz2, View.ld_unit_zero (S := S1x256) hz2]

set_option maxHeartbeats 1000000 in
/-- The body at a middle point: each accumulator takes the point's contribution on top of what it held; the inputs
    are left as they were and the two result buffers are not touched. -/
theorem run2_B (c : Dev nD) (i : grid2.Coords) (arg1 : Memref sig .tc .vmem S64x32x128 .f32) (harg1 : arg1.IsWhole) (arg2 : Memref sig .tc .vmem S64x32x128 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole)
    (hc0 : ¬cond2_0 i) (hc1 : ¬cond2_1 i)
    (x0 x1 : Vec F S64x32x128 .f32) (x2 : Vec F S256x256 .bf16) (x3 xi4 xi5 xs0 xs1 : Vec F S1x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare xi4 ∗ owns (c : Thread nD τ) arg6 fullShare xi5
        ∗ owns (c : Thread nD τ) arg7 fullShare xs0 ∗ owns (c : Thread nD τ) arg8 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xi4 ∗ owns (c : Thread nD τ) arg6 fullShare xi5
            ∗ owns (c : Thread nD τ) arg7 fullShare (k2_pay4 x0 x1 x2 x3 xs0) ∗ owns (c : Thread nD τ) arg8 fullShare (k2_pay5 x0 x1 x2 x3 xs1)) -∗ K ⟨⟩))
      ⊢ wp frame (wpE (defs₀ (F := F)) Variants.none c none) E (cc2__fin_stats_kernel i arg1 harg1 arg2 harg2 arg3 harg3 arg4 harg4 arg5 harg5 arg6 harg6 arg7 harg7 arg8 harg8) K := by
  simp only [cc2__fin_stats_kernel_eq_skeleton]; unfold cc2__fin_stats_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
  subst hf0 hf1 hf2 hf3 hfs0 hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; exact hf4
    iexact H4
  isplitl [H5]
  · iexists f5; isplitr; · ipureintro; exact hf5
    iexact H5
  isplitl [HS0]
  · iexists _; isplitr
    swap; · iexact HS0
    ipureintro
    sl_unfold_run_names
    refine (View.read_writes_eq_canon _ _ _ (fun y => ⟨_, List.mem_cons_self, ?cov⟩)).trans ?_
    case cov => exact View.mem_set_unit_zero (S := S1x256) hz2 inb_S1x256_S1x256_0_0 y
    rw [View.canon_cons_unit_zero (S := S1x256) hz2]
    simp only [View.readAt_eq_ld, View.ld_unit_zero (S := S64x32x128) hz3, View.ld_unit_zero (S := S256x256) hz2, View.ld_unit_zero (S := S1x256) hz2]
  iexists _; isplitr
  swap; · iexact HS1
  ipureintro
  sl_unfold_run_names
  refine (View.read_writes_eq_canon _ _ _ (fun y => ⟨_, List.mem_cons_self, ?cov⟩)).trans ?_
  case cov => exact View.mem_set_unit_zero (S := S1x256) hz2 inb_S1x256_S1x256_0_0 y
  rw [View.canon_cons_unit_zero (S := S1x256) hz2]
  simp only [View.readAt_eq_ld, View.ld_unit_zero (S := S64x32x128) hz3, View.ld_unit_zero (S := S256x256) hz2, View.ld_unit_zero (S := S1x256) hz2]

set_option maxHeartbeats 1000000 in
/-- The body at the last point: each accumulator takes the point's contribution on top of what it held, and is
    then copied into its result buffer, whatever that held; the inputs are left as they were. -/
theorem run2_C (c : Dev nD) (i : grid2.Coords) (arg1 : Memref sig .tc .vmem S64x32x128 .f32) (harg1 : arg1.IsWhole) (arg2 : Memref sig .tc .vmem S64x32x128 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole)
    (hc0 : ¬cond2_0 i) (hc1 : cond2_1 i)
    (x0 x1 : Vec F S64x32x128 .f32) (x2 : Vec F S256x256 .bf16) (x3 xs0 xs1 : Vec F S1x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ owns (c : Thread nD τ) arg7 fullShare xs0 ∗ owns (c : Thread nD τ) arg8 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k2_pay4 x0 x1 x2 x3 xs0) ∗ owns (c : Thread nD τ) arg6 fullShare (k2_pay5 x0 x1 x2 x3 xs1)
            ∗ owns (c : Thread nD τ) arg7 fullShare (k2_pay4 x0 x1 x2 x3 xs0) ∗ owns (c : Thread nD τ) arg8 fullShare (k2_pay5 x0 x1 x2 x3 xs1)) -∗ K ⟨⟩))
      ⊢ wp frame (wpE (defs₀ (F := F)) Variants.none c none) E (cc2__fin_stats_kernel i arg1 harg1 arg2 harg2 arg3 harg3 arg4 harg4 arg5 harg5 arg6 harg6 arg7 harg7 arg8 harg8) K := by
  simp only [cc2__fin_stats_kernel_eq_skeleton]; unfold cc2__fin_stats_kernel_skel
  simp only [k2_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
  subst hf0 hf1 hf2 hf3 hfs0 hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    refine (View.read_writes_eq_canon _ _ _ (fun y => ⟨_, List.mem_cons_self, ?cov⟩)).trans ?_
    case cov => exact View.mem_set_unit_zero (S := S1x256) hz2 inb_S1x256_S1x256_0_0 y
    rw [View.canon_cons_unit_zero (S := S1x256) hz2]
    rw [View.readCov_unit_zero (S := S1x256) _ hz2]
    simp only [View.readAt_eq_ld, View.ld_unit_zero (S := S64x32x128) hz3, View.ld_unit_zero (S := S256x256) hz2, View.ld_unit_zero (S := S1x256) hz2]
  isplitl [H5]
  · iexists _; isplitr
    swap; · iexact H5
    ipureintro
    sl_unfold_run_names
    refine (View.read_writes_eq_canon _ _ _ (fun y => ⟨_, List.mem_cons_self, ?cov⟩)).trans ?_
    case cov => exact View.mem_set_unit_zero (S := S1x256) hz2 inb_S1x256_S1x256_0_0 y
    rw [View.canon_cons_unit_zero (S := S1x256) hz2]
    rw [View.readCov_unit_zero (S := S1x256) _ hz2]
    simp only [View.readAt_eq_ld, View.ld_unit_zero (S := S64x32x128) hz3, View.ld_unit_zero (S := S256x256) hz2, View.ld_unit_zero (S := S1x256) hz2]
  isplitl [HS0]
  · iexists _; isplitr
    swap; · iexact HS0
    ipureintro
    sl_unfold_run_names
    refine (View.read_writes_eq_canon _ _ _ (fun y => ⟨_, List.mem_cons_self, ?cov⟩)).trans ?_
    case cov => exact View.mem_set_unit_zero (S := S1x256) hz2 inb_S1x256_S1x256_0_0 y
    rw [View.canon_cons_unit_zero (S := S1x256) hz2]
    simp only [View.readAt_eq_ld, View.ld_unit_zero (S := S64x32x128) hz3, View.ld_unit_zero (S := S256x256) hz2, View.ld_unit_zero (S := S1x256) hz2]
  iexists _; isplitr
  swap; · iexact HS1
  ipureintro
  sl_unfold_run_names
  refine (View.read_writes_eq_canon _ _ _ (fun y => ⟨_, List.mem_cons_self, ?cov⟩)).trans ?_
  case cov => exact View.mem_set_unit_zero (S := S1x256) hz2 inb_S1x256_S1x256_0_0 y
  rw [View.canon_cons_unit_zero (S := S1x256) hz2]
  simp only [View.readAt_eq_ld, View.ld_unit_zero (S := S64x32x128) hz3, View.ld_unit_zero (S := S256x256) hz2, View.ld_unit_zero (S := S1x256) hz2]

end Cert.KernelIdeal.Hand.R2

end
-- ==== Proof.KI_R2.lean ====
/- Region 2 (the statistics pass): the two accumulators after each grid point as a recursion over the row
   blocks, the pipeline's proof data over them, the body's obligation at every point, and what the region leaves in
   its arrays. -/
import proofs.«134035_j84430467104804_1_alg».proof.Proof.KI_R2Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

open R2

/-! ## The accumulators, point by point -/

namespace R2

/-- One point's step on the pair of accumulators: each takes its payload of the point's four blocks and of what it
    held (the first adds the column sums of the point's projected rows, the second those of their squares). -/
def step2 (c : Dev nD) (t : Fin cfg2.N) (s : Vec F S1x256 .f32 × Vec F S1x256 .f32) : Vec F S1x256 .f32 × Vec F S1x256 .f32 :=
  (k2_pay4 (iblk2 V c 0 t) (iblk2 V c 1 t) (iblk2 V c 2 t) (iblk2 V c 3 t) s.1,
   k2_pay5 (iblk2 V c 0 t) (iblk2 V c 1 t) (iblk2 V c 2 t) (iblk2 V c 3 t) s.2)

end R2

/-- What the two accumulators hold after the body at point `n`: zeroed at the first point, every point adds its
    contribution. Beyond the grid it stays at the last point's value. -/
def acc2 (c : Dev nD) : ℕ → Vec F S1x256 .f32 × Vec F S1x256 .f32
  | 0 => if h : 0 < cfg2.N then step2 V c ⟨0, h⟩ (k2_pay1, k2_pay2) else (k2_pay1, k2_pay2)
  | n + 1 => if h : n + 1 < cfg2.N then step2 V c ⟨n + 1, h⟩ (acc2 c n) else acc2 c n

theorem acc2_zero (c : Dev nD) :
    acc2 V c 0 = (k2_pay4 (iblk2 V c 0 t2_0) (iblk2 V c 1 t2_0) (iblk2 V c 2 t2_0) (iblk2 V c 3 t2_0) k2_pay1,
                  k2_pay5 (iblk2 V c 0 t2_0) (iblk2 V c 1 t2_0) (iblk2 V c 2 t2_0) (iblk2 V c 3 t2_0) k2_pay2) := by
  unfold acc2; rw [dif_pos (by rw [show cfg2.N = 4 from N_2]; decide)]; rfl

theorem acc2_succ (c : Dev nD) (n : ℕ) (h : n + 1 < cfg2.N) :
    acc2 V c (n + 1) = (k2_pay4 (iblk2 V c 0 ⟨n + 1, h⟩) (iblk2 V c 1 ⟨n + 1, h⟩) (iblk2 V c 2 ⟨n + 1, h⟩) (iblk2 V c 3 ⟨n + 1, h⟩) (acc2 V c n).1,
                        k2_pay5 (iblk2 V c 0 ⟨n + 1, h⟩) (iblk2 V c 1 ⟨n + 1, h⟩) (iblk2 V c 2 ⟨n + 1, h⟩) (iblk2 V c 3 ⟨n + 1, h⟩) (acc2 V c n).2) := by
  rw [acc2, dif_pos h]; rfl

namespace R2

/-- The accumulators at a point, from the point before (or from zero). -/
theorem acc2_at (c : Dev nD) (t : Fin cfg2.N) :
    acc2 V c t.val = step2 V c t (if t.val = 0 then (k2_pay1, k2_pay2) else acc2 V c (t.val - 1)) := by
  obtain ⟨n, hn⟩ := t
  cases n with
  | zero => rw [if_pos rfl]; unfold acc2; rw [dif_pos hn]
  | succ n => rw [if_neg (Nat.succ_ne_zero n)]; show acc2 V c (n + 1) = _; rw [acc2, dif_pos hn]; rfl

/-- The region invariant before position `n`: before the first point every scoped buffer at anything; afterwards
    the two accumulators at what the point before left, the other scoped buffers unopened, the generator register
    at some state. -/
def PhiS2 (c : Dev nD) : ℕ → sProp 𝕄
  | 0 => Pipeline.ΦA spec2 c
  | n + 1 => iprop(iprop(iprop(owns (c : Thread nD τ) scM2_0 fullShare (acc2 V c n).1 ∗ owns (c : Thread nD τ) scM2_1 fullShare (acc2 V c n).2) ∗ rest2 (F := F) c) ∗ (∃ r, prngReg c r))

theorem PhiS2_zero (c : Dev nD) (n : ℕ) (hz : n = 0) : PhiS2 V c n = Pipeline.ΦA spec2 c := by
  subst hz; rfl

theorem PhiS2_succ (c : Dev nD) (n : ℕ) :
    PhiS2 V c (n + 1) = iprop(iprop(iprop(owns (c : Thread nD τ) scM2_0 fullShare (acc2 V c n).1 ∗ owns (c : Thread nD τ) scM2_1 fullShare (acc2 V c n).2) ∗ rest2 (F := F) c) ∗ (∃ r, prngReg c r)) := rfl

theorem PhiS2_pos (c : Dev nD) (n : ℕ) (hz : n ≠ 0) :
    PhiS2 V c n = iprop(iprop(iprop(owns (c : Thread nD τ) scM2_0 fullShare (acc2 V c (n - 1)).1 ∗ owns (c : Thread nD τ) scM2_1 fullShare (acc2 V c (n - 1)).2) ∗ rest2 (F := F) c) ∗ (∃ r, prngReg c r)) := by
  cases n with
  | zero => exact absurd rfl hz
  | succ n => rfl

end R2

/-! ## The pipeline's proof data -/

/-- The proof data of the pipeline on core `c`: the arrays as the region finds them; after the body at point `t`
    each input's buffer at its block and the two results' at the accumulators; the invariant above; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (acc2 V c t.val).1
    | ⟨5, _⟩ => (acc2 V c t.val).2
  Φ t := PhiS2 V c t.val
  q _ := fullShare
  owed _ := 0

theorem A_eq2 (c : Dev nD) (w : Fin cfg2.W) : (dat2 V c).A w = V c (Pipeline.arrRef spec2 w) := by
  dsimp only [dat2]

theorem q_eq2 (c : Dev nD) (w : Fin cfg2.W) : (dat2 V c).q w = fullShare := rfl

theorem owed_eq2 (c : Dev nD) (t) : (dat2 V c).owed t = 0 := rfl

theorem rec_eq2 (c : Dev nD) (t) : (dat2 V c).recorded t = Set.univ := rfl

namespace R2

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (acc2 V c t.val).1 := by dsimp only [dat2]
theorem after2_5 (c : Dev nD) (t : Fin cfg2.N) : (dat2 V c).after 5 t = (acc2 V c t.val).2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

theorem PhiS2_castSucc (c : Dev nD) (t : Fin cfg2.N) : (dat2 V c).Φ t.castSucc = PhiS2 V c t.val := by
  dsimp only [dat2]; simp only [Fin.coe_castSucc]

end R2

namespace R2

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point: the inputs' buffers hold their blocks; the point's position decides which run applies;
    the invariant hands over the accumulators at what the point before left (at anything at the first point) and
    takes them back at this point's values; away from the last point the result buffers pass through untouched,
    at the last point they end at the accumulators' values. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  have hN : t.val < 4 := lt_of_lt_of_eq t.isLt (show cfg2.N = 4 from N_2)
  by_cases h0 : t.val % 4 = 0
  · have hz : t.val = 0 := by omega
    have h1 : ¬t.val % 4 = 3 := by omega
    have hc1 : ¬cond2_1 (grid2.coords t) := fun h => h1 ((hcond2_1 t).mp h)
    rw [Dat.leavesExact_idle (dat2 V c) 4 t (idleAt2_4 t hc1) (noFlush2_4 t hc1),
      Dat.leavesExact_idle (dat2 V c) 5 t (idleAt2_5 t hc1) (noFlush2_5 t hc1)]
    rw [acc2_at V c t, if_pos hz]
    unfold step2; dsimp only
    rw [PhiS2_castSucc V c t, PhiS2_zero V c _ hz, PhiA2_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
    iapply (run2_A c (grid2.coords t) _ _ _ _ _ _ _ _ _ _ _ _ _ _ _ _ ((hcond2_0 t).mpr h0) hc1 (iblk2 V c 0 t) (iblk2 V c 1 t) (iblk2 V c 2 t) (iblk2 V c 3 t) _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · have hz : t.val ≠ 0 := by omega
    have hc0 : ¬cond2_0 (grid2.coords t) := fun h => h0 ((hcond2_0 t).mp h)
    by_cases h1 : t.val % 4 = 3
    · have hc1 : cond2_1 (grid2.coords t) := (hcond2_1 t).mpr h1
      rw [show (dat2 V c).leavesExact 4 t = owns (c : Thread nD τ) (ms2_4 t) fullShare ((dat2 V c).after 4 t) from by
        unfold Dat.leavesExact; rw [liveAt2_4 t hc1], after2_4]
      rw [show (dat2 V c).leavesExact 5 t = owns (c : Thread nD τ) (ms2_5 t) fullShare ((dat2 V c).after 5 t) from by
        unfold Dat.leavesExact; rw [liveAt2_5 t hc1], after2_5]
      rw [acc2_at V c t, if_neg hz]
      unfold step2; dsimp only
      rw [PhiS2_castSucc V c t, PhiS2_pos V c _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
      iapply (run2_C c (grid2.coords t) _ _ _ _ _ _ _ _ _ _ _ _ _ _ _ _ hc0 hc1 (iblk2 V c 0 t) (iblk2 V c 1 t) (iblk2 V c 2 t) (iblk2 V c 3 t) _ _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, H4, H5, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond2_1 (grid2.coords t) := fun h => h1 ((hcond2_1 t).mp h)
      rw [Dat.leavesExact_idle (dat2 V c) 4 t (idleAt2_4 t hc1) (noFlush2_4 t hc1),
        Dat.leavesExact_idle (dat2 V c) 5 t (idleAt2_5 t hc1) (noFlush2_5 t hc1)]
      rw [acc2_at V c t, if_neg hz]
      unfold step2; dsimp only
      rw [PhiS2_castSucc V c t, PhiS2_pos V c _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
      iapply (run2_B c (grid2.coords t) _ _ _ _ _ _ _ _ _ _ _ _ _ _ _ _ hc0 hc1 (iblk2 V c 0 t) (iblk2 V c 1 t) (iblk2 V c 2 t) (iblk2 V c 3 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

end R2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS2 V c 0 from rfl, PhiS2_zero V c 0 rfl]
  try exact Idealize.SL.BI.Entails.refl _

/-- After the last point the invariant gives it back: the accumulators' named contents are forgotten. -/
theorem hout2 (c : Dev nD) : (dat2 V c).Φ (Fin.last cfg2.N) ⊢ (Pipeline.ΦA spec2 c : sProp 𝕄) := by
  rw [show (dat2 V c).Φ (Fin.last cfg2.N) = PhiS2 V c (Fin.last cfg2.N).val from rfl,
    PhiS2_pos V c _ (by rw [Fin.val_last]; have : cfg2.N = 4 := N_2; omega), PhiA2_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

/-! ## What the region leaves in its arrays -/

/-- An input array is as the region found it. -/
theorem arrAt2_in (c : Dev nD) (w : Fin cfg2.W) (hw : w.val < 4) : (dat2 V c).arrAt w cfg2.N = V c (Pipeline.arrRef spec2 w) := by
  have hin : (cfg2.win w).isOut = false := by
    match w, hw with
    | ⟨0, _⟩, _ => rfl
    | ⟨1, _⟩, _ => rfl
    | ⟨2, _⟩, _ => rfl
    | ⟨3, _⟩, _ => rfl
    | ⟨n + 4, _⟩, h => exact absurd h (by simp)
  exact ((dat2 V c).arrAt_in w hin _).trans (A_eq2 V c w)

namespace R2

/-- The accumulator's final value as contents of result array 0 (its one block is the whole array). -/
abbrev out2_4 (c : Dev nD) : Buf (Elt F) ((c : Thread nD τ).loc main_v25_0) := (acc2 V c 3).1

/-- The one write-back, at the last point, writes it: the block at index (0, 0) read through zero offsets is the array. -/
theorem flushed2_4 (c : Dev nD) (t : Fin cfg2.N) (hf : (cfg2.win 4).flush t = true) :
    (dat2 V c).flushed 4 t = ((cfg2.win 4).blk t).view.read (Elt F) (out2_4 V c) := by
  have hN : cfg2.N = 4 := N_2
  have h3 : t.val = 3 := by have := (flush2_4 t).mp hf; have := t.isLt; omega
  obtain rfl : t = t2_3 := Fin.ext h3
  show (cfg2.win 4).cut (grid2.coords t2_3) ((dat2 V c).after 4 t2_3) = _
  rw [after2_4]
  have hz' : (fun a => win2_4.index t2_3 a * main_v25_0.ty.shape.size a) = fun _ => 0 := funext fun a => by fin_cases a <;> decide
  exact (Memref.read_access_unit_zero (Elt F) main_v25_0 hz' (fun a => by rw [congrFun hz' a]; simp) (out2_4 V c)).symm

end R2

/-- Result array 0 ends holding the first accumulator's value after the last point. -/
theorem arrAt2_4 (c : Dev nD) : (dat2 V c).arrAt 4 cfg2.N = (acc2 V c 3).1 :=
  (dat2 V c).arrAt_eq_of_cover 4 (out2_4 V c) (flushed2_4 V c) fun i =>
    ⟨t2_3, (flush2_4 t2_3).mpr rfl, by
      show i ∈ ((View.whole main_v25_0).slice (win2_4.rect t2_3)).set
      rw [View.set_slice_whole, Rect.mem_set_unit]
      intro a
      have h0 : (i 0 : Nat) < 1 := (i 0).isLt
      have h1 : (i 1 : Nat) < 256 := (i 1).isLt
      match a with
      | ⟨0, _⟩ => show win2_4.index t2_3 0 * win2_4.size 0 ≤ (i 0 : Nat) ∧ (i 0 : Nat) < win2_4.index t2_3 0 * win2_4.size 0 + win2_4.xsize (grid2.coords t2_3) 0
                  rw [show win2_4.index t2_3 0 * win2_4.size 0 = 0 from by decide +kernel, show win2_4.xsize (grid2.coords t2_3) 0 = 1 from by decide +kernel]; omega
      | ⟨1, _⟩ => show win2_4.index t2_3 1 * win2_4.size 1 ≤ (i 1 : Nat) ∧ (i 1 : Nat) < win2_4.index t2_3 1 * win2_4.size 1 + win2_4.xsize (grid2.coords t2_3) 1
                  rw [show win2_4.index t2_3 1 * win2_4.size 1 = 0 from by decide +kernel, show win2_4.xsize (grid2.coords t2_3) 1 = 256 from by decide +kernel]; omega⟩

namespace R2

/-- The accumulator's final value as contents of result array 1 (its one block is the whole array). -/
abbrev out2_5 (c : Dev nD) : Buf (Elt F) ((c : Thread nD τ).loc main_v25_1) := (acc2 V c 3).2

/-- The one write-back, at the last point, writes it: the block at index (0, 0) read through zero offsets is the array. -/
theorem flushed2_5 (c : Dev nD) (t : Fin cfg2.N) (hf : (cfg2.win 5).flush t = true) :
    (dat2 V c).flushed 5 t = ((cfg2.win 5).blk t).view.read (Elt F) (out2_5 V c) := by
  have hN : cfg2.N = 4 := N_2
  have h3 : t.val = 3 := by have := (flush2_5 t).mp hf; have := t.isLt; omega
  obtain rfl : t = t2_3 := Fin.ext h3
  show (cfg2.win 5).cut (grid2.coords t2_3) ((dat2 V c).after 5 t2_3) = _
  rw [after2_5]
  have hz' : (fun a => win2_5.index t2_3 a * main_v25_1.ty.shape.size a) = fun _ => 0 := funext fun a => by fin_cases a <;> decide
  exact (Memref.read_access_unit_zero (Elt F) main_v25_1 hz' (fun a => by rw [congrFun hz' a]; simp) (out2_5 V c)).symm

end R2

/-- Result array 1 ends holding the second accumulator's value after the last point. -/
theorem arrAt2_5 (c : Dev nD) : (dat2 V c).arrAt 5 cfg2.N = (acc2 V c 3).2 :=
  (dat2 V c).arrAt_eq_of_cover 5 (out2_5 V c) (flushed2_5 V c) fun i =>
    ⟨t2_3, (flush2_5 t2_3).mpr rfl, by
      show i ∈ ((View.whole main_v25_1).slice (win2_5.rect t2_3)).set
      rw [View.set_slice_whole, Rect.mem_set_unit]
      intro a
      have h0 : (i 0 : Nat) < 1 := (i 0).isLt
      have h1 : (i 1 : Nat) < 256 := (i 1).isLt
      match a with
      | ⟨0, _⟩ => show win2_5.index t2_3 0 * win2_5.size 0 ≤ (i 0 : Nat) ∧ (i 0 : Nat) < win2_5.index t2_3 0 * win2_5.size 0 + win2_5.xsize (grid2.coords t2_3) 0
                  rw [show win2_5.index t2_3 0 * win2_5.size 0 = 0 from by decide +kernel, show win2_5.xsize (grid2.coords t2_3) 0 = 1 from by decide +kernel]; omega
      | ⟨1, _⟩ => show win2_5.index t2_3 1 * win2_5.size 1 ≤ (i 1 : Nat) ∧ (i 1 : Nat) < win2_5.index t2_3 1 * win2_5.size 1 + win2_5.xsize (grid2.coords t2_3) 1
                  rw [show win2_5.index t2_3 1 * win2_5.size 1 = 0 from by decide +kernel, show win2_5.xsize (grid2.coords t2_3) 1 = 256 from by decide +kernel]; omega⟩

end Cert.KernelIdeal.Hand

end
-- ==== Proof.KI_R3.lean ====
/- The second pass of the final update on one block of sixty-four batch entries: from the state block, the
   block of aggregated messages, the first weight matrix with its bias, the batch statistics (mean,
   variance) and the affine rows, the second weight matrix and its bias, the body writes the new state
   block. This module holds the region's proof data — what each staging buffer holds after the body at
   every grid point, as the named payloads of the loads — the body's triple, and the obligation the
   pipeline asks of it. -/
import proofs.«134035_j84430467104804_1_alg».proof.Proof.Gen.KernelIdeal.Launch
import proofs.«134035_j84430467104804_1_alg».proof.Proof.Gen.KernelIdeal.Skeleton
import proofs.«134035_j84430467104804_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents when the region is entered: every statement below is at this parameter
variable (V : (c : Dev nD) → (b : Ref sig .tc) → Buf (Elt F) ((c : Thread nD τ).loc b))

/-! ## The windows' blocks -/

/-- Window `w`'s block at grid point `t`: the window's rectangle of its array, read off the entry contents. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

namespace Cc

/-- The whole rectangle of each window's block: every load and the one store of the body go through these. -/
abbrev rect3_0 : Rect S64x32x128 := Rect.unit (s := S64x32x128) ![0, 0, 0] S64x32x128.size inb_S64x32x128_S64x32x128_0_0_0
abbrev rect3_1 : Rect S64x32x128 := Rect.unit (s := S64x32x128) ![0, 0, 0] S64x32x128.size inb_S64x32x128_S64x32x128_0_0_0
abbrev rect3_2 : Rect S256x256 := Rect.unit (s := S256x256) ![0, 0] S256x256.size inb_S256x256_S256x256_0_0
abbrev rect3_3 : Rect S1x256 := Rect.unit (s := S1x256) ![0, 0] S1x256.size inb_S1x256_S1x256_0_0
abbrev rect3_4 : Rect S1x256 := Rect.unit (s := S1x256) ![0, 0] S1x256.size inb_S1x256_S1x256_0_0
abbrev rect3_5 : Rect S1x256 := Rect.unit (s := S1x256) ![0, 0] S1x256.size inb_S1x256_S1x256_0_0
abbrev rect3_6 : Rect S1x256 := Rect.unit (s := S1x256) ![0, 0] S1x256.size inb_S1x256_S1x256_0_0
abbrev rect3_7 : Rect S1x256 := Rect.unit (s := S1x256) ![0, 0] S1x256.size inb_S1x256_S1x256_0_0
abbrev rect3_8 : Rect S256x128 := Rect.unit (s := S256x128) ![0, 0] S256x128.size inb_S256x128_S256x128_0_0
abbrev rect3_9 : Rect S1x128 := Rect.unit (s := S1x128) ![0, 0] S1x128.size inb_S1x128_S1x128_0_0
abbrev rect3_10 : Rect S64x32x128 := Rect.unit (s := S64x32x128) ![0, 0, 0] S64x32x128.size inb_S64x32x128_S64x32x128_0_0_0

/-- The windows 0..9 are inputs. -/
theorem isIn3 : ∀ (w : Fin cfg3.W), w.val < 10 → (cfg3.win w).isOut = false
  | ⟨0, _⟩, _ => rfl
  | ⟨1, _⟩, _ => rfl
  | ⟨2, _⟩, _ => rfl
  | ⟨3, _⟩, _ => rfl
  | ⟨4, _⟩, _ => rfl
  | ⟨5, _⟩, _ => rfl
  | ⟨6, _⟩, _ => rfl
  | ⟨7, _⟩, _ => rfl
  | ⟨8, _⟩, _ => rfl
  | ⟨9, _⟩, _ => rfl
  | ⟨n + 10, _⟩, h => absurd h (by simp)

/-- The offsets of every rectangle are zero. -/
theorem zero2_3 : (![0, 0] : Fin 2 → Nat) = fun _ => 0 := funext fun a => by fin_cases a <;> rfl
theorem zero3_3 : (![0, 0, 0] : Fin 3 → Nat) = fun _ => 0 := funext fun a => by fin_cases a <;> rfl

end Cc

/-! ## What the body leaves in the output block -/

/-- The output block after the body, from the ten input blocks: the one store, whose value is the second
    payload (the hidden layer: state and aggregate side by side, first matrix product with its bias,
    normalised by the mean and variance rows, scaled, shifted, leaky rectifier) fed with the second weight
    matrix and its bias to the first (second matrix product, reshaped to the block). -/
def out3_10 (x0 : Vec F S64x32x128 .f32) (x1 : Vec F S64x32x128 .f32) (x2 : Vec F S256x256 .bf16) (x3 : Vec F S1x256 .f32) (x4 : Vec F S1x256 .f32) (x5 : Vec F S1x256 .f32) (x6 : Vec F S1x256 .f32) (x7 : Vec F S1x256 .f32) (x8 : Vec F S256x128 .bf16) (x9 : Vec F S1x128 .f32) : Vec F S64x32x128 .f32 :=
  View.canon [⟨Cc.rect3_10, k3_pay1 (k3_pay2 (View.ld x0 Cc.rect3_0) (View.ld x1 Cc.rect3_1) (View.ld x2 Cc.rect3_2) (View.ld x3 Cc.rect3_3) (View.ld x5 Cc.rect3_5) (View.ld x4 Cc.rect3_4) (View.ld x6 Cc.rect3_6) (View.ld x7 Cc.rect3_7)) (View.ld x8 Cc.rect3_8) (View.ld x9 Cc.rect3_9)⟩]

/-- The one store covers the block. -/
theorem Cc.cover3_10 (p0 : Vec F S64x32x128 .f32) (y : S64x32x128.Idx) :
    ∃ pc ∈ ([⟨Cc.rect3_10, p0⟩] : List (View.Piece (Elt F) S64x32x128 .f32)), y ∈ pc.1.set :=
  View.cover_of_tiled [⟨Cc.rect3_10, p0⟩] S64x32x128.size (by rfl) y

/-- A store through the whole rectangle leaves its value, and a load through the whole rectangle of a block is
    the block: the output block is the payloads applied to the input blocks themselves. -/
theorem out3_10_eq (x0 : Vec F S64x32x128 .f32) (x1 : Vec F S64x32x128 .f32) (x2 : Vec F S256x256 .bf16) (x3 : Vec F S1x256 .f32) (x4 : Vec F S1x256 .f32) (x5 : Vec F S1x256 .f32) (x6 : Vec F S1x256 .f32) (x7 : Vec F S1x256 .f32) (x8 : Vec F S256x128 .bf16) (x9 : Vec F S1x128 .f32) :
    out3_10 x0 x1 x2 x3 x4 x5 x6 x7 x8 x9 = k3_pay1 (k3_pay2 x0 x1 x2 x3 x5 x4 x6 x7) x8 x9 := by
  unfold out3_10
  rw [View.canon_unit_zero Cc.zero3_3]
  simp only [View.ld_unit_zero (S := S64x32x128) Cc.zero3_3, View.ld_unit_zero (S := S256x256) Cc.zero2_3, View.ld_unit_zero (S := S1x256) Cc.zero2_3, View.ld_unit_zero (S := S256x128) Cc.zero2_3, View.ld_unit_zero (S := S1x128) Cc.zero2_3]

/-! ## The body's triple -/

set_option maxHeartbeats 4000000 in
/-- The body on whole staging buffers — the inputs at contents `xW`, the output at anything — runs to its
    continuation with the inputs unchanged and the output at `out3_10` of the inputs. -/
theorem Cc.sound_kernel3 (c : Dev nD) (E : Set ℕ) (i : grid3.Coords) (a0 : Memref sig .tc .vmem S64x32x128 .f32) (ha0 : a0.IsWhole) (a1 : Memref sig .tc .vmem S64x32x128 .f32) (ha1 : a1.IsWhole) (a2 : Memref sig .tc .vmem S256x256 .bf16) (ha2 : a2.IsWhole) (a3 : Memref sig .tc .vmem S1x256 .f32) (ha3 : a3.IsWhole) (a4 : Memref sig .tc .vmem S1x256 .f32) (ha4 : a4.IsWhole) (a5 : Memref sig .tc .vmem S1x256 .f32) (ha5 : a5.IsWhole) (a6 : Memref sig .tc .vmem S1x256 .f32) (ha6 : a6.IsWhole) (a7 : Memref sig .tc .vmem S1x256 .f32) (ha7 : a7.IsWhole) (a8 : Memref sig .tc .vmem S256x128 .bf16) (ha8 : a8.IsWhole) (a9 : Memref sig .tc .vmem S1x128 .f32) (ha9 : a9.IsWhole) (a10 : Memref sig .tc .vmem S64x32x128 .f32) (ha10 : a10.IsWhole)
    (x0 : Vec F S64x32x128 .f32) (x1 : Vec F S64x32x128 .f32) (x2 : Vec F S256x256 .bf16) (x3 : Vec F S1x256 .f32) (x4 : Vec F S1x256 .f32) (x5 : Vec F S1x256 .f32) (x6 : Vec F S1x256 .f32) (x7 : Vec F S1x256 .f32) (x8 : Vec F S256x128 .bf16) (x9 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ (∃ d, owns (c : Thread nD τ) a10 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare (out3_10 x0 x1 x2 x3 x4 x5 x6 x7 x8 x9)) -∗ K ⟨⟩))
      ⊢ wp frame (wpE (defs₀ (F := F)) Variants.none c none) E (cc3__fin_apply_kernel i a0 ha0 a1 ha1 a2 ha2 a3 ha3 a4 ha4 a5 ha5 a6 ha6 a7 ha7 a8 ha8 a9 ha9 a10 ha10) K := by
  simp only [cc3__fin_apply_kernel_eq_skeleton]; unfold cc3__fin_apply_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0
  subst hf1
  subst hf2
  subst hf3
  subst hf4
  subst hf5
  subst hf6
  subst hf7
  subst hf8
  subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (Cc.cover3_10 _)

/-! ## The pipeline's proof data -/

/-- The proof data of the region on core `c`: the arrays as the region finds them; after the body at point
    `t` each input's buffer at its block and the output's at `out3_10` of the input blocks; the
    invariant is the untouched rest; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => out3_10 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem q_eq3 (c : Dev nD) (w : Fin cfg3.W) : (dat3 V c).q w = fullShare := rfl
theorem owed_eq3 (c : Dev nD) (t : Fin (cfg3.N + 1)) : (dat3 V c).owed t = 0 := rfl
theorem rec_eq3 (c : Dev nD) (t : Fin (cfg3.N + 1)) : (dat3 V c).recorded t = Set.univ := rfl

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = out3_10 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) := by dsimp only [dat3]

/-- An input window's array is never written: at the end it holds the entry contents. -/
theorem arrAt3_in (c : Dev nD) (w : Fin cfg3.W) (hw : w.val < 10) : (dat3 V c).arrAt w cfg3.N = V c (Pipeline.arrRef spec3 w) :=
  ((dat3 V c).arrAt_in w (Cc.isIn3 w hw) _).trans (A_eq3 V c w)

/-- Each input's current staging buffer holds its block at every point, fetched there or not: unfetched, the
    block index has not moved since the fetch. -/
theorem Cc.before3_w0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem Cc.before3_w1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem Cc.before3_w2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)
theorem Cc.before3_w3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)
theorem Cc.before3_w4 (c : Dev nD) (t : Fin cfg3.N) (d) : (dat3 V c).before 4 t d = iblk3 V c 4 t :=
  ((dat3 V c).before_in_eq_fetched 4 rfl (fun _ => rfl) (fun _ _ _ => rfl)
    (fun t => by rw [after3_4]; unfold Dat.blockOf iblk3; rw [A_eq3]; try rfl) t d).trans
    (by unfold Dat.fetched Dat.blockOf iblk3; rw [A_eq3]; try rfl)
theorem Cc.before3_w5 (c : Dev nD) (t : Fin cfg3.N) (d) : (dat3 V c).before 5 t d = iblk3 V c 5 t :=
  ((dat3 V c).before_in_eq_fetched 5 rfl (fun _ => rfl) (fun _ _ _ => rfl)
    (fun t => by rw [after3_5]; unfold Dat.blockOf iblk3; rw [A_eq3]; try rfl) t d).trans
    (by unfold Dat.fetched Dat.blockOf iblk3; rw [A_eq3]; try rfl)
theorem Cc.before3_w6 (c : Dev nD) (t : Fin cfg3.N) (d) : (dat3 V c).before 6 t d = iblk3 V c 6 t :=
  ((dat3 V c).before_in_eq_fetched 6 rfl (fun _ => rfl) (fun _ _ _ => rfl)
    (fun t => by rw [after3_6]; unfold Dat.blockOf iblk3; rw [A_eq3]; try rfl) t d).trans
    (by unfold Dat.fetched Dat.blockOf iblk3; rw [A_eq3]; try rfl)
theorem Cc.before3_w7 (c : Dev nD) (t : Fin cfg3.N) (d) : (dat3 V c).before 7 t d = iblk3 V c 7 t :=
  ((dat3 V c).before_in_eq_fetched 7 rfl (fun _ => rfl) (fun _ _ _ => rfl)
    (fun t => by rw [after3_7]; unfold Dat.blockOf iblk3; rw [A_eq3]; try rfl) t d).trans
    (by unfold Dat.fetched Dat.blockOf iblk3; rw [A_eq3]; try rfl)
theorem Cc.before3_w8 (c : Dev nD) (t : Fin cfg3.N) (d) : (dat3 V c).before 8 t d = iblk3 V c 8 t :=
  ((dat3 V c).before_in_eq_fetched 8 rfl (fun _ => rfl) (fun _ _ _ => rfl)
    (fun t => by rw [after3_8]; unfold Dat.blockOf iblk3; rw [A_eq3]; try rfl) t d).trans
    (by unfold Dat.fetched Dat.blockOf iblk3; rw [A_eq3]; try rfl)
theorem Cc.before3_w9 (c : Dev nD) (t : Fin cfg3.N) (d) : (dat3 V c).before 9 t d = iblk3 V c 9 t :=
  ((dat3 V c).before_in_eq_fetched 9 rfl (fun _ => rfl) (fun _ _ _ => rfl)
    (fun t => by rw [after3_9]; unfold Dat.blockOf iblk3; rw [A_eq3]; try rfl) t d).trans
    (by unfold Dat.fetched Dat.blockOf iblk3; rw [A_eq3]; try rfl)

/-! ## The body obligation, at a generic point -/

/-- What the body is called with at point `t`, the windows one by one, -/
def Cc.bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d)))

/-- and what it returns. -/
def Cc.bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t))

/-- The body at any point: the inputs' buffers hold their blocks, so the triple applies; the invariant and what
    the core owes pass through unread. -/
theorem Cc.sound_body3 (c : Dev nD) (t : Fin cfg3.N) :
    Cc.bodyPre3 V c t ⊢ wp frame (wpE (defs₀ (F := F)) Variants.none c none) Set.univ (bodyAt3 t) (fun _ => Cc.bodyPost3 V c t) := by
  unfold Cc.bodyPre3 Cc.bodyPost3 bodyAt3
  simp only [Cc.before3_w0, Cc.before3_w1, Cc.before3_w2, Cc.before3_w3, Cc.before3_w4, Cc.before3_w5, Cc.before3_w6, Cc.before3_w7, Cc.before3_w8, Cc.before3_w9]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (Cc.sound_kernel3 c Set.univ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation3 (c : Dev nD) : BodyObligation (dat3 (F := F) V c) (defs₀ (F := F)) Variants.none () Set.univ := fun t => by
  rw [bigSep_W3, bigSep_W3]
  exact Cc.sound_body3 V c t

/-! ## The invariant at the region's ends -/

theorem hin3 (c : Dev nD) : (Pipeline.ΦA spec3 c : sProp 𝕄) ⊢ (dat3 V c).Φ 0 := by
  rw [show (dat3 V c).Φ 0 = Pipeline.ΦA spec3 c from rfl]

theorem hout3 (c : Dev nD) : (dat3 V c).Φ (Fin.last cfg3.N) ⊢ (Pipeline.ΦA spec3 c : sProp 𝕄) := by
  rw [show (dat3 V c).Φ (Fin.last cfg3.N) = Pipeline.ΦA spec3 c from rfl]

end Cert.KernelIdeal.Hand

end
-- ==== Proof.KI_Frame.lean ====
/-
  The four regions' proof data put together, and the kernel program's frame: every weakly fair execution of @main
  terminates, nothing faulting, and every argument array ends holding its launch contents. The run of the whole
  program ends with every unscoped buffer at the fold of the host stretches and the regions' write-backs; an
  argument array read through that fold is the launch memory's.
-/
import proofs.«134035_j84430467104804_1_alg».proof.Proof.KI_RunArgs
import proofs.«134035_j84430467104804_1_alg».proof.Proof.KI_R0
import proofs.«134035_j84430467104804_1_alg».proof.Proof.KI_R1
import proofs.«134035_j84430467104804_1_alg».proof.Proof.KI_R2
import proofs.«134035_j84430467104804_1_alg».proof.Proof.KI_R3

set_option maxRecDepth 16384

noncomputable section

namespace Cert.KernelIdeal.Hand

open Idealize.ShloMosaic Idealize.ShloMosaic.TcCoe
open Idealize.SL Idealize.SL.Sem
open Cert.KernelIdeal

variable {F : FTy → Type} [FloatOps F]

/-- The regions' proof data and their obligations, each as a function of the contents its region is entered with. -/
def theData : Data F where
  d0 V c := dat0 V c
  hA0 V c w := A_eq0 V c w
  hq0 V c w := q_eq0 V c w
  ho0 V c t := owed_eq0 V c t
  hr0 V c t := rfl
  hb0 V c := body_obligation0 V c
  hin0 V c := hin0 V c
  hout0 V c := hout0 V c
  d1 V c := dat1 V c
  hA1 V c w := A_eq1 V c w
  hq1 V c w := q_eq1 V c w
  ho1 V c t := owed_eq1 V c t
  hr1 V c t := rfl
  hb1 V c := body_obligation1 V c
  hin1 V c := hin1 V c
  hout1 V c := hout1 V c
  d2 V c := dat2 V c
  hA2 V c w := A_eq2 V c w
  hq2 V c w := q_eq2 V c w
  ho2 V c t := owed_eq2 V c t
  hr2 V c t := rfl
  hb2 V c := body_obligation2 V c
  hin2 V c := hin2 V c
  hout2 V c := hout2 V c
  d3 V c := dat3 V c
  hA3 V c w := A_eq3 V c w
  hq3 V c w := q_eq3 V c w
  ho3 V c t := owed_eq3 V c t
  hr3 V c t := rfl
  hb3 V c := body_obligation3 V c
  hin3 V c := hin3 V c
  hout3 V c := hout3 V c

variable (m : (ℓ : Loc nD τ sig) → Buf (Elt F) ℓ) (ρ : Dev nD → PrngReg)

/-- The run of the whole program with these proof data. -/
theorem theRun : θ_run defs (onTc (τ := τ) (main (F := F))) ⟨m, fun _ => 0, ρ⟩
    (fun r => ∀ c : Dev nD, ∀ b ∈ Pipeline.ucRefs τ sig, r.2.mem (((c : Thread nD τ)).1, b) = W7 m theData c b) :=
  run m theData ρ

/-- THE FRAME: the program runs and its fourteen argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_arg0 (by decide))).trans (W7_main_arg0 m theData c),
     (h c _ (mem_uc main_arg1 (by decide))).trans (W7_main_arg1 m theData c),
     (h c _ (mem_uc main_arg2 (by decide))).trans (W7_main_arg2 m theData c),
     (h c _ (mem_uc main_arg3 (by decide))).trans (W7_main_arg3 m theData c),
     (h c _ (mem_uc main_arg4 (by decide))).trans (W7_main_arg4 m theData c),
     (h c _ (mem_uc main_arg5 (by decide))).trans (W7_main_arg5 m theData c),
     (h c _ (mem_uc main_arg6 (by decide))).trans (W7_main_arg6 m theData c),
     (h c _ (mem_uc main_arg7 (by decide))).trans (W7_main_arg7 m theData c),
     (h c _ (mem_uc main_arg8 (by decide))).trans (W7_main_arg8 m theData c),
     (h c _ (mem_uc main_arg9 (by decide))).trans (W7_main_arg9 m theData c),
     (h c _ (mem_uc main_arg10 (by decide))).trans (W7_main_arg10 m theData c),
     (h c _ (mem_uc main_arg11 (by decide))).trans (W7_main_arg11 m theData c),
     (h c _ (mem_uc main_arg12 (by decide))).trans (W7_main_arg12 m theData c),
     (h c _ (mem_uc main_arg13 (by decide))).trans (W7_main_arg13 m theData c)⟩)
    (theRun m ρ)

/-- The run's result buffer, read off the same run: what the last region's write-backs leave. -/
theorem result_read (r : PUnit × MemSt nD τ sig (Elt F))
    (h : ∀ c : Dev nD, ∀ b ∈ Pipeline.ucRefs τ sig, r.2.mem (((c : Thread nD τ)).1, b) = W7 m theData c b) (c : Dev nD) :
    r.2.mem ((c.tc : Thread nD τ).loc main_v32) = (dat3 (V6 m theData) c).arrAt 10 cfg3.N :=
  (h c _ (mem_uc main_v32 (by decide))).trans (W7_main_v32 m theData c)

end Cert.KernelIdeal.Hand

end
-- ==== Proof.KI_Keep.lean ====
/-
  What a kernel region and a host stretch leave alone.

  A region changes only the arrays behind its OUTPUT windows. A buffer that is no window's array keeps its
  contents through the region, and so does the array behind an input window (it is never written back). A host
  stretch changes only the buffers its operations write. These are the steps by which an array computed early in
  @main is still found, unchanged, where a later region reads it.
-/
import proofs.«134035_j84430467104804_1_alg».proof.Proof.KI_RunArgs

set_option maxRecDepth 16384

noncomputable section

namespace Cert.KernelIdeal.Hand

open Idealize.ShloMosaic Idealize.ShloMosaic.TcCoe
open Idealize.SL Idealize.SL.Sem
open Idealize.ShloMosaic.Pipeline (Dat)
open Cert.KernelIdeal

variable {F : FTy → Type} [FloatOps F]
variable (m : (ℓ : Loc nD τ sig) → Buf (Elt F) ℓ) (D : Data F)

/-- The array behind an input window of region 0 leaves the region as it entered. -/
theorem W2_in (c : Dev nD) (w : Fin cfg0.W) (hw : (cfg0.win w).isOut = false) :
    W2 m D c (Proc.devRef .tc (Pipeline.arrRef spec0 w)) = W1 m c (Proc.devRef .tc (Pipeline.arrRef spec0 w)) :=
  (W2_arr m D c w).trans (((D.d0 (V1 m) c).arrAt_in w hw _).trans (D.hA0 (V1 m) c w))
theorem W4_in (c : Dev nD) (w : Fin cfg1.W) (hw : (cfg1.win w).isOut = false) :
    W4 m D c (Proc.devRef .tc (Pipeline.arrRef spec1 w)) = W3 m D c (Proc.devRef .tc (Pipeline.arrRef spec1 w)) :=
  (W4_arr m D c w).trans (((D.d1 (V3 m D) c).arrAt_in w hw _).trans (D.hA1 (V3 m D) c w))
theorem W5_in (c : Dev nD) (w : Fin cfg2.W) (hw : (cfg2.win w).isOut = false) :
    W5 m D c (Proc.devRef .tc (Pipeline.arrRef spec2 w)) = W4 m D c (Proc.devRef .tc (Pipeline.arrRef spec2 w)) :=
  (W5_arr m D c w).trans (((D.d2 (V4 m D) c).arrAt_in w hw _).trans (D.hA2 (V4 m D) c w))
theorem W7_in (c : Dev nD) (w : Fin cfg3.W) (hw : (cfg3.win w).isOut = false) :
    W7 m D c (Proc.devRef .tc (Pipeline.arrRef spec3 w)) = W6 m D c (Proc.devRef .tc (Pipeline.arrRef spec3 w)) :=
  (W7_arr m D c w).trans (((D.d3 (V6 m D) c).arrAt_in w hw _).trans (D.hA3 (V6 m D) c w))

/-- Region 0 leaves alone a buffer that is no window's array of it, or an input window's. -/
theorem keep0 (c : Dev nD) (r : Ref sig .tc)
    (h : (∀ w, Pipeline.arrRef spec0 w ≠ r) ∨ ∃ w : Fin cfg0.W, (cfg0.win w).isOut = false ∧ Pipeline.arrRef spec0 w = r) :
    W2 m D c (Proc.devRef .tc r) = W1 m c (Proc.devRef .tc r) := by
  rcases h with h | ⟨w, hw, rfl⟩
  · exact W2_of_ne m D c r h
  · exact W2_in m D c w hw
theorem keep1 (c : Dev nD) (r : Ref sig .tc)
    (h : (∀ w, Pipeline.arrRef spec1 w ≠ r) ∨ ∃ w : Fin cfg1.W, (cfg1.win w).isOut = false ∧ Pipeline.arrRef spec1 w = r) :
    W4 m D c (Proc.devRef .tc r) = W3 m D c (Proc.devRef .tc r) := by
  rcases h with h | ⟨w, hw, rfl⟩
  · exact W4_of_ne m D c r h
  · exact W4_in m D c w hw
theorem keep2 (c : Dev nD) (r : Ref sig .tc)
    (h : (∀ w, Pipeline.arrRef spec2 w ≠ r) ∨ ∃ w : Fin cfg2.W, (cfg2.win w).isOut = false ∧ Pipeline.arrRef spec2 w = r) :
    W5 m D c (Proc.devRef .tc r) = W4 m D c (Proc.devRef .tc r) := by
  rcases h with h | ⟨w, hw, rfl⟩
  · exact W5_of_ne m D c r h
  · exact W5_in m D c w hw
theorem keep3 (c : Dev nD) (r : Ref sig .tc)
    (h : (∀ w, Pipeline.arrRef spec3 w ≠ r) ∨ ∃ w : Fin cfg3.W, (cfg3.win w).isOut = false ∧ Pipeline.arrRef spec3 w = r) :
    W7 m D c (Proc.devRef .tc r) = W6 m D c (Proc.devRef .tc r) := by
  rcases h with h | ⟨w, hw, rfl⟩
  · exact W7_of_ne m D c r h
  · exact W7_in m D c w hw

/-- From region 1's entry back to region 0's: a buffer the second host stretch does not write and region 0 leaves alone. -/
theorem back31 (c : Dev nD) (r : Ref sig .tc) (g1 : r ∉ Gen.hostOps1_W)
    (h0 : (∀ w, Pipeline.arrRef spec0 w ≠ r) ∨ ∃ w : Fin cfg0.W, (cfg0.win w).isOut = false ∧ Pipeline.arrRef spec0 w = r) :
    W3 m D c (Proc.devRef .tc r) = W1 m c (Proc.devRef .tc r) :=
  (W3_of m D c r g1).trans (keep0 m D c r h0)
/-- From region 2's entry back to region 0's. -/
theorem back41 (c : Dev nD) (r : Ref sig .tc) (g1 : r ∉ Gen.hostOps1_W)
    (h0 : (∀ w, Pipeline.arrRef spec0 w ≠ r) ∨ ∃ w : Fin cfg0.W, (cfg0.win w).isOut = false ∧ Pipeline.arrRef spec0 w = r)
    (h1 : (∀ w, Pipeline.arrRef spec1 w ≠ r) ∨ ∃ w : Fin cfg1.W, (cfg1.win w).isOut = false ∧ Pipeline.arrRef spec1 w = r) :
    W4 m D c (Proc.devRef .tc r) = W1 m c (Proc.devRef .tc r) :=
  (keep1 m D c r h1).trans (back31 m D c r g1 h0)
/-- From region 3's entry back to region 0's. -/
theorem back61 (c : Dev nD) (r : Ref sig .tc) (g1 : r ∉ Gen.hostOps1_W) (g3 : r ∉ Gen.hostOps3_W)
    (h0 : (∀ w, Pipeline.arrRef spec0 w ≠ r) ∨ ∃ w : Fin cfg0.W, (cfg0.win w).isOut = false ∧ Pipeline.arrRef spec0 w = r)
    (h1 : (∀ w, Pipeline.arrRef spec1 w ≠ r) ∨ ∃ w : Fin cfg1.W, (cfg1.win w).isOut = false ∧ Pipeline.arrRef spec1 w = r)
    (h2 : (∀ w, Pipeline.arrRef spec2 w ≠ r) ∨ ∃ w : Fin cfg2.W, (cfg2.win w).isOut = false ∧ Pipeline.arrRef spec2 w = r) :
    W6 m D c (Proc.devRef .tc r) = W1 m c (Proc.devRef .tc r) :=
  (W6_of m D c r g3).trans ((keep2 m D c r h2).trans (back41 m D c r g1 h0 h1))
/-- From region 3's entry back to region 2's: a buffer the third host stretch does not write and region 2 leaves alone. -/
theorem back64 (c : Dev nD) (r : Ref sig .tc) (g3 : r ∉ Gen.hostOps3_W)
    (h2 : (∀ w, Pipeline.arrRef spec2 w ≠ r) ∨ ∃ w : Fin cfg2.W, (cfg2.win w).isOut = false ∧ Pipeline.arrRef spec2 w = r) :
    W6 m D c (Proc.devRef .tc r) = W4 m D c (Proc.devRef .tc r) :=
  (W6_of m D c r g3).trans (keep2 m D c r h2)

end Cert.KernelIdeal.Hand

end
-- ==== Proof.Spec.lean ====
/-
  The mathematics both programs compute, stated once over the argument arrays as functions of literal
  coordinates, on the extended reals.

  A graph of n = 32 objects per batch element, B = 256 batch elements, object features of width d = 128.
  For the ordered pair (i, j) of objects the edge row is the concatenation
      need b i j = [ state b i · e ,  state b j · e ]   (width 2d = 256),   e = edges b (32·i + j).
  A two-layer perceptron with a batch normalisation between the layers is applied to every edge row
  (262144 = 256·32·32 rows), the messages are summed over j, and a second perceptron of the same shape is
  applied to [ state b i , agg b i ] (8192 = 256·32 rows).

  The batch normalisation needs, per hidden column c, the mean and the (biased) variance of that column over
  ALL rows. The variance is written here in two ways:
    * "K": (sum of squares)/N − mean², from one pass accumulating the sum and the sum of squares;
    * "R": the mean of the squared deviations from the mean.
  Everything downstream of a variance is a function of it (`act1`, `agg`, `g1`, `outAt` take the variance as a
  parameter), so that the two programs' results are `outAt p (varK1 p) (varK2 p (varK1 p))` and
  `outAt p (varR1 p) (varR2 p (varR1 p))`; they agree when every entry is a real number.
-/
import Idealize.ShloMosaic.PureOps.Ideal
import Idealize.ShloMosaic.Lib.ValueIdx

noncomputable section

namespace Cert.Spec

open Idealize.ShloMosaic Idealize.ShloMosaic.ValueIdx

/-- The shapes of the argument arrays, as index types. -/
abbrev I3 : Type := (⟨3, ![256, 32, 128]⟩ : Shape).Idx
abbrev IE : Type := (⟨2, ![256, 1024]⟩ : Shape).Idx
abbrev IW1 : Type := (⟨2, ![256, 256]⟩ : Shape).Idx
abbrev IB1 : Type := (⟨1, ![256]⟩ : Shape).Idx
abbrev IW2 : Type := (⟨2, ![128, 256]⟩ : Shape).Idx
abbrev IB2 : Type := (⟨1, ![128]⟩ : Shape).Idx

/-- The fourteen argument arrays, in the order of the programs' parameters. A first-layer weight is indexed
    (hidden column c, input k); a second-layer weight (output d, hidden column c). -/
structure Params where
  st : I3 → EReal
  ed : IE → EReal
  mw1 : IW1 → EReal
  mb1 : IB1 → EReal
  mg : IB1 → EReal
  mbt : IB1 → EReal
  mw2 : IW2 → EReal
  mb2 : IB2 → EReal
  fw1 : IW1 → EReal
  fb1 : IB1 → EReal
  fg : IB1 → EReal
  fbt : IB1 → EReal
  fw2 : IW2 → EReal
  fb2 : IB2 → EReal

/-- The float words both programs carry, read as extended reals: the normalisation's epsilon, the leaky
    slope, zero, and the two row counts 262144 and 8192. -/
def epsW : EReal := Ideal.ofBits .f32 0x3727C5AC#32
def slopeW : EReal := Ideal.ofBits .f32 0x3C23D70A#32
def zeroW : EReal := Ideal.ofBits .f32 0x00000000#32
def n1W : EReal := Ideal.ofBits .f32 0x48800000#32
def n2W : EReal := Ideal.ofBits .f32 0x46000000#32

/-- x for x ≥ 0, slope·x otherwise. -/
def leaky (x : EReal) : EReal := Scalar.select (Ideal.cmp .oge x zeroW) x (slopeW * x)

/-- A hidden entry normalised by the column's mean and variance, scaled, shifted and activated. -/
def bnact (h mean var g b : EReal) : EReal := leaky ((h - mean) * Ideal.rsqrt (var + epsW) * g + b)

/-- The position of the pair (i, j) among a batch element's 1024 edges. -/
def pairIx (i j : Fin 32) : Fin 1024 := ⟨32 * i.val + j.val, by omega⟩

variable (p : Params)

/-- The edge row of the pair (i, j): the source's features, then the target's, each times the edge's weight. -/
def need (b : Fin 256) (i j : Fin 32) (k : Fin 256) : EReal :=
  if h : k.val < 128 then p.st (ix3 b i ⟨k.val, h⟩) * p.ed (ix2 b (pairIx i j))
  else p.st (ix3 b j ⟨k.val - 128, by omega⟩) * p.ed (ix2 b (pairIx i j))

/-- First layer of the message perceptron at the pair's row, hidden column c. -/
def h1 (b : Fin 256) (i j : Fin 32) (c : Fin 256) : EReal :=
  (∑ k : Fin 256, need p b i j k * p.mw1 (ix2 c k)) + p.mb1 (ix1 c)

/-- Column sums over all 262144 rows: of the entries, of their squares. -/
def sum1 (c : Fin 256) : EReal := ∑ b : Fin 256, ∑ i : Fin 32, ∑ j : Fin 32, h1 p b i j c
def sumsq1 (c : Fin 256) : EReal := ∑ b : Fin 256, ∑ i : Fin 32, ∑ j : Fin 32, h1 p b i j c * h1 p b i j c
def mean1 (c : Fin 256) : EReal := Ideal.div (sum1 p c) n1W
/-- The column's variance from the two sums, -/
def varK1 (c : Fin 256) : EReal := Ideal.div (sumsq1 p c) n1W - mean1 p c * mean1 p c
/-- and as the mean of the squared deviations. -/
def varR1 (c : Fin 256) : EReal :=
  Ideal.div (∑ b : Fin 256, ∑ i : Fin 32, ∑ j : Fin 32, (h1 p b i j c - mean1 p c) * (h1 p b i j c - mean1 p c)) n1W

/-- The activated hidden entry, for a given variance of each column. -/
def act1 (v1 : Fin 256 → EReal) (b : Fin 256) (i j : Fin 32) (c : Fin 256) : EReal :=
  bnact (h1 p b i j c) (mean1 p c) (v1 c) (p.mg (ix1 c)) (p.mbt (ix1 c))

/-- The message of the pair (i, j), feature d. -/
def msg (v1 : Fin 256 → EReal) (b : Fin 256) (i j : Fin 32) (d : Fin 128) : EReal :=
  (∑ c : Fin 256, act1 p v1 b i j c * p.mw2 (ix2 d c)) + p.mb2 (ix1 d)

/-- The messages of object i summed over its 32 partners. -/
def agg (v1 : Fin 256 → EReal) (b : Fin 256) (i : Fin 32) (d : Fin 128) : EReal := ∑ j : Fin 32, msg p v1 b i j d

/-- The object row of the second perceptron: the object's features, then its aggregated messages. -/
def sm (v1 : Fin 256 → EReal) (b : Fin 256) (i : Fin 32) (k : Fin 256) : EReal :=
  if h : k.val < 128 then p.st (ix3 b i ⟨k.val, h⟩) else agg p v1 b i ⟨k.val - 128, by omega⟩

/-- First layer of the second perceptron at the object's row, hidden column c. -/
def g1 (v1 : Fin 256 → EReal) (b : Fin 256) (i : Fin 32) (c : Fin 256) : EReal :=
  (∑ k : Fin 256, sm p v1 b i k * p.fw1 (ix2 c k)) + p.fb1 (ix1 c)

def sum2 (v1 : Fin 256 → EReal) (c : Fin 256) : EReal := ∑ b : Fin 256, ∑ i : Fin 32, g1 p v1 b i c
def sumsq2 (v1 : Fin 256 → EReal) (c : Fin 256) : EReal := ∑ b : Fin 256, ∑ i : Fin 32, g1 p v1 b i c * g1 p v1 b i c
def mean2 (v1 : Fin 256 → EReal) (c : Fin 256) : EReal := Ideal.div (sum2 p v1 c) n2W
def varK2 (v1 : Fin 256 → EReal) (c : Fin 256) : EReal := Ideal.div (sumsq2 p v1 c) n2W - mean2 p v1 c * mean2 p v1 c
def varR2 (v1 : Fin 256 → EReal) (c : Fin 256) : EReal :=
  Ideal.div (∑ b : Fin 256, ∑ i : Fin 32, (g1 p v1 b i c - mean2 p v1 c) * (g1 p v1 b i c - mean2 p v1 c)) n2W

def act2 (v1 v2 : Fin 256 → EReal) (b : Fin 256) (i : Fin 32) (c : Fin 256) : EReal :=
  bnact (g1 p v1 b i c) (mean2 p v1 c) (v2 c) (p.fg (ix1 c)) (p.fbt (ix1 c))

/-- The result at (b, i, d), for given variances of the two normalisations. -/
def outAt (v1 v2 : Fin 256 → EReal) (b : Fin 256) (i : Fin 32) (d : Fin 128) : EReal :=
  (∑ c : Fin 256, act2 p v1 v2 b i c * p.fw2 (ix2 d c)) + p.fb2 (ix1 d)

/-- The result with the variances from sums of squares (one accumulating pass per normalisation), -/
def outK (b : Fin 256) (i : Fin 32) (d : Fin 128) : EReal := outAt p (varK1 p) (varK2 p (varK1 p)) b i d
/-- and with the variances as means of squared deviations. -/
def outR (b : Fin 256) (i : Fin 32) (d : Fin 128) : EReal := outAt p (varR1 p) (varR2 p (varR1 p)) b i d

/-- Every entry of every argument array is a real number. -/
def AllReal : Prop :=
  (∀ x, ∃ r : ℝ, p.st x = r) ∧ (∀ x, ∃ r : ℝ, p.ed x = r) ∧ (∀ x, ∃ r : ℝ, p.mw1 x = r) ∧ (∀ x, ∃ r : ℝ, p.mb1 x = r)
  ∧ (∀ x, ∃ r : ℝ, p.mg x = r) ∧ (∀ x, ∃ r : ℝ, p.mbt x = r) ∧ (∀ x, ∃ r : ℝ, p.mw2 x = r) ∧ (∀ x, ∃ r : ℝ, p.mb2 x = r)
  ∧ (∀ x, ∃ r : ℝ, p.fw1 x = r) ∧ (∀ x, ∃ r : ℝ, p.fb1 x = r) ∧ (∀ x, ∃ r : ℝ, p.fg x = r) ∧ (∀ x, ∃ r : ℝ, p.fbt x = r)
  ∧ (∀ x, ∃ r : ℝ, p.fw2 x = r) ∧ (∀ x, ∃ r : ℝ, p.fb2 x = r)

end Cert.Spec

end
-- ==== Proof.KI_Host.lean ====
/-
  The three stretches of array operations that run between the four kernels, read at an index, at the ideal
  values and over arbitrary buffer contents W.

  Before the first kernel: the edge array [256, 1024] is regrouped as [256, 32, 32] (row-major, so the entry
  (b, i, j) is the entry (b, 32·i + j)); each of the four weight matrices is transposed and then changed to the
  narrower float format, which at the ideal values changes nothing; each of the eight bias / scale / shift
  vectors is laid out as one row. Between the kernels: a column's sum and sum of squares are divided by the row
  count, and the variance is (sum of squares)/N − mean·mean. A buffer a stretch does not write keeps its contents.
-/
import proofs.«134035_j84430467104804_1_alg».proof.Proof.Gen.KernelIdeal.Regions
import proofs.«134035_j84430467104804_1_alg».proof.Proof.Spec
import Idealize.ShloMosaic.Lib.ValueLayout
import Idealize.ShloMosaic.Lib.ValueIdx

noncomputable section

namespace Cert.KernelIdeal.Glue

open Idealize.ShloMosaic Idealize.ShloMosaic.ValueIdx Idealize.ShloMosaic.TcCoe
open Cert.KernelIdeal

variable (W : Valuation τ sig (Elt Ideal))

/-! ## Each written buffer as the operations' term over W -/

namespace HostTerm

theorem v0 : (StableHlo.after (Gen.hostOps0 (F := Ideal)) W (Proc.devRef .tc main_v0) : S256x32x32.Idx → EReal)
    = shapeCast S256x32x32 (W (Proc.devRef .tc main_arg1) : S256x1024.Idx → EReal) Gen.shapeCasts_S256x1024_S256x32x32 := by
  after_results; rfl

theorem v2 : (StableHlo.after (Gen.hostOps0 (F := Ideal)) W (Proc.devRef .tc main_v2) : S256x256.Idx → EReal)
    = transpose S256x256 [1, 0] (W (Proc.devRef .tc main_arg2) : S256x256.Idx → EReal) Gen.transposes_S256x256_S256x256_1_0 := by
  after_results; rfl

theorem v4 : (StableHlo.after (Gen.hostOps0 (F := Ideal)) W (Proc.devRef .tc main_v4) : S256x128.Idx → EReal)
    = transpose S256x128 [1, 0] (W (Proc.devRef .tc main_arg6) : S128x256.Idx → EReal) Gen.transposes_S128x256_S256x128_1_0 := by
  after_results; rfl

theorem v6 : (StableHlo.after (Gen.hostOps0 (F := Ideal)) W (Proc.devRef .tc main_v6) : S256x256.Idx → EReal)
    = transpose S256x256 [1, 0] (W (Proc.devRef .tc main_arg8) : S256x256.Idx → EReal) Gen.transposes_S256x256_S256x256_1_0 := by
  after_results; rfl

theorem v8 : (StableHlo.after (Gen.hostOps0 (F := Ideal)) W (Proc.devRef .tc main_v8) : S256x128.Idx → EReal)
    = transpose S256x128 [1, 0] (W (Proc.devRef .tc main_arg12) : S128x256.Idx → EReal) Gen.transposes_S128x256_S256x128_1_0 := by
  after_results; rfl

theorem v9 : (StableHlo.after (Gen.hostOps0 (F := Ideal)) W (Proc.devRef .tc main_v9) : S1x256.Idx → EReal)
    = shapeCast S1x256 (W (Proc.devRef .tc main_arg3) : S256.Idx → EReal) Gen.shapeCasts_S256_S1x256 := by
  after_results; rfl

theorem v10 : (StableHlo.after (Gen.hostOps0 (F := Ideal)) W (Proc.devRef .tc main_v10) : S1x256.Idx → EReal)
    = shapeCast S1x256 (W (Proc.devRef .tc main_arg4) : S256.Idx → EReal) Gen.shapeCasts_S256_S1x256 := by
  after_results; rfl

theorem v11 : (StableHlo.after (Gen.hostOps0 (F := Ideal)) W (Proc.devRef .tc main_v11) : S1x256.Idx → EReal)
    = shapeCast S1x256 (W (Proc.devRef .tc main_arg5) : S256.Idx → EReal) Gen.shapeCasts_S256_S1x256 := by
  after_results; rfl

theorem v12 : (StableHlo.after (Gen.hostOps0 (F := Ideal)) W (Proc.devRef .tc main_v12) : S1x128.Idx → EReal)
    = shapeCast S1x128 (W (Proc.devRef .tc main_arg7) : S128.Idx → EReal) Gen.shapeCasts_S128_S1x128 := by
  after_results; rfl

theorem v13 : (StableHlo.after (Gen.hostOps0 (F := Ideal)) W (Proc.devRef .tc main_v13) : S1x256.Idx → EReal)
    = shapeCast S1x256 (W (Proc.devRef .tc main_arg9) : S256.Idx → EReal) Gen.shapeCasts_S256_S1x256 := by
  after_results; rfl

theorem v14 : (StableHlo.after (Gen.hostOps0 (F := Ideal)) W (Proc.devRef .tc main_v14) : S1x256.Idx → EReal)
    = shapeCast S1x256 (W (Proc.devRef .tc main_arg10) : S256.Idx → EReal) Gen.shapeCasts_S256_S1x256 := by
  after_results; rfl

theorem v15 : (StableHlo.after (Gen.hostOps0 (F := Ideal)) W (Proc.devRef .tc main_v15) : S1x256.Idx → EReal)
    = shapeCast S1x256 (W (Proc.devRef .tc main_arg11) : S256.Idx → EReal) Gen.shapeCasts_S256_S1x256 := by
  after_results; rfl

theorem v16 : (StableHlo.after (Gen.hostOps0 (F := Ideal)) W (Proc.devRef .tc main_v16) : S1x128.Idx → EReal)
    = shapeCast S1x128 (W (Proc.devRef .tc main_arg13) : S128.Idx → EReal) Gen.shapeCasts_S128_S1x128 := by
  after_results; rfl

theorem v19 : (StableHlo.after (Gen.hostOps1 (F := Ideal)) W (Proc.devRef .tc main_v19) : S1x256.Idx → EReal)
    = fun x => Ideal.div ((W (Proc.devRef .tc main_v17_0) : S1x256.Idx → EReal) x) Cert.Spec.n1W := by
  after_results; rfl

theorem v23 : (StableHlo.after (Gen.hostOps1 (F := Ideal)) W (Proc.devRef .tc main_v23) : S1x256.Idx → EReal)
    = fun x => Ideal.div ((W (Proc.devRef .tc main_v17_1) : S1x256.Idx → EReal) x) Cert.Spec.n1W
        - Ideal.div ((W (Proc.devRef .tc main_v17_0) : S1x256.Idx → EReal) x) Cert.Spec.n1W
          * Ideal.div ((W (Proc.devRef .tc main_v17_0) : S1x256.Idx → EReal) x) Cert.Spec.n1W := by
  after_results; rfl

theorem v27 : (StableHlo.after (Gen.hostOps3 (F := Ideal)) W (Proc.devRef .tc main_v27) : S1x256.Idx → EReal)
    = fun x => Ideal.div ((W (Proc.devRef .tc main_v25_0) : S1x256.Idx → EReal) x) Cert.Spec.n2W := by
  after_results; rfl

theorem v31 : (StableHlo.after (Gen.hostOps3 (F := Ideal)) W (Proc.devRef .tc main_v31) : S1x256.Idx → EReal)
    = fun x => Ideal.div ((W (Proc.devRef .tc main_v25_1) : S1x256.Idx → EReal) x) Cert.Spec.n2W
        - Ideal.div ((W (Proc.devRef .tc main_v25_0) : S1x256.Idx → EReal) x) Cert.Spec.n2W
          * Ideal.div ((W (Proc.devRef .tc main_v25_0) : S1x256.Idx → EReal) x) Cert.Spec.n2W := by
  after_results; rfl

end HostTerm

/-! ## Before the first kernel -/

/-- The regrouped edge array at (b, i, j) is the edge array at (b, 32·i + j). -/
theorem host0_v0 (b : Fin 256) (i j : Fin 32) :
    (StableHlo.after (Gen.hostOps0 (F := Ideal)) W (Proc.devRef .tc main_v0) : S256x32x32.Idx → EReal) (ix3 b i j)
      = (W (Proc.devRef .tc main_arg1) : S256x1024.Idx → EReal) (ix2 b (Cert.Spec.pairIx i j)) := by
  rw [HostTerm.v0]
  refine shapeCast_apply (s := S256x1024) (t := S256x32x32) _ _ _ _ ?_
  rw [Shape.rowMajor_val_two, Shape.rowMajor_val_three]
  show b.val * 1024 + (32 * i.val + j.val) = (b.val * 32 + i.val) * 32 + j.val
  omega

/-- The first message weight, transposed: at (k, c) the weight at (c, k). -/
theorem host0_v2 (k c : Fin 256) :
    (StableHlo.after (Gen.hostOps0 (F := Ideal)) W (Proc.devRef .tc main_v2) : S256x256.Idx → EReal) (ix2 k c)
      = (W (Proc.devRef .tc main_arg2) : S256x256.Idx → EReal) (ix2 c k) := by
  rw [HostTerm.v2]; exact transpose_ix2_apply _ _ k c

/-- The second message weight, transposed: at (c, d) the weight at (d, c). -/
theorem host0_v4 (c : Fin 256) (d : Fin 128) :
    (StableHlo.after (Gen.hostOps0 (F := Ideal)) W (Proc.devRef .tc main_v4) : S256x128.Idx → EReal) (ix2 c d)
      = (W (Proc.devRef .tc main_arg6) : S128x256.Idx → EReal) (ix2 d c) := by
  rw [HostTerm.v4]; exact transpose_ix2_apply _ _ c d

/-- The first weight of the second perceptron, transposed. -/
theorem host0_v6 (k c : Fin 256) :
    (StableHlo.after (Gen.hostOps0 (F := Ideal)) W (Proc.devRef .tc main_v6) : S256x256.Idx → EReal) (ix2 k c)
      = (W (Proc.devRef .tc main_arg8) : S256x256.Idx → EReal) (ix2 c k) := by
  rw [HostTerm.v6]; exact transpose_ix2_apply _ _ k c

/-- The second weight of the second perceptron, transposed. -/
theorem host0_v8 (c : Fin 256) (d : Fin 128) :
    (StableHlo.after (Gen.hostOps0 (F := Ideal)) W (Proc.devRef .tc main_v8) : S256x128.Idx → EReal) (ix2 c d)
      = (W (Proc.devRef .tc main_arg12) : S128x256.Idx → EReal) (ix2 d c) := by
  rw [HostTerm.v8]; exact transpose_ix2_apply _ _ c d

/-- The eight vectors laid out as one row each. -/
theorem host0_v9 (c : Fin 256) :
    (StableHlo.after (Gen.hostOps0 (F := Ideal)) W (Proc.devRef .tc main_v9) : S1x256.Idx → EReal) (ix2 (0 : Fin 1) c)
      = (W (Proc.devRef .tc main_arg3) : S256.Idx → EReal) (ix1 c) := by
  rw [HostTerm.v9]; exact shapeCast_a_1a_apply _ _ 0 c

theorem host0_v10 (c : Fin 256) :
    (StableHlo.after (Gen.hostOps0 (F := Ideal)) W (Proc.devRef .tc main_v10) : S1x256.Idx → EReal) (ix2 (0 : Fin 1) c)
      = (W (Proc.devRef .tc main_arg4) : S256.Idx → EReal) (ix1 c) := by
  rw [HostTerm.v10]; exact shapeCast_a_1a_apply _ _ 0 c

theorem host0_v11 (c : Fin 256) :
    (StableHlo.after (Gen.hostOps0 (F := Ideal)) W (Proc.devRef .tc main_v11) : S1x256.Idx → EReal) (ix2 (0 : Fin 1) c)
      = (W (Proc.devRef .tc main_arg5) : S256.Idx → EReal) (ix1 c) := by
  rw [HostTerm.v11]; exact shapeCast_a_1a_apply _ _ 0 c

theorem host0_v12 (d : Fin 128) :
    (StableHlo.after (Gen.hostOps0 (F := Ideal)) W (Proc.devRef .tc main_v12) : S1x128.Idx → EReal) (ix2 (0 : Fin 1) d)
      = (W (Proc.devRef .tc main_arg7) : S128.Idx → EReal) (ix1 d) := by
  rw [HostTerm.v12]; exact shapeCast_a_1a_apply _ _ 0 d

theorem host0_v13 (c : Fin 256) :
    (StableHlo.after (Gen.hostOps0 (F := Ideal)) W (Proc.devRef .tc main_v13) : S1x256.Idx → EReal) (ix2 (0 : Fin 1) c)
      = (W (Proc.devRef .tc main_arg9) : S256.Idx → EReal) (ix1 c) := by
  rw [HostTerm.v13]; exact shapeCast_a_1a_apply _ _ 0 c

theorem host0_v14 (c : Fin 256) :
    (StableHlo.after (Gen.hostOps0 (F := Ideal)) W (Proc.devRef .tc main_v14) : S1x256.Idx → EReal) (ix2 (0 : Fin 1) c)
      = (W (Proc.devRef .tc main_arg10) : S256.Idx → EReal) (ix1 c) := by
  rw [HostTerm.v14]; exact shapeCast_a_1a_apply _ _ 0 c

theorem host0_v15 (c : Fin 256) :
    (StableHlo.after (Gen.hostOps0 (F := Ideal)) W (Proc.devRef .tc main_v15) : S1x256.Idx → EReal) (ix2 (0 : Fin 1) c)
      = (W (Proc.devRef .tc main_arg11) : S256.Idx → EReal) (ix1 c) := by
  rw [HostTerm.v15]; exact shapeCast_a_1a_apply _ _ 0 c

theorem host0_v16 (d : Fin 128) :
    (StableHlo.after (Gen.hostOps0 (F := Ideal)) W (Proc.devRef .tc main_v16) : S1x128.Idx → EReal) (ix2 (0 : Fin 1) d)
      = (W (Proc.devRef .tc main_arg13) : S128.Idx → EReal) (ix1 d) := by
  rw [HostTerm.v16]; exact shapeCast_a_1a_apply _ _ 0 d

/-- A buffer the first stretch does not write keeps its contents. -/
theorem host0_keep (r : Ref sig .tc) (h : r ∉ Gen.hostOps0_W) :
    StableHlo.after (Gen.hostOps0 (F := Ideal)) W (Proc.devRef .tc r) = W (Proc.devRef .tc r) :=
  StableHlo.after_of_writes_sub Gen.hostOps0 _ Gen.hostOps0_writes h

/-! ## Between the first and the second kernel: the first normalisation's mean and variance -/

/-- The mean row: the column's sum over the row count. -/
theorem host1_v19 (c : Fin 256) :
    (StableHlo.after (Gen.hostOps1 (F := Ideal)) W (Proc.devRef .tc main_v19) : S1x256.Idx → EReal) (ix2 (0 : Fin 1) c)
      = Ideal.div ((W (Proc.devRef .tc main_v17_0) : S1x256.Idx → EReal) (ix2 (0 : Fin 1) c)) Cert.Spec.n1W := by
  rw [HostTerm.v19]

/-- The variance row: (sum of squares)/N − mean·mean. -/
theorem host1_v23 (c : Fin 256) :
    (StableHlo.after (Gen.hostOps1 (F := Ideal)) W (Proc.devRef .tc main_v23) : S1x256.Idx → EReal) (ix2 (0 : Fin 1) c)
      = Ideal.div ((W (Proc.devRef .tc main_v17_1) : S1x256.Idx → EReal) (ix2 (0 : Fin 1) c)) Cert.Spec.n1W
        - Ideal.div ((W (Proc.devRef .tc main_v17_0) : S1x256.Idx → EReal) (ix2 (0 : Fin 1) c)) Cert.Spec.n1W
          * Ideal.div ((W (Proc.devRef .tc main_v17_0) : S1x256.Idx → EReal) (ix2 (0 : Fin 1) c)) Cert.Spec.n1W := by
  rw [HostTerm.v23]

/-- The same, over the mean row's own entry μ. -/
theorem host1_v23_mean (c : Fin 256) (μ : EReal)
    (hμ : (StableHlo.after (Gen.hostOps1 (F := Ideal)) W (Proc.devRef .tc main_v19) : S1x256.Idx → EReal) (ix2 (0 : Fin 1) c) = μ) :
    (StableHlo.after (Gen.hostOps1 (F := Ideal)) W (Proc.devRef .tc main_v23) : S1x256.Idx → EReal) (ix2 (0 : Fin 1) c)
      = Ideal.div ((W (Proc.devRef .tc main_v17_1) : S1x256.Idx → EReal) (ix2 (0 : Fin 1) c)) Cert.Spec.n1W - μ * μ := by
  rw [host1_v23, ← hμ, host1_v19]

/-- A buffer the second stretch does not write keeps its contents. -/
theorem host1_keep (r : Ref sig .tc) (h : r ∉ Gen.hostOps1_W) :
    StableHlo.after (Gen.hostOps1 (F := Ideal)) W (Proc.devRef .tc r) = W (Proc.devRef .tc r) :=
  StableHlo.after_of_writes_sub Gen.hostOps1 _ Gen.hostOps1_writes h

/-! ## Between the third and the fourth kernel: the second normalisation's mean and variance -/

theorem host3_v27 (c : Fin 256) :
    (StableHlo.after (Gen.hostOps3 (F := Ideal)) W (Proc.devRef .tc main_v27) : S1x256.Idx → EReal) (ix2 (0 : Fin 1) c)
      = Ideal.div ((W (Proc.devRef .tc main_v25_0) : S1x256.Idx → EReal) (ix2 (0 : Fin 1) c)) Cert.Spec.n2W := by
  rw [HostTerm.v27]

theorem host3_v31 (c : Fin 256) :
    (StableHlo.after (Gen.hostOps3 (F := Ideal)) W (Proc.devRef .tc main_v31) : S1x256.Idx → EReal) (ix2 (0 : Fin 1) c)
      = Ideal.div ((W (Proc.devRef .tc main_v25_1) : S1x256.Idx → EReal) (ix2 (0 : Fin 1) c)) Cert.Spec.n2W
        - Ideal.div ((W (Proc.devRef .tc main_v25_0) : S1x256.Idx → EReal) (ix2 (0 : Fin 1) c)) Cert.Spec.n2W
          * Ideal.div ((W (Proc.devRef .tc main_v25_0) : S1x256.Idx → EReal) (ix2 (0 : Fin 1) c)) Cert.Spec.n2W := by
  rw [HostTerm.v31]

theorem host3_v31_mean (c : Fin 256) (μ : EReal)
    (hμ : (StableHlo.after (Gen.hostOps3 (F := Ideal)) W (Proc.devRef .tc main_v27) : S1x256.Idx → EReal) (ix2 (0 : Fin 1) c) = μ) :
    (StableHlo.after (Gen.hostOps3 (F := Ideal)) W (Proc.devRef .tc main_v31) : S1x256.Idx → EReal) (ix2 (0 : Fin 1) c)
      = Ideal.div ((W (Proc.devRef .tc main_v25_1) : S1x256.Idx → EReal) (ix2 (0 : Fin 1) c)) Cert.Spec.n2W - μ * μ := by
  rw [host3_v31, ← hμ, host3_v27]

/-- A buffer the third stretch does not write keeps its contents. -/
theorem host3_keep (r : Ref sig .tc) (h : r ∉ Gen.hostOps3_W) :
    StableHlo.after (Gen.hostOps3 (F := Ideal)) W (Proc.devRef .tc r) = W (Proc.devRef .tc r) :=
  StableHlo.after_of_writes_sub Gen.hostOps3 _ Gen.hostOps3_writes h

end Cert.KernelIdeal.Glue

end
-- ==== Proof.LibMatmul.lean ====
/-
  Plain matrix products read at an index, at the ideal values.  For dimension numbers that contract the
  left operand's axis 1 with the right operand's axis 0, keep the left operand's axis 0 and the right
  operand's axis 1 and have no batch axis, a `tpu.matmul` into the zero accumulator and the host's
  `dot_general` are both, at the output index (p, q), the sum over k of x(p, k) · w(k, q).
-/
import Idealize.ShloMosaic.PureOps.Ideal.Laws
import Idealize.ShloMosaic.Lib.ValueIdx

noncomputable section

open scoped BigOperators

namespace Cert.LibMatmul

open Idealize.ShloMosaic Idealize.ShloMosaic.ValueIdx

/-- The matrix product of two arrays of extended reals, index by index. -/
def MM {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

theorem MM_apply {A K B : Nat} (x : (⟨2, ![A, K]⟩ : Shape).Idx → EReal) (w : (⟨2, ![K, B]⟩ : Shape).Idx → EReal)
    (p : Fin A) (q : Fin B) : MM x w (ix2 p q) = ∑ k : Fin K, x (ix2 p k) * w (ix2 k q) := rfl

section Plain
variable {A K B : Nat} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])

include hlc in
theorem contr_rank : d.contr.rank = 1 := by rw [d.rank_contr, hlc]; rfl

include hlc in
theorem contr_size : d.contr.size ⟨0, by rw [contr_rank d hlc]; exact Nat.one_pos⟩ = K := by
  have hp : 0 < d.lhsContracting.length := by rw [hlc]; exact Nat.one_pos
  have := d.size_contr 0 hp
  simp only [hlc] at this
  exact this

include hlb hln hlc in
/-- The left operand's index at output index `j` and contraction position `k` is (j₀, k). -/
theorem lhsIdx_eq (j : (⟨2, ![A, B]⟩ : Shape).Idx) (k : d.contr.Idx) :
    d.lhsIdx j k = ix2 (j 0) ((contrEquiv1 d K (contr_rank d hlc) (contr_size d hlc)) k) := by
  funext a; apply Fin.ext
  match a with
  | ⟨0, _⟩ =>
    show (d.lhsIdx j k 0).val = (j 0).val
    have h0b : (0 : Fin (⟨2, ![A, K]⟩ : Shape).rank) ∉ d.lhsBatch := by rw [hlb]; exact List.not_mem_nil
    have h0n : (0 : Fin (⟨2, ![A, K]⟩ : Shape).rank) ∈ d.lhsNonContracting := by rw [hln]; exact List.mem_singleton.mpr rfl
    unfold DotDims.lhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln])
  | ⟨1, _⟩ =>
    show (d.lhsIdx j k 1).val = _
    rw [d.lhsIdx_val_of_single hlc j k]
    simp [contrEquiv1]

include hrb hrn hrc hlb hln hlc in
/-- The right operand's index at output index `j` and contraction position `k` is (k, j₁). -/
theorem rhsIdx_eq (j : (⟨2, ![A, B]⟩ : Shape).Idx) (k : d.contr.Idx) :
    d.rhsIdx j k = ix2 ((contrEquiv1 d K (contr_rank d hlc) (contr_size d hlc)) k) (j 1) := by
  funext a; apply Fin.ext
  match a with
  | ⟨0, _⟩ =>
    show (d.rhsIdx j k 0).val = _
    rw [d.rhsIdx_val_of_single hrc j k]
    simp [contrEquiv1]
  | ⟨1, _⟩ =>
    show (d.rhsIdx j k 1).val = (j 1).val
    have h1b : (1 : Fin (⟨2, ![K, B]⟩ : Shape).rank) ∉ d.rhsBatch := by rw [hrb]; exact List.not_mem_nil
    have h1n : (1 : Fin (⟨2, ![K, B]⟩ : Shape).rank) ∈ d.rhsNonContracting := by rw [hrn]; exact List.mem_singleton.mpr rfl
    unfold DotDims.rhsIdx
    rw [dif_neg h1b, dif_pos h1n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln, hrn])

include hrb hrn hrc hlb hln hlc in
/-- The contraction's sum is the matrix product at the index. -/
theorem plain_sum (x : (⟨2, ![A, K]⟩ : Shape).Idx → EReal) (w : (⟨2, ![K, B]⟩ : Shape).Idx → EReal)
    (j : (⟨2, ![A, B]⟩ : Shape).Idx) :
    ∑ k : d.contr.Idx, x (d.lhsIdx j k) * w (d.rhsIdx j k) = MM x w j := by
  unfold MM
  rw [← Equiv.sum_comp (contrEquiv1 d K (contr_rank d hlc) (contr_size d hlc)) (fun k' => x (ix2 (j 0) k') * w (ix2 k' (j 1)))]
  refine Finset.sum_congr rfl fun k _ => ?_
  rw [lhsIdx_eq d hlb hln hlc j k, rhsIdx_eq d hlb hln hlc hrb hrn hrc j k]
  rfl

include hrb hrn hrc hlb hln hlc in
/-- A `tpu.matmul` into the zero accumulator is the matrix product. -/
theorem matmul_zero_eq {φ₁ φ₂ : FTy} (prec : Option ContractPrecision) (x : FVec Ideal ⟨2, ![A, K]⟩ φ₁) (w : FVec Ideal ⟨2, ![K, B]⟩ φ₂) :
    FloatOps.matmul d prec x w (constant ⟨2, ![A, B]⟩ .f32 0x00000000#32) = MM x w := by
  funext j
  rw [Ideal.matmul_constant_zero_apply]
  exact plain_sum d hlb hln hlc hrb hrn hrc x w j

include hrb hrn hrc hlb hln hlc in
/-- The host's `dot_general` is the matrix product. -/
theorem dotGeneral_eq {φ₁ φ₂ : FTy} (prec : Option ContractPrecision) (sched : HostSchedule) (x : FVec Ideal ⟨2, ![A, K]⟩ φ₁) (w : FVec Ideal ⟨2, ![K, B]⟩ φ₂) :
    FloatOps.dotGeneral d prec sched x w = MM x w := by
  funext j
  rw [Ideal.dotGeneral_apply]
  exact plain_sum d hlb hln hlc hrb hrn hrc x w j

end Plain

end Cert.LibMatmul

end
-- ==== Proof.LibAxisReduce.lean ====
/-
  Reductions over one axis of a matrix, read at an index written by coordinates, for any extents:

  * the vector unit's sum over the rows of each column, and over the columns of each row, as a sum
    over that axis's coordinates;
  * the host's maximum and the host's sum over the columns of each row, as the fold of max from the
    starting value, and the starting value plus the sum, over that row's entries;
  * a maximum against the starting value of such a fold changes nothing.
-/
import Idealize.ShloMosaic.Lib.Pipeline.Value
import Idealize.ShloMosaic.Lib.ValueIdx
import Idealize.ShloMosaic.PureOps.Ideal.Laws
import Idealize.ShloMosaic.PureOps.Reduce

noncomputable section

namespace Cert.LibAxisReduce

open Idealize.ShloMosaic Idealize.ShloMosaic.ValueIdx

/-- Column q of a matrix with row k put back is (k, q). -/
theorem lift_rows {a b : Nat} (h : (⟨2, ![a, b]⟩ : Shape).Reduces [0] (⟨1, ![b]⟩ : Shape)) (q : Fin b)
    (k : Fin ((⟨2, ![a, b]⟩ : Shape).size 0)) : h.lift (ix1 q) k = ix2 (⟨k.val, k.isLt⟩ : Fin a) q := by
  funext c; apply Fin.ext
  fin_cases c <;> rfl

/-- Row p of a matrix with column k put back is (p, k). -/
theorem lift_cols {a b : Nat} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The vector unit's sum over the rows of each column, at column q: the sum of that column's entries. -/
theorem colSum_apply {a b : Nat} (src : FVec Ideal ⟨2, ![a, b]⟩ .f32) (acc : BitVec 32)
    (h : (⟨2, ![a, b]⟩ : Shape).Reduces [0] (⟨1, ![b]⟩ : Shape)) (hφ : FKind.Formats .f32)
    (hacc : acc = FKind.add.neutral .f32 hφ) (q : Fin b) :
    multiReduction .add [0] ⟨1, ![b]⟩ src acc h hφ hacc (ix1 q) = ∑ k : Fin a, src (ix2 k q) := by
  rw [Ideal.multiReduction_add_single]
  have hf : (fun k => src (h.lift (ix1 q) k)) = fun k : Fin a => src (ix2 k q) :=
    funext fun k => congrArg src (lift_rows h q k)
  exact congrArg (fun f => ∑ k : Fin a, f k) hf

/-- The vector unit's sum over the columns of each row, at row p: the sum of that row's entries. -/
theorem rowSum_apply {a b : Nat} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] ⟨1, ![a]⟩ src acc h hφ hacc (ix1 p) = ∑ k : Fin b, src (ix2 p k) := by
  rw [Ideal.multiReduction_add_single]
  have hf : (fun k => src (h.lift (ix1 p) k)) = fun k : Fin b => src (ix2 p k) :=
    funext fun k => congrArg src (lift_cols h p k)
  exact congrArg (fun f => ∑ k : Fin b, f k) hf

/-- The host's maximum over the columns of each row of a matrix, at row p: the fold of max from the
    starting value over the entries (p, ·). -/
theorem hostRowMax_apply {a b : Nat} (x : FVec Ideal ⟨2, ![a, b]⟩ .f32) (init : FVec Ideal ⟨0, ![]⟩ .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel)
    (p : Fin a) :
    Host.reduce FloatOps.maximumf x init h' hu (ix1 p)
      = (Finset.univ : Finset (Fin b)).fold max (init ix0) (fun k => x (ix2 p k)) := by
  rw [Host.reduce_eq_fold_single FloatOps.maximumf x init h' h hu]
  have hi : init (Shape.Idx.first hu) = init ix0 := congrArg init (eq_ix0 _)
  have hf : (x ∘ h.lift (ix1 p)) = fun k : Fin b => x (ix2 p k) :=
    funext fun k => congrArg x (lift_cols h p k)
  rw [hi]
  exact congrArg (fun f => Finset.fold max (init ix0) f (Finset.univ : Finset (Fin b))) hf

/-- The host's sum over the columns of each row of a matrix, at row p: the starting value plus the sum of
    the entries (p, ·). -/
theorem hostRowSum_apply {a b : Nat} (x : FVec Ideal ⟨2, ![a, b]⟩ .f32) (init : FVec Ideal ⟨0, ![]⟩ .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel)
    (p : Fin a) :
    Host.reduceAdd x init h' hu (ix1 p) = init ix0 + ∑ k : Fin b, x (ix2 p k) := by
  unfold Host.reduceAdd
  rw [Ideal.hostReduceAdd_def, Ideal.hostReduceAdd_single h' h]
  have hi : init (Shape.Idx.first hu) = init ix0 := congrArg init (eq_ix0 _)
  have hf : (fun k => x (h.lift (ix1 p) k)) = fun k : Fin b => x (ix2 p k) :=
    funext fun k => congrArg x (lift_cols h p k)
  rw [hi]
  exact congrArg (fun f => init ix0 + ∑ k : Fin b, f k) hf

/-- A fold of max is at least its starting value, so a further maximum against that value changes nothing. -/
theorem max_start_fold {ι : Type} (s : Finset ι) (b : EReal) (f : ι → EReal) :
    max b (s.fold max b f) = s.fold max b f :=
  max_eq_right (Finset.le_fold_max (b := b) (f := f) (s := s) b |>.mpr (Or.inl le_rfl))

end Cert.LibAxisReduce

end
-- ==== Proof.LibBlockSum.lean ====
/-
  Sums over a long axis taken block by block.

  A kernel that walks an axis of extent `N = T * R` in `T` blocks of `R` rows and keeps a running total adds up, in the
  end, the same terms as one sum over the whole axis: in a commutative monoid (the extended reals under `+` are one, infinities
  included) only the grouping differs.  Stated over an arbitrary commutative monoid, for literal or symbolic extents.
-/
import Idealize.ShloMosaic.Lib.ValueIdx

namespace Cert.LibBlockSum

open Finset

variable {M : Type*} [AddCommMonoid M]

/-- Row `r` of block `t`, as a row of the whole axis: `t * R + r`. -/
def row {T R : ℕ} (t : Fin T) (r : Fin R) : Fin (T * R) :=
  ⟨t.val * R + r.val, by
    have ht := t.isLt
    have hr := r.isLt
    calc t.val * R + r.val < t.val * R + R := by omega
      _ = (t.val + 1) * R := by ring
      _ ≤ T * R := Nat.mul_le_mul_right R ht⟩

@[simp] theorem row_val {T R : ℕ} (t : Fin T) (r : Fin R) : (row t r).val = t.val * R + r.val := rfl

/-- A sum over an axis of extent `T * R` is the sum over the `T` blocks of the sums over each block's `R` rows. -/
theorem sum_blocks (T R : ℕ) (f : Fin (T * R) → M) :
    ∑ i, f i = ∑ t : Fin T, ∑ r : Fin R, f (row t r) := by
  rw [← Equiv.sum_comp finProdFinEquiv f, Fintype.sum_prod_type]
  refine Finset.sum_congr rfl fun t _ => Finset.sum_congr rfl fun r _ => congrArg f ?_
  apply Fin.ext
  simp only [finProdFinEquiv_apply_val, row_val]
  ring

/-- The same over an axis whose extent `N` is given as a number with `T * R = N` (for instance `20 * 5000 = 100000`):
    the row `t * R + r` is named by its value. -/
theorem sum_blocks_of_eq {N : ℕ} (T R : ℕ) (h : T * R = N) (f : Fin N → M) :
    ∑ i, f i = ∑ t : Fin T, ∑ r : Fin R,
      f ⟨t.val * R + r.val, h ▸ (row t r).isLt⟩ := by
  subst h
  exact sum_blocks T R f

/-- A running total: start from `0`, add `g 0`, then `g 1`, … — what an accumulator holds after `k` steps. -/
def running (g : ℕ → M) : ℕ → M
  | 0 => 0
  | k + 1 => running g k + g k

@[simp] theorem running_zero (g : ℕ → M) : running g 0 = 0 := rfl
@[simp] theorem running_succ (g : ℕ → M) (k : ℕ) : running g (k + 1) = running g k + g k := rfl

/-- After `k` steps the accumulator holds the sum of the first `k` contributions. -/
theorem running_eq_sum_range (g : ℕ → M) (k : ℕ) : running g k = ∑ t ∈ Finset.range k, g t := by
  induction k with
  | zero => simp
  | succ k ih => rw [running_succ, ih, Finset.sum_range_succ]

/-- After all `T` steps: the sum over the `T` blocks. -/
theorem running_eq_sum_fin (g : ℕ → M) (T : ℕ) : running g T = ∑ t : Fin T, g t.val := by
  rw [running_eq_sum_range, Finset.sum_range]

/-- An accumulator fed block sums of `f` ends at the sum of `f` over the whole axis. -/
theorem running_blocks (T R : ℕ) (f : Fin (T * R) → M) (g : ℕ → M)
    (hg : ∀ t : Fin T, g t.val = ∑ r : Fin R, f (row t r)) :
    running g T = ∑ i, f i := by
  rw [running_eq_sum_fin, sum_blocks]
  exact Finset.sum_congr rfl fun t _ => hg t

end Cert.LibBlockSum
-- ==== Proof.LibRank4Layout.lean ====
/-
  Rank-4 layout steps read at an index written by coordinates, for any extents.

  A rank-3 array [a, b, c] is viewed with one unit axis added ([a, b, 1, c], [a, 1, b, c], [a, b, c, 1]); a rank-4
  array with a unit axis is repeated along that axis; two rank-4 arrays are joined along the last axis; a rank-4
  array [a, b, c, d] is viewed as the matrix of its a·b·c rows, and such a matrix as the rank-4 array again; and a
  rank-4 array is summed over its axis 2.  Each statement names the one operand entry that is read.
-/
import Idealize.ShloMosaic.PureOps.Ideal.Laws
import Idealize.ShloMosaic.Lib.Pipeline.Value
import Idealize.ShloMosaic.Lib.ValueIdx

noncomputable section

open scoped BigOperators

namespace Cert.LibRank4Layout

open Idealize.ShloMosaic Idealize.ShloMosaic.ValueIdx

variable {α : Type}

/-! ## A unit axis added to a rank-3 array -/

/-- [a, b, c] viewed as [a, b, 1, c]: entry (p, q, u, r) is the operand's (p, q, r). -/
theorem cast_abc_ab1c_apply {a b c : ℕ} (x : (⟨3, ![a, b, c]⟩ : Shape).Idx → α)
    (h : (⟨3, ![a, b, c]⟩ : Shape).ShapeCasts ⟨4, ![a, b, 1, c]⟩) (p : Fin a) (q : Fin b) (u : Fin 1) (r : Fin c) :
    shapeCast ⟨4, ![a, b, 1, c]⟩ x h (ix4 p q u r) = x (ix3 p q r) :=
  shapeCast_apply x h _ _ (by
    have hu : u.val = 0 := by omega
    rw [Shape.rowMajor_val_four, Shape.rowMajor_val_three]
    show (p.val * b + q.val) * c + r.val = ((p.val * b + q.val) * 1 + u.val) * c + r.val
    rw [hu, Nat.mul_one, Nat.add_zero])

/-- [a, b, c] viewed as [a, 1, b, c]: entry (p, u, q, r) is the operand's (p, q, r). -/
theorem cast_abc_a1bc_apply {a b c : ℕ} (x : (⟨3, ![a, b, c]⟩ : Shape).Idx → α)
    (h : (⟨3, ![a, b, c]⟩ : Shape).ShapeCasts ⟨4, ![a, 1, b, c]⟩) (p : Fin a) (u : Fin 1) (q : Fin b) (r : Fin c) :
    shapeCast ⟨4, ![a, 1, b, c]⟩ x h (ix4 p u q r) = x (ix3 p q r) :=
  shapeCast_apply x h _ _ (by
    have hu : u.val = 0 := by omega
    rw [Shape.rowMajor_val_four, Shape.rowMajor_val_three]
    show (p.val * b + q.val) * c + r.val = ((p.val * 1 + u.val) * b + q.val) * c + r.val
    rw [hu, Nat.mul_one, Nat.add_zero])

/-- [a, b, c] viewed as [a, b, c, 1]: entry (p, q, r, u) is the operand's (p, q, r). -/
theorem cast_abc_abc1_apply {a b c : ℕ} (x : (⟨3, ![a, b, c]⟩ : Shape).Idx → α)
    (h : (⟨3, ![a, b, c]⟩ : Shape).ShapeCasts ⟨4, ![a, b, c, 1]⟩) (p : Fin a) (q : Fin b) (r : Fin c) (u : Fin 1) :
    shapeCast ⟨4, ![a, b, c, 1]⟩ x h (ix4 p q r u) = x (ix3 p q r) :=
  shapeCast_apply x h _ _ (by
    have hu : u.val = 0 := by omega
    rw [Shape.rowMajor_val_four, Shape.rowMajor_val_three]
    show (p.val * b + q.val) * c + r.val = ((p.val * b + q.val) * c + r.val) * 1 + u.val
    rw [hu, Nat.mul_one, Nat.add_zero])

/-! ## A rank-4 array and the matrix of its rows -/

/-- [a, b, c, d] viewed as a matrix of n = a·b·c rows: row (p·b + q)·c + r, column s, is the operand's (p, q, r, s). -/
theorem cast_abcd_rows_apply {a b c d n : ℕ} (x : (⟨4, ![a, b, c, d]⟩ : Shape).Idx → α)
    (h : (⟨4, ![a, b, c, d]⟩ : Shape).ShapeCasts ⟨2, ![n, d]⟩) (p : Fin a) (q : Fin b) (r : Fin c) (s : Fin d)
    (row : Fin n) (hrow : row.val = (p.val * b + q.val) * c + r.val) :
    shapeCast ⟨2, ![n, d]⟩ x h (ix2 row s) = x (ix4 p q r s) :=
  shapeCast_apply x h _ _ (by
    rw [Shape.rowMajor_val_four, Shape.rowMajor_val_two]
    show ((p.val * b + q.val) * c + r.val) * d + s.val = row.val * d + s.val
    rw [hrow])

/-- A matrix of n = a·b·c rows viewed as [a, b, c, d]: entry (p, q, r, s) is the matrix's row (p·b + q)·c + r, column s. -/
theorem cast_rows_abcd_apply {a b c d n : ℕ} (x : (⟨2, ![n, d]⟩ : Shape).Idx → α)
    (h : (⟨2, ![n, d]⟩ : Shape).ShapeCasts ⟨4, ![a, b, c, d]⟩) (p : Fin a) (q : Fin b) (r : Fin c) (s : Fin d)
    (row : Fin n) (hrow : row.val = (p.val * b + q.val) * c + r.val) :
    shapeCast ⟨4, ![a, b, c, d]⟩ x h (ix4 p q r s) = x (ix2 row s) :=
  shapeCast_apply x h _ _ (by
    rw [Shape.rowMajor_val_four, Shape.rowMajor_val_two]
    show row.val * d + s.val = ((p.val * b + q.val) * c + r.val) * d + s.val
    rw [hrow])

/-! ## A rank-4 array repeated along a unit axis -/

/-- [a, b, 1, d] repeated along axis 2: entry (p, q, r, s) is the operand's (p, q, 0, s). -/
theorem bcast_ab1d_apply {a b c d : ℕ} (x : (⟨4, ![a, b, 1, d]⟩ : Shape).Idx → α)
    (h : (⟨4, ![a, b, 1, d]⟩ : Shape).Broadcasts ⟨4, ![a, b, c, d]⟩) (p : Fin a) (q : Fin b) (r : Fin c) (s : Fin d) :
    broadcastTo ⟨4, ![a, b, c, d]⟩ x h (ix4 p q r s) = x (ix4 p q (0 : Fin 1) s) := by
  refine broadcastTo_apply x h (ix4 p q r s) (ix4 p q (0 : Fin 1) s) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl
  | ⟨3, _⟩ =>
    show s.val = if d = 1 then 0 else s.val
    split
    · have := s.isLt; omega
    · rfl

/-- [a, 1, c, d] repeated along axis 1: entry (p, q, r, s) is the operand's (p, 0, r, s). -/
theorem bcast_a1cd_apply {a b c d : ℕ} (x : (⟨4, ![a, 1, c, d]⟩ : Shape).Idx → α)
    (h : (⟨4, ![a, 1, c, d]⟩ : Shape).Broadcasts ⟨4, ![a, b, c, d]⟩) (p : Fin a) (q : Fin b) (r : Fin c) (s : Fin d) :
    broadcastTo ⟨4, ![a, b, c, d]⟩ x h (ix4 p q r s) = x (ix4 p (0 : Fin 1) r s) := by
  refine broadcastTo_apply x h (ix4 p q r s) (ix4 p (0 : Fin 1) r s) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl
  | ⟨3, _⟩ =>
    show s.val = if d = 1 then 0 else s.val
    split
    · have := s.isLt; omega
    · rfl

/-- [a, b, c, 1] repeated along axis 3: entry (p, q, r, s) is the operand's (p, q, r, 0). -/
theorem bcast_abc1_apply {a b c d : ℕ} (x : (⟨4, ![a, b, c, 1]⟩ : Shape).Idx → α)
    (h : (⟨4, ![a, b, c, 1]⟩ : Shape).Broadcasts ⟨4, ![a, b, c, d]⟩) (p : Fin a) (q : Fin b) (r : Fin c) (s : Fin d) :
    broadcastTo ⟨4, ![a, b, c, d]⟩ x h (ix4 p q r s) = x (ix4 p q r (0 : Fin 1)) := by
  refine broadcastTo_apply x h (ix4 p q r s) (ix4 p q r (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    show r.val = if c = 1 then 0 else r.val
    split
    · have := r.isLt; omega
    · rfl
  | ⟨3, _⟩ => rfl

/-! ## Two rank-4 arrays joined along the last axis -/

/-- Below the first array's extent the joined array reads the first array at the same coordinates. -/
theorem concat3_left_apply {a b c d₁ d₂ d : ℕ} (x₁ : (⟨4, ![a, b, c, d₁]⟩ : Shape).Idx → α)
    (x₂ : (⟨4, ![a, b, c, d₂]⟩ : Shape).Idx → α)
    (h : Shape.Concatenates [(⟨4, ![a, b, c, d₁]⟩ : Shape), ⟨4, ![a, b, c, d₂]⟩] ⟨4, ![a, b, c, d]⟩ 3)
    (p : Fin a) (q : Fin b) (r : Fin c) (s : Fin d) (hs : s.val < d₁) :
    concatenate ⟨4, ![a, b, c, d]⟩ 3 [⟨⟨4, ![a, b, c, d₁]⟩, x₁⟩, ⟨⟨4, ![a, b, c, d₂]⟩, x₂⟩] h (ix4 p q r s)
      = x₁ (ix4 p q r ⟨s.val, hs⟩) := by
  refine concatenate_pair_apply_left 3 x₁ x₂ h (ix4 p q r s) rfl (ix4 p q r ⟨s.val, hs⟩) fun ax => ?_
  match ax with
  | ⟨0, _⟩ => rfl
  | ⟨1, _⟩ => rfl
  | ⟨2, _⟩ => rfl
  | ⟨3, _⟩ => rfl

/-- From the first array's extent on it reads the second array, the last coordinate that extent less. -/
theorem concat3_right_apply {a b c d₁ d₂ d : ℕ} (x₁ : (⟨4, ![a, b, c, d₁]⟩ : Shape).Idx → α)
    (x₂ : (⟨4, ![a, b, c, d₂]⟩ : Shape).Idx → α)
    (h : Shape.Concatenates [(⟨4, ![a, b, c, d₁]⟩ : Shape), ⟨4, ![a, b, c, d₂]⟩] ⟨4, ![a, b, c, d]⟩ 3)
    (p : Fin a) (q : Fin b) (r : Fin c) (s : Fin d) (s' : Fin d₂) (hs : s'.val + d₁ = s.val) :
    concatenate ⟨4, ![a, b, c, d]⟩ 3 [⟨⟨4, ![a, b, c, d₁]⟩, x₁⟩, ⟨⟨4, ![a, b, c, d₂]⟩, x₂⟩] h (ix4 p q r s)
      = x₂ (ix4 p q r s') := by
  refine concatenate_pair_apply_right 3 x₁ x₂ h (ix4 p q r s) rfl rfl (ix4 p q r s') (fun ax hax => ?_) hs
  match ax, hax with
  | ⟨0, _⟩, _ => rfl
  | ⟨1, _⟩, _ => rfl
  | ⟨2, _⟩, _ => rfl
  | ⟨3, _⟩, hax => exact absurd rfl hax

/-! ## The sum over axis 2 of a rank-4 array -/

/-- The reduced index (p, q, s) with the coordinate r of axis 2 put back is (p, q, r, s). -/
theorem lift_axis2 {a b c d : ℕ} (h : (⟨4, ![a, b, c, d]⟩ : Shape).Reduces [2] (⟨3, ![a, b, d]⟩ : Shape))
    (p : Fin a) (q : Fin b) (s : Fin d) (k : Fin ((⟨4, ![a, b, c, d]⟩ : Shape).size 2)) :
    h.lift (ix3 p q s) k = ix4 p q (⟨k.val, k.isLt⟩ : Fin c) s := by
  funext e; apply Fin.ext
  fin_cases e <;> rfl

/-- The vector unit's sum over axis 2, at (p, q, s): the sum over r of the entries (p, q, r, s). -/
theorem sumAxis2_apply {a b c d : ℕ} (src : FVec Ideal ⟨4, ![a, b, c, d]⟩ .f32) (acc : BitVec 32)
    (h : (⟨4, ![a, b, c, d]⟩ : Shape).Reduces [2] (⟨3, ![a, b, d]⟩ : Shape)) (hφ : FKind.Formats .f32)
    (hacc : acc = FKind.add.neutral .f32 hφ) (p : Fin a) (q : Fin b) (s : Fin d) :
    multiReduction .add [2] ⟨3, ![a, b, d]⟩ src acc h hφ hacc (ix3 p q s) = ∑ r : Fin c, src (ix4 p q r s) := by
  rw [Ideal.multiReduction_add_single]
  have hf : (fun k => src (h.lift (ix3 p q s) k)) = fun k : Fin c => src (ix4 p q k s) :=
    funext fun k => congrArg src (lift_axis2 h p q s k)
  exact congrArg (fun f => ∑ k : Fin c, f k) hf

end Cert.LibRank4Layout

end
-- ==== Proof.KI_Val0.lean ====
/-
  The message perceptron's statistics pass, value by value, on the extended reals.

  A block holds 4 batch elements.  Its 4096 edge rows are indexed (bb, i, j) in row-major order; the row of the pair
  (i, j) is the source object's 128 features followed by the target object's, each times the edge's weight.  The first
  layer is the matrix product of the edge rows with the stored weight, plus the bias row.  The pass adds, block after
  block, the column sums of the first layer and of its squares to two running rows that start at zero; after all 64
  blocks the two rows are the column sums over all 262144 rows.
-/
import proofs.«134035_j84430467104804_1_alg».proof.Proof.Gen.KernelIdeal.Skeleton
import proofs.«134035_j84430467104804_1_alg».proof.Proof.Spec
import proofs.«134035_j84430467104804_1_alg».proof.Proof.LibMatmul
import proofs.«134035_j84430467104804_1_alg».proof.Proof.LibAxisReduce
import proofs.«134035_j84430467104804_1_alg».proof.Proof.LibBlockSum
import proofs.«134035_j84430467104804_1_alg».proof.Proof.LibRank4Layout
import Idealize.ShloMosaic.Lib.ValueLayout

noncomputable section

open scoped BigOperators

namespace Cert.KernelIdeal.Val

open Idealize.ShloMosaic Idealize.ShloMosaic.ValueIdx Cert.KernelIdeal Cert.KernelIdeal.Gen

namespace Dx

/-- The row of the pair (i, j) of batch element bb among a block's 4096 edge rows. -/
def row4 (bb : Fin 4) (i j : Fin 32) : Fin 4096 := ⟨1024 * bb.val + 32 * i.val + j.val, by omega⟩

/-- Batch element bb of block g among the 256 batch elements. -/
abbrev bat (g : Fin 64) (bb : Fin 4) : Fin 256 := ⟨4 * g.val + bb.val, by omega⟩

/-- Entry k of the edge row of the pair (i, j) of a block's batch element bb, from the block's state and edge arrays. -/
def nd (v3 : Vec Ideal S4x32x128 .f32) (v4 : Vec Ideal S4x32x32 .f32) (bb : Fin 4) (i j : Fin 32) (k : Fin 256) : EReal :=
  if h : k.val < 128 then v3 (ix3 bb i ⟨k.val, h⟩) * v4 (ix3 bb i j)
  else v3 (ix3 bb j ⟨k.val - 128, by omega⟩) * v4 (ix3 bb i j)

/-- The edge weights repeated along the feature axis. -/
def edgeW (v4 : Vec Ideal S4x32x32 .f32) : FVec Ideal S4x32x32x128 .f32 :=
  broadcastTo S4x32x32x128 (shapeCast S4x32x32x1 (shapeCast S4x32x32 v4 shapeCasts_S4x32x32_S4x32x32) shapeCasts_S4x32x32_S4x32x32x1)
    broadcasts_S4x32x32x1_S4x32x32x128

/-- The source object's features repeated over the partners j. -/
def srcSide (v3 : Vec Ideal S4x32x128 .f32) : FVec Ideal S4x32x32x128 .f32 :=
  broadcastTo S4x32x32x128 (shapeCast S4x32x1x128 (shapeCast S4x32x1x128 v3 shapeCasts_S4x32x128_S4x32x1x128) shapeCasts_S4x32x1x128_S4x32x1x128)
    broadcasts_S4x32x1x128_S4x32x32x128

/-- The target object's features repeated over the sources i. -/
def tgtSide (v3 : Vec Ideal S4x32x128 .f32) : FVec Ideal S4x32x32x128 .f32 :=
  broadcastTo S4x32x32x128 (shapeCast S4x1x32x128 (shapeCast S4x1x32x128 v3 shapeCasts_S4x32x128_S4x1x32x128) shapeCasts_S4x1x32x128_S4x1x32x128)
    broadcasts_S4x1x32x128_S4x32x32x128

/-- The block's 4096 edge rows as a matrix. -/
def edgeRows (v3 : Vec Ideal S4x32x128 .f32) (v4 : Vec Ideal S4x32x32 .f32) : FVec Ideal S4096x256 .f32 :=
  shapeCast S4096x256
    (concatenate S4x32x32x256 3 [⟨S4x32x32x128, mulf (srcSide v3) (edgeW v4)⟩, ⟨S4x32x32x128, mulf (tgtSide v3) (edgeW v4)⟩]
      concatenates_S4x32x32x128_S4x32x32x128_S4x32x32x256_d3)
    shapeCasts_S4x32x32x256_S4096x256

theorem edgeW_apply (v4 : Vec Ideal S4x32x32 .f32) (bb : Fin 4) (i j : Fin 32) (k : Fin 128) :
    edgeW v4 (ix4 bb i j k) = v4 (ix3 bb i j) := by
  unfold edgeW
  refine (LibRank4Layout.bcast_abc1_apply _ _ bb i j k).trans ?_
  refine (LibRank4Layout.cast_abc_abc1_apply _ _ bb i j 0).trans ?_
  rw [shapeCast_self]

theorem srcSide_apply (v3 : Vec Ideal S4x32x128 .f32) (bb : Fin 4) (i j : Fin 32) (k : Fin 128) :
    srcSide v3 (ix4 bb i j k) = v3 (ix3 bb i k) := by
  unfold srcSide
  refine (LibRank4Layout.bcast_ab1d_apply _ _ bb i j k).trans ?_
  rw [shapeCast_self]
  exact LibRank4Layout.cast_abc_ab1c_apply _ _ bb i 0 k

theorem tgtSide_apply (v3 : Vec Ideal S4x32x128 .f32) (bb : Fin 4) (i j : Fin 32) (k : Fin 128) :
    tgtSide v3 (ix4 bb i j k) = v3 (ix3 bb j k) := by
  unfold tgtSide
  refine (LibRank4Layout.bcast_a1cd_apply _ _ bb i j k).trans ?_
  rw [shapeCast_self]
  exact LibRank4Layout.cast_abc_a1bc_apply _ _ bb 0 j k

theorem edgeRows_apply (v3 : Vec Ideal S4x32x128 .f32) (v4 : Vec Ideal S4x32x32 .f32) (bb : Fin 4) (i j : Fin 32) (k : Fin 256) :
    edgeRows v3 v4 (ix2 (row4 bb i j) k) = nd v3 v4 bb i j k := by
  unfold edgeRows nd
  refine (LibRank4Layout.cast_abcd_rows_apply _ _ bb i j k (row4 bb i j) (by show 1024 * bb.val + 32 * i.val + j.val = _; omega)).trans ?_
  split
  · rename_i h
    refine (LibRank4Layout.concat3_left_apply _ _ _ bb i j k h).trans ?_
    exact congrArg₂ (· * ·) (srcSide_apply v3 bb i j ⟨k.val, h⟩) (edgeW_apply v4 bb i j ⟨k.val, h⟩)
  · rename_i h
    have hk : k.val - 128 < 128 := by omega
    refine (LibRank4Layout.concat3_right_apply _ _ _ bb i j k ⟨k.val - 128, hk⟩ (by show k.val - 128 + 128 = k.val; omega)).trans ?_
    exact congrArg₂ (· * ·) (tgtSide_apply v3 bb i j ⟨k.val - 128, hk⟩) (edgeW_apply v4 bb i j ⟨k.val - 128, hk⟩)

/-- The first layer on a block is the product of its edge rows with the stored weight, plus the bias row. -/
theorem pay4_eq (v3 : Vec Ideal S4x32x128 .f32) (v4 : Vec Ideal S4x32x32 .f32) (v20 : Vec Ideal S256x256 .bf16) (v23 : Vec Ideal S1x256 .f32) :
    k0_pay4 (F := Ideal) v3 v4 v20 v23
      = addf (matmul dot_S4096x256_S256x256_S4096x256_1_0_0_1_n_n none (truncf .bf16 (edgeRows v3 v4) bitsLt_bf16_f32)
                (shapeCast S256x256 v20 shapeCasts_S256x256_S256x256 : FVec Ideal S256x256 .bf16) (constant (F := Ideal) S4096x256 .f32 0x00000000#32))
             (broadcastTo S4096x256 (shapeCast S1x256 v23 shapeCasts_S1x256_S1x256) broadcasts_S1x256_S4096x256) := rfl

end Dx

open Dx

/-- The first layer on a block at the row of (bb, i, j), column c. -/
theorem pay4_apply (v3 : Vec Ideal S4x32x128 .f32) (v4 : Vec Ideal S4x32x32 .f32) (v20 : Vec Ideal S256x256 .bf16) (v23 : Vec Ideal S1x256 .f32)
    (bb : Fin 4) (i j : Fin 32) (c : Fin 256) :
    k0_pay4 (F := Ideal) v3 v4 v20 v23 (ix2 (row4 bb i j) c)
      = (∑ k : Fin 256, nd v3 v4 bb i j k * v20 (ix2 k c)) + v23 (ix2 0 c) := by
  rw [Dx.pay4_eq]
  refine congrArg₂ (· + ·) ?_ ?_
  · refine (congrFun (LibMatmul.matmul_zero_eq dot_S4096x256_S256x256_S4096x256_1_0_0_1_n_n rfl rfl rfl rfl rfl rfl none _ _) _).trans ?_
    rw [LibMatmul.MM_apply, shapeCast_self]
    exact Finset.sum_congr rfl fun k _ => congrArg (· * v20 (ix2 k c)) (Dx.edgeRows_apply v3 v4 bb i j k)
  · rw [shapeCast_self]
    exact broadcastTo_1b_ab_apply v23 _ (row4 bb i j) c

/-- An edge-row entry of block g is the specification's, once the block's arrays are the argument arrays' blocks. -/
theorem Dx.nd_eq_need (p : Cert.Spec.Params) (g : Fin 64) (v3 : Vec Ideal S4x32x128 .f32) (v4 : Vec Ideal S4x32x32 .f32)
    (hst : ∀ (bb : Fin 4) (i : Fin 32) (k : Fin 128), v3 (ix3 bb i k) = p.st (ix3 (bat g bb) i k))
    (hed : ∀ (bb : Fin 4) (i j : Fin 32), v4 (ix3 bb i j) = p.ed (ix2 (bat g bb) (Cert.Spec.pairIx i j)))
    (bb : Fin 4) (i j : Fin 32) (k : Fin 256) : nd v3 v4 bb i j k = Cert.Spec.need p (bat g bb) i j k := by
  unfold nd Cert.Spec.need
  split
  · rw [hst, hed]
  · rw [hst, hed]

/-- The first layer on block g is the specification's first layer of the block's batch elements. -/
theorem pay4_h1 (p : Cert.Spec.Params) (g : Fin 64) (v3 : Vec Ideal S4x32x128 .f32) (v4 : Vec Ideal S4x32x32 .f32)
    (v20 : Vec Ideal S256x256 .bf16) (v23 : Vec Ideal S1x256 .f32)
    (hst : ∀ (bb : Fin 4) (i : Fin 32) (k : Fin 128), v3 (ix3 bb i k) = p.st (ix3 (bat g bb) i k))
    (hed : ∀ (bb : Fin 4) (i j : Fin 32), v4 (ix3 bb i j) = p.ed (ix2 (bat g bb) (Cert.Spec.pairIx i j)))
    (hw : ∀ k c : Fin 256, v20 (ix2 k c) = p.mw1 (ix2 c k))
    (hb : ∀ c : Fin 256, v23 (ix2 (0 : Fin 1) c) = p.mb1 (ix1 c))
    (bb : Fin 4) (i j : Fin 32) (c : Fin 256) :
    k0_pay4 (F := Ideal) v3 v4 v20 v23 (ix2 (row4 bb i j) c) = Cert.Spec.h1 p (bat g bb) i j c := by
  rw [pay4_apply, hb]
  unfold Cert.Spec.h1
  refine congrArg (· + p.mb1 (ix1 c)) (Finset.sum_congr rfl fun k _ => ?_)
  rw [Dx.nd_eq_need p g v3 v4 hst hed, hw]

namespace Dx

/-- A running row plus the column sums of a 4096-row matrix, at column c. -/
theorem accRow_apply (acc : FVec Ideal S1x256 .f32) (m : FVec Ideal S4096x256 .f32) (c : Fin 256) :
    shapeCast S1x256 (addf acc (shapeCast S1x256
        (multiReduction (F := Ideal) .add [0] S256 m 0x00000000#32 reduces_S4096x256_S256 (.inl rfl) rfl) shapeCasts_S256_S1x256))
      shapeCasts_S1x256_S1x256 (ix2 (0 : Fin 1) c)
      = acc (ix2 (0 : Fin 1) c) + ∑ r : Fin 4096, m (ix2 r c) := by
  rw [shapeCast_self]
  refine congrArg (acc (ix2 (0 : Fin 1) c) + ·) ?_
  refine (shapeCast_a_1a_apply _ _ 0 c).trans ?_
  exact LibAxisReduce.colSum_apply m _ _ _ _ c

theorem pay5_apply (v3 : Vec Ideal S4x32x128 .f32) (v4 : Vec Ideal S4x32x32 .f32) (v20 : Vec Ideal S256x256 .bf16)
    (v23 : Vec Ideal S1x256 .f32) (v27 : Vec Ideal S1x256 .f32) (c : Fin 256) :
    k0_pay5 (F := Ideal) v3 v4 v20 v23 v27 (ix2 (0 : Fin 1) c)
      = v27 (ix2 (0 : Fin 1) c) + ∑ r : Fin 4096, k0_pay4 (F := Ideal) v3 v4 v20 v23 (ix2 r c) :=
  accRow_apply v27 (k0_pay4 (F := Ideal) v3 v4 v20 v23) c

theorem pay1_apply (v34 : Vec Ideal S1x256 .f32) (v35 : FVec Ideal S4096x256 .f32) (c : Fin 256) :
    k0_pay1 (F := Ideal) v34 v35 (ix2 (0 : Fin 1) c) = v34 (ix2 (0 : Fin 1) c) + ∑ r : Fin 4096, v35 (ix2 r c) :=
  accRow_apply v34 v35 c

theorem pay6_apply (v3 : Vec Ideal S4x32x128 .f32) (v4 : Vec Ideal S4x32x32 .f32) (v20 : Vec Ideal S256x256 .bf16)
    (v23 : Vec Ideal S1x256 .f32) (j : S4096x256.Idx) :
    k0_pay6 (F := Ideal) v3 v4 v20 v23 j = k0_pay4 (F := Ideal) v3 v4 v20 v23 j * k0_pay4 (F := Ideal) v3 v4 v20 v23 j := rfl

theorem pay2_apply (j : S1x256.Idx) : k0_pay2 (F := Ideal) j = 0 := by
  unfold k0_pay2
  rw [shapeCast_self]
  exact Ideal.ofBits_zero_f32

theorem pay3_apply (j : S1x256.Idx) : k0_pay3 (F := Ideal) j = 0 := by
  unfold k0_pay3
  rw [shapeCast_self]
  exact Ideal.ofBits_zero_f32

/-- A sum over a block's 4096 rows, pair by pair. -/
theorem sum_rows (f : Fin 4096 → EReal) : ∑ r, f r = ∑ bb : Fin 4, ∑ i : Fin 32, ∑ j : Fin 32, f (row4 bb i j) := by
  rw [LibBlockSum.sum_blocks_of_eq 4 1024 (by norm_num) f]
  refine Finset.sum_congr rfl fun bb _ => ?_
  rw [LibBlockSum.sum_blocks_of_eq 32 32 (by norm_num) (fun r : Fin 1024 => f ⟨bb.val * 1024 + r.val, by omega⟩)]
  refine Finset.sum_congr rfl fun i _ => Finset.sum_congr rfl fun j _ => congrArg f (Fin.ext ?_)
  show bb.val * 1024 + (i.val * 32 + j.val) = 1024 * bb.val + 32 * i.val + j.val
  omega

/-- A sum over the 256 batch elements, block by block. -/
theorem sum_bats (f : Fin 256 → EReal) : ∑ b, f b = ∑ g : Fin 64, ∑ bb : Fin 4, f (bat g bb) := by
  rw [LibBlockSum.sum_blocks_of_eq 64 4 (by norm_num) f]
  refine Finset.sum_congr rfl fun g _ => Finset.sum_congr rfl fun bb _ => congrArg f (Fin.ext ?_)
  show g.val * 4 + bb.val = 4 * g.val + bb.val
  omega

end Dx

/-- The two running rows after the blocks 0 … n: the first pass writes zero rows first, every pass adds its block's
    column sums of the first layer and of its squares. -/
def accF (B3 : ℕ → Vec Ideal S4x32x128 .f32) (B4 : ℕ → Vec Ideal S4x32x32 .f32) (v20 : Vec Ideal S256x256 .bf16)
    (v23 : Vec Ideal S1x256 .f32) : ℕ → FVec Ideal S1x256 .f32 × FVec Ideal S1x256 .f32
  | 0 => (k0_pay5 (F := Ideal) (B3 0) (B4 0) v20 v23 (k0_pay2 (F := Ideal)),
          k0_pay1 (F := Ideal) (k0_pay3 (F := Ideal)) (k0_pay6 (F := Ideal) (B3 0) (B4 0) v20 v23))
  | n + 1 => (k0_pay5 (F := Ideal) (B3 (n + 1)) (B4 (n + 1)) v20 v23 (accF B3 B4 v20 v23 n).1,
              k0_pay1 (F := Ideal) (accF B3 B4 v20 v23 n).2 (k0_pay6 (F := Ideal) (B3 (n + 1)) (B4 (n + 1)) v20 v23))

namespace Dx

theorem accF_fst (B3 : ℕ → Vec Ideal S4x32x128 .f32) (B4 : ℕ → Vec Ideal S4x32x32 .f32) (v20 : Vec Ideal S256x256 .bf16)
    (v23 : Vec Ideal S1x256 .f32) (c : Fin 256) (n : ℕ) :
    (accF B3 B4 v20 v23 n).1 (ix2 (0 : Fin 1) c)
      = LibBlockSum.running (fun g => ∑ r : Fin 4096, k0_pay4 (F := Ideal) (B3 g) (B4 g) v20 v23 (ix2 r c)) (n + 1) := by
  induction n with
  | zero =>
    show k0_pay5 (F := Ideal) (B3 0) (B4 0) v20 v23 (k0_pay2 (F := Ideal)) (ix2 (0 : Fin 1) c) = _
    rw [pay5_apply, pay2_apply, LibBlockSum.running_succ, LibBlockSum.running_zero]
  | succ n ih =>
    show k0_pay5 (F := Ideal) (B3 (n + 1)) (B4 (n + 1)) v20 v23 (accF B3 B4 v20 v23 n).1 (ix2 (0 : Fin 1) c) = _
    rw [pay5_apply, ih, LibBlockSum.running_succ (k := n + 1)]

theorem accF_snd (B3 : ℕ → Vec Ideal S4x32x128 .f32) (B4 : ℕ → Vec Ideal S4x32x32 .f32) (v20 : Vec Ideal S256x256 .bf16)
    (v23 : Vec Ideal S1x256 .f32) (c : Fin 256) (n : ℕ) :
    (accF B3 B4 v20 v23 n).2 (ix2 (0 : Fin 1) c)
      = LibBlockSum.running (fun g => ∑ r : Fin 4096,
          k0_pay4 (F := Ideal) (B3 g) (B4 g) v20 v23 (ix2 r c) * k0_pay4 (F := Ideal) (B3 g) (B4 g) v20 v23 (ix2 r c)) (n + 1) := by
  induction n with
  | zero =>
    show k0_pay1 (F := Ideal) (k0_pay3 (F := Ideal)) (k0_pay6 (F := Ideal) (B3 0) (B4 0) v20 v23) (ix2 (0 : Fin 1) c) = _
    rw [pay1_apply, pay3_apply, LibBlockSum.running_succ, LibBlockSum.running_zero]
    rfl
  | succ n ih =>
    show k0_pay1 (F := Ideal) (accF B3 B4 v20 v23 n).2 (k0_pay6 (F := Ideal) (B3 (n + 1)) (B4 (n + 1)) v20 v23) (ix2 (0 : Fin 1) c) = _
    rw [pay1_apply, ih, LibBlockSum.running_succ (k := n + 1)]
    rfl

end Dx

section Grid
variable (p : Cert.Spec.Params) (B3 : ℕ → Vec Ideal S4x32x128 .f32) (B4 : ℕ → Vec Ideal S4x32x32 .f32)
  (v20 : Vec Ideal S256x256 .bf16) (v23 : Vec Ideal S1x256 .f32)
  (hst : ∀ (g : Fin 64) (bb : Fin 4) (i : Fin 32) (k : Fin 128), B3 g.val (ix3 bb i k) = p.st (ix3 (bat g bb) i k))
  (hed : ∀ (g : Fin 64) (bb : Fin 4) (i j : Fin 32), B4 g.val (ix3 bb i j) = p.ed (ix2 (bat g bb) (Cert.Spec.pairIx i j)))
  (hw : ∀ k c : Fin 256, v20 (ix2 k c) = p.mw1 (ix2 c k))
  (hb : ∀ c : Fin 256, v23 (ix2 (0 : Fin 1) c) = p.mb1 (ix1 c))

include hst hed hw hb

/-- After all 64 blocks the first running row holds the column sums of the first layer over all rows, -/
theorem accF_sum1 (c : Fin 256) : (accF B3 B4 v20 v23 63).1 (ix2 (0 : Fin 1) c) = Cert.Spec.sum1 p c := by
  rw [Dx.accF_fst, LibBlockSum.running_eq_sum_fin]
  unfold Cert.Spec.sum1
  rw [Dx.sum_bats]
  refine Finset.sum_congr rfl fun g _ => ?_
  rw [Dx.sum_rows]
  refine Finset.sum_congr rfl fun bb _ => Finset.sum_congr rfl fun i _ => Finset.sum_congr rfl fun j _ => ?_
  exact pay4_h1 p g (B3 g.val) (B4 g.val) v20 v23 (hst g) (hed g) hw hb bb i j c

/-- and the second the column sums of its squares. -/
theorem accF_sumsq1 (c : Fin 256) : (accF B3 B4 v20 v23 63).2 (ix2 (0 : Fin 1) c) = Cert.Spec.sumsq1 p c := by
  rw [Dx.accF_snd, LibBlockSum.running_eq_sum_fin]
  unfold Cert.Spec.sumsq1
  rw [Dx.sum_bats]
  refine Finset.sum_congr rfl fun g _ => ?_
  rw [Dx.sum_rows]
  refine Finset.sum_congr rfl fun bb _ => Finset.sum_congr rfl fun i _ => Finset.sum_congr rfl fun j _ => ?_
  rw [pay4_h1 p g (B3 g.val) (B4 g.val) v20 v23 (hst g) (hed g) hw hb bb i j c]

end Grid

end Cert.KernelIdeal.Val

end
-- ==== Proof.KI_Val1.lean ====
/-
  The message perceptron's apply pass, value by value, on the extended reals.

  On a block of 4 batch elements the first layer is recomputed, every column is normalised by its mean and variance over
  all rows and scaled; then the shift is added, the leaky activation applied, the second layer's matrix product and bias
  added, and the 4096 message rows, indexed (bb, i, j), are summed over the partner j.
-/
import proofs.«134035_j84430467104804_1_alg».proof.Proof.KI_Val0

noncomputable section

open scoped BigOperators

namespace Cert.KernelIdeal.Val

open Idealize.ShloMosaic Idealize.ShloMosaic.ValueIdx Cert.KernelIdeal Cert.KernelIdeal.Gen
open Dx

namespace Dx

/-- A stored row repeated down the 4096 rows reads, at (r, c), the row's entry c. -/
theorem rowDown_apply {b : ℕ} (v : (⟨2, ![1, b]⟩ : Shape).Idx → EReal) (h₁ : (⟨2, ![1, b]⟩ : Shape).ShapeCasts ⟨2, ![1, b]⟩)
    (h₂ : (⟨2, ![1, b]⟩ : Shape).Broadcasts ⟨2, ![4096, b]⟩) (r : Fin 4096) (c : Fin b) :
    broadcastTo ⟨2, ![4096, b]⟩ (shapeCast ⟨2, ![1, b]⟩ v h₁) h₂ (ix2 r c) = v (ix2 (0 : Fin 1) c) := by
  rw [shapeCast_self]
  exact broadcastTo_1b_ab_apply v h₂ r c

/-- The normalised and scaled first layer on a block, over the first layer. -/
theorem norm_eq (v0 : Vec Ideal S4x32x128 .f32) (v1 : Vec Ideal S4x32x32 .f32) (v17 : Vec Ideal S256x256 .bf16)
    (v20 v24 v29 v35 : Vec Ideal S1x256 .f32) :
    k1_pay2 (F := Ideal) v0 v1 v17 v20 v24 v29 v35
      = mulf (mulf (subf (k0_pay4 (F := Ideal) v0 v1 v17 v20)
                      (broadcastTo S4096x256 (shapeCast S1x256 v29 shapeCasts_S1x256_S1x256) broadcasts_S1x256_S4096x256))
                (broadcastTo S4096x256
                  (rsqrt (addf (shapeCast S1x256 v24 shapeCasts_S1x256_S1x256 : FVec Ideal S1x256 .f32)
                    (broadcast S1x256 (Scalar.ofBits (F := Ideal) .f32 0x3727C5AC#32))))
                  broadcasts_S1x256_S4096x256))
             (broadcastTo S4096x256 (shapeCast S1x256 v35 shapeCasts_S1x256_S1x256) broadcasts_S1x256_S4096x256) := rfl

/-- At (r, c): the first layer less the mean row, times the reciprocal root of the variance row plus epsilon, times the scale row. -/
theorem norm_apply (v0 : Vec Ideal S4x32x128 .f32) (v1 : Vec Ideal S4x32x32 .f32) (v17 : Vec Ideal S256x256 .bf16)
    (v20 v24 v29 v35 : Vec Ideal S1x256 .f32) (r : Fin 4096) (c : Fin 256) :
    k1_pay2 (F := Ideal) v0 v1 v17 v20 v24 v29 v35 (ix2 r c)
      = (k0_pay4 (F := Ideal) v0 v1 v17 v20 (ix2 r c) - v29 (ix2 (0 : Fin 1) c))
          * Ideal.rsqrt (v24 (ix2 (0 : Fin 1) c) + Cert.Spec.epsW) * v35 (ix2 (0 : Fin 1) c) := by
  rw [norm_eq]
  refine congrArg₂ (· * ·) (congrArg₂ (· * ·) (congrArg (k0_pay4 (F := Ideal) v0 v1 v17 v20 (ix2 r c) - ·) ?_) ?_) ?_
  · exact rowDown_apply v29 _ _ r c
  · refine (broadcastTo_1b_ab_apply _ _ r c).trans ?_
    show Ideal.rsqrt (shapeCast S1x256 v24 shapeCasts_S1x256_S1x256 (ix2 (0 : Fin 1) c) + Cert.Spec.epsW) = _
    rw [shapeCast_self]
  · exact rowDown_apply v35 _ _ r c

/-- The shifted and activated rows. -/
def actRows (v38 : FVec Ideal S4096x256 .f32) (v39 : Vec Ideal S1x256 .f32) : FVec Ideal S4096x256 .f32 :=
  select (cmpf .oge (addf v38 (broadcastTo S4096x256 (shapeCast S1x256 v39 shapeCasts_S1x256_S1x256) broadcasts_S1x256_S4096x256))
            (broadcast S4096x256 (Scalar.ofBits (F := Ideal) .f32 0x00000000#32)))
    (addf v38 (broadcastTo S4096x256 (shapeCast S1x256 v39 shapeCasts_S1x256_S1x256) broadcasts_S1x256_S4096x256))
    (mulf (broadcast S4096x256 (Scalar.ofBits (F := Ideal) .f32 0x3C23D70A#32))
      (addf v38 (broadcastTo S4096x256 (shapeCast S1x256 v39 shapeCasts_S1x256_S1x256) broadcasts_S1x256_S4096x256)))

theorem actRows_apply (v38 : FVec Ideal S4096x256 .f32) (v39 : Vec Ideal S1x256 .f32) (r : Fin 4096) (c : Fin 256) :
    actRows v38 v39 (ix2 r c) = Cert.Spec.leaky (v38 (ix2 r c) + v39 (ix2 (0 : Fin 1) c)) := by
  have hx : addf v38 (broadcastTo S4096x256 (shapeCast S1x256 v39 shapeCasts_S1x256_S1x256) broadcasts_S1x256_S4096x256) (ix2 r c)
      = v38 (ix2 r c) + v39 (ix2 (0 : Fin 1) c) :=
    congrArg (v38 (ix2 r c) + ·) (rowDown_apply v39 _ _ r c)
  show Cert.Spec.leaky (addf v38 (broadcastTo S4096x256 (shapeCast S1x256 v39 shapeCasts_S1x256_S1x256) broadcasts_S1x256_S4096x256) (ix2 r c)) = _
  rw [hx]

/-- The messages summed over the partner, over the activated rows. -/
theorem msgSum_eq (v38 : FVec Ideal S4096x256 .f32) (v39 : Vec Ideal S1x256 .f32) (v49 : Vec Ideal S256x128 .bf16) (v52 : Vec Ideal S1x128 .f32) :
    k1_pay1 (F := Ideal) v38 v39 v49 v52
      = multiReduction (F := Ideal) .add [2] S4x32x128
          (shapeCast S4x32x32x128
            (addf (matmul dot_S4096x256_S256x128_S4096x128_1_0_0_1_n_n none (truncf .bf16 (actRows v38 v39) bitsLt_bf16_f32)
                      (shapeCast S256x128 v49 shapeCasts_S256x128_S256x128 : FVec Ideal S256x128 .bf16)
                      (constant (F := Ideal) S4096x128 .f32 0x00000000#32))
                  (broadcastTo S4096x128 (shapeCast S1x128 v52 shapeCasts_S1x128_S1x128) broadcasts_S1x128_S4096x128))
            shapeCasts_S4096x128_S4x32x32x128)
          0x00000000#32 reduces_S4x32x32x128_S4x32x128 (.inl rfl) rfl := rfl

/-- At (bb, i, d): the sum over the partner j of the second layer of the activated row of (bb, i, j). -/
theorem msgSum_apply (v38 : FVec Ideal S4096x256 .f32) (v39 : Vec Ideal S1x256 .f32) (v49 : Vec Ideal S256x128 .bf16) (v52 : Vec Ideal S1x128 .f32)
    (bb : Fin 4) (i : Fin 32) (d : Fin 128) :
    k1_pay1 (F := Ideal) v38 v39 v49 v52 (ix3 bb i d)
      = ∑ j : Fin 32, ((∑ c : Fin 256, Cert.Spec.leaky (v38 (ix2 (row4 bb i j) c) + v39 (ix2 (0 : Fin 1) c)) * v49 (ix2 c d))
          + v52 (ix2 (0 : Fin 1) d)) := by
  rw [msgSum_eq]
  refine (LibRank4Layout.sumAxis2_apply _ _ _ _ _ bb i d).trans ?_
  refine Finset.sum_congr rfl fun j _ => ?_
  refine (LibRank4Layout.cast_rows_abcd_apply _ _ bb i j d (row4 bb i j)
    (by show 1024 * bb.val + 32 * i.val + j.val = _; omega)).trans ?_
  refine congrArg₂ (· + ·) ?_ ?_
  · refine (congrFun (LibMatmul.matmul_zero_eq dot_S4096x256_S256x128_S4096x128_1_0_0_1_n_n rfl rfl rfl rfl rfl rfl none _ _) _).trans ?_
    rw [LibMatmul.MM_apply, shapeCast_self]
    exact Finset.sum_congr rfl fun c _ => congrArg (· * v49 (ix2 c d)) (actRows_apply v38 v39 (row4 bb i j) c)
  · exact rowDown_apply v52 _ _ (row4 bb i j) d

end Dx

/-- The apply pass on block g: the aggregated messages of the block's batch elements, for the variance row it is given. -/
theorem pay1_agg (p : Cert.Spec.Params) (V1 : Fin 256 → EReal) (g : Fin 64)
    (v0 : Vec Ideal S4x32x128 .f32) (v1 : Vec Ideal S4x32x32 .f32) (v17 : Vec Ideal S256x256 .bf16)
    (v20 v24 v29 v35 v39 : Vec Ideal S1x256 .f32) (v49 : Vec Ideal S256x128 .bf16) (v52 : Vec Ideal S1x128 .f32)
    (hst : ∀ (bb : Fin 4) (i : Fin 32) (k : Fin 128), v0 (ix3 bb i k) = p.st (ix3 (bat g bb) i k))
    (hed : ∀ (bb : Fin 4) (i j : Fin 32), v1 (ix3 bb i j) = p.ed (ix2 (bat g bb) (Cert.Spec.pairIx i j)))
    (hw : ∀ k c : Fin 256, v17 (ix2 k c) = p.mw1 (ix2 c k))
    (hb : ∀ c : Fin 256, v20 (ix2 (0 : Fin 1) c) = p.mb1 (ix1 c))
    (hmean : ∀ c : Fin 256, v29 (ix2 (0 : Fin 1) c) = Cert.Spec.mean1 p c)
    (hvar : ∀ c : Fin 256, v24 (ix2 (0 : Fin 1) c) = V1 c)
    (hg : ∀ c : Fin 256, v35 (ix2 (0 : Fin 1) c) = p.mg (ix1 c))
    (hbt : ∀ c : Fin 256, v39 (ix2 (0 : Fin 1) c) = p.mbt (ix1 c))
    (hw2 : ∀ (c : Fin 256) (d : Fin 128), v49 (ix2 c d) = p.mw2 (ix2 d c))
    (hb2 : ∀ d : Fin 128, v52 (ix2 (0 : Fin 1) d) = p.mb2 (ix1 d))
    (bb : Fin 4) (i : Fin 32) (d : Fin 128) :
    k1_pay1 (F := Ideal) (k1_pay2 (F := Ideal) v0 v1 v17 v20 v24 v29 v35) v39 v49 v52 (ix3 bb i d)
      = Cert.Spec.agg p V1 (bat g bb) i d := by
  rw [Dx.msgSum_apply]
  unfold Cert.Spec.agg Cert.Spec.msg
  refine Finset.sum_congr rfl fun j _ => ?_
  rw [hb2]
  refine congrArg (· + p.mb2 (ix1 d)) (Finset.sum_congr rfl fun c _ => ?_)
  rw [hw2, Dx.norm_apply, pay4_h1 p g v0 v1 v17 v20 hst hed hw hb bb i j c, hmean, hvar, hg, hbt]
  rfl

end Cert.KernelIdeal.Val

end
-- ==== Proof.KI_Blocks.lean ====
/- How the blocks of the four grid regions sit in their arrays.  A window whose block moves with the grid
   point holds, at point g, the batch elements B*g .. B*g + B - 1 of its array (B = 4 in the first two regions,
   B = 64 in the last two): an element of the block at in-block coordinates (bb, i, k) is the array's element at
   (B*g + bb, i, k).  A window whose block is its whole array reads the array itself at every point.  And for the
   two regions that write one block of their output back at every point: when every point's block is some one
   function G of the array index read through that block, the output array ends as G, because the point b / B
   covers batch element b.  Everything is stated for an arbitrary contents of the array, so that it serves any
   proof data over these pipelines. -/
import proofs.«134035_j84430467104804_1_alg».proof.Proof.Gen.KernelIdeal.Launch
import proofs.«134035_j84430467104804_1_alg».proof.Proof.Gen.KernelIdeal.Points
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

/-! ## The printed index maps, decided over the grid -/

namespace Kx

theorem idx0_0 : ∀ t : Fin cfg0.N, win0_0.index t (0 : Fin 3) = t.val ∧ win0_0.index t (1 : Fin 3) = 0 ∧ win0_0.index t (2 : Fin 3) = 0 :=
  (by decide +kernel : ∀ t : Fin grid0.N, win0_0.index t (0 : Fin 3) = t.val ∧ win0_0.index t (1 : Fin 3) = 0 ∧ win0_0.index t (2 : Fin 3) = 0)

theorem idx0_1 : ∀ t : Fin cfg0.N, win0_1.index t (0 : Fin 3) = t.val ∧ win0_1.index t (1 : Fin 3) = 0 ∧ win0_1.index t (2 : Fin 3) = 0 :=
  (by decide +kernel : ∀ t : Fin grid0.N, win0_1.index t (0 : Fin 3) = t.val ∧ win0_1.index t (1 : Fin 3) = 0 ∧ win0_1.index t (2 : Fin 3) = 0)

theorem idx1_0 : ∀ t : Fin cfg1.N, win1_0.index t (0 : Fin 3) = t.val ∧ win1_0.index t (1 : Fin 3) = 0 ∧ win1_0.index t (2 : Fin 3) = 0 :=
  (by decide +kernel : ∀ t : Fin grid1.N, win1_0.index t (0 : Fin 3) = t.val ∧ win1_0.index t (1 : Fin 3) = 0 ∧ win1_0.index t (2 : Fin 3) = 0)

theorem idx1_1 : ∀ t : Fin cfg1.N, win1_1.index t (0 : Fin 3) = t.val ∧ win1_1.index t (1 : Fin 3) = 0 ∧ win1_1.index t (2 : Fin 3) = 0 :=
  (by decide +kernel : ∀ t : Fin grid1.N, win1_1.index t (0 : Fin 3) = t.val ∧ win1_1.index t (1 : Fin 3) = 0 ∧ win1_1.index t (2 : Fin 3) = 0)

theorem idx1_10 : ∀ t : Fin cfg1.N, win1_10.index t (0 : Fin 3) = t.val ∧ win1_10.index t (1 : Fin 3) = 0 ∧ win1_10.index t (2 : Fin 3) = 0 :=
  (by decide +kernel : ∀ t : Fin grid1.N, win1_10.index t (0 : Fin 3) = t.val ∧ win1_10.index t (1 : Fin 3) = 0 ∧ win1_10.index t (2 : Fin 3) = 0)

theorem idx2_0 : ∀ t : Fin cfg2.N, win2_0.index t (0 : Fin 3) = t.val ∧ win2_0.index t (1 : Fin 3) = 0 ∧ win2_0.index t (2 : Fin 3) = 0 :=
  (by decide +kernel : ∀ t : Fin grid2.N, win2_0.index t (0 : Fin 3) = t.val ∧ win2_0.index t (1 : Fin 3) = 0 ∧ win2_0.index t (2 : Fin 3) = 0)

theorem idx2_1 : ∀ t : Fin cfg2.N, win2_1.index t (0 : Fin 3) = t.val ∧ win2_1.index t (1 : Fin 3) = 0 ∧ win2_1.index t (2 : Fin 3) = 0 :=
  (by decide +kernel : ∀ t : Fin grid2.N, win2_1.index t (0 : Fin 3) = t.val ∧ win2_1.index t (1 : Fin 3) = 0 ∧ win2_1.index t (2 : Fin 3) = 0)

theorem idx3_0 : ∀ t : Fin cfg3.N, win3_0.index t (0 : Fin 3) = t.val ∧ win3_0.index t (1 : Fin 3) = 0 ∧ win3_0.index t (2 : Fin 3) = 0 :=
  (by decide +kernel : ∀ t : Fin grid3.N, win3_0.index t (0 : Fin 3) = t.val ∧ win3_0.index t (1 : Fin 3) = 0 ∧ win3_0.index t (2 : Fin 3) = 0)

theorem idx3_1 : ∀ t : Fin cfg3.N, win3_1.index t (0 : Fin 3) = t.val ∧ win3_1.index t (1 : Fin 3) = 0 ∧ win3_1.index t (2 : Fin 3) = 0 :=
  (by decide +kernel : ∀ t : Fin grid3.N, win3_1.index t (0 : Fin 3) = t.val ∧ win3_1.index t (1 : Fin 3) = 0 ∧ win3_1.index t (2 : Fin 3) = 0)

theorem idx3_10 : ∀ t : Fin cfg3.N, win3_10.index t (0 : Fin 3) = t.val ∧ win3_10.index t (1 : Fin 3) = 0 ∧ win3_10.index t (2 : Fin 3) = 0 :=
  (by decide +kernel : ∀ t : Fin grid3.N, win3_10.index t (0 : Fin 3) = t.val ∧ win3_10.index t (1 : Fin 3) = 0 ∧ win3_10.index t (2 : Fin 3) = 0)

theorem idx0_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

theorem idx0_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

theorem idx1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)

theorem idx1_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)

theorem idx1_4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)

theorem idx1_5 : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)

theorem idx1_6 : ∀ t : Fin cfg1.N, win1_6.index t (0 : Fin 2) = 0 ∧ win1_6.index t (1 : Fin 2) = 0 :=
  (by decide +kernel : ∀ t : Fin grid1.N, win1_6.index t (0 : Fin 2) = 0 ∧ win1_6.index t (1 : Fin 2) = 0)

theorem idx1_7 : ∀ t : Fin cfg1.N, win1_7.index t (0 : Fin 2) = 0 ∧ win1_7.index t (1 : Fin 2) = 0 :=
  (by decide +kernel : ∀ t : Fin grid1.N, win1_7.index t (0 : Fin 2) = 0 ∧ win1_7.index t (1 : Fin 2) = 0)

theorem idx1_8 : ∀ t : Fin cfg1.N, win1_8.index t (0 : Fin 2) = 0 ∧ win1_8.index t (1 : Fin 2) = 0 :=
  (by decide +kernel : ∀ t : Fin grid1.N, win1_8.index t (0 : Fin 2) = 0 ∧ win1_8.index t (1 : Fin 2) = 0)

theorem idx1_9 : ∀ t : Fin cfg1.N, win1_9.index t (0 : Fin 2) = 0 ∧ win1_9.index t (1 : Fin 2) = 0 :=
  (by decide +kernel : ∀ t : Fin grid1.N, win1_9.index t (0 : Fin 2) = 0 ∧ win1_9.index t (1 : Fin 2) = 0)

theorem idx2_2 : ∀ t : Fin cfg2.N, win2_2.index t (0 : Fin 2) = 0 ∧ win2_2.index t (1 : Fin 2) = 0 :=
  (by decide +kernel : ∀ t : Fin grid2.N, win2_2.index t (0 : Fin 2) = 0 ∧ win2_2.index t (1 : Fin 2) = 0)

theorem idx2_3 : ∀ t : Fin cfg2.N, win2_3.index t (0 : Fin 2) = 0 ∧ win2_3.index t (1 : Fin 2) = 0 :=
  (by decide +kernel : ∀ t : Fin grid2.N, win2_3.index t (0 : Fin 2) = 0 ∧ win2_3.index t (1 : Fin 2) = 0)

theorem idx3_2 : ∀ t : Fin cfg3.N, win3_2.index t (0 : Fin 2) = 0 ∧ win3_2.index t (1 : Fin 2) = 0 :=
  (by decide +kernel : ∀ t : Fin grid3.N, win3_2.index t (0 : Fin 2) = 0 ∧ win3_2.index t (1 : Fin 2) = 0)

theorem idx3_3 : ∀ t : Fin cfg3.N, win3_3.index t (0 : Fin 2) = 0 ∧ win3_3.index t (1 : Fin 2) = 0 :=
  (by decide +kernel : ∀ t : Fin grid3.N, win3_3.index t (0 : Fin 2) = 0 ∧ win3_3.index t (1 : Fin 2) = 0)

theorem idx3_4 : ∀ t : Fin cfg3.N, win3_4.index t (0 : Fin 2) = 0 ∧ win3_4.index t (1 : Fin 2) = 0 :=
  (by decide +kernel : ∀ t : Fin grid3.N, win3_4.index t (0 : Fin 2) = 0 ∧ win3_4.index t (1 : Fin 2) = 0)

theorem idx3_5 : ∀ t : Fin cfg3.N, win3_5.index t (0 : Fin 2) = 0 ∧ win3_5.index t (1 : Fin 2) = 0 :=
  (by decide +kernel : ∀ t : Fin grid3.N, win3_5.index t (0 : Fin 2) = 0 ∧ win3_5.index t (1 : Fin 2) = 0)

theorem idx3_6 : ∀ t : Fin cfg3.N, win3_6.index t (0 : Fin 2) = 0 ∧ win3_6.index t (1 : Fin 2) = 0 :=
  (by decide +kernel : ∀ t : Fin grid3.N, win3_6.index t (0 : Fin 2) = 0 ∧ win3_6.index t (1 : Fin 2) = 0)

theorem idx3_7 : ∀ t : Fin cfg3.N, win3_7.index t (0 : Fin 2) = 0 ∧ win3_7.index t (1 : Fin 2) = 0 :=
  (by decide +kernel : ∀ t : Fin grid3.N, win3_7.index t (0 : Fin 2) = 0 ∧ win3_7.index t (1 : Fin 2) = 0)

theorem idx3_8 : ∀ t : Fin cfg3.N, win3_8.index t (0 : Fin 2) = 0 ∧ win3_8.index t (1 : Fin 2) = 0 :=
  (by decide +kernel : ∀ t : Fin grid3.N, win3_8.index t (0 : Fin 2) = 0 ∧ win3_8.index t (1 : Fin 2) = 0)

theorem idx3_9 : ∀ t : Fin cfg3.N, win3_9.index t (0 : Fin 2) = 0 ∧ win3_9.index t (1 : Fin 2) = 0 :=
  (by decide +kernel : ∀ t : Fin grid3.N, win3_9.index t (0 : Fin 2) = 0 ∧ win3_9.index t (1 : Fin 2) = 0)

end Kx

/-! ## Windows whose block moves with the grid point -/

/-- Region 0, window 0: the block at point `g` holds batch elements `4 * g .. 4 * g + 3` of its array. -/
theorem blkRead0_0 (c : Dev nD) (A : Buf (Elt F) ((c : Thread nD τ).loc main_arg0)) (g : Fin cfg0.N) (bb : Fin 4) (i : Fin 32) (k : Fin 128) :
    ((cfg0.win 0).blk g).view.read (Elt F) A (ix3 bb i k)
      = A (ix3 (⟨4 * g.val + bb.val, by have := g.isLt; have hN : cfg0.N = 64 := N_0; omega⟩ : Fin 256) i k) := by
  obtain ⟨e0, e1, e2⟩ := Kx.idx0_0 g
  show A (((cfg0.win 0).blk g).view.emb (ix3 bb i k)) = _
  congr 1
  funext a; apply Fin.ext
  match a with
  | ⟨0, _⟩ => show win0_0.index g (0 : Fin 3) * 4 + 1 * bb.val = 4 * g.val + bb.val; omega
  | ⟨1, _⟩ => show win0_0.index g (1 : Fin 3) * 32 + 1 * i.val = i.val; omega
  | ⟨2, _⟩ => show win0_0.index g (2 : Fin 3) * 128 + 1 * k.val = k.val; omega

/-- Region 0, window 1: the block at point `g` holds batch elements `4 * g .. 4 * g + 3` of its array. -/
theorem blkRead0_1 (c : Dev nD) (A : Buf (Elt F) ((c : Thread nD τ).loc main_v0)) (g : Fin cfg0.N) (bb : Fin 4) (i : Fin 32) (k : Fin 32) :
    ((cfg0.win 1).blk g).view.read (Elt F) A (ix3 bb i k)
      = A (ix3 (⟨4 * g.val + bb.val, by have := g.isLt; have hN : cfg0.N = 64 := N_0; omega⟩ : Fin 256) i k) := by
  obtain ⟨e0, e1, e2⟩ := Kx.idx0_1 g
  show A (((cfg0.win 1).blk g).view.emb (ix3 bb i k)) = _
  congr 1
  funext a; apply Fin.ext
  match a with
  | ⟨0, _⟩ => show win0_1.index g (0 : Fin 3) * 4 + 1 * bb.val = 4 * g.val + bb.val; omega
  | ⟨1, _⟩ => show win0_1.index g (1 : Fin 3) * 32 + 1 * i.val = i.val; omega
  | ⟨2, _⟩ => show win0_1.index g (2 : Fin 3) * 32 + 1 * k.val = k.val; omega

/-- Region 1, window 0: the block at point `g` holds batch elements `4 * g .. 4 * g + 3` of its array. -/
theorem blkRead1_0 (c : Dev nD) (A : Buf (Elt F) ((c : Thread nD τ).loc main_arg0)) (g : Fin cfg1.N) (bb : Fin 4) (i : Fin 32) (k : Fin 128) :
    ((cfg1.win 0).blk g).view.read (Elt F) A (ix3 bb i k)
      = A (ix3 (⟨4 * g.val + bb.val, by have := g.isLt; have hN : cfg1.N = 64 := N_1; omega⟩ : Fin 256) i k) := by
  obtain ⟨e0, e1, e2⟩ := Kx.idx1_0 g
  show A (((cfg1.win 0).blk g).view.emb (ix3 bb i k)) = _
  congr 1
  funext a; apply Fin.ext
  match a with
  | ⟨0, _⟩ => show win1_0.index g (0 : Fin 3) * 4 + 1 * bb.val = 4 * g.val + bb.val; omega
  | ⟨1, _⟩ => show win1_0.index g (1 : Fin 3) * 32 + 1 * i.val = i.val; omega
  | ⟨2, _⟩ => show win1_0.index g (2 : Fin 3) * 128 + 1 * k.val = k.val; omega

/-- Region 1, window 1: the block at point `g` holds batch elements `4 * g .. 4 * g + 3` of its array. -/
theorem blkRead1_1 (c : Dev nD) (A : Buf (Elt F) ((c : Thread nD τ).loc main_v0)) (g : Fin cfg1.N) (bb : Fin 4) (i : Fin 32) (k : Fin 32) :
    ((cfg1.win 1).blk g).view.read (Elt F) A (ix3 bb i k)
      = A (ix3 (⟨4 * g.val + bb.val, by have := g.isLt; have hN : cfg1.N = 64 := N_1; omega⟩ : Fin 256) i k) := by
  obtain ⟨e0, e1, e2⟩ := Kx.idx1_1 g
  show A (((cfg1.win 1).blk g).view.emb (ix3 bb i k)) = _
  congr 1
  funext a; apply Fin.ext
  match a with
  | ⟨0, _⟩ => show win1_1.index g (0 : Fin 3) * 4 + 1 * bb.val = 4 * g.val + bb.val; omega
  | ⟨1, _⟩ => show win1_1.index g (1 : Fin 3) * 32 + 1 * i.val = i.val; omega
  | ⟨2, _⟩ => show win1_1.index g (2 : Fin 3) * 32 + 1 * k.val = k.val; omega

/-- Region 1, window 10: the block at point `g` holds batch elements `4 * g .. 4 * g + 3` of its array. -/
theorem blkRead1_10 (c : Dev nD) (A : Buf (Elt F) ((c : Thread nD τ).loc main_v24)) (g : Fin cfg1.N) (bb : Fin 4) (i : Fin 32) (k : Fin 128) :
    ((cfg1.win 10).blk g).view.read (Elt F) A (ix3 bb i k)
      = A (ix3 (⟨4 * g.val + bb.val, by have := g.isLt; have hN : cfg1.N = 64 := N_1; omega⟩ : Fin 256) i k) := by
  obtain ⟨e0, e1, e2⟩ := Kx.idx1_10 g
  show A (((cfg1.win 10).blk g).view.emb (ix3 bb i k)) = _
  congr 1
  funext a; apply Fin.ext
  match a with
  | ⟨0, _⟩ => show win1_10.index g (0 : Fin 3) * 4 + 1 * bb.val = 4 * g.val + bb.val; omega
  | ⟨1, _⟩ => show win1_10.index g (1 : Fin 3) * 32 + 1 * i.val = i.val; omega
  | ⟨2, _⟩ => show win1_10.index g (2 : Fin 3) * 128 + 1 * k.val = k.val; omega

/-- Region 2, window 0: the block at point `g` holds batch elements `64 * g .. 64 * g + 63` of its array. -/
theorem blkRead2_0 (c : Dev nD) (A : Buf (Elt F) ((c : Thread nD τ).loc main_arg0)) (g : Fin cfg2.N) (bb : Fin 64) (i : Fin 32) (k : Fin 128) :
    ((cfg2.win 0).blk g).view.read (Elt F) A (ix3 bb i k)
      = A (ix3 (⟨64 * g.val + bb.val, by have := g.isLt; have hN : cfg2.N = 4 := N_2; omega⟩ : Fin 256) i k) := by
  obtain ⟨e0, e1, e2⟩ := Kx.idx2_0 g
  show A (((cfg2.win 0).blk g).view.emb (ix3 bb i k)) = _
  congr 1
  funext a; apply Fin.ext
  match a with
  | ⟨0, _⟩ => show win2_0.index g (0 : Fin 3) * 64 + 1 * bb.val = 64 * g.val + bb.val; omega
  | ⟨1, _⟩ => show win2_0.index g (1 : Fin 3) * 32 + 1 * i.val = i.val; omega
  | ⟨2, _⟩ => show win2_0.index g (2 : Fin 3) * 128 + 1 * k.val = k.val; omega

/-- Region 2, window 1: the block at point `g` holds batch elements `64 * g .. 64 * g + 63` of its array. -/
theorem blkRead2_1 (c : Dev nD) (A : Buf (Elt F) ((c : Thread nD τ).loc main_v24)) (g : Fin cfg2.N) (bb : Fin 64) (i : Fin 32) (k : Fin 128) :
    ((cfg2.win 1).blk g).view.read (Elt F) A (ix3 bb i k)
      = A (ix3 (⟨64 * g.val + bb.val, by have := g.isLt; have hN : cfg2.N = 4 := N_2; omega⟩ : Fin 256) i k) := by
  obtain ⟨e0, e1, e2⟩ := Kx.idx2_1 g
  show A (((cfg2.win 1).blk g).view.emb (ix3 bb i k)) = _
  congr 1
  funext a; apply Fin.ext
  match a with
  | ⟨0, _⟩ => show win2_1.index g (0 : Fin 3) * 64 + 1 * bb.val = 64 * g.val + bb.val; omega
  | ⟨1, _⟩ => show win2_1.index g (1 : Fin 3) * 32 + 1 * i.val = i.val; omega
  | ⟨2, _⟩ => show win2_1.index g (2 : Fin 3) * 128 + 1 * k.val = k.val; omega

/-- Region 3, window 0: the block at point `g` holds batch elements `64 * g .. 64 * g + 63` of its array. -/
theorem blkRead3_0 (c : Dev nD) (A : Buf (Elt F) ((c : Thread nD τ).loc main_arg0)) (g : Fin cfg3.N) (bb : Fin 64) (i : Fin 32) (k : Fin 128) :
    ((cfg3.win 0).blk g).view.read (Elt F) A (ix3 bb i k)
      = A (ix3 (⟨64 * g.val + bb.val, by have := g.isLt; have hN : cfg3.N = 4 := N_3; omega⟩ : Fin 256) i k) := by
  obtain ⟨e0, e1, e2⟩ := Kx.idx3_0 g
  show A (((cfg3.win 0).blk g).view.emb (ix3 bb i k)) = _
  congr 1
  funext a; apply Fin.ext
  match a with
  | ⟨0, _⟩ => show win3_0.index g (0 : Fin 3) * 64 + 1 * bb.val = 64 * g.val + bb.val; omega
  | ⟨1, _⟩ => show win3_0.index g (1 : Fin 3) * 32 + 1 * i.val = i.val; omega
  | ⟨2, _⟩ => show win3_0.index g (2 : Fin 3) * 128 + 1 * k.val = k.val; omega

/-- Region 3, window 1: the block at point `g` holds batch elements `64 * g .. 64 * g + 63` of its array. -/
theorem blkRead3_1 (c : Dev nD) (A : Buf (Elt F) ((c : Thread nD τ).loc main_v24)) (g : Fin cfg3.N) (bb : Fin 64) (i : Fin 32) (k : Fin 128) :
    ((cfg3.win 1).blk g).view.read (Elt F) A (ix3 bb i k)
      = A (ix3 (⟨64 * g.val + bb.val, by have := g.isLt; have hN : cfg3.N = 4 := N_3; omega⟩ : Fin 256) i k) := by
  obtain ⟨e0, e1, e2⟩ := Kx.idx3_1 g
  show A (((cfg3.win 1).blk g).view.emb (ix3 bb i k)) = _
  congr 1
  funext a; apply Fin.ext
  match a with
  | ⟨0, _⟩ => show win3_1.index g (0 : Fin 3) * 64 + 1 * bb.val = 64 * g.val + bb.val; omega
  | ⟨1, _⟩ => show win3_1.index g (1 : Fin 3) * 32 + 1 * i.val = i.val; omega
  | ⟨2, _⟩ => show win3_1.index g (2 : Fin 3) * 128 + 1 * k.val = k.val; omega

/-- Region 3, window 10: the block at point `g` holds batch elements `64 * g .. 64 * g + 63` of its array. -/
theorem blkRead3_10 (c : Dev nD) (A : Buf (Elt F) ((c : Thread nD τ).loc main_v32)) (g : Fin cfg3.N) (bb : Fin 64) (i : Fin 32) (k : Fin 128) :
    ((cfg3.win 10).blk g).view.read (Elt F) A (ix3 bb i k)
      = A (ix3 (⟨64 * g.val + bb.val, by have := g.isLt; have hN : cfg3.N = 4 := N_3; omega⟩ : Fin 256) i k) := by
  obtain ⟨e0, e1, e2⟩ := Kx.idx3_10 g
  show A (((cfg3.win 10).blk g).view.emb (ix3 bb i k)) = _
  congr 1
  funext a; apply Fin.ext
  match a with
  | ⟨0, _⟩ => show win3_10.index g (0 : Fin 3) * 64 + 1 * bb.val = 64 * g.val + bb.val; omega
  | ⟨1, _⟩ => show win3_10.index g (1 : Fin 3) * 32 + 1 * i.val = i.val; omega
  | ⟨2, _⟩ => show win3_10.index g (2 : Fin 3) * 128 + 1 * k.val = k.val; omega

/-! ## Windows whose block is the whole array -/

/-- Region 0, window 2: the block is the whole array at every point. -/
theorem blkRead0_2 (c : Dev nD) (A : Buf (Elt F) ((c : Thread nD τ).loc main_v2)) (t : Fin cfg0.N) :
    ((cfg0.win 2).blk t).view.read (Elt F) A = A := by
  obtain ⟨e0, e1⟩ := Kx.idx0_2 t
  have hz : (fun a => win0_2.index t a * main_v2.ty.shape.size a) = fun _ => 0 := funext fun a => by
    match a with
    | ⟨0, _⟩ => show win0_2.index t (0 : Fin 2) * _ = 0; rw [e0]; exact Nat.zero_mul _
    | ⟨1, _⟩ => show win0_2.index t (1 : Fin 2) * _ = 0; rw [e1]; exact Nat.zero_mul _
  exact Memref.read_access_unit_zero (Elt F) main_v2 hz (fun a => by rw [congrFun hz a]; simp) A

/-- Region 0, window 3: the block is the whole array at every point. -/
theorem blkRead0_3 (c : Dev nD) (A : Buf (Elt F) ((c : Thread nD τ).loc main_v9)) (t : Fin cfg0.N) :
    ((cfg0.win 3).blk t).view.read (Elt F) A = A := by
  obtain ⟨e0, e1⟩ := Kx.idx0_3 t
  have hz : (fun a => win0_3.index t a * main_v9.ty.shape.size a) = fun _ => 0 := funext fun a => by
    match a with
    | ⟨0, _⟩ => show win0_3.index t (0 : Fin 2) * _ = 0; rw [e0]; exact Nat.zero_mul _
    | ⟨1, _⟩ => show win0_3.index t (1 : Fin 2) * _ = 0; rw [e1]; exact Nat.zero_mul _
  exact Memref.read_access_unit_zero (Elt F) main_v9 hz (fun a => by rw [congrFun hz a]; simp) A

/-- Region 1, window 2: the block is the whole array at every point. -/
theorem blkRead1_2 (c : Dev nD) (A : Buf (Elt F) ((c : Thread nD τ).loc main_v2)) (t : Fin cfg1.N) :
    ((cfg1.win 2).blk t).view.read (Elt F) A = A := by
  obtain ⟨e0, e1⟩ := Kx.idx1_2 t
  have hz : (fun a => win1_2.index t a * main_v2.ty.shape.size a) = fun _ => 0 := funext fun a => by
    match a with
    | ⟨0, _⟩ => show win1_2.index t (0 : Fin 2) * _ = 0; rw [e0]; exact Nat.zero_mul _
    | ⟨1, _⟩ => show win1_2.index t (1 : Fin 2) * _ = 0; rw [e1]; exact Nat.zero_mul _
  exact Memref.read_access_unit_zero (Elt F) main_v2 hz (fun a => by rw [congrFun hz a]; simp) A

/-- Region 1, window 3: the block is the whole array at every point. -/
theorem blkRead1_3 (c : Dev nD) (A : Buf (Elt F) ((c : Thread nD τ).loc main_v9)) (t : Fin cfg1.N) :
    ((cfg1.win 3).blk t).view.read (Elt F) A = A := by
  obtain ⟨e0, e1⟩ := Kx.idx1_3 t
  have hz : (fun a => win1_3.index t a * main_v9.ty.shape.size a) = fun _ => 0 := funext fun a => by
    match a with
    | ⟨0, _⟩ => show win1_3.index t (0 : Fin 2) * _ = 0; rw [e0]; exact Nat.zero_mul _
    | ⟨1, _⟩ => show win1_3.index t (1 : Fin 2) * _ = 0; rw [e1]; exact Nat.zero_mul _
  exact Memref.read_access_unit_zero (Elt F) main_v9 hz (fun a => by rw [congrFun hz a]; simp) A

/-- Region 1, window 4: the block is the whole array at every point. -/
theorem blkRead1_4 (c : Dev nD) (A : Buf (Elt F) ((c : Thread nD τ).loc main_v19)) (t : Fin cfg1.N) :
    ((cfg1.win 4).blk t).view.read (Elt F) A = A := by
  obtain ⟨e0, e1⟩ := Kx.idx1_4 t
  have hz : (fun a => win1_4.index t a * main_v19.ty.shape.size a) = fun _ => 0 := funext fun a => by
    match a with
    | ⟨0, _⟩ => show win1_4.index t (0 : Fin 2) * _ = 0; rw [e0]; exact Nat.zero_mul _
    | ⟨1, _⟩ => show win1_4.index t (1 : Fin 2) * _ = 0; rw [e1]; exact Nat.zero_mul _
  exact Memref.read_access_unit_zero (Elt F) main_v19 hz (fun a => by rw [congrFun hz a]; simp) A

/-- Region 1, window 5: the block is the whole array at every point. -/
theorem blkRead1_5 (c : Dev nD) (A : Buf (Elt F) ((c : Thread nD τ).loc main_v23)) (t : Fin cfg1.N) :
    ((cfg1.win 5).blk t).view.read (Elt F) A = A := by
  obtain ⟨e0, e1⟩ := Kx.idx1_5 t
  have hz : (fun a => win1_5.index t a * main_v23.ty.shape.size a) = fun _ => 0 := funext fun a => by
    match a with
    | ⟨0, _⟩ => show win1_5.index t (0 : Fin 2) * _ = 0; rw [e0]; exact Nat.zero_mul _
    | ⟨1, _⟩ => show win1_5.index t (1 : Fin 2) * _ = 0; rw [e1]; exact Nat.zero_mul _
  exact Memref.read_access_unit_zero (Elt F) main_v23 hz (fun a => by rw [congrFun hz a]; simp) A

/-- Region 1, window 6: the block is the whole array at every point. -/
theorem blkRead1_6 (c : Dev nD) (A : Buf (Elt F) ((c : Thread nD τ).loc main_v10)) (t : Fin cfg1.N) :
    ((cfg1.win 6).blk t).view.read (Elt F) A = A := by
  obtain ⟨e0, e1⟩ := Kx.idx1_6 t
  have hz : (fun a => win1_6.index t a * main_v10.ty.shape.size a) = fun _ => 0 := funext fun a => by
    match a with
    | ⟨0, _⟩ => show win1_6.index t (0 : Fin 2) * _ = 0; rw [e0]; exact Nat.zero_mul _
    | ⟨1, _⟩ => show win1_6.index t (1 : Fin 2) * _ = 0; rw [e1]; exact Nat.zero_mul _
  exact Memref.read_access_unit_zero (Elt F) main_v10 hz (fun a => by rw [congrFun hz a]; simp) A

/-- Region 1, window 7: the block is the whole array at every point. -/
theorem blkRead1_7 (c : Dev nD) (A : Buf (Elt F) ((c : Thread nD τ).loc main_v11)) (t : Fin cfg1.N) :
    ((cfg1.win 7).blk t).view.read (Elt F) A = A := by
  obtain ⟨e0, e1⟩ := Kx.idx1_7 t
  have hz : (fun a => win1_7.index t a * main_v11.ty.shape.size a) = fun _ => 0 := funext fun a => by
    match a with
    | ⟨0, _⟩ => show win1_7.index t (0 : Fin 2) * _ = 0; rw [e0]; exact Nat.zero_mul _
    | ⟨1, _⟩ => show win1_7.index t (1 : Fin 2) * _ = 0; rw [e1]; exact Nat.zero_mul _
  exact Memref.read_access_unit_zero (Elt F) main_v11 hz (fun a => by rw [congrFun hz a]; simp) A

/-- Region 1, window 8: the block is the whole array at every point. -/
theorem blkRead1_8 (c : Dev nD) (A : Buf (Elt F) ((c : Thread nD τ).loc main_v4)) (t : Fin cfg1.N) :
    ((cfg1.win 8).blk t).view.read (Elt F) A = A := by
  obtain ⟨e0, e1⟩ := Kx.idx1_8 t
  have hz : (fun a => win1_8.index t a * main_v4.ty.shape.size a) = fun _ => 0 := funext fun a => by
    match a with
    | ⟨0, _⟩ => show win1_8.index t (0 : Fin 2) * _ = 0; rw [e0]; exact Nat.zero_mul _
    | ⟨1, _⟩ => show win1_8.index t (1 : Fin 2) * _ = 0; rw [e1]; exact Nat.zero_mul _
  exact Memref.read_access_unit_zero (Elt F) main_v4 hz (fun a => by rw [congrFun hz a]; simp) A

/-- Region 1, window 9: the block is the whole array at every point. -/
theorem blkRead1_9 (c : Dev nD) (A : Buf (Elt F) ((c : Thread nD τ).loc main_v12)) (t : Fin cfg1.N) :
    ((cfg1.win 9).blk t).view.read (Elt F) A = A := by
  obtain ⟨e0, e1⟩ := Kx.idx1_9 t
  have hz : (fun a => win1_9.index t a * main_v12.ty.shape.size a) = fun _ => 0 := funext fun a => by
    match a with
    | ⟨0, _⟩ => show win1_9.index t (0 : Fin 2) * _ = 0; rw [e0]; exact Nat.zero_mul _
    | ⟨1, _⟩ => show win1_9.index t (1 : Fin 2) * _ = 0; rw [e1]; exact Nat.zero_mul _
  exact Memref.read_access_unit_zero (Elt F) main_v12 hz (fun a => by rw [congrFun hz a]; simp) A

/-- Region 2, window 2: the block is the whole array at every point. -/
theorem blkRead2_2 (c : Dev nD) (A : Buf (Elt F) ((c : Thread nD τ).loc main_v6)) (t : Fin cfg2.N) :
    ((cfg2.win 2).blk t).view.read (Elt F) A = A := by
  obtain ⟨e0, e1⟩ := Kx.idx2_2 t
  have hz : (fun a => win2_2.index t a * main_v6.ty.shape.size a) = fun _ => 0 := funext fun a => by
    match a with
    | ⟨0, _⟩ => show win2_2.index t (0 : Fin 2) * _ = 0; rw [e0]; exact Nat.zero_mul _
    | ⟨1, _⟩ => show win2_2.index t (1 : Fin 2) * _ = 0; rw [e1]; exact Nat.zero_mul _
  exact Memref.read_access_unit_zero (Elt F) main_v6 hz (fun a => by rw [congrFun hz a]; simp) A

/-- Region 2, window 3: the block is the whole array at every point. -/
theorem blkRead2_3 (c : Dev nD) (A : Buf (Elt F) ((c : Thread nD τ).loc main_v13)) (t : Fin cfg2.N) :
    ((cfg2.win 3).blk t).view.read (Elt F) A = A := by
  obtain ⟨e0, e1⟩ := Kx.idx2_3 t
  have hz : (fun a => win2_3.index t a * main_v13.ty.shape.size a) = fun _ => 0 := funext fun a => by
    match a with
    | ⟨0, _⟩ => show win2_3.index t (0 : Fin 2) * _ = 0; rw [e0]; exact Nat.zero_mul _
    | ⟨1, _⟩ => show win2_3.index t (1 : Fin 2) * _ = 0; rw [e1]; exact Nat.zero_mul _
  exact Memref.read_access_unit_zero (Elt F) main_v13 hz (fun a => by rw [congrFun hz a]; simp) A

/-- Region 3, window 2: the block is the whole array at every point. -/
theorem blkRead3_2 (c : Dev nD) (A : Buf (Elt F) ((c : Thread nD τ).loc main_v6)) (t : Fin cfg3.N) :
    ((cfg3.win 2).blk t).view.read (Elt F) A = A := by
  obtain ⟨e0, e1⟩ := Kx.idx3_2 t
  have hz : (fun a => win3_2.index t a * main_v6.ty.shape.size a) = fun _ => 0 := funext fun a => by
    match a with
    | ⟨0, _⟩ => show win3_2.index t (0 : Fin 2) * _ = 0; rw [e0]; exact Nat.zero_mul _
    | ⟨1, _⟩ => show win3_2.index t (1 : Fin 2) * _ = 0; rw [e1]; exact Nat.zero_mul _
  exact Memref.read_access_unit_zero (Elt F) main_v6 hz (fun a => by rw [congrFun hz a]; simp) A

/-- Region 3, window 3: the block is the whole array at every point. -/
theorem blkRead3_3 (c : Dev nD) (A : Buf (Elt F) ((c : Thread nD τ).loc main_v13)) (t : Fin cfg3.N) :
    ((cfg3.win 3).blk t).view.read (Elt F) A = A := by
  obtain ⟨e0, e1⟩ := Kx.idx3_3 t
  have hz : (fun a => win3_3.index t a * main_v13.ty.shape.size a) = fun _ => 0 := funext fun a => by
    match a with
    | ⟨0, _⟩ => show win3_3.index t (0 : Fin 2) * _ = 0; rw [e0]; exact Nat.zero_mul _
    | ⟨1, _⟩ => show win3_3.index t (1 : Fin 2) * _ = 0; rw [e1]; exact Nat.zero_mul _
  exact Memref.read_access_unit_zero (Elt F) main_v13 hz (fun a => by rw [congrFun hz a]; simp) A

/-- Region 3, window 4: the block is the whole array at every point. -/
theorem blkRead3_4 (c : Dev nD) (A : Buf (Elt F) ((c : Thread nD τ).loc main_v27)) (t : Fin cfg3.N) :
    ((cfg3.win 4).blk t).view.read (Elt F) A = A := by
  obtain ⟨e0, e1⟩ := Kx.idx3_4 t
  have hz : (fun a => win3_4.index t a * main_v27.ty.shape.size a) = fun _ => 0 := funext fun a => by
    match a with
    | ⟨0, _⟩ => show win3_4.index t (0 : Fin 2) * _ = 0; rw [e0]; exact Nat.zero_mul _
    | ⟨1, _⟩ => show win3_4.index t (1 : Fin 2) * _ = 0; rw [e1]; exact Nat.zero_mul _
  exact Memref.read_access_unit_zero (Elt F) main_v27 hz (fun a => by rw [congrFun hz a]; simp) A

/-- Region 3, window 5: the block is the whole array at every point. -/
theorem blkRead3_5 (c : Dev nD) (A : Buf (Elt F) ((c : Thread nD τ).loc main_v31)) (t : Fin cfg3.N) :
    ((cfg3.win 5).blk t).view.read (Elt F) A = A := by
  obtain ⟨e0, e1⟩ := Kx.idx3_5 t
  have hz : (fun a => win3_5.index t a * main_v31.ty.shape.size a) = fun _ => 0 := funext fun a => by
    match a with
    | ⟨0, _⟩ => show win3_5.index t (0 : Fin 2) * _ = 0; rw [e0]; exact Nat.zero_mul _
    | ⟨1, _⟩ => show win3_5.index t (1 : Fin 2) * _ = 0; rw [e1]; exact Nat.zero_mul _
  exact Memref.read_access_unit_zero (Elt F) main_v31 hz (fun a => by rw [congrFun hz a]; simp) A

/-- Region 3, window 6: the block is the whole array at every point. -/
theorem blkRead3_6 (c : Dev nD) (A : Buf (Elt F) ((c : Thread nD τ).loc main_v14)) (t : Fin cfg3.N) :
    ((cfg3.win 6).blk t).view.read (Elt F) A = A := by
  obtain ⟨e0, e1⟩ := Kx.idx3_6 t
  have hz : (fun a => win3_6.index t a * main_v14.ty.shape.size a) = fun _ => 0 := funext fun a => by
    match a with
    | ⟨0, _⟩ => show win3_6.index t (0 : Fin 2) * _ = 0; rw [e0]; exact Nat.zero_mul _
    | ⟨1, _⟩ => show win3_6.index t (1 : Fin 2) * _ = 0; rw [e1]; exact Nat.zero_mul _
  exact Memref.read_access_unit_zero (Elt F) main_v14 hz (fun a => by rw [congrFun hz a]; simp) A

/-- Region 3, window 7: the block is the whole array at every point. -/
theorem blkRead3_7 (c : Dev nD) (A : Buf (Elt F) ((c : Thread nD τ).loc main_v15)) (t : Fin cfg3.N) :
    ((cfg3.win 7).blk t).view.read (Elt F) A = A := by
  obtain ⟨e0, e1⟩ := Kx.idx3_7 t
  have hz : (fun a => win3_7.index t a * main_v15.ty.shape.size a) = fun _ => 0 := funext fun a => by
    match a with
    | ⟨0, _⟩ => show win3_7.index t (0 : Fin 2) * _ = 0; rw [e0]; exact Nat.zero_mul _
    | ⟨1, _⟩ => show win3_7.index t (1 : Fin 2) * _ = 0; rw [e1]; exact Nat.zero_mul _
  exact Memref.read_access_unit_zero (Elt F) main_v15 hz (fun a => by rw [congrFun hz a]; simp) A

/-- Region 3, window 8: the block is the whole array at every point. -/
theorem blkRead3_8 (c : Dev nD) (A : Buf (Elt F) ((c : Thread nD τ).loc main_v8)) (t : Fin cfg3.N) :
    ((cfg3.win 8).blk t).view.read (Elt F) A = A := by
  obtain ⟨e0, e1⟩ := Kx.idx3_8 t
  have hz : (fun a => win3_8.index t a * main_v8.ty.shape.size a) = fun _ => 0 := funext fun a => by
    match a with
    | ⟨0, _⟩ => show win3_8.index t (0 : Fin 2) * _ = 0; rw [e0]; exact Nat.zero_mul _
    | ⟨1, _⟩ => show win3_8.index t (1 : Fin 2) * _ = 0; rw [e1]; exact Nat.zero_mul _
  exact Memref.read_access_unit_zero (Elt F) main_v8 hz (fun a => by rw [congrFun hz a]; simp) A

/-- Region 3, window 9: the block is the whole array at every point. -/
theorem blkRead3_9 (c : Dev nD) (A : Buf (Elt F) ((c : Thread nD τ).loc main_v16)) (t : Fin cfg3.N) :
    ((cfg3.win 9).blk t).view.read (Elt F) A = A := by
  obtain ⟨e0, e1⟩ := Kx.idx3_9 t
  have hz : (fun a => win3_9.index t a * main_v16.ty.shape.size a) = fun _ => 0 := funext fun a => by
    match a with
    | ⟨0, _⟩ => show win3_9.index t (0 : Fin 2) * _ = 0; rw [e0]; exact Nat.zero_mul _
    | ⟨1, _⟩ => show win3_9.index t (1 : Fin 2) * _ = 0; rw [e1]; exact Nat.zero_mul _
  exact Memref.read_access_unit_zero (Elt F) main_v16 hz (fun a => by rw [congrFun hz a]; simp) A

/-! ## From blocks to the array -/

/-- Region 1's output: if at every point the block written back is the function `G` of the array index read at the
    block's batch elements, the array ends as `G`. -/
theorem arrAt1_10_of {c : Dev nD} (dat : Dat τ (Elt F) Unit ℕ (UR sig nD τ) ℕ cfg1 c) (G : Buf (Elt F) ((c : Thread nD τ).loc main_v24))
    (hG : ∀ (t : Fin cfg1.N) (bb : Fin 4) (i : Fin 32) (d : Fin 128),
      dat.after 10 t (ix3 bb i d) = G (ix3 (⟨4 * t.val + bb.val, by have := t.isLt; have hN : cfg1.N = 64 := N_1; omega⟩ : Fin 256) i d)) :
    dat.arrAt 10 cfg1.N = G := by
  refine dat.arrAt_eq_of_cover 10 G (fun t _ => ?_) (fun i => ?_)
  · funext y
    obtain ⟨bb, i, d, rfl⟩ : ∃ (bb : Fin 4) (i : Fin 32) (d : Fin 128), y = ix3 bb i d :=
      ⟨y 0, y 1, y 2, eq_ix3 (n0 := 4) (n1 := 32) (n2 := 128) y⟩
    show dat.after 10 t (ix3 bb i d) = _
    rw [hG t bb i d]
    exact (blkRead1_10 c G t bb i d).symm
  · have hN : cfg1.N = 64 := N_1
    have h0 : (i 0 : Nat) < 256 := (i 0).isLt
    have h1 : (i 1 : Nat) < 32 := (i 1).isLt
    have h2 : (i 2 : Nat) < 128 := (i 2).isLt
    obtain ⟨t, ht⟩ : ∃ t : Fin cfg1.N, t.val = (i 0 : Nat) / 4 := ⟨⟨(i 0 : Nat) / 4, by omega⟩, rfl⟩
    obtain ⟨e0, e1, e2⟩ := Kx.idx1_10 t
    refine ⟨t, flush1_10 t, ?_⟩
    show i ∈ ((View.whole main_v24).slice (win1_10.rect t)).set
    rw [View.set_slice_whole, Rect.mem_set_unit]
    intro a
    match a with
    | ⟨0, _⟩ => show win1_10.index t (0 : Fin 3) * 4 ≤ (i 0 : Nat) ∧ (i 0 : Nat) < win1_10.index t (0 : Fin 3) * 4 + 4; omega
    | ⟨1, _⟩ => show win1_10.index t (1 : Fin 3) * 32 ≤ (i 1 : Nat) ∧ (i 1 : Nat) < win1_10.index t (1 : Fin 3) * 32 + 32; omega
    | ⟨2, _⟩ => show win1_10.index t (2 : Fin 3) * 128 ≤ (i 2 : Nat) ∧ (i 2 : Nat) < win1_10.index t (2 : Fin 3) * 128 + 128; omega

/-- Region 3's output: if at every point the block written back is the function `G` of the array index read at the
    block's batch elements, the array ends as `G`. -/
theorem arrAt3_10_of {c : Dev nD} (dat : Dat τ (Elt F) Unit ℕ (UR sig nD τ) ℕ cfg3 c) (G : Buf (Elt F) ((c : Thread nD τ).loc main_v32))
    (hG : ∀ (t : Fin cfg3.N) (bb : Fin 64) (i : Fin 32) (d : Fin 128),
      dat.after 10 t (ix3 bb i d) = G (ix3 (⟨64 * t.val + bb.val, by have := t.isLt; have hN : cfg3.N = 4 := N_3; omega⟩ : Fin 256) i d)) :
    dat.arrAt 10 cfg3.N = G := by
  refine dat.arrAt_eq_of_cover 10 G (fun t _ => ?_) (fun i => ?_)
  · funext y
    obtain ⟨bb, i, d, rfl⟩ : ∃ (bb : Fin 64) (i : Fin 32) (d : Fin 128), y = ix3 bb i d :=
      ⟨y 0, y 1, y 2, eq_ix3 (n0 := 64) (n1 := 32) (n2 := 128) y⟩
    show dat.after 10 t (ix3 bb i d) = _
    rw [hG t bb i d]
    exact (blkRead3_10 c G t bb i d).symm
  · have hN : cfg3.N = 4 := N_3
    have h0 : (i 0 : Nat) < 256 := (i 0).isLt
    have h1 : (i 1 : Nat) < 32 := (i 1).isLt
    have h2 : (i 2 : Nat) < 128 := (i 2).isLt
    obtain ⟨t, ht⟩ : ∃ t : Fin cfg3.N, t.val = (i 0 : Nat) / 64 := ⟨⟨(i 0 : Nat) / 64, by omega⟩, rfl⟩
    obtain ⟨e0, e1, e2⟩ := Kx.idx3_10 t
    refine ⟨t, flush3_10 t, ?_⟩
    show i ∈ ((View.whole main_v32).slice (win3_10.rect t)).set
    rw [View.set_slice_whole, Rect.mem_set_unit]
    intro a
    match a with
    | ⟨0, _⟩ => show win3_10.index t (0 : Fin 3) * 64 ≤ (i 0 : Nat) ∧ (i 0 : Nat) < win3_10.index t (0 : Fin 3) * 64 + 64; omega
    | ⟨1, _⟩ => show win3_10.index t (1 : Fin 3) * 32 ≤ (i 1 : Nat) ∧ (i 1 : Nat) < win3_10.index t (1 : Fin 3) * 32 + 32; omega
    | ⟨2, _⟩ => show win3_10.index t (2 : Fin 3) * 128 ≤ (i 2 : Nat) ∧ (i 2 : Nat) < win3_10.index t (2 : Fin 3) * 128 + 128; omega

end Cert.KernelIdeal.Hand

end
-- ==== Proof.KI_Blocks0.lean ====
/- Region 0's blocks, read off the array as the region finds it: the two windows that move hold four batch elements a point, the windows of the first layer's weight and bias hold their whole arrays. -/
import proofs.«134035_j84430467104804_1_alg».proof.Proof.KI_R0Base
import proofs.«134035_j84430467104804_1_alg».proof.Proof.KI_Blocks

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

variable (V : (c : Dev nD) → (b : Ref sig .tc) → Buf (Elt F) ((c : Thread nD τ).loc b))

/-- Window 0's block at point `g`, element by element: batch element `4 * g + bb` of the array. -/
theorem iblk0_0_apply (c : Dev nD) (g : Fin cfg0.N) (bb : Fin 4) (i : Fin 32) (k : Fin 128) :
    iblk0 V c 0 g (ix3 bb i k)
      = V c main_arg0 (ix3 (⟨4 * g.val + bb.val, by have := g.isLt; have hN : cfg0.N = 64 := N_0; omega⟩ : Fin 256) i k) :=
  blkRead0_0 c (V c main_arg0) g bb i k

/-- Window 1's block at point `g`, element by element: batch element `4 * g + bb` of the array. -/
theorem iblk0_1_apply (c : Dev nD) (g : Fin cfg0.N) (bb : Fin 4) (i : Fin 32) (k : Fin 32) :
    iblk0 V c 1 g (ix3 bb i k)
      = V c main_v0 (ix3 (⟨4 * g.val + bb.val, by have := g.isLt; have hN : cfg0.N = 64 := N_0; omega⟩ : Fin 256) i k) :=
  blkRead0_1 c (V c main_v0) g bb i k

/-- Window 2's block is its array at every point. -/
theorem iblk0_2_eq (c : Dev nD) (t : Fin cfg0.N) : iblk0 V c 2 t = V c main_v2 :=
  blkRead0_2 c (V c main_v2) t

/-- Window 3's block is its array at every point. -/
theorem iblk0_3_eq (c : Dev nD) (t : Fin cfg0.N) : iblk0 V c 3 t = V c main_v9 :=
  blkRead0_3 c (V c main_v9) t

end Cert.KernelIdeal.Hand

end
-- ==== Proof.KI_Comp01.lean ====
/-
  The two passes of the message perceptron over the arrays a region is entered with, on the extended reals.

  The statistics pass leaves, in its two output rows, the column sums of the first layer and of its squares over all
  262144 edge rows; the apply pass leaves, in its output array, the aggregated messages of every object.  Both are read
  off the regions' proof data: the rows carried from block to block are the running rows of the block recursion, and the
  block an apply point writes back is the aggregated messages of the point's four batch elements.
-/
import proofs.«134035_j84430467104804_1_alg».proof.Proof.KI_R0
import proofs.«134035_j84430467104804_1_alg».proof.Proof.KI_R1
import proofs.«134035_j84430467104804_1_alg».proof.Proof.KI_Val1
import proofs.«134035_j84430467104804_1_alg».proof.Proof.KI_Blocks
import proofs.«134035_j84430467104804_1_alg».proof.Proof.KI_Blocks0

noncomputable section

open scoped BigOperators

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand
open Dx

variable (V : (c : Dev nD) → (b : Ref sig .tc) → Buf (Elt Ideal) ((c : Thread nD τ).loc b))

namespace Dx

/-- The state and edge blocks the statistics pass reads at the point numbered n (the first point's beyond the grid). -/
def stBlk (c : Dev nD) (n : ℕ) : Vec Ideal S4x32x128 .f32 := iblk0 V c 0 (R0.pt0 n)
def edBlk (c : Dev nD) (n : ℕ) : Vec Ideal S4x32x32 .f32 := iblk0 V c 1 (R0.pt0 n)

/-- The rows carried from point to point are the running rows of the block recursion. -/
theorem acc0_eq_accF (c : Dev nD) (n : ℕ) :
    acc0 V c n = accF (stBlk V c) (edBlk V c) (V c main_v2) (V c main_v9) n := by
  induction n with
  | zero =>
    show R0.step0 V c (R0.pt0 0) ((k0_pay2 (F := Ideal) : Vec Ideal S1x256 .f32), (k0_pay3 (F := Ideal) : Vec Ideal S1x256 .f32)) = _
    unfold R0.step0
    rw [iblk0_2_eq, iblk0_3_eq]
    rfl
  | succ n ih =>
    show R0.step0 V c (R0.pt0 (n + 1)) (acc0 V c n) = _
    rw [ih]
    unfold R0.step0
    rw [iblk0_2_eq, iblk0_3_eq]
    rfl

end Dx

/-- After the statistics pass the two output rows hold the column sums of the first layer and of its squares. -/
theorem region0_sums (c : Dev nD) (p : Cert.Spec.Params)
    (h_st : ∀ (b : Fin 256) (i : Fin 32) (k : Fin 128), V c main_arg0 (ix3 b i k) = p.st (ix3 b i k))
    (h_ed : ∀ (b : Fin 256) (i j : Fin 32), V c main_v0 (ix3 b i j) = p.ed (ix2 b (Cert.Spec.pairIx i j)))
    (h_w1 : ∀ k c' : Fin 256, V c main_v2 (ix2 k c') = p.mw1 (ix2 c' k))
    (h_b1 : ∀ c' : Fin 256, V c main_v9 (ix2 (0 : Fin 1) c') = p.mb1 (ix1 c')) (c' : Fin 256) :
    (dat0 V c).arrAt 4 cfg0.N (ix2 (0 : Fin 1) c') = Cert.Spec.sum1 p c'
      ∧ (dat0 V c).arrAt 5 cfg0.N (ix2 (0 : Fin 1) c') = Cert.Spec.sumsq1 p c' := by
  have hN : cfg0.N = 64 := N_0
  have hst : ∀ (g : Fin 64) (bb : Fin 4) (i : Fin 32) (k : Fin 128),
      Dx.stBlk V c g.val (ix3 bb i k) = p.st (ix3 (bat g bb) i k) := fun g bb i k => by
    have hg : g.val < cfg0.N := by have := g.isLt; omega
    show iblk0 V c 0 (R0.pt0 g.val) (ix3 bb i k) = _
    rw [R0.pt0_eq g.val hg, iblk0_0_apply V c ⟨g.val, hg⟩ bb i k]
    exact h_st _ i k
  have hed : ∀ (g : Fin 64) (bb : Fin 4) (i j : Fin 32),
      Dx.edBlk V c g.val (ix3 bb i j) = p.ed (ix2 (bat g bb) (Cert.Spec.pairIx i j)) := fun g bb i j => by
    have hg : g.val < cfg0.N := by have := g.isLt; omega
    show iblk0 V c 1 (R0.pt0 g.val) (ix3 bb i j) = _
    rw [R0.pt0_eq g.val hg, iblk0_1_apply V c ⟨g.val, hg⟩ bb i j]
    exact h_ed _ i j
  constructor
  · refine (congrFun (arrAt0_4 V c) _).trans ?_
    rw [Dx.acc0_eq_accF V c 63]
    exact accF_sum1 p _ _ _ _ hst hed h_w1 h_b1 c'
  · refine (congrFun (arrAt0_5 V c) _).trans ?_
    rw [Dx.acc0_eq_accF V c 63]
    exact accF_sumsq1 p _ _ _ _ hst hed h_w1 h_b1 c'

/-- After the apply pass the output array holds the aggregated messages, for the variance row the pass was given. -/
theorem region1_agg (c : Dev nD) (p : Cert.Spec.Params) (V1f : Fin 256 → EReal)
    (h_st : ∀ (b : Fin 256) (i : Fin 32) (k : Fin 128), V c main_arg0 (ix3 b i k) = p.st (ix3 b i k))
    (h_ed : ∀ (b : Fin 256) (i j : Fin 32), V c main_v0 (ix3 b i j) = p.ed (ix2 b (Cert.Spec.pairIx i j)))
    (h_w1 : ∀ k c' : Fin 256, V c main_v2 (ix2 k c') = p.mw1 (ix2 c' k))
    (h_b1 : ∀ c' : Fin 256, V c main_v9 (ix2 (0 : Fin 1) c') = p.mb1 (ix1 c'))
    (h_mean : ∀ c' : Fin 256, V c main_v19 (ix2 (0 : Fin 1) c') = Cert.Spec.mean1 p c')
    (h_var : ∀ c' : Fin 256, V c main_v23 (ix2 (0 : Fin 1) c') = V1f c')
    (h_g : ∀ c' : Fin 256, V c main_v10 (ix2 (0 : Fin 1) c') = p.mg (ix1 c'))
    (h_bt : ∀ c' : Fin 256, V c main_v11 (ix2 (0 : Fin 1) c') = p.mbt (ix1 c'))
    (h_w2 : ∀ (c' : Fin 256) (d : Fin 128), V c main_v4 (ix2 c' d) = p.mw2 (ix2 d c'))
    (h_b2 : ∀ d : Fin 128, V c main_v12 (ix2 (0 : Fin 1) d) = p.mb2 (ix1 d))
    (b : Fin 256) (i : Fin 32) (d : Fin 128) :
    (dat1 V c).arrAt 10 cfg1.N (ix3 b i d) = Cert.Spec.agg p V1f b i d := by
  have hN : cfg1.N = 64 := N_1
  let G : S256x32x128.Idx → EReal := fun x => Cert.Spec.agg p V1f (x 0) (x 1) (x 2)
  have hG : ∀ (t : Fin cfg1.N) (bb : Fin 4) (i : Fin 32) (d : Fin 128),
      (dat1 V c).after 10 t (ix3 bb i d)
        = G (ix3 (⟨4 * t.val + bb.val, by have := t.isLt; omega⟩ : Fin 256) i d) := fun t bb i d => by
    have ht : t.val < 64 := by have := t.isLt; omega
    rw [after1_10 V c t, out1_10_eq]
    exact pay1_agg p V1f ⟨t.val, ht⟩ (iblk1 V c 0 t) (iblk1 V c 1 t) (iblk1 V c 2 t) (iblk1 V c 3 t) (iblk1 V c 5 t)
      (iblk1 V c 4 t) (iblk1 V c 6 t) (iblk1 V c 7 t) (iblk1 V c 8 t) (iblk1 V c 9 t)
      (fun bb i k => (blkRead1_0 c (V c main_arg0) t bb i k).trans (h_st _ i k))
      (fun bb i j => (blkRead1_1 c (V c main_v0) t bb i j).trans (h_ed _ i j))
      (fun k c' => (congrFun (blkRead1_2 c (V c main_v2) t) _).trans (h_w1 k c'))
      (fun c' => (congrFun (blkRead1_3 c (V c main_v9) t) _).trans (h_b1 c'))
      (fun c' => (congrFun (blkRead1_4 c (V c main_v19) t) _).trans (h_mean c'))
      (fun c' => (congrFun (blkRead1_5 c (V c main_v23) t) _).trans (h_var c'))
      (fun c' => (congrFun (blkRead1_6 c (V c main_v10) t) _).trans (h_g c'))
      (fun c' => (congrFun (blkRead1_7 c (V c main_v11) t) _).trans (h_bt c'))
      (fun c' d => (congrFun (blkRead1_8 c (V c main_v4) t) _).trans (h_w2 c' d))
      (fun d => (congrFun (blkRead1_9 c (V c main_v12) t) _).trans (h_b2 d))
      bb i d
  exact congrFun (arrAt1_10_of (dat1 V c) G hG) (ix3 b i d)

end Cert.KernelIdeal.Val

end
-- ==== Proof.LibFlatRows.lean ====
/-
  The rows of a rank-3 array laid out as the rows of a matrix, and back, read at an index.

  An array of shape [A, B, C] reshaped to [N, C] with N = A * B keeps the row-major order, so row
  r = a * B + b of the matrix is the row (a, b) of the array; the reshape back reads the same way.
  Also: two rank-3 arrays joined along the last axis, read at an index by which piece the last
  coordinate falls in.  All for arbitrary extents and any proof of the shape conditions.
-/
import Idealize.ShloMosaic.Lib.Pipeline.Value
import Idealize.ShloMosaic.Lib.ValueIdx

namespace Cert.LibFlatRows

open Idealize.ShloMosaic Idealize.ShloMosaic.ValueIdx

variable {α : Type}

/-- An [A, B, C] array reshaped to [N, C] reads, at (r, c) with r = a * B + b, the operand at (a, b, c). -/
theorem flatten_apply {A B C N : ℕ} (x : (⟨3, ![A, B, C]⟩ : Shape).Idx → α)
    (h : (⟨3, ![A, B, C]⟩ : Shape).ShapeCasts ⟨2, ![N, C]⟩) (a : Fin A) (b : Fin B) (c : Fin C) (r : Fin N)
    (hr : r.val = a.val * B + b.val) :
    shapeCast ⟨2, ![N, C]⟩ x h (ix2 r c) = x (ix3 a b c) :=
  shapeCast_apply x h _ _ (by
    rw [Shape.rowMajor_val_three, Shape.rowMajor_val_two]
    show (a.val * B + b.val) * C + c.val = r.val * C + c.val
    rw [hr])

/-- An [N, C] array reshaped to [A, B, C] reads, at (a, b, c), the operand at (r, c) with r = a * B + b. -/
theorem unflatten_apply {A B C N : ℕ} (x : (⟨2, ![N, C]⟩ : Shape).Idx → α)
    (h : (⟨2, ![N, C]⟩ : Shape).ShapeCasts ⟨3, ![A, B, C]⟩) (a : Fin A) (b : Fin B) (c : Fin C) (r : Fin N)
    (hr : r.val = a.val * B + b.val) :
    shapeCast ⟨3, ![A, B, C]⟩ x h (ix3 a b c) = x (ix2 r c) :=
  shapeCast_apply x h _ _ (by
    rw [Shape.rowMajor_val_three, Shape.rowMajor_val_two]
    show r.val * C + c.val = (a.val * B + b.val) * C + c.val
    rw [hr])

/-- Two arrays [A, B, C₁] and [A, B, C₂] joined along the last axis read, at (a, b, k) with k below C₁,
    the first at (a, b, k). -/
theorem concatLast_left {A B C₁ C₂ C : ℕ} (x₁ : (⟨3, ![A, B, C₁]⟩ : Shape).Idx → α)
    (x₂ : (⟨3, ![A, B, C₂]⟩ : Shape).Idx → α)
    (h : Shape.Concatenates [(⟨3, ![A, B, C₁]⟩ : Shape), ⟨3, ![A, B, C₂]⟩] ⟨3, ![A, B, C]⟩ 2)
    (a : Fin A) (b : Fin B) (k : Fin C) (hk : k.val < C₁) :
    concatenate ⟨3, ![A, B, C]⟩ 2 [⟨⟨3, ![A, B, C₁]⟩, x₁⟩, ⟨⟨3, ![A, B, C₂]⟩, x₂⟩] h (ix3 a b k)
      = x₁ (ix3 a b ⟨k.val, hk⟩) :=
  concatenate_pair_apply_left 2 x₁ x₂ h (ix3 a b k) rfl (ix3 a b ⟨k.val, hk⟩) fun ax =>
    match ax with
    | ⟨0, _⟩ => rfl
    | ⟨1, _⟩ => rfl
    | ⟨2, _⟩ => rfl

/-- … and with k at or past C₁, the second at (a, b, k − C₁). -/
theorem concatLast_right {A B C₁ C₂ C : ℕ} (x₁ : (⟨3, ![A, B, C₁]⟩ : Shape).Idx → α)
    (x₂ : (⟨3, ![A, B, C₂]⟩ : Shape).Idx → α)
    (h : Shape.Concatenates [(⟨3, ![A, B, C₁]⟩ : Shape), ⟨3, ![A, B, C₂]⟩] ⟨3, ![A, B, C]⟩ 2)
    (a : Fin A) (b : Fin B) (k : Fin C) (k' : Fin C₂) (hk : k'.val + C₁ = k.val) :
    concatenate ⟨3, ![A, B, C]⟩ 2 [⟨⟨3, ![A, B, C₁]⟩, x₁⟩, ⟨⟨3, ![A, B, C₂]⟩, x₂⟩] h (ix3 a b k)
      = x₂ (ix3 a b k') :=
  concatenate_pair_apply_right 2 x₁ x₂ h (ix3 a b k) rfl rfl (ix3 a b k')
    (fun ax => match ax with
      | ⟨0, _⟩ => fun _ => rfl
      | ⟨1, _⟩ => fun _ => rfl
      | ⟨2, _⟩ => fun hne => absurd rfl hne)
    hk

end Cert.LibFlatRows
-- ==== Proof.KI_Val2.lean ====
/-
  The second perceptron's statistics pass, as values.

  On a block of 64 batch elements the pass forms the 2048 object rows [state, aggregate] (width 256), applies the
  first layer (the stored weight is indexed (input, hidden column), the specification's (hidden column, input)), and
  adds to two carried rows the column sums of the result and of its squares.  Read at an index: the first layer's
  entry at row 32·bb + i is the specification's `g1` at the batch element 64·g + bb of grid point g; after the four
  grid points, started from the zero rows, the carried rows hold `sum2` and `sumsq2` (a sum over 256·32 rows taken
  as four block sums of 64·32 rows; only the grouping differs, so no finiteness is needed).
-/
import proofs.«134035_j84430467104804_1_alg».proof.Proof.Gen.KernelIdeal.Skeleton
import proofs.«134035_j84430467104804_1_alg».proof.Proof.Spec
import proofs.«134035_j84430467104804_1_alg».proof.Proof.LibMatmul
import proofs.«134035_j84430467104804_1_alg».proof.Proof.LibAxisReduce
import proofs.«134035_j84430467104804_1_alg».proof.Proof.LibBlockSum
import proofs.«134035_j84430467104804_1_alg».proof.Proof.LibFlatRows
import Idealize.ShloMosaic.Lib.ValueLayout

noncomputable section
namespace Cert.KernelIdeal.Val
open Idealize.ShloMosaic Idealize.ShloMosaic.ValueIdx Cert.KernelIdeal Cert.KernelIdeal.Gen

/-! ## The first layer on a block -/

namespace Ex
/-- The object row (bb, i) of a pair of blocks: the first block's features, then the second's. -/
def rowOf (v3 v4 : Vec Ideal S64x32x128 .f32) (bb : Fin 64) (i : Fin 32) (k : Fin 256) : EReal :=
  if h : k.val < 128 then v3 (ix3 bb i ⟨k.val, h⟩) else v4 (ix3 bb i ⟨k.val - 128, by omega⟩)
end Ex

theorem pay3_apply (v3 v4 : Vec Ideal S64x32x128 .f32) (v9 : Vec Ideal S256x256 .bf16) (v12 : Vec Ideal S1x256 .f32)
    (bb : Fin 64) (i : Fin 32) (c : Fin 256) :
    k2_pay3 (F := Ideal) v3 v4 v9 v12 (ix2 (⟨32 * bb.val + i.val, by omega⟩ : Fin 2048) c)
      = (∑ k : Fin 256, Ex.rowOf v3 v4 bb i k * v9 (ix2 k c)) + v12 (ix2 0 c) := by
  unfold k2_pay3
  simp only [addf_apply]
  refine congrArg₂ (· + ·) ?_ ?_
  · refine (congrFun (Cert.LibMatmul.matmul_zero_eq dot_S2048x256_S256x256_S2048x256_1_0_0_1_n_n rfl rfl rfl rfl rfl rfl none _ _) _).trans ?_
    refine (Cert.LibMatmul.MM_apply _ _ _ _).trans ?_
    refine Finset.sum_congr rfl fun k _ => congrArg₂ (· * ·) ?_ ?_
    · refine (truncf_apply (φ := .f32) (ψ := .bf16) _ bitsLt_bf16_f32 _).trans ?_
      refine (Cert.LibFlatRows.flatten_apply _ _ bb i k _ (by show 32 * bb.val + i.val = bb.val * 32 + i.val; omega)).trans ?_
      unfold Ex.rowOf
      split
      · next h => exact Cert.LibFlatRows.concatLast_left _ _ _ bb i k h
      · next h =>
        exact (Cert.LibFlatRows.concatLast_right _ _ _ bb i k ⟨k.val - 128, by omega⟩ (by show k.val - 128 + 128 = k.val; omega)).trans
          (congrFun (shapeCast_self v4 _) _)
    · exact congrFun (shapeCast_self v9 _) _
  · exact (broadcastTo_1b_ab_apply _ _ _ _).trans (congrFun (shapeCast_self v12 _) _)

/-- Under the links of a grid point's blocks to the arrays, the first layer on the block is the
    specification's first layer at the block's rows. -/
theorem pay3_eq_g1 (p : Cert.Spec.Params) (V1 : Fin 256 → EReal) (g : Fin 4)
    (v3 v4 : Vec Ideal S64x32x128 .f32) (v9 : Vec Ideal S256x256 .bf16) (v12 : Vec Ideal S1x256 .f32)
    (hst : ∀ (bb : Fin 64) (i : Fin 32) (k : Fin 128),
      v3 (ix3 bb i k) = p.st (ix3 (⟨64 * g.val + bb.val, by omega⟩ : Fin 256) i k))
    (hag : ∀ (bb : Fin 64) (i : Fin 32) (d : Fin 128),
      v4 (ix3 bb i d) = Cert.Spec.agg p V1 ⟨64 * g.val + bb.val, by omega⟩ i d)
    (hw : ∀ k c : Fin 256, v9 (ix2 k c) = p.fw1 (ix2 c k))
    (hb : ∀ c : Fin 256, v12 (ix2 (0 : Fin 1) c) = p.fb1 (ix1 c))
    (bb : Fin 64) (i : Fin 32) (c : Fin 256) :
    k2_pay3 (F := Ideal) v3 v4 v9 v12 (ix2 (⟨32 * bb.val + i.val, by omega⟩ : Fin 2048) c)
      = Cert.Spec.g1 p V1 ⟨64 * g.val + bb.val, by omega⟩ i c := by
  refine (pay3_apply v3 v4 v9 v12 bb i c).trans ?_
  unfold Cert.Spec.g1
  refine congrArg₂ (· + ·) (Finset.sum_congr rfl fun k _ => congrArg₂ (· * ·) ?_ (hw k c)) (hb c)
  unfold Ex.rowOf Cert.Spec.sm
  split
  · exact hst _ _ _
  · exact hag _ _ _

namespace Ex

/-- The accumulators' starting rows are zero. -/
theorem pay1_apply (c : Fin 256) : k2_pay1 (F := Ideal) (ix2 (0 : Fin 1) c) = 0 := by
  unfold k2_pay1
  exact (congrFun (shapeCast_self _ _) _).trans Ideal.ofBits_zero_f32

theorem pay2_apply (c : Fin 256) : k2_pay2 (F := Ideal) (ix2 (0 : Fin 1) c) = 0 := by
  unfold k2_pay2
  exact (congrFun (shapeCast_self _ _) _).trans Ideal.ofBits_zero_f32

/-- One step of the first accumulator: the carried row plus the block's column sums. -/
theorem pay4_apply (v3 v4 : Vec Ideal S64x32x128 .f32) (v9 : Vec Ideal S256x256 .bf16) (v12 v16 : Vec Ideal S1x256 .f32)
    (c : Fin 256) :
    k2_pay4 (F := Ideal) v3 v4 v9 v12 v16 (ix2 (0 : Fin 1) c)
      = v16 (ix2 0 c) + ∑ r : Fin 2048, k2_pay3 (F := Ideal) v3 v4 v9 v12 (ix2 r c) := by
  unfold k2_pay4
  refine (congrFun (shapeCast_self _ _) _).trans ?_
  refine (addf_apply _ _ _).trans ?_
  refine congrArg (v16 (ix2 0 c) + ·) ?_
  refine (shapeCast_a_1a_apply _ _ 0 c).trans ?_
  exact Cert.LibAxisReduce.colSum_apply _ _ _ _ _ c

/-- One step of the second accumulator: the carried row plus the column sums of the block's squares. -/
theorem pay5_apply (v3 v4 : Vec Ideal S64x32x128 .f32) (v9 : Vec Ideal S256x256 .bf16) (v12 v23 : Vec Ideal S1x256 .f32)
    (c : Fin 256) :
    k2_pay5 (F := Ideal) v3 v4 v9 v12 v23 (ix2 (0 : Fin 1) c)
      = v23 (ix2 0 c) + ∑ r : Fin 2048,
          k2_pay3 (F := Ideal) v3 v4 v9 v12 (ix2 r c) * k2_pay3 (F := Ideal) v3 v4 v9 v12 (ix2 r c) := by
  unfold k2_pay5
  refine (congrFun (shapeCast_self _ _) _).trans ?_
  refine (addf_apply _ _ _).trans ?_
  refine congrArg (v23 (ix2 0 c) + ·) ?_
  refine (shapeCast_a_1a_apply _ _ 0 c).trans ?_
  exact Cert.LibAxisReduce.colSum_apply _ _ _ _ _ c

/-- A sum over a block's 2048 rows, by block element and object. -/
theorem sum_rows (f : Fin 2048 → EReal) :
    ∑ r, f r = ∑ bb : Fin 64, ∑ i : Fin 32, f ⟨32 * bb.val + i.val, by omega⟩ := by
  refine (Cert.LibBlockSum.sum_blocks_of_eq 64 32 rfl f).trans ?_
  refine Finset.sum_congr rfl fun bb _ => Finset.sum_congr rfl fun i _ => congrArg f (Fin.ext ?_)
  show bb.val * 32 + i.val = 32 * bb.val + i.val
  omega

/-- A sum over the 256 batch elements, by grid point and block element. -/
theorem sum_batch (f : Fin 256 → EReal) :
    ∑ b, f b = ∑ g : Fin 4, ∑ bb : Fin 64, f ⟨64 * g.val + bb.val, by omega⟩ := by
  refine (Cert.LibBlockSum.sum_blocks_of_eq 4 64 rfl f).trans ?_
  refine Finset.sum_congr rfl fun g _ => Finset.sum_congr rfl fun bb _ => congrArg f (Fin.ext ?_)
  show g.val * 64 + bb.val = 64 * g.val + bb.val
  omega

end Ex

/-! ## The two accumulators over the grid -/

namespace Ex

/-- The column sum of the first layer over one block's rows, and of its squares. -/
def blockSum (B3 B4 : ℕ → Vec Ideal S64x32x128 .f32) (v9 : Vec Ideal S256x256 .bf16) (v12 : Vec Ideal S1x256 .f32)
    (c : Fin 256) (n : ℕ) : EReal :=
  ∑ r : Fin 2048, k2_pay3 (F := Ideal) (B3 n) (B4 n) v9 v12 (ix2 r c)

def blockSumSq (B3 B4 : ℕ → Vec Ideal S64x32x128 .f32) (v9 : Vec Ideal S256x256 .bf16) (v12 : Vec Ideal S1x256 .f32)
    (c : Fin 256) (n : ℕ) : EReal :=
  ∑ r : Fin 2048, k2_pay3 (F := Ideal) (B3 n) (B4 n) v9 v12 (ix2 r c) * k2_pay3 (F := Ideal) (B3 n) (B4 n) v9 v12 (ix2 r c)

end Ex

/-- The two accumulator rows after the grid points 0, …, n: each point adds its block's column sums (of the first
    layer, of its squares) to what the point before left; the first point starts from the zero rows. -/
def accFin (B3 B4 : ℕ → Vec Ideal S64x32x128 .f32) (v9 : Vec Ideal S256x256 .bf16) (v12 : Vec Ideal S1x256 .f32) :
    ℕ → FVec Ideal S1x256 .f32 × FVec Ideal S1x256 .f32
  | 0 => (k2_pay4 (B3 0) (B4 0) v9 v12 (k2_pay1 (F := Ideal)), k2_pay5 (B3 0) (B4 0) v9 v12 (k2_pay2 (F := Ideal)))
  | n + 1 => (k2_pay4 (B3 (n + 1)) (B4 (n + 1)) v9 v12 (accFin B3 B4 v9 v12 n).1,
              k2_pay5 (B3 (n + 1)) (B4 (n + 1)) v9 v12 (accFin B3 B4 v9 v12 n).2)

namespace Ex

theorem accFin_fst_running (B3 B4 : ℕ → Vec Ideal S64x32x128 .f32) (v9 : Vec Ideal S256x256 .bf16) (v12 : Vec Ideal S1x256 .f32)
    (c : Fin 256) (n : ℕ) :
    (accFin B3 B4 v9 v12 n).1 (ix2 (0 : Fin 1) c) = Cert.LibBlockSum.running (blockSum B3 B4 v9 v12 c) (n + 1) := by
  induction n with
  | zero =>
    show k2_pay4 (F := Ideal) (B3 0) (B4 0) v9 v12 (k2_pay1 (F := Ideal)) (ix2 (0 : Fin 1) c) = _
    rw [pay4_apply, pay1_apply]
    rfl
  | succ n ih =>
    show k2_pay4 (F := Ideal) (B3 (n + 1)) (B4 (n + 1)) v9 v12 (accFin B3 B4 v9 v12 n).1 (ix2 (0 : Fin 1) c) = _
    rw [pay4_apply, ih]
    rfl

theorem accFin_snd_running (B3 B4 : ℕ → Vec Ideal S64x32x128 .f32) (v9 : Vec Ideal S256x256 .bf16) (v12 : Vec Ideal S1x256 .f32)
    (c : Fin 256) (n : ℕ) :
    (accFin B3 B4 v9 v12 n).2 (ix2 (0 : Fin 1) c) = Cert.LibBlockSum.running (blockSumSq B3 B4 v9 v12 c) (n + 1) := by
  induction n with
  | zero =>
    show k2_pay5 (F := Ideal) (B3 0) (B4 0) v9 v12 (k2_pay2 (F := Ideal)) (ix2 (0 : Fin 1) c) = _
    rw [pay5_apply, pay2_apply]
    rfl
  | succ n ih =>
    show k2_pay5 (F := Ideal) (B3 (n + 1)) (B4 (n + 1)) v9 v12 (accFin B3 B4 v9 v12 n).2 (ix2 (0 : Fin 1) c) = _
    rw [pay5_apply, ih]
    rfl

end Ex

section Acc
variable (p : Cert.Spec.Params) (V1 : Fin 256 → EReal)
  (B3 B4 : ℕ → Vec Ideal S64x32x128 .f32) (v9 : Vec Ideal S256x256 .bf16) (v12 : Vec Ideal S1x256 .f32)
  (hst : ∀ (g : Fin 4) (bb : Fin 64) (i : Fin 32) (k : Fin 128),
    B3 g.val (ix3 bb i k) = p.st (ix3 (⟨64 * g.val + bb.val, by omega⟩ : Fin 256) i k))
  (hag : ∀ (g : Fin 4) (bb : Fin 64) (i : Fin 32) (d : Fin 128),
    B4 g.val (ix3 bb i d) = Cert.Spec.agg p V1 ⟨64 * g.val + bb.val, by omega⟩ i d)
  (hw : ∀ k c : Fin 256, v9 (ix2 k c) = p.fw1 (ix2 c k))
  (hb : ∀ c : Fin 256, v12 (ix2 (0 : Fin 1) c) = p.fb1 (ix1 c))

include hst hag hw hb in
/-- After the four grid points the first accumulator holds the column sums of the first layer over all rows. -/
theorem accFin_sum2 (c : Fin 256) : (accFin B3 B4 v9 v12 3).1 (ix2 (0 : Fin 1) c) = Cert.Spec.sum2 p V1 c := by
  rw [Ex.accFin_fst_running, Cert.LibBlockSum.running_eq_sum_fin]
  unfold Cert.Spec.sum2
  rw [Ex.sum_batch (fun b => ∑ i : Fin 32, Cert.Spec.g1 p V1 b i c)]
  refine Finset.sum_congr rfl fun g _ => ?_
  unfold Ex.blockSum
  rw [Ex.sum_rows]
  exact Finset.sum_congr rfl fun bb _ => Finset.sum_congr rfl fun i _ =>
    pay3_eq_g1 p V1 g (B3 g.val) (B4 g.val) v9 v12 (hst g) (hag g) hw hb bb i c

include hst hag hw hb in
/-- … and the second the column sums of its squares. -/
theorem accFin_sumsq2 (c : Fin 256) : (accFin B3 B4 v9 v12 3).2 (ix2 (0 : Fin 1) c) = Cert.Spec.sumsq2 p V1 c := by
  rw [Ex.accFin_snd_running, Cert.LibBlockSum.running_eq_sum_fin]
  unfold Cert.Spec.sumsq2
  rw [Ex.sum_batch (fun b => ∑ i : Fin 32, Cert.Spec.g1 p V1 b i c * Cert.Spec.g1 p V1 b i c)]
  refine Finset.sum_congr rfl fun g _ => ?_
  unfold Ex.blockSumSq
  rw [Ex.sum_rows]
  exact Finset.sum_congr rfl fun bb _ => Finset.sum_congr rfl fun i _ =>
    congrArg₂ (· * ·) (pay3_eq_g1 p V1 g (B3 g.val) (B4 g.val) v9 v12 (hst g) (hag g) hw hb bb i c)
      (pay3_eq_g1 p V1 g (B3 g.val) (B4 g.val) v9 v12 (hst g) (hag g) hw hb bb i c)

end Acc

/-! ## Block families indexed by the four grid points -/

namespace Ex
theorem ofNat_val (g : Fin 4) : Fin.ofNat 4 g.val = g := Fin.ext (Nat.mod_eq_of_lt g.isLt)
end Ex

/-- The accumulator rows for block families given per grid point. -/
def accFin4 (B3 B4 : Fin 4 → Vec Ideal S64x32x128 .f32) (v9 : Vec Ideal S256x256 .bf16) (v12 : Vec Ideal S1x256 .f32) :
    ℕ → FVec Ideal S1x256 .f32 × FVec Ideal S1x256 .f32 :=
  accFin (fun n => B3 (Fin.ofNat 4 n)) (fun n => B4 (Fin.ofNat 4 n)) v9 v12

theorem accFin4_zero (B3 B4 : Fin 4 → Vec Ideal S64x32x128 .f32) (v9 : Vec Ideal S256x256 .bf16) (v12 : Vec Ideal S1x256 .f32) :
    accFin4 B3 B4 v9 v12 0 = (k2_pay4 (B3 0) (B4 0) v9 v12 (k2_pay1 (F := Ideal)), k2_pay5 (B3 0) (B4 0) v9 v12 (k2_pay2 (F := Ideal))) := rfl

theorem accFin4_succ (B3 B4 : Fin 4 → Vec Ideal S64x32x128 .f32) (v9 : Vec Ideal S256x256 .bf16) (v12 : Vec Ideal S1x256 .f32) (n : ℕ) :
    accFin4 B3 B4 v9 v12 (n + 1)
      = (k2_pay4 (B3 (Fin.ofNat 4 (n + 1))) (B4 (Fin.ofNat 4 (n + 1))) v9 v12 (accFin4 B3 B4 v9 v12 n).1,
         k2_pay5 (B3 (Fin.ofNat 4 (n + 1))) (B4 (Fin.ofNat 4 (n + 1))) v9 v12 (accFin4 B3 B4 v9 v12 n).2) := rfl

section Acc4
variable (p : Cert.Spec.Params) (V1 : Fin 256 → EReal)
  (B3 B4 : Fin 4 → Vec Ideal S64x32x128 .f32) (v9 : Vec Ideal S256x256 .bf16) (v12 : Vec Ideal S1x256 .f32)
  (hst : ∀ (g : Fin 4) (bb : Fin 64) (i : Fin 32) (k : Fin 128),
    B3 g (ix3 bb i k) = p.st (ix3 (⟨64 * g.val + bb.val, by omega⟩ : Fin 256) i k))
  (hag : ∀ (g : Fin 4) (bb : Fin 64) (i : Fin 32) (d : Fin 128),
    B4 g (ix3 bb i d) = Cert.Spec.agg p V1 ⟨64 * g.val + bb.val, by omega⟩ i d)
  (hw : ∀ k c : Fin 256, v9 (ix2 k c) = p.fw1 (ix2 c k))
  (hb : ∀ c : Fin 256, v12 (ix2 (0 : Fin 1) c) = p.fb1 (ix1 c))

include hst hag hw hb in
theorem accFin4_sum2 (c : Fin 256) : (accFin4 B3 B4 v9 v12 3).1 (ix2 (0 : Fin 1) c) = Cert.Spec.sum2 p V1 c :=
  accFin_sum2 p V1 _ _ v9 v12 (fun g => by rw [Ex.ofNat_val]; exact hst g) (fun g => by rw [Ex.ofNat_val]; exact hag g) hw hb c

include hst hag hw hb in
theorem accFin4_sumsq2 (c : Fin 256) : (accFin4 B3 B4 v9 v12 3).2 (ix2 (0 : Fin 1) c) = Cert.Spec.sumsq2 p V1 c :=
  accFin_sumsq2 p V1 _ _ v9 v12 (fun g => by rw [Ex.ofNat_val]; exact hst g) (fun g => by rw [Ex.ofNat_val]; exact hag g) hw hb c

end Acc4

end Cert.KernelIdeal.Val
end
-- ==== Proof.KI_Val3.lean ====
/-
  The second perceptron's apply pass, as values.

  On a block of 64 batch elements the pass recomputes the first layer on the 2048 object rows [state, aggregate],
  normalises each hidden column by the mean and variance rows it is handed, scales, shifts and applies the leaky
  activation (the specification's `bnact`, entry by entry), and applies the second layer (the stored weight is
  indexed (hidden column, output), the specification's (output, hidden column)).  Read at (bb, i, d) the stored block
  is the specification's `outAt` at the batch element 64·g + bb of grid point g, for whatever variance row V2 it is
  handed.
-/
import proofs.«134035_j84430467104804_1_alg».proof.Proof.KI_Val2

noncomputable section
namespace Cert.KernelIdeal.Val
open Idealize.ShloMosaic Idealize.ShloMosaic.ValueIdx Cert.KernelIdeal Cert.KernelIdeal.Gen

namespace Ex

/-- The reciprocal square root of a row, entry by entry. -/
theorem rsqrt_row_apply (v : FVec Ideal S1x256 .f32) (j : S1x256.Idx) : rsqrt v j = Ideal.rsqrt (v j) := rfl

/-- The hidden block after normalisation, scale, shift and the leaky activation, entry by entry: the first layer's
    entry and the four rows' entries of its column go through the specification's `bnact`. -/
theorem k3pay2_apply (v0 v1 : Vec Ideal S64x32x128 .f32) (v6 : Vec Ideal S256x256 .bf16)
    (v9 v13 v18 v24 v28 : Vec Ideal S1x256 .f32) (r : Fin 2048) (c : Fin 256) :
    k3_pay2 (F := Ideal) v0 v1 v6 v9 v13 v18 v24 v28 (ix2 r c)
      = Cert.Spec.bnact (k2_pay3 (F := Ideal) v0 v1 v6 v9 (ix2 r c)) (v18 (ix2 0 c)) (v13 (ix2 0 c))
          (v24 (ix2 0 c)) (v28 (ix2 0 c)) := by
  unfold k3_pay2 Cert.Spec.bnact Cert.Spec.leaky Cert.Spec.epsW Cert.Spec.slopeW Cert.Spec.zeroW k2_pay3
  simp only [select_apply, cmpf_apply, mulf_apply, addf_apply, subf_apply, broadcast_apply, broadcastTo_1b_ab_apply,
    shapeCast_self, rsqrt_row_apply, Ideal.cmpf_def, Ideal.ofBits_def]

end Ex

/-- The second layer on a block, reshaped back to [64, 32, 128]: at (bb, i, d), the hidden row 32·bb + i against
    column d of the stored weight, plus the bias. -/
theorem fin_pay1_apply (v36 : FVec Ideal S2048x256 .f32) (v38 : Vec Ideal S256x128 .bf16) (v41 : Vec Ideal S1x128 .f32)
    (bb : Fin 64) (i : Fin 32) (d : Fin 128) :
    k3_pay1 (F := Ideal) v36 v38 v41 (ix3 bb i d)
      = (∑ c : Fin 256, v36 (ix2 (⟨32 * bb.val + i.val, by omega⟩ : Fin 2048) c) * v38 (ix2 c d)) + v41 (ix2 0 d) := by
  unfold k3_pay1
  refine (Cert.LibFlatRows.unflatten_apply _ _ bb i d (⟨32 * bb.val + i.val, by omega⟩ : Fin 2048)
    (by show 32 * bb.val + i.val = bb.val * 32 + i.val; omega)).trans ?_
  refine (addf_apply _ _ _).trans ?_
  refine congrArg₂ (· + ·) ?_ ?_
  · refine (congrFun (Cert.LibMatmul.matmul_zero_eq dot_S2048x256_S256x128_S2048x128_1_0_0_1_n_n rfl rfl rfl rfl rfl rfl none _ _) _).trans ?_
    refine (Cert.LibMatmul.MM_apply _ _ _ _).trans ?_
    refine Finset.sum_congr rfl fun c _ => congrArg₂ (· * ·) ?_ ?_
    · exact truncf_apply (φ := .f32) (ψ := .bf16) _ bitsLt_bf16_f32 _
    · exact congrFun (shapeCast_self v38 _) _
  · exact (broadcastTo_1b_ab_apply _ _ _ _).trans (congrFun (shapeCast_self v41 _) _)

/-- Region 3 at a grid point: under the links of its ten windows to the arrays and to the column statistics, the
    stored block is the specification's result at the block's rows. -/
theorem fin_out_apply (p : Cert.Spec.Params) (V1 V2 : Fin 256 → EReal) (g : Fin 4)
    (v0 v1 : Vec Ideal S64x32x128 .f32) (v6 : Vec Ideal S256x256 .bf16) (v9 v13 v18 v24 v28 : Vec Ideal S1x256 .f32)
    (v38 : Vec Ideal S256x128 .bf16) (v41 : Vec Ideal S1x128 .f32)
    (hst : ∀ (bb : Fin 64) (i : Fin 32) (k : Fin 128),
      v0 (ix3 bb i k) = p.st (ix3 (⟨64 * g.val + bb.val, by omega⟩ : Fin 256) i k))
    (hag : ∀ (bb : Fin 64) (i : Fin 32) (d : Fin 128),
      v1 (ix3 bb i d) = Cert.Spec.agg p V1 ⟨64 * g.val + bb.val, by omega⟩ i d)
    (hw : ∀ k c : Fin 256, v6 (ix2 k c) = p.fw1 (ix2 c k))
    (hb : ∀ c : Fin 256, v9 (ix2 (0 : Fin 1) c) = p.fb1 (ix1 c))
    (hmean : ∀ c : Fin 256, v18 (ix2 (0 : Fin 1) c) = Cert.Spec.mean2 p V1 c)
    (hvar : ∀ c : Fin 256, v13 (ix2 (0 : Fin 1) c) = V2 c)
    (hg : ∀ c : Fin 256, v24 (ix2 (0 : Fin 1) c) = p.fg (ix1 c))
    (hbt : ∀ c : Fin 256, v28 (ix2 (0 : Fin 1) c) = p.fbt (ix1 c))
    (hw2 : ∀ (c : Fin 256) (d : Fin 128), v38 (ix2 c d) = p.fw2 (ix2 d c))
    (hb2 : ∀ d : Fin 128, v41 (ix2 (0 : Fin 1) d) = p.fb2 (ix1 d))
    (bb : Fin 64) (i : Fin 32) (d : Fin 128) :
    k3_pay1 (F := Ideal) (k3_pay2 (F := Ideal) v0 v1 v6 v9 v13 v18 v24 v28) v38 v41 (ix3 bb i d)
      = Cert.Spec.outAt p V1 V2 ⟨64 * g.val + bb.val, by omega⟩ i d := by
  refine (fin_pay1_apply _ v38 v41 bb i d).trans ?_
  unfold Cert.Spec.outAt
  refine congrArg₂ (· + ·) (Finset.sum_congr rfl fun c _ => congrArg₂ (· * ·) ?_ (hw2 c d)) (hb2 d)
  refine (Ex.k3pay2_apply v0 v1 v6 v9 v13 v18 v24 v28 _ c).trans ?_
  unfold Cert.Spec.act2
  rw [pay3_eq_g1 p V1 g v0 v1 v6 v9 hst hag hw hb bb i c, hmean c, hvar c, hg c, hbt c]

end Cert.KernelIdeal.Val
end
-- ==== Proof.KI_Blocks2.lean ====
/- Region 2's blocks, read off the array as the region finds it: the two windows that move hold sixty-four batch elements a point, the windows of the first layer's weight and bias hold their whole arrays. -/
import proofs.«134035_j84430467104804_1_alg».proof.Proof.KI_R2Base
import proofs.«134035_j84430467104804_1_alg».proof.Proof.KI_Blocks

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

variable (V : (c : Dev nD) → (b : Ref sig .tc) → Buf (Elt F) ((c : Thread nD τ).loc b))

/-- Window 0's block at point `g`, element by element: batch element `64 * g + bb` of the array. -/
theorem iblk2_0_apply (c : Dev nD) (g : Fin cfg2.N) (bb : Fin 64) (i : Fin 32) (k : Fin 128) :
    iblk2 V c 0 g (ix3 bb i k)
      = V c main_arg0 (ix3 (⟨64 * g.val + bb.val, by have := g.isLt; have hN : cfg2.N = 4 := N_2; omega⟩ : Fin 256) i k) :=
  blkRead2_0 c (V c main_arg0) g bb i k

/-- Window 1's block at point `g`, element by element: batch element `64 * g + bb` of the array. -/
theorem iblk2_1_apply (c : Dev nD) (g : Fin cfg2.N) (bb : Fin 64) (i : Fin 32) (k : Fin 128) :
    iblk2 V c 1 g (ix3 bb i k)
      = V c main_v24 (ix3 (⟨64 * g.val + bb.val, by have := g.isLt; have hN : cfg2.N = 4 := N_2; omega⟩ : Fin 256) i k) :=
  blkRead2_1 c (V c main_v24) g bb i k

/-- Window 2's block is its array at every point. -/
theorem iblk2_2_eq (c : Dev nD) (t : Fin cfg2.N) : iblk2 V c 2 t = V c main_v6 :=
  blkRead2_2 c (V c main_v6) t

/-- Window 3's block is its array at every point. -/
theorem iblk2_3_eq (c : Dev nD) (t : Fin cfg2.N) : iblk2 V c 3 t = V c main_v13 :=
  blkRead2_3 c (V c main_v13) t

end Cert.KernelIdeal.Hand

end
-- ==== Proof.KI_Blocks3.lean ====
/- Region 3's blocks, read off the array as the region finds it: the two windows that move hold sixty-four batch elements a point, the eight windows of the two layers' weights and biases, the batch statistics and the scale and shift rows hold their whole arrays. -/
import proofs.«134035_j84430467104804_1_alg».proof.Proof.KI_R3
import proofs.«134035_j84430467104804_1_alg».proof.Proof.KI_Blocks

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

variable (V : (c : Dev nD) → (b : Ref sig .tc) → Buf (Elt F) ((c : Thread nD τ).loc b))

/-- Window 0's block at point `g`, element by element: batch element `64 * g + bb` of the array. -/
theorem iblk3_0_apply (c : Dev nD) (g : Fin cfg3.N) (bb : Fin 64) (i : Fin 32) (k : Fin 128) :
    iblk3 V c 0 g (ix3 bb i k)
      = V c main_arg0 (ix3 (⟨64 * g.val + bb.val, by have := g.isLt; have hN : cfg3.N = 4 := N_3; omega⟩ : Fin 256) i k) :=
  blkRead3_0 c (V c main_arg0) g bb i k

/-- Window 1's block at point `g`, element by element: batch element `64 * g + bb` of the array. -/
theorem iblk3_1_apply (c : Dev nD) (g : Fin cfg3.N) (bb : Fin 64) (i : Fin 32) (k : Fin 128) :
    iblk3 V c 1 g (ix3 bb i k)
      = V c main_v24 (ix3 (⟨64 * g.val + bb.val, by have := g.isLt; have hN : cfg3.N = 4 := N_3; omega⟩ : Fin 256) i k) :=
  blkRead3_1 c (V c main_v24) g bb i k

/-- Window 2's block is its array at every point. -/
theorem iblk3_2_eq (c : Dev nD) (t : Fin cfg3.N) : iblk3 V c 2 t = V c main_v6 :=
  blkRead3_2 c (V c main_v6) t

/-- Window 3's block is its array at every point. -/
theorem iblk3_3_eq (c : Dev nD) (t : Fin cfg3.N) : iblk3 V c 3 t = V c main_v13 :=
  blkRead3_3 c (V c main_v13) t

/-- Window 4's block is its array at every point. -/
theorem iblk3_4_eq (c : Dev nD) (t : Fin cfg3.N) : iblk3 V c 4 t = V c main_v27 :=
  blkRead3_4 c (V c main_v27) t

/-- Window 5's block is its array at every point. -/
theorem iblk3_5_eq (c : Dev nD) (t : Fin cfg3.N) : iblk3 V c 5 t = V c main_v31 :=
  blkRead3_5 c (V c main_v31) t

/-- Window 6's block is its array at every point. -/
theorem iblk3_6_eq (c : Dev nD) (t : Fin cfg3.N) : iblk3 V c 6 t = V c main_v14 :=
  blkRead3_6 c (V c main_v14) t

/-- Window 7's block is its array at every point. -/
theorem iblk3_7_eq (c : Dev nD) (t : Fin cfg3.N) : iblk3 V c 7 t = V c main_v15 :=
  blkRead3_7 c (V c main_v15) t

/-- Window 8's block is its array at every point. -/
theorem iblk3_8_eq (c : Dev nD) (t : Fin cfg3.N) : iblk3 V c 8 t = V c main_v8 :=
  blkRead3_8 c (V c main_v8) t

/-- Window 9's block is its array at every point. -/
theorem iblk3_9_eq (c : Dev nD) (t : Fin cfg3.N) : iblk3 V c 9 t = V c main_v16 :=
  blkRead3_9 c (V c main_v16) t

end Cert.KernelIdeal.Hand

end
-- ==== Proof.KI_Comp23.lean ====
/-
  Regions 2 and 3 over an arbitrary entry valuation, as values.

  When the arrays a region is entered with are the specification's arrays (the state, the aggregated messages for
  some variance V1 of the first normalisation, the second perceptron's weights and biases, and for region 3 the mean
  row, a variance row V2, the scale and shift rows), region 2 leaves in its two result arrays the column sums
  `sum2` and `sumsq2`, and region 3 leaves in its output array the specification's `outAt`.
-/
import proofs.«134035_j84430467104804_1_alg».proof.Proof.KI_R2
import proofs.«134035_j84430467104804_1_alg».proof.Proof.KI_R3
import proofs.«134035_j84430467104804_1_alg».proof.Proof.KI_Val2
import proofs.«134035_j84430467104804_1_alg».proof.Proof.KI_Val3
import proofs.«134035_j84430467104804_1_alg».proof.Proof.KI_Blocks2
import proofs.«134035_j84430467104804_1_alg».proof.Proof.KI_Blocks3

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen Cert.KernelIdeal.Hand

variable (V : (c : Dev nD) → (b : Ref sig .tc) → Buf (Elt Ideal) ((c : Thread nD τ).loc b))

namespace Ex

/-- The grid point with number n (read modulo 4, so that it is a point for every n). -/
def pt2 (n : ℕ) : Fin cfg2.N := ⟨n % 4, by rw [show cfg2.N = 4 from N_2]; omega⟩

theorem pt2_of_lt (n : ℕ) (h : n < cfg2.N) : (⟨n, h⟩ : Fin cfg2.N) = pt2 n :=
  Fin.ext (Nat.mod_eq_of_lt (by rw [show cfg2.N = 4 from N_2] at h; exact h)).symm

/-- The region's carried accumulators are the accumulation over its two moving blocks with the weight and bias arrays. -/
theorem acc2_eq (c : Dev nD) (n : ℕ) (hn : n < cfg2.N) :
    acc2 V c n = accFin (fun m => iblk2 V c 0 (pt2 m)) (fun m => iblk2 V c 1 (pt2 m)) (V c main_v6) (V c main_v13) n := by
  induction n with
  | zero =>
    rw [acc2_zero, iblk2_2_eq, iblk2_3_eq]
    rfl
  | succ n ih =>
    rw [acc2_succ V c n hn, iblk2_2_eq, iblk2_3_eq, ih (Nat.lt_of_succ_lt hn), pt2_of_lt (n + 1) hn]
    rfl

end Ex

/-- Region 2 leaves the column sums of the second perceptron's first layer, and of its squares. -/
theorem region2_sums (c : Dev nD) (p : Cert.Spec.Params) (V1f : Fin 256 → EReal)
    (h_st : ∀ (b : Fin 256) (i : Fin 32) (k : Fin 128), V c main_arg0 (ix3 b i k) = p.st (ix3 b i k))
    (h_ag : ∀ (b : Fin 256) (i : Fin 32) (d : Fin 128), V c main_v24 (ix3 b i d) = Cert.Spec.agg p V1f b i d)
    (h_w1 : ∀ k c' : Fin 256, V c main_v6 (ix2 k c') = p.fw1 (ix2 c' k))
    (h_b1 : ∀ c' : Fin 256, V c main_v13 (ix2 (0 : Fin 1) c') = p.fb1 (ix1 c')) (c' : Fin 256) :
    (dat2 V c).arrAt 4 cfg2.N (ix2 (0 : Fin 1) c') = Cert.Spec.sum2 p V1f c'
      ∧ (dat2 V c).arrAt 5 cfg2.N (ix2 (0 : Fin 1) c') = Cert.Spec.sumsq2 p V1f c' := by
  have h3 : 3 < cfg2.N := by rw [show cfg2.N = 4 from N_2]; decide
  have hst : ∀ (g : Fin 4) (bb : Fin 64) (i : Fin 32) (k : Fin 128),
      (fun m => iblk2 V c 0 (Ex.pt2 m)) g.val (ix3 bb i k) = p.st (ix3 (⟨64 * g.val + bb.val, by omega⟩ : Fin 256) i k) := by
    intro g bb i k
    refine (iblk2_0_apply V c (Ex.pt2 g.val) bb i k).trans ?_
    refine (h_st _ i k).trans (congrArg p.st ?_)
    exact congrArg (fun b => ix3 b i k) (Fin.ext (by show 64 * (g.val % 4) + bb.val = 64 * g.val + bb.val; omega))
  have hag : ∀ (g : Fin 4) (bb : Fin 64) (i : Fin 32) (d : Fin 128),
      (fun m => iblk2 V c 1 (Ex.pt2 m)) g.val (ix3 bb i d) = Cert.Spec.agg p V1f ⟨64 * g.val + bb.val, by omega⟩ i d := by
    intro g bb i d
    refine (iblk2_1_apply V c (Ex.pt2 g.val) bb i d).trans ?_
    refine (h_ag _ i d).trans ?_
    exact congrArg (fun b => Cert.Spec.agg p V1f b i d) (Fin.ext (by show 64 * (g.val % 4) + bb.val = 64 * g.val + bb.val; omega))
  constructor
  · rw [arrAt2_4, Ex.acc2_eq V c 3 h3]
    exact accFin_sum2 p V1f _ _ _ _ hst hag h_w1 h_b1 c'
  · rw [arrAt2_5, Ex.acc2_eq V c 3 h3]
    exact accFin_sumsq2 p V1f _ _ _ _ hst hag h_w1 h_b1 c'

/-- Region 3 leaves the specification's result, for the variance row it is handed. -/
theorem region3_out (c : Dev nD) (p : Cert.Spec.Params) (V1f V2f : Fin 256 → EReal)
    (h_st : ∀ (b : Fin 256) (i : Fin 32) (k : Fin 128), V c main_arg0 (ix3 b i k) = p.st (ix3 b i k))
    (h_ag : ∀ (b : Fin 256) (i : Fin 32) (d : Fin 128), V c main_v24 (ix3 b i d) = Cert.Spec.agg p V1f b i d)
    (h_w1 : ∀ k c' : Fin 256, V c main_v6 (ix2 k c') = p.fw1 (ix2 c' k))
    (h_b1 : ∀ c' : Fin 256, V c main_v13 (ix2 (0 : Fin 1) c') = p.fb1 (ix1 c'))
    (h_mean : ∀ c' : Fin 256, V c main_v27 (ix2 (0 : Fin 1) c') = Cert.Spec.mean2 p V1f c')
    (h_var : ∀ c' : Fin 256, V c main_v31 (ix2 (0 : Fin 1) c') = V2f c')
    (h_g : ∀ c' : Fin 256, V c main_v14 (ix2 (0 : Fin 1) c') = p.fg (ix1 c'))
    (h_bt : ∀ c' : Fin 256, V c main_v15 (ix2 (0 : Fin 1) c') = p.fbt (ix1 c'))
    (h_w2 : ∀ (c' : Fin 256) (d : Fin 128), V c main_v8 (ix2 c' d) = p.fw2 (ix2 d c'))
    (h_b2 : ∀ d : Fin 128, V c main_v16 (ix2 (0 : Fin 1) d) = p.fb2 (ix1 d))
    (b : Fin 256) (i : Fin 32) (d : Fin 128) :
    (dat3 V c).arrAt 10 cfg3.N (ix3 b i d) = Cert.Spec.outAt p V1f V2f b i d := by
  have hN : cfg3.N = 4 := N_3
  have key : (dat3 V c).arrAt 10 cfg3.N
      = (fun y : Cert.Spec.I3 => Cert.Spec.outAt p V1f V2f (y 0) (y 1) (y 2)) := by
    refine arrAt3_10_of (dat3 V c) _ (fun t bb i d => ?_)
    have ht : t.val < 4 := by have := t.isLt; omega
    rw [after3_10, out3_10_eq, iblk3_2_eq, iblk3_3_eq, iblk3_4_eq, iblk3_5_eq, iblk3_6_eq, iblk3_7_eq, iblk3_8_eq, iblk3_9_eq]
    exact fin_out_apply p V1f V2f ⟨t.val, ht⟩ (iblk3 V c 0 t) (iblk3 V c 1 t) (V c main_v6) (V c main_v13) (V c main_v31)
      (V c main_v27) (V c main_v14) (V c main_v15) (V c main_v8) (V c main_v16)
      (fun bb i k => (iblk3_0_apply V c t bb i k).trans (h_st _ i k))
      (fun bb i d => (iblk3_1_apply V c t bb i d).trans (h_ag _ i d))
      h_w1 h_b1 h_mean h_var h_g h_bt h_w2 h_b2 bb i d
  exact congrFun key (ix3 b i d)

end Cert.KernelIdeal.Val
end
-- ==== Proof.KI_Value.lean ====
/-
  What the kernel program computes, at the ideal values: its result array is the specification's `outK` of the
  launch contents of its fourteen arguments.

  Region 0 accumulates, per hidden column, the sum and the sum of squares of the first layer over all 262144 edge
  rows; the host divides by the row count and forms the variance as (sum of squares)/N − mean². Region 1 applies
  the normalisation, the activation and the second layer and sums the messages over each object's partners.
  Regions 2 and 3 do the same for the second perceptron over the 8192 object rows. Each region reads the arrays
  it needs where the earlier items of @main left them: an argument or an array a host stretch computed is found
  unchanged (no later stretch writes it, no region has it behind an output window), a region's output is what its
  write-backs left.
-/
import proofs.«134035_j84430467104804_1_alg».proof.Proof.KI_Frame
import proofs.«134035_j84430467104804_1_alg».proof.Proof.KI_Keep
import proofs.«134035_j84430467104804_1_alg».proof.Proof.KI_Host
import proofs.«134035_j84430467104804_1_alg».proof.Proof.KI_Comp01
import proofs.«134035_j84430467104804_1_alg».proof.Proof.KI_Comp23
import proofs.«134035_j84430467104804_1_alg».proof.Proof.Spec

set_option maxRecDepth 16384

noncomputable section

namespace Cert.KernelIdeal.Hand

open Idealize.ShloMosaic Idealize.ShloMosaic.TcCoe Idealize.ShloMosaic.ValueIdx
open Idealize.SL Idealize.SL.Sem
open Cert.KernelIdeal

variable (m : (ℓ : Loc nD τ sig) → Buf (Elt Ideal) ℓ) (c : Dev nD)

/-- The fourteen argument arrays as launched on core `c`, as the specification's parameters. -/
def params : Cert.Spec.Params :=
  ⟨m ((c.tc : Thread nD τ).loc main_arg0), m ((c.tc : Thread nD τ).loc main_arg1), m ((c.tc : Thread nD τ).loc main_arg2),
   m ((c.tc : Thread nD τ).loc main_arg3), m ((c.tc : Thread nD τ).loc main_arg4), m ((c.tc : Thread nD τ).loc main_arg5),
   m ((c.tc : Thread nD τ).loc main_arg6), m ((c.tc : Thread nD τ).loc main_arg7), m ((c.tc : Thread nD τ).loc main_arg8),
   m ((c.tc : Thread nD τ).loc main_arg9), m ((c.tc : Thread nD τ).loc main_arg10), m ((c.tc : Thread nD τ).loc main_arg11),
   m ((c.tc : Thread nD τ).loc main_arg12), m ((c.tc : Thread nD τ).loc main_arg13)⟩

local notation "DD" => (theData (F := Ideal))
local notation "pp" => params m c

/-! ## The arrays region 0 is entered with -/

theorem e1_st (b : Fin 256) (i : Fin 32) (k : Fin 128) : V1 m c main_arg0 (ix3 b i k) = (pp).st (ix3 b i k) :=
  congrFun (W1_of m c main_arg0 (by decide)) _
theorem e1_ed (b : Fin 256) (i j : Fin 32) : V1 m c main_v0 (ix3 b i j) = (pp).ed (ix2 b (Cert.Spec.pairIx i j)) :=
  Glue.host0_v0 (W0 m c) b i j
theorem e1_w1 (k c' : Fin 256) : V1 m c main_v2 (ix2 k c') = (pp).mw1 (ix2 c' k) := Glue.host0_v2 (W0 m c) k c'
theorem e1_b1 (c' : Fin 256) : V1 m c main_v9 (ix2 (0 : Fin 1) c') = (pp).mb1 (ix1 c') := Glue.host0_v9 (W0 m c) c'
theorem e1_g (c' : Fin 256) : V1 m c main_v10 (ix2 (0 : Fin 1) c') = (pp).mg (ix1 c') := Glue.host0_v10 (W0 m c) c'
theorem e1_bt (c' : Fin 256) : V1 m c main_v11 (ix2 (0 : Fin 1) c') = (pp).mbt (ix1 c') := Glue.host0_v11 (W0 m c) c'
theorem e1_w2 (c' : Fin 256) (d : Fin 128) : V1 m c main_v4 (ix2 c' d) = (pp).mw2 (ix2 d c') := Glue.host0_v4 (W0 m c) c' d
theorem e1_b2 (d : Fin 128) : V1 m c main_v12 (ix2 (0 : Fin 1) d) = (pp).mb2 (ix1 d) := Glue.host0_v12 (W0 m c) d
theorem e1_fw1 (k c' : Fin 256) : V1 m c main_v6 (ix2 k c') = (pp).fw1 (ix2 c' k) := Glue.host0_v6 (W0 m c) k c'
theorem e1_fb1 (c' : Fin 256) : V1 m c main_v13 (ix2 (0 : Fin 1) c') = (pp).fb1 (ix1 c') := Glue.host0_v13 (W0 m c) c'
theorem e1_fg (c' : Fin 256) : V1 m c main_v14 (ix2 (0 : Fin 1) c') = (pp).fg (ix1 c') := Glue.host0_v14 (W0 m c) c'
theorem e1_fbt (c' : Fin 256) : V1 m c main_v15 (ix2 (0 : Fin 1) c') = (pp).fbt (ix1 c') := Glue.host0_v15 (W0 m c) c'
theorem e1_fw2 (c' : Fin 256) (d : Fin 128) : V1 m c main_v8 (ix2 c' d) = (pp).fw2 (ix2 d c') := Glue.host0_v8 (W0 m c) c' d
theorem e1_fb2 (d : Fin 128) : V1 m c main_v16 (ix2 (0 : Fin 1) d) = (pp).fb2 (ix1 d) := Glue.host0_v16 (W0 m c) d

/-! ## Region 0: the first normalisation's sums -/

theorem sums1 (c' : Fin 256) :
    (dat0 (V1 m) c).arrAt 4 cfg0.N (ix2 (0 : Fin 1) c') = Cert.Spec.sum1 (pp) c'
      ∧ (dat0 (V1 m) c).arrAt 5 cfg0.N (ix2 (0 : Fin 1) c') = Cert.Spec.sumsq1 (pp) c' :=
  Val.region0_sums (V1 m) c (pp) (e1_st m c) (e1_ed m c) (e1_w1 m c) (e1_b1 m c) c'

/-- The mean row region 1 is entered with. -/
theorem e3_mean (c' : Fin 256) : V3 m DD c main_v19 (ix2 (0 : Fin 1) c') = Cert.Spec.mean1 (pp) c' := by
  refine (Glue.host1_v19 (W2 m DD c) c').trans ?_
  rw [show (W2 m DD c (Proc.devRef .tc main_v17_0) : S1x256.Idx → EReal) = (dat0 (V1 m) c).arrAt 4 cfg0.N from W2_arr m DD c 4,
    (sums1 m c c').1]
  rfl
/-- The variance row region 1 is entered with: the variance from the two sums. -/
theorem e3_var (c' : Fin 256) : V3 m DD c main_v23 (ix2 (0 : Fin 1) c') = Cert.Spec.varK1 (pp) c' := by
  refine (Glue.host1_v23_mean (W2 m DD c) c' _ (e3_mean m c c')).trans ?_
  rw [show (W2 m DD c (Proc.devRef .tc main_v17_1) : S1x256.Idx → EReal) = (dat0 (V1 m) c).arrAt 5 cfg0.N from W2_arr m DD c 5,
    (sums1 m c c').2]
  rfl

/-! ## Region 1: the aggregated messages -/

theorem agg1 (b : Fin 256) (i : Fin 32) (d : Fin 128) :
    (dat1 (V3 m DD) c).arrAt 10 cfg1.N (ix3 b i d) = Cert.Spec.agg (pp) (Cert.Spec.varK1 (pp)) b i d :=
  Val.region1_agg (V3 m DD) c (pp) (Cert.Spec.varK1 (pp))
    (fun b i k => (congrFun (back31 m DD c main_arg0 (by decide) (.inr ⟨0, rfl, rfl⟩)) _).trans (e1_st m c b i k))
    (fun b i j => (congrFun (back31 m DD c main_v0 (by decide) (.inr ⟨1, rfl, rfl⟩)) _).trans (e1_ed m c b i j))
    (fun k c' => (congrFun (back31 m DD c main_v2 (by decide) (.inr ⟨2, rfl, rfl⟩)) _).trans (e1_w1 m c k c'))
    (fun c' => (congrFun (back31 m DD c main_v9 (by decide) (.inr ⟨3, rfl, rfl⟩)) _).trans (e1_b1 m c c'))
    (e3_mean m c) (e3_var m c)
    (fun c' => (congrFun (back31 m DD c main_v10 (by decide) (.inl (by decide))) _).trans (e1_g m c c'))
    (fun c' => (congrFun (back31 m DD c main_v11 (by decide) (.inl (by decide))) _).trans (e1_bt m c c'))
    (fun c' d => (congrFun (back31 m DD c main_v4 (by decide) (.inl (by decide))) _).trans (e1_w2 m c c' d))
    (fun d => (congrFun (back31 m DD c main_v12 (by decide) (.inl (by decide))) _).trans (e1_b2 m c d))
    b i d

/-! ## The arrays region 2 is entered with -/

theorem e4_st (b : Fin 256) (i : Fin 32) (k : Fin 128) : V4 m DD c main_arg0 (ix3 b i k) = (pp).st (ix3 b i k) :=
  (congrFun (back41 m DD c main_arg0 (by decide) (.inr ⟨0, rfl, rfl⟩) (.inr ⟨0, rfl, rfl⟩)) _).trans (e1_st m c b i k)
theorem e4_ag (b : Fin 256) (i : Fin 32) (d : Fin 128) :
    V4 m DD c main_v24 (ix3 b i d) = Cert.Spec.agg (pp) (Cert.Spec.varK1 (pp)) b i d :=
  (congrFun (W4_arr m DD c 10) _).trans (agg1 m c b i d)
theorem e4_w1 (k c' : Fin 256) : V4 m DD c main_v6 (ix2 k c') = (pp).fw1 (ix2 c' k) :=
  (congrFun (back41 m DD c main_v6 (by decide) (.inl (by decide)) (.inl (by decide))) _).trans (e1_fw1 m c k c')
theorem e4_b1 (c' : Fin 256) : V4 m DD c main_v13 (ix2 (0 : Fin 1) c') = (pp).fb1 (ix1 c') :=
  (congrFun (back41 m DD c main_v13 (by decide) (.inl (by decide)) (.inl (by decide))) _).trans (e1_fb1 m c c')

/-! ## Region 2: the second normalisation's sums -/

theorem sums2 (c' : Fin 256) :
    (dat2 (V4 m DD) c).arrAt 4 cfg2.N (ix2 (0 : Fin 1) c') = Cert.Spec.sum2 (pp) (Cert.Spec.varK1 (pp)) c'
      ∧ (dat2 (V4 m DD) c).arrAt 5 cfg2.N (ix2 (0 : Fin 1) c') = Cert.Spec.sumsq2 (pp) (Cert.Spec.varK1 (pp)) c' :=
  Val.region2_sums (V4 m DD) c (pp) (Cert.Spec.varK1 (pp)) (e4_st m c) (e4_ag m c) (e4_w1 m c) (e4_b1 m c) c'

theorem e6_mean (c' : Fin 256) : V6 m DD c main_v27 (ix2 (0 : Fin 1) c') = Cert.Spec.mean2 (pp) (Cert.Spec.varK1 (pp)) c' := by
  refine (Glue.host3_v27 (W5 m DD c) c').trans ?_
  rw [show (W5 m DD c (Proc.devRef .tc main_v25_0) : S1x256.Idx → EReal) = (dat2 (V4 m DD) c).arrAt 4 cfg2.N from W5_arr m DD c 4,
    (sums2 m c c').1]
  rfl
theorem e6_var (c' : Fin 256) :
    V6 m DD c main_v31 (ix2 (0 : Fin 1) c') = Cert.Spec.varK2 (pp) (Cert.Spec.varK1 (pp)) c' := by
  refine (Glue.host3_v31_mean (W5 m DD c) c' _ (e6_mean m c c')).trans ?_
  rw [show (W5 m DD c (Proc.devRef .tc main_v25_1) : S1x256.Idx → EReal) = (dat2 (V4 m DD) c).arrAt 5 cfg2.N from W5_arr m DD c 5,
    (sums2 m c c').2]
  rfl

/-! ## Region 3: the result -/

/-- THE KERNEL'S VALUE: what the last region's write-backs leave in the result array is the specification's result
    with the variances from the sums of squares. -/
theorem kernel_value (b : Fin 256) (i : Fin 32) (d : Fin 128) :
    (dat3 (V6 m DD) c).arrAt 10 cfg3.N (ix3 b i d) = Cert.Spec.outK (pp) b i d :=
  Val.region3_out (V6 m DD) c (pp) (Cert.Spec.varK1 (pp)) (Cert.Spec.varK2 (pp) (Cert.Spec.varK1 (pp)))
    (fun b i k => (congrFun (back64 m DD c main_arg0 (by decide) (.inr ⟨0, rfl, rfl⟩)) _).trans (e4_st m c b i k))
    (fun b i d => (congrFun (back64 m DD c main_v24 (by decide) (.inr ⟨1, rfl, rfl⟩)) _).trans (e4_ag m c b i d))
    (fun k c' => (congrFun (back64 m DD c main_v6 (by decide) (.inr ⟨2, rfl, rfl⟩)) _).trans (e4_w1 m c k c'))
    (fun c' => (congrFun (back64 m DD c main_v13 (by decide) (.inr ⟨3, rfl, rfl⟩)) _).trans (e4_b1 m c c'))
    (e6_mean m c) (e6_var m c)
    (fun c' => (congrFun (back61 m DD c main_v14 (by decide) (by decide) (.inl (by decide)) (.inl (by decide)) (.inl (by decide))) _).trans (e1_fg m c c'))
    (fun c' => (congrFun (back61 m DD c main_v15 (by decide) (by decide) (.inl (by decide)) (.inl (by decide)) (.inl (by decide))) _).trans (e1_fbt m c c'))
    (fun c' d => (congrFun (back61 m DD c main_v8 (by decide) (by decide) (.inl (by decide)) (.inl (by decide)) (.inl (by decide))) _).trans (e1_fw2 m c c' d))
    (fun d => (congrFun (back61 m DD c main_v16 (by decide) (by decide) (.inl (by decide)) (.inl (by decide)) (.inl (by decide))) _).trans (e1_fb2 m c d))
    b i d

/-- The run read at everything the certificate states of this program at the ideal values: the result array at what
    the last region's write-backs leave, and the fourteen arguments unchanged. -/
theorem run_full (ρ : Dev nD → PrngReg) :
    θ_run (defs (F := Ideal)) (onTc (τ := τ) (main (F := Ideal))) ⟨m, fun _ => 0, ρ⟩ (fun r => ∀ c : Dev nD,
      r.2.mem ((c.tc : Thread nD τ).loc main_v32) = (dat3 (V6 m DD) c).arrAt 10 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨result_read m r h c,
     (h c _ (mem_uc main_arg0 (by decide))).trans (W7_main_arg0 m DD c),
     (h c _ (mem_uc main_arg1 (by decide))).trans (W7_main_arg1 m DD c),
     (h c _ (mem_uc main_arg2 (by decide))).trans (W7_main_arg2 m DD c),
     (h c _ (mem_uc main_arg3 (by decide))).trans (W7_main_arg3 m DD c),
     (h c _ (mem_uc main_arg4 (by decide))).trans (W7_main_arg4 m DD c),
     (h c _ (mem_uc main_arg5 (by decide))).trans (W7_main_arg5 m DD c),
     (h c _ (mem_uc main_arg6 (by decide))).trans (W7_main_arg6 m DD c),
     (h c _ (mem_uc main_arg7 (by decide))).trans (W7_main_arg7 m DD c),
     (h c _ (mem_uc main_arg8 (by decide))).trans (W7_main_arg8 m DD c),
     (h c _ (mem_uc main_arg9 (by decide))).trans (W7_main_arg9 m DD c),
     (h c _ (mem_uc main_arg10 (by decide))).trans (W7_main_arg10 m DD c),
     (h c _ (mem_uc main_arg11 (by decide))).trans (W7_main_arg11 m DD c),
     (h c _ (mem_uc main_arg12 (by decide))).trans (W7_main_arg12 m DD c),
     (h c _ (mem_uc main_arg13 (by decide))).trans (W7_main_arg13 m DD c)⟩)
    (theRun m ρ)

end Cert.KernelIdeal.Hand

end
-- ==== Proof.RefOps.lean ====
/-
  The reference's host program restated as the list of its 132 operations, cut into seven consecutive stretches at
  the boundaries of the mathematics: the edge inputs; the message perceptron's first layer; the first normalisation;
  rectifier, second layer, aggregation over incoming edges and the node inputs; the update perceptron's first layer;
  the second normalisation; rectifier, second layer and the result's shape. With the structural facts a run needs:
  the program is the list, every operation touches only the core's references, none allocates, and which references
  each stretch writes (so that everything else passes through it unchanged).
-/
import proofs.«134035_j84430467104804_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The edge inputs: the two index vectors, the gathered source and target states scaled by the edge weights, concatenated and flattened to rows. -/
def opsNeed : List (HloOp τ sig (Elt F)) :=
  [ nullary main_v0 (iotaInDim S32 32 0),
    unary main_v0 main_v1 (broadcastInDim S32x32 ![0] bcast_S32_S32x32_0 : (⟨S32, .i32⟩ : BufTy).Contents (Elt F) → (⟨S32x32, .i32⟩ : BufTy).Contents (Elt F)),
    reshape main_v1 main_v2 rfl shapeCasts_S32x32_S1024,
    nullary main_v3 (iotaInDim S32 32 0),
    reshape main_v3 main_v4 rfl shapeCasts_S32_S1x32,
    unary main_v4 main_v5 (broadcastInDim S32x32 ![0, 1] bcast_S1x32_S32x32_0_1 : (⟨S1x32, .i32⟩ : BufTy).Contents (Elt F) → (⟨S32x32, .i32⟩ : BufTy).Contents (Elt F)),
    reshape main_v5 main_v6 rfl shapeCasts_S32x32_S1024,
    nullary main_c (constantI S_ 32 0#32),
    unary main_c main_v7 (broadcastInDim S1024 ![] bcast_S_S1024 : (⟨S_, .i32⟩ : BufTy).Contents (Elt F) → (⟨S1024, .i32⟩ : BufTy).Contents (Elt F)),
    binary main_v2 main_v7 main_v8 (cmpi .slt : (⟨S1024, .i32⟩ : BufTy).Contents (Elt F) → (⟨S1024, .i32⟩ : BufTy).Contents (Elt F) → (⟨S1024, .i1⟩ : BufTy).Contents (Elt F)),
    nullary main_c_0 (constantI S_ 32 32#32),
    unary main_c_0 main_v9 (broadcastInDim S1024 ![] bcast_S_S1024 : (⟨S_, .i32⟩ : BufTy).Contents (Elt F) → (⟨S1024, .i32⟩ : BufTy).Contents (Elt F)),
    binary main_v2 main_v9 main_v10 (addi : (⟨S1024, .i32⟩ : BufTy).Contents (Elt F) → (⟨S1024, .i32⟩ : BufTy).Contents (Elt F) → (⟨S1024, .i32⟩ : BufTy).Contents (Elt F)),
    ternary main_v8 main_v10 main_v2 main_v11 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v11 main_v12 (broadcastInDim S1024x1 ![0] bcast_S1024_S1024x1_0 : (⟨S1024, .i32⟩ : BufTy).Contents (Elt F) → (⟨S1024x1, .i32⟩ : BufTy).Contents (Elt F)),
    binary main_arg0 main_v12 main_v13 ((fun x i => Host.gather gather_S256x32x128_S1024x1_S256x1024x128_02_1_n_n_1_1_2561128 x i) : (⟨S256x32x128, .f32⟩ : BufTy).Contents (Elt F) → (⟨S1024x1, .i32⟩ : BufTy).Contents (Elt F) → (⟨S256x1024x128, .f32⟩ : BufTy).Contents (Elt F)),
    nullary main_c_1 (constantI S_ 32 0#32),
    unary main_c_1 main_v14 (broadcastInDim S1024 ![] bcast_S_S1024 : (⟨S_, .i32⟩ : BufTy).Contents (Elt F) → (⟨S1024, .i32⟩ : BufTy).Contents (Elt F)),
    binary main_v6 main_v14 main_v15 (cmpi .slt : (⟨S1024, .i32⟩ : BufTy).Contents (Elt F) → (⟨S1024, .i32⟩ : BufTy).Contents (Elt F) → (⟨S1024, .i1⟩ : BufTy).Contents (Elt F)),
    nullary main_c_2 (constantI S_ 32 32#32),
    unary main_c_2 main_v16 (broadcastInDim S1024 ![] bcast_S_S1024 : (⟨S_, .i32⟩ : BufTy).Contents (Elt F) → (⟨S1024, .i32⟩ : BufTy).Contents (Elt F)),
    binary main_v6 main_v16 main_v17 (addi : (⟨S1024, .i32⟩ : BufTy).Contents (Elt F) → (⟨S1024, .i32⟩ : BufTy).Contents (Elt F) → (⟨S1024, .i32⟩ : BufTy).Contents (Elt F)),
    ternary main_v15 main_v17 main_v6 main_v18 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v18 main_v19 (broadcastInDim S1024x1 ![0] bcast_S1024_S1024x1_0 : (⟨S1024, .i32⟩ : BufTy).Contents (Elt F) → (⟨S1024x1, .i32⟩ : BufTy).Contents (Elt F)),
    binary main_arg0 main_v19 main_v20 ((fun x i => Host.gather gather_S256x32x128_S1024x1_S256x1024x128_02_1_n_n_1_1_2561128 x i) : (⟨S256x32x128, .f32⟩ : BufTy).Contents (Elt F) → (⟨S1024x1, .i32⟩ : BufTy).Contents (Elt F) → (⟨S256x1024x128, .f32⟩ : BufTy).Contents (Elt F)),
    unary main_arg1 main_v21 (broadcastInDim S256x1024x1 ![0, 1] bcast_S256x1024_S256x1024x1_0_1 : (⟨S256x1024, .f32⟩ : BufTy).Contents (Elt F) → (⟨S256x1024x1, .f32⟩ : BufTy).Contents (Elt F)),
    unary main_v21 main_v22 (broadcastInDim S256x1024x128 ![0, 1, 2] bcast_S256x1024x1_S256x1024x128_0_1_2 : (⟨S256x1024x1, .f32⟩ : BufTy).Contents (Elt F) → (⟨S256x1024x128, .f32⟩ : BufTy).Contents (Elt F)),
    binary main_v13 main_v22 main_v23 (mulf : (⟨S256x1024x128, .f32⟩ : BufTy).Contents (Elt F) → (⟨S256x1024x128, .f32⟩ : BufTy).Contents (Elt F) → (⟨S256x1024x128, .f32⟩ : BufTy).Contents (Elt F)),
    unary main_v21 main_v24 (broadcastInDim S256x1024x128 ![0, 1, 2] bcast_S256x1024x1_S256x1024x128_0_1_2 : (⟨S256x1024x1, .f32⟩ : BufTy).Contents (Elt F) → (⟨S256x1024x128, .f32⟩ : BufTy).Contents (Elt F)),
    binary main_v20 main_v24 main_v25 (mulf : (⟨S256x1024x128, .f32⟩ : BufTy).Contents (Elt F) → (⟨S256x1024x128, .f32⟩ : BufTy).Contents (Elt F) → (⟨S256x1024x128, .f32⟩ : BufTy).Contents (Elt F)),
    binary main_v23 main_v25 main_v26 ((fun a b => concatenate S256x1024x256 2 [⟨S256x1024x128, a⟩, ⟨S256x1024x128, b⟩] concatenates_S256x1024x128_S256x1024x128_S256x1024x256_d2) : (⟨S256x1024x128, .f32⟩ : BufTy).Contents (Elt F) → (⟨S256x1024x128, .f32⟩ : BufTy).Contents (Elt F) → (⟨S256x1024x256, .f32⟩ : BufTy).Contents (Elt F)),
    reshape main_v26 main_v27 rfl shapeCasts_S256x1024x256_S262144x256 ]

/-- The message perceptron's first layer: rows times the transposed weight, plus the bias. -/
def opsHid1 : List (HloOp τ sig (Elt F)) :=
  [ unary main_arg2 main_v28 ((transpose S256x256 [1, 0] · transposes_S256x256_S256x256_1_0) : (⟨S256x256, .f32⟩ : BufTy).Contents (Elt F) → (⟨S256x256, .f32⟩ : BufTy).Contents (Elt F)),
    binary main_v27 main_v28 main_v29 ((fun l r => Host.dotGeneral dot_S262144x256_S256x256_S262144x256_1_0_0_1_n_n none l r) : (⟨S262144x256, .f32⟩ : BufTy).Contents (Elt F) → (⟨S256x256, .f32⟩ : BufTy).Contents (Elt F) → (⟨S262144x256, .f32⟩ : BufTy).Contents (Elt F)),
    unary main_arg3 main_v30 (broadcastInDim S1x256 ![1] bcast_S256_S1x256_1 : (⟨S256, .f32⟩ : BufTy).Contents (Elt F) → (⟨S1x256, .f32⟩ : BufTy).Contents (Elt F)),
    unary main_v30 main_v31 (broadcastInDim S262144x256 ![0, 1] bcast_S1x256_S262144x256_0_1 : (⟨S1x256, .f32⟩ : BufTy).Contents (Elt F) → (⟨S262144x256, .f32⟩ : BufTy).Contents (Elt F)),
    binary main_v29 main_v31 main_v32 (addf : (⟨S262144x256, .f32⟩ : BufTy).Contents (Elt F) → (⟨S262144x256, .f32⟩ : BufTy).Contents (Elt F) → (⟨S262144x256, .f32⟩ : BufTy).Contents (Elt F)) ]

/-- The first normalisation: column means, column variances, and the normalised, scaled and shifted rows. -/
def opsNorm1 : List (HloOp τ sig (Elt F)) :=
  [ nullary main_cst (constant S_ .f32 0x00000000#32),
    binary main_v32 main_cst main_v33 ((fun x v => Host.reduceAdd x v reducesTo_S262144x256_S256_d0 h_S_) : (⟨S262144x256, .f32⟩ : BufTy).Contents (Elt F) → (⟨S_, .f32⟩ : BufTy).Contents (Elt F) → (⟨S256, .f32⟩ : BufTy).Contents (Elt F)),
    nullary main_cst_3 (constant S_ .f32 0x48800000#32),
    unary main_cst_3 main_v34 (broadcastInDim S256 ![] bcast_S_S256 : (⟨S_, .f32⟩ : BufTy).Contents (Elt F) → (⟨S256, .f32⟩ : BufTy).Contents (Elt F)),
    binary main_v33 main_v34 main_v35 (Host.divf : (⟨S256, .f32⟩ : BufTy).Contents (Elt F) → (⟨S256, .f32⟩ : BufTy).Contents (Elt F) → (⟨S256, .f32⟩ : BufTy).Contents (Elt F)),
    unary main_v35 main_v36 (broadcastInDim S1x256 ![1] bcast_S256_S1x256_1 : (⟨S256, .f32⟩ : BufTy).Contents (Elt F) → (⟨S1x256, .f32⟩ : BufTy).Contents (Elt F)),
    unary main_v36 main_v37 (broadcastInDim S262144x256 ![0, 1] bcast_S1x256_S262144x256_0_1 : (⟨S1x256, .f32⟩ : BufTy).Contents (Elt F) → (⟨S262144x256, .f32⟩ : BufTy).Contents (Elt F)),
    binary main_v32 main_v37 main_v38 (subf : (⟨S262144x256, .f32⟩ : BufTy).Contents (Elt F) → (⟨S262144x256, .f32⟩ : BufTy).Contents (Elt F) → (⟨S262144x256, .f32⟩ : BufTy).Contents (Elt F)),
    binary main_v38 main_v38 main_v39 (mulf : (⟨S262144x256, .f32⟩ : BufTy).Contents (Elt F) → (⟨S262144x256, .f32⟩ : BufTy).Contents (Elt F) → (⟨S262144x256, .f32⟩ : BufTy).Contents (Elt F)),
    nullary main_cst_4 (constant S_ .f32 0x00000000#32),
    binary main_v39 main_cst_4 main_v40 ((fun x v => Host.reduceAdd x v reducesTo_S262144x256_S256_d0 h_S_) : (⟨S262144x256, .f32⟩ : BufTy).Contents (Elt F) → (⟨S_, .f32⟩ : BufTy).Contents (Elt F) → (⟨S256, .f32⟩ : BufTy).Contents (Elt F)),
    nullary main_cst_5 (constant S_ .f32 0x48800000#32),
    unary main_cst_5 main_v41 (broadcastInDim S256 ![] bcast_S_S256 : (⟨S_, .f32⟩ : BufTy).Contents (Elt F) → (⟨S256, .f32⟩ : BufTy).Contents (Elt F)),
    binary main_v40 main_v41 main_v42 (Host.divf : (⟨S256, .f32⟩ : BufTy).Contents (Elt F) → (⟨S256, .f32⟩ : BufTy).Contents (Elt F) → (⟨S256, .f32⟩ : BufTy).Contents (Elt F)),
    unary main_v35 main_v43 (broadcastInDim S1x256 ![1] bcast_S256_S1x256_1 : (⟨S256, .f32⟩ : BufTy).Contents (Elt F) → (⟨S1x256, .f32⟩ : BufTy).Contents (Elt F)),
    unary main_v43 main_v44 (broadcastInDim S262144x256 ![0, 1] bcast_S1x256_S262144x256_0_1 : (⟨S1x256, .f32⟩ : BufTy).Contents (Elt F) → (⟨S262144x256, .f32⟩ : BufTy).Contents (Elt F)),
    binary main_v32 main_v44 main_v45 (subf : (⟨S262144x256, .f32⟩ : BufTy).Contents (Elt F) → (⟨S262144x256, .f32⟩ : BufTy).Contents (Elt F) → (⟨S262144x256, .f32⟩ : BufTy).Contents (Elt F)),
    nullary main_cst_6 (constant S_ .f32 0x3727C5AC#32),
    unary main_cst_6 main_v46 (broadcastInDim S256 ![] bcast_S_S256 : (⟨S_, .f32⟩ : BufTy).Contents (Elt F) → (⟨S256, .f32⟩ : BufTy).Contents (Elt F)),
    binary main_v42 main_v46 main_v47 (addf : (⟨S256, .f32⟩ : BufTy).Contents (Elt F) → (⟨S256, .f32⟩ : BufTy).Contents (Elt F) → (⟨S256, .f32⟩ : BufTy).Contents (Elt F)),
    unary main_v47 main_v48 (Host.rsqrt : (⟨S256, .f32⟩ : BufTy).Contents (Elt F) → (⟨S256, .f32⟩ : BufTy).Contents (Elt F)),
    unary main_v48 main_v49 (broadcastInDim S1x256 ![1] bcast_S256_S1x256_1 : (⟨S256, .f32⟩ : BufTy).Contents (Elt F) → (⟨S1x256, .f32⟩ : BufTy).Contents (Elt F)),
    unary main_v49 main_v50 (broadcastInDim S262144x256 ![0, 1] bcast_S1x256_S262144x256_0_1 : (⟨S1x256, .f32⟩ : BufTy).Contents (Elt F) → (⟨S262144x256, .f32⟩ : BufTy).Contents (Elt F)),
    binary main_v45 main_v50 main_v51 (mulf : (⟨S262144x256, .f32⟩ : BufTy).Contents (Elt F) → (⟨S262144x256, .f32⟩ : BufTy).Contents (Elt F) → (⟨S262144x256, .f32⟩ : BufTy).Contents (Elt F)),
    unary main_arg4 main_v52 (broadcastInDim S1x256 ![1] bcast_S256_S1x256_1 : (⟨S256, .f32⟩ : BufTy).Contents (Elt F) → (⟨S1x256, .f32⟩ : BufTy).Contents (Elt F)),
    unary main_v52 main_v53 (broadcastInDim S262144x256 ![0, 1] bcast_S1x256_S262144x256_0_1 : (⟨S1x256, .f32⟩ : BufTy).Contents (Elt F) → (⟨S262144x256, .f32⟩ : BufTy).Contents (Elt F)),
    binary main_v51 main_v53 main_v54 (mulf : (⟨S262144x256, .f32⟩ : BufTy).Contents (Elt F) → (⟨S262144x256, .f32⟩ : BufTy).Contents (Elt F) → (⟨S262144x256, .f32⟩ : BufTy).Contents (Elt F)),
    unary main_arg5 main_v55 (broadcastInDim S1x256 ![1] bcast_S256_S1x256_1 : (⟨S256, .f32⟩ : BufTy).Contents (Elt F) → (⟨S1x256, .f32⟩ : BufTy).Contents (Elt F)),
    unary main_v55 main_v56 (broadcastInDim S262144x256 ![0, 1] bcast_S1x256_S262144x256_0_1 : (⟨S1x256, .f32⟩ : BufTy).Contents (Elt F) → (⟨S262144x256, .f32⟩ : BufTy).Contents (Elt F)),
    binary main_v54 main_v56 main_v57 (addf : (⟨S262144x256, .f32⟩ : BufTy).Contents (Elt F) → (⟨S262144x256, .f32⟩ : BufTy).Contents (Elt F) → (⟨S262144x256, .f32⟩ : BufTy).Contents (Elt F)) ]

/-- The leaky rectifier, the message perceptron's second layer, the sum over each node's incoming edges, and the node inputs (state beside aggregate) flattened to rows. -/
def opsMsg : List (HloOp τ sig (Elt F)) :=
  [ nullary main_cst_7 (constant S_ .f32 0x00000000#32),
    unary main_cst_7 main_v58 (broadcastInDim S262144x256 ![] bcast_S_S262144x256 : (⟨S_, .f32⟩ : BufTy).Contents (Elt F) → (⟨S262144x256, .f32⟩ : BufTy).Contents (Elt F)),
    binary main_v57 main_v58 main_v59 (cmpf .oge : (⟨S262144x256, .f32⟩ : BufTy).Contents (Elt F) → (⟨S262144x256, .f32⟩ : BufTy).Contents (Elt F) → (⟨S262144x256, .i1⟩ : BufTy).Contents (Elt F)),
    nullary main_cst_8 (constant S_ .f32 0x3C23D70A#32),
    unary main_cst_8 main_v60 (broadcastInDim S262144x256 ![] bcast_S_S262144x256 : (⟨S_, .f32⟩ : BufTy).Contents (Elt F) → (⟨S262144x256, .f32⟩ : BufTy).Contents (Elt F)),
    binary main_v60 main_v57 main_v61 (mulf : (⟨S262144x256, .f32⟩ : BufTy).Contents (Elt F) → (⟨S262144x256, .f32⟩ : BufTy).Contents (Elt F) → (⟨S262144x256, .f32⟩ : BufTy).Contents (Elt F)),
    TRef.ternary (TRef.of (T := ⟨S262144x256, .i1⟩) main_v59) (TRef.of (T := ⟨S262144x256, .f32⟩) main_v57) (TRef.of (T := ⟨S262144x256, .f32⟩) main_v61) (TRef.of (T := ⟨S262144x256, .f32⟩) main_v62) select,
    unary main_arg6 main_v63 ((transpose S256x128 [1, 0] · transposes_S128x256_S256x128_1_0) : (⟨S128x256, .f32⟩ : BufTy).Contents (Elt F) → (⟨S256x128, .f32⟩ : BufTy).Contents (Elt F)),
    binary main_v62 main_v63 main_v64 ((fun l r => Host.dotGeneral dot_S262144x256_S256x128_S262144x128_1_0_0_1_n_n none l r) : (⟨S262144x256, .f32⟩ : BufTy).Contents (Elt F) → (⟨S256x128, .f32⟩ : BufTy).Contents (Elt F) → (⟨S262144x128, .f32⟩ : BufTy).Contents (Elt F)),
    unary main_arg7 main_v65 (broadcastInDim S1x128 ![1] bcast_S128_S1x128_1 : (⟨S128, .f32⟩ : BufTy).Contents (Elt F) → (⟨S1x128, .f32⟩ : BufTy).Contents (Elt F)),
    unary main_v65 main_v66 (broadcastInDim S262144x128 ![0, 1] bcast_S1x128_S262144x128_0_1 : (⟨S1x128, .f32⟩ : BufTy).Contents (Elt F) → (⟨S262144x128, .f32⟩ : BufTy).Contents (Elt F)),
    binary main_v64 main_v66 main_v67 (addf : (⟨S262144x128, .f32⟩ : BufTy).Contents (Elt F) → (⟨S262144x128, .f32⟩ : BufTy).Contents (Elt F) → (⟨S262144x128, .f32⟩ : BufTy).Contents (Elt F)),
    reshape main_v67 main_v68 rfl shapeCasts_S262144x128_S256x32x32x128,
    nullary main_cst_9 (constant S_ .f32 0x00000000#32),
    binary main_v68 main_cst_9 main_v69 ((fun x v => Host.reduceAdd x v reducesTo_S256x32x32x128_S256x32x128_d2 h_S_) : (⟨S256x32x32x128, .f32⟩ : BufTy).Contents (Elt F) → (⟨S_, .f32⟩ : BufTy).Contents (Elt F) → (⟨S256x32x128, .f32⟩ : BufTy).Contents (Elt F)),
    binary main_arg0 main_v69 main_v70 ((fun a b => concatenate S256x32x256 2 [⟨S256x32x128, a⟩, ⟨S256x32x128, b⟩] concatenates_S256x32x128_S256x32x128_S256x32x256_d2) : (⟨S256x32x128, .f32⟩ : BufTy).Contents (Elt F) → (⟨S256x32x128, .f32⟩ : BufTy).Contents (Elt F) → (⟨S256x32x256, .f32⟩ : BufTy).Contents (Elt F)),
    reshape main_v70 main_v71 rfl shapeCasts_S256x32x256_S8192x256 ]

/-- The update perceptron's first layer. -/
def opsHid2 : List (HloOp τ sig (Elt F)) :=
  [ unary main_arg8 main_v72 ((transpose S256x256 [1, 0] · transposes_S256x256_S256x256_1_0) : (⟨S256x256, .f32⟩ : BufTy).Contents (Elt F) → (⟨S256x256, .f32⟩ : BufTy).Contents (Elt F)),
    binary main_v71 main_v72 main_v73 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    unary main_arg9 main_v74 (broadcastInDim S1x256 ![1] bcast_S256_S1x256_1 : (⟨S256, .f32⟩ : BufTy).Contents (Elt F) → (⟨S1x256, .f32⟩ : BufTy).Contents (Elt F)),
    unary main_v74 main_v75 (broadcastInDim S8192x256 ![0, 1] bcast_S1x256_S8192x256_0_1 : (⟨S1x256, .f32⟩ : BufTy).Contents (Elt F) → (⟨S8192x256, .f32⟩ : BufTy).Contents (Elt F)),
    binary main_v73 main_v75 main_v76 (addf : (⟨S8192x256, .f32⟩ : BufTy).Contents (Elt F) → (⟨S8192x256, .f32⟩ : BufTy).Contents (Elt F) → (⟨S8192x256, .f32⟩ : BufTy).Contents (Elt F)) ]

/-- The second normalisation. -/
def opsNorm2 : List (HloOp τ sig (Elt F)) :=
  [ nullary main_cst_10 (constant S_ .f32 0x00000000#32),
    binary main_v76 main_cst_10 main_v77 ((fun x v => Host.reduceAdd x v reducesTo_S8192x256_S256_d0 h_S_) : (⟨S8192x256, .f32⟩ : BufTy).Contents (Elt F) → (⟨S_, .f32⟩ : BufTy).Contents (Elt F) → (⟨S256, .f32⟩ : BufTy).Contents (Elt F)),
    nullary main_cst_11 (constant S_ .f32 0x46000000#32),
    unary main_cst_11 main_v78 (broadcastInDim S256 ![] bcast_S_S256 : (⟨S_, .f32⟩ : BufTy).Contents (Elt F) → (⟨S256, .f32⟩ : BufTy).Contents (Elt F)),
    binary main_v77 main_v78 main_v79 (Host.divf : (⟨S256, .f32⟩ : BufTy).Contents (Elt F) → (⟨S256, .f32⟩ : BufTy).Contents (Elt F) → (⟨S256, .f32⟩ : BufTy).Contents (Elt F)),
    unary main_v79 main_v80 (broadcastInDim S1x256 ![1] bcast_S256_S1x256_1 : (⟨S256, .f32⟩ : BufTy).Contents (Elt F) → (⟨S1x256, .f32⟩ : BufTy).Contents (Elt F)),
    unary main_v80 main_v81 (broadcastInDim S8192x256 ![0, 1] bcast_S1x256_S8192x256_0_1 : (⟨S1x256, .f32⟩ : BufTy).Contents (Elt F) → (⟨S8192x256, .f32⟩ : BufTy).Contents (Elt F)),
    binary main_v76 main_v81 main_v82 (subf : (⟨S8192x256, .f32⟩ : BufTy).Contents (Elt F) → (⟨S8192x256, .f32⟩ : BufTy).Contents (Elt F) → (⟨S8192x256, .f32⟩ : BufTy).Contents (Elt F)),
    binary main_v82 main_v82 main_v83 (mulf : (⟨S8192x256, .f32⟩ : BufTy).Contents (Elt F) → (⟨S8192x256, .f32⟩ : BufTy).Contents (Elt F) → (⟨S8192x256, .f32⟩ : BufTy).Contents (Elt F)),
    nullary main_cst_12 (constant S_ .f32 0x00000000#32),
    binary main_v83 main_cst_12 main_v84 ((fun x v => Host.reduceAdd x v reducesTo_S8192x256_S256_d0 h_S_) : (⟨S8192x256, .f32⟩ : BufTy).Contents (Elt F) → (⟨S_, .f32⟩ : BufTy).Contents (Elt F) → (⟨S256, .f32⟩ : BufTy).Contents (Elt F)),
    nullary main_cst_13 (constant S_ .f32 0x46000000#32),
    unary main_cst_13 main_v85 (broadcastInDim S256 ![] bcast_S_S256 : (⟨S_, .f32⟩ : BufTy).Contents (Elt F) → (⟨S256, .f32⟩ : BufTy).Contents (Elt F)),
    binary main_v84 main_v85 main_v86 (Host.divf : (⟨S256, .f32⟩ : BufTy).Contents (Elt F) → (⟨S256, .f32⟩ : BufTy).Contents (Elt F) → (⟨S256, .f32⟩ : BufTy).Contents (Elt F)),
    unary main_v79 main_v87 (broadcastInDim S1x256 ![1] bcast_S256_S1x256_1 : (⟨S256, .f32⟩ : BufTy).Contents (Elt F) → (⟨S1x256, .f32⟩ : BufTy).Contents (Elt F)),
    unary main_v87 main_v88 (broadcastInDim S8192x256 ![0, 1] bcast_S1x256_S8192x256_0_1 : (⟨S1x256, .f32⟩ : BufTy).Contents (Elt F) → (⟨S8192x256, .f32⟩ : BufTy).Contents (Elt F)),
    binary main_v76 main_v88 main_v89 (subf : (⟨S8192x256, .f32⟩ : BufTy).Contents (Elt F) → (⟨S8192x256, .f32⟩ : BufTy).Contents (Elt F) → (⟨S8192x256, .f32⟩ : BufTy).Contents (Elt F)),
    nullary main_cst_14 (constant S_ .f32 0x3727C5AC#32),
    unary main_cst_14 main_v90 (broadcastInDim S256 ![] bcast_S_S256 : (⟨S_, .f32⟩ : BufTy).Contents (Elt F) → (⟨S256, .f32⟩ : BufTy).Contents (Elt F)),
    binary main_v86 main_v90 main_v91 (addf : (⟨S256, .f32⟩ : BufTy).Contents (Elt F) → (⟨S256, .f32⟩ : BufTy).Contents (Elt F) → (⟨S256, .f32⟩ : BufTy).Contents (Elt F)),
    unary main_v91 main_v92 (Host.rsqrt : (⟨S256, .f32⟩ : BufTy).Contents (Elt F) → (⟨S256, .f32⟩ : BufTy).Contents (Elt F)),
    unary main_v92 main_v93 (broadcastInDim S1x256 ![1] bcast_S256_S1x256_1 : (⟨S256, .f32⟩ : BufTy).Contents (Elt F) → (⟨S1x256, .f32⟩ : BufTy).Contents (Elt F)),
    unary main_v93 main_v94 (broadcastInDim S8192x256 ![0, 1] bcast_S1x256_S8192x256_0_1 : (⟨S1x256, .f32⟩ : BufTy).Contents (Elt F) → (⟨S8192x256, .f32⟩ : BufTy).Contents (Elt F)),
    binary main_v89 main_v94 main_v95 (mulf : (⟨S8192x256, .f32⟩ : BufTy).Contents (Elt F) → (⟨S8192x256, .f32⟩ : BufTy).Contents (Elt F) → (⟨S8192x256, .f32⟩ : BufTy).Contents (Elt F)),
    unary main_arg10 main_v96 (broadcastInDim S1x256 ![1] bcast_S256_S1x256_1 : (⟨S256, .f32⟩ : BufTy).Contents (Elt F) → (⟨S1x256, .f32⟩ : BufTy).Contents (Elt F)),
    unary main_v96 main_v97 (broadcastInDim S8192x256 ![0, 1] bcast_S1x256_S8192x256_0_1 : (⟨S1x256, .f32⟩ : BufTy).Contents (Elt F) → (⟨S8192x256, .f32⟩ : BufTy).Contents (Elt F)),
    binary main_v95 main_v97 main_v98 (mulf : (⟨S8192x256, .f32⟩ : BufTy).Contents (Elt F) → (⟨S8192x256, .f32⟩ : BufTy).Contents (Elt F) → (⟨S8192x256, .f32⟩ : BufTy).Contents (Elt F)),
    unary main_arg11 main_v99 (broadcastInDim S1x256 ![1] bcast_S256_S1x256_1 : (⟨S256, .f32⟩ : BufTy).Contents (Elt F) → (⟨S1x256, .f32⟩ : BufTy).Contents (Elt F)),
    unary main_v99 main_v100 (broadcastInDim S8192x256 ![0, 1] bcast_S1x256_S8192x256_0_1 : (⟨S1x256, .f32⟩ : BufTy).Contents (Elt F) → (⟨S8192x256, .f32⟩ : BufTy).Contents (Elt F)),
    binary main_v98 main_v100 main_v101 (addf : (⟨S8192x256, .f32⟩ : BufTy).Contents (Elt F) → (⟨S8192x256, .f32⟩ : BufTy).Contents (Elt F) → (⟨S8192x256, .f32⟩ : BufTy).Contents (Elt F)) ]

/-- The leaky rectifier, the update perceptron's second layer, and the result's shape. -/
def opsOut : List (HloOp τ sig (Elt F)) :=
  [ nullary main_cst_15 (constant S_ .f32 0x00000000#32),
    unary main_cst_15 main_v102 (broadcastInDim S8192x256 ![] bcast_S_S8192x256 : (⟨S_, .f32⟩ : BufTy).Contents (Elt F) → (⟨S8192x256, .f32⟩ : BufTy).Contents (Elt F)),
    binary main_v101 main_v102 main_v103 (cmpf .oge : (⟨S8192x256, .f32⟩ : BufTy).Contents (Elt F) → (⟨S8192x256, .f32⟩ : BufTy).Contents (Elt F) → (⟨S8192x256, .i1⟩ : BufTy).Contents (Elt F)),
    nullary main_cst_16 (constant S_ .f32 0x3C23D70A#32),
    unary main_cst_16 main_v104 (broadcastInDim S8192x256 ![] bcast_S_S8192x256 : (⟨S_, .f32⟩ : BufTy).Contents (Elt F) → (⟨S8192x256, .f32⟩ : BufTy).Contents (Elt F)),
    binary main_v104 main_v101 main_v105 (mulf : (⟨S8192x256, .f32⟩ : BufTy).Contents (Elt F) → (⟨S8192x256, .f32⟩ : BufTy).Contents (Elt F) → (⟨S8192x256, .f32⟩ : BufTy).Contents (Elt F)),
    TRef.ternary (TRef.of (T := ⟨S8192x256, .i1⟩) main_v103) (TRef.of (T := ⟨S8192x256, .f32⟩) main_v101) (TRef.of (T := ⟨S8192x256, .f32⟩) main_v105) (TRef.of (T := ⟨S8192x256, .f32⟩) main_v106) select,
    unary main_arg12 main_v107 ((transpose S256x128 [1, 0] · transposes_S128x256_S256x128_1_0) : (⟨S128x256, .f32⟩ : BufTy).Contents (Elt F) → (⟨S256x128, .f32⟩ : BufTy).Contents (Elt F)),
    binary main_v106 main_v107 main_v108 ((fun l r => Host.dotGeneral dot_S8192x256_S256x128_S8192x128_1_0_0_1_n_n none l r) : (⟨S8192x256, .f32⟩ : BufTy).Contents (Elt F) → (⟨S256x128, .f32⟩ : BufTy).Contents (Elt F) → (⟨S8192x128, .f32⟩ : BufTy).Contents (Elt F)),
    unary main_arg13 main_v109 (broadcastInDim S1x128 ![1] bcast_S128_S1x128_1 : (⟨S128, .f32⟩ : BufTy).Contents (Elt F) → (⟨S1x128, .f32⟩ : BufTy).Contents (Elt F)),
    unary main_v109 main_v110 (broadcastInDim S8192x128 ![0, 1] bcast_S1x128_S8192x128_0_1 : (⟨S1x128, .f32⟩ : BufTy).Contents (Elt F) → (⟨S8192x128, .f32⟩ : BufTy).Contents (Elt F)),
    binary main_v108 main_v110 main_v111 (addf : (⟨S8192x128, .f32⟩ : BufTy).Contents (Elt F) → (⟨S8192x128, .f32⟩ : BufTy).Contents (Elt F) → (⟨S8192x128, .f32⟩ : BufTy).Contents (Elt F)),
    reshape main_v111 main_v112 rfl shapeCasts_S8192x128_S256x32x128 ]

/-- The whole program: the seven stretches in order. -/
def ops : List (HloOp τ sig (Elt F)) :=
  opsNeed ++ (opsHid1 ++ (opsNorm1 ++ (opsMsg ++ (opsHid2 ++ (opsNorm2 ++ (opsOut))))))

set_option maxRecDepth 8192 in
set_option maxHeartbeats 4000000 in
/-- The printed program is the list run in order. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-! ## Every operation touches only the core's references, and none allocates -/

namespace Fx

/-- A property of every operation of two lists holds of every operation of their concatenation. -/
theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

end Fx

set_option maxRecDepth 8192 in
theorem opsNeed_sub : (opsNeed : List (HloOp τ sig (Elt F))).Forall fun op => op.bufs ⊆ tcRefs τ sig := by
  unfold opsNeed
  exact ⟨nullary_bufs_sub .., unary_bufs_sub .., reshape_bufs_sub .., nullary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., unary_bufs_sub .., binary_bufs_sub .., binary_bufs_sub .., reshape_bufs_sub ..⟩
theorem opsNeed_fresh : (opsNeed : List (HloOp τ sig (Elt F))).Forall fun op => op.fresh = ∅ := by
  unfold opsNeed; simp only [List.Forall]; repeat' constructor
set_option maxRecDepth 8192 in
theorem opsHid1_sub : (opsHid1 : List (HloOp τ sig (Elt F))).Forall fun op => op.bufs ⊆ tcRefs τ sig := by
  unfold opsHid1
  exact ⟨unary_bufs_sub .., binary_bufs_sub .., unary_bufs_sub .., unary_bufs_sub .., binary_bufs_sub ..⟩
theorem opsHid1_fresh : (opsHid1 : List (HloOp τ sig (Elt F))).Forall fun op => op.fresh = ∅ := by
  unfold opsHid1; simp only [List.Forall]; repeat' constructor
set_option maxRecDepth 8192 in
theorem opsNorm1_sub : (opsNorm1 : List (HloOp τ sig (Elt F))).Forall fun op => op.bufs ⊆ tcRefs τ sig := by
  unfold opsNorm1
  exact ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem opsNorm1_fresh : (opsNorm1 : List (HloOp τ sig (Elt F))).Forall fun op => op.fresh = ∅ := by
  unfold opsNorm1; simp only [List.Forall]; repeat' constructor
set_option maxRecDepth 8192 in
theorem opsMsg_sub : (opsMsg : List (HloOp τ sig (Elt F))).Forall fun op => op.bufs ⊆ tcRefs τ sig := by
  unfold opsMsg
  exact ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., reshape_bufs_sub .., nullary_bufs_sub .., binary_bufs_sub .., binary_bufs_sub .., reshape_bufs_sub ..⟩
theorem opsMsg_fresh : (opsMsg : List (HloOp τ sig (Elt F))).Forall fun op => op.fresh = ∅ := by
  unfold opsMsg; simp only [List.Forall]; repeat' constructor
set_option maxRecDepth 8192 in
theorem opsHid2_sub : (opsHid2 : List (HloOp τ sig (Elt F))).Forall fun op => op.bufs ⊆ tcRefs τ sig := by
  unfold opsHid2
  exact ⟨unary_bufs_sub .., binary_bufs_sub .., unary_bufs_sub .., unary_bufs_sub .., binary_bufs_sub ..⟩
theorem opsHid2_fresh : (opsHid2 : List (HloOp τ sig (Elt F))).Forall fun op => op.fresh = ∅ := by
  unfold opsHid2; simp only [List.Forall]; repeat' constructor
set_option maxRecDepth 8192 in
theorem opsNorm2_sub : (opsNorm2 : List (HloOp τ sig (Elt F))).Forall fun op => op.bufs ⊆ tcRefs τ sig := by
  unfold opsNorm2
  exact ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem opsNorm2_fresh : (opsNorm2 : List (HloOp τ sig (Elt F))).Forall fun op => op.fresh = ∅ := by
  unfold opsNorm2; simp only [List.Forall]; repeat' constructor
set_option maxRecDepth 8192 in
theorem opsOut_sub : (opsOut : List (HloOp τ sig (Elt F))).Forall fun op => op.bufs ⊆ tcRefs τ sig := by
  unfold opsOut
  exact ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., reshape_bufs_sub ..⟩
theorem opsOut_fresh : (opsOut : List (HloOp τ sig (Elt F))).Forall fun op => op.fresh = ∅ := by
  unfold opsOut; simp only [List.Forall]; repeat' constructor

theorem ops_sub : (ops : List (HloOp τ sig (Elt F))).Forall fun op => op.bufs ⊆ tcRefs τ sig :=
  Fx.forall_append opsNeed_sub (Fx.forall_append opsHid1_sub (Fx.forall_append opsNorm1_sub (Fx.forall_append opsMsg_sub (Fx.forall_append opsHid2_sub (Fx.forall_append opsNorm2_sub (opsOut_sub))))))
theorem ops_fresh : (ops : List (HloOp τ sig (Elt F))).Forall fun op => op.fresh = ∅ :=
  Fx.forall_append opsNeed_fresh (Fx.forall_append opsHid1_fresh (Fx.forall_append opsNorm1_fresh (Fx.forall_append opsMsg_fresh (Fx.forall_append opsHid2_fresh (Fx.forall_append opsNorm2_fresh (opsOut_fresh))))))

/-! ## What each stretch writes -/

/-- The references `opsNeed` writes. -/
abbrev opsNeed_W : List (Ref sig .tc) := [main_v0, main_v1, main_v2, main_v3, main_v4, main_v5, main_v6, main_c, main_v7, main_v8, main_c_0, main_v9, main_v10, main_v11, main_v12, main_v13, main_c_1, main_v14, main_v15, main_c_2, main_v16, main_v17, main_v18, main_v19, main_v20, main_v21, main_v22, main_v23, main_v24, main_v25, main_v26, main_v27]
theorem opsNeed_writes : (opsNeed : List (HloOp τ sig (Elt F))).Forall fun op => op.writes ⊆ (opsNeed_W.map (Proc.devRef (τ := τ) .tc)).toFinset := by
  unfold opsNeed; simp only [List.Forall]
  repeat' apply And.intro
  all_goals
    simp only [nullary_writes, unary_writes, binary_writes, ternary_writes, reshape_writes, Finset.singleton_subset_iff, List.mem_toFinset]
    exact List.mem_map_of_mem (by decide)
/-- A reference `opsNeed` does not write keeps its contents through it. -/
theorem opsNeed_keep (W : Valuation τ sig (Elt F)) (r : Ref sig .tc) (h : r ∉ opsNeed_W) :
    after opsNeed W (no_index (Proc.devRef .tc r)) = W (Proc.devRef .tc r) :=
  after_of_writes_sub opsNeed W opsNeed_writes h

/-- The references `opsHid1` writes. -/
abbrev opsHid1_W : List (Ref sig .tc) := [main_v28, main_v29, main_v30, main_v31, main_v32]
theorem opsHid1_writes : (opsHid1 : List (HloOp τ sig (Elt F))).Forall fun op => op.writes ⊆ (opsHid1_W.map (Proc.devRef (τ := τ) .tc)).toFinset := by
  unfold opsHid1; simp only [List.Forall]
  repeat' apply And.intro
  all_goals
    simp only [nullary_writes, unary_writes, binary_writes, ternary_writes, reshape_writes, Finset.singleton_subset_iff, List.mem_toFinset]
    exact List.mem_map_of_mem (by decide)
/-- A reference `opsHid1` does not write keeps its contents through it. -/
theorem opsHid1_keep (W : Valuation τ sig (Elt F)) (r : Ref sig .tc) (h : r ∉ opsHid1_W) :
    after opsHid1 W (no_index (Proc.devRef .tc r)) = W (Proc.devRef .tc r) :=
  after_of_writes_sub opsHid1 W opsHid1_writes h

/-- The references `opsNorm1` writes. -/
abbrev opsNorm1_W : List (Ref sig .tc) := [main_cst, main_v33, main_cst_3, main_v34, main_v35, main_v36, main_v37, main_v38, main_v39, main_cst_4, main_v40, main_cst_5, main_v41, main_v42, main_v43, main_v44, main_v45, main_cst_6, main_v46, main_v47, main_v48, main_v49, main_v50, main_v51, main_v52, main_v53, main_v54, main_v55, main_v56, main_v57]
theorem opsNorm1_writes : (opsNorm1 : List (HloOp τ sig (Elt F))).Forall fun op => op.writes ⊆ (opsNorm1_W.map (Proc.devRef (τ := τ) .tc)).toFinset := by
  unfold opsNorm1; simp only [List.Forall]
  repeat' apply And.intro
  all_goals
    simp only [nullary_writes, unary_writes, binary_writes, ternary_writes, reshape_writes, Finset.singleton_subset_iff, List.mem_toFinset]
    exact List.mem_map_of_mem (by decide)
/-- A reference `opsNorm1` does not write keeps its contents through it. -/
theorem opsNorm1_keep (W : Valuation τ sig (Elt F)) (r : Ref sig .tc) (h : r ∉ opsNorm1_W) :
    after opsNorm1 W (no_index (Proc.devRef .tc r)) = W (Proc.devRef .tc r) :=
  after_of_writes_sub opsNorm1 W opsNorm1_writes h

/-- The references `opsMsg` writes. -/
abbrev opsMsg_W : List (Ref sig .tc) := [main_cst_7, main_v58, main_v59, main_cst_8, main_v60, main_v61, main_v62, main_v63, main_v64, main_v65, main_v66, main_v67, main_v68, main_cst_9, main_v69, main_v70, main_v71]
theorem opsMsg_writes : (opsMsg : List (HloOp τ sig (Elt F))).Forall fun op => op.writes ⊆ (opsMsg_W.map (Proc.devRef (τ := τ) .tc)).toFinset := by
  unfold opsMsg; simp only [List.Forall]
  repeat' apply And.intro
  all_goals
    simp only [nullary_writes, unary_writes, binary_writes, ternary_writes, reshape_writes, Finset.singleton_subset_iff, List.mem_toFinset]
    exact List.mem_map_of_mem (by decide)
/-- A reference `opsMsg` does not write keeps its contents through it. -/
theorem opsMsg_keep (W : Valuation τ sig (Elt F)) (r : Ref sig .tc) (h : r ∉ opsMsg_W) :
    after opsMsg W (no_index (Proc.devRef .tc r)) = W (Proc.devRef .tc r) :=
  after_of_writes_sub opsMsg W opsMsg_writes h

/-- The references `opsHid2` writes. -/
abbrev opsHid2_W : List (Ref sig .tc) := [main_v72, main_v73, main_v74, main_v75, main_v76]
theorem opsHid2_writes : (opsHid2 : List (HloOp τ sig (Elt F))).Forall fun op => op.writes ⊆ (opsHid2_W.map (Proc.devRef (τ := τ) .tc)).toFinset := by
  unfold opsHid2; simp only [List.Forall]
  repeat' apply And.intro
  all_goals
    simp only [nullary_writes, unary_writes, binary_writes, ternary_writes, reshape_writes, Finset.singleton_subset_iff, List.mem_toFinset]
    exact List.mem_map_of_mem (by decide)
/-- A reference `opsHid2` does not write keeps its contents through it. -/
theorem opsHid2_keep (W : Valuation τ sig (Elt F)) (r : Ref sig .tc) (h : r ∉ opsHid2_W) :
    after opsHid2 W (no_index (Proc.devRef .tc r)) = W (Proc.devRef .tc r) :=
  after_of_writes_sub opsHid2 W opsHid2_writes h

/-- The references `opsNorm2` writes. -/
abbrev opsNorm2_W : List (Ref sig .tc) := [main_cst_10, main_v77, main_cst_11, main_v78, main_v79, main_v80, main_v81, main_v82, main_v83, main_cst_12, main_v84, main_cst_13, main_v85, main_v86, main_v87, main_v88, main_v89, main_cst_14, main_v90, main_v91, main_v92, main_v93, main_v94, main_v95, main_v96, main_v97, main_v98, main_v99, main_v100, main_v101]
theorem opsNorm2_writes : (opsNorm2 : List (HloOp τ sig (Elt F))).Forall fun op => op.writes ⊆ (opsNorm2_W.map (Proc.devRef (τ := τ) .tc)).toFinset := by
  unfold opsNorm2; simp only [List.Forall]
  repeat' apply And.intro
  all_goals
    simp only [nullary_writes, unary_writes, binary_writes, ternary_writes, reshape_writes, Finset.singleton_subset_iff, List.mem_toFinset]
    exact List.mem_map_of_mem (by decide)
/-- A reference `opsNorm2` does not write keeps its contents through it. -/
theorem opsNorm2_keep (W : Valuation τ sig (Elt F)) (r : Ref sig .tc) (h : r ∉ opsNorm2_W) :
    after opsNorm2 W (no_index (Proc.devRef .tc r)) = W (Proc.devRef .tc r) :=
  after_of_writes_sub opsNorm2 W opsNorm2_writes h

/-- The references `opsOut` writes. -/
abbrev opsOut_W : List (Ref sig .tc) := [main_cst_15, main_v102, main_v103, main_cst_16, main_v104, main_v105, main_v106, main_v107, main_v108, main_v109, main_v110, main_v111, main_v112]
theorem opsOut_writes : (opsOut : List (HloOp τ sig (Elt F))).Forall fun op => op.writes ⊆ (opsOut_W.map (Proc.devRef (τ := τ) .tc)).toFinset := by
  unfold opsOut; simp only [List.Forall]
  repeat' apply And.intro
  all_goals
    simp only [nullary_writes, unary_writes, binary_writes, ternary_writes, reshape_writes, Finset.singleton_subset_iff, List.mem_toFinset]
    exact List.mem_map_of_mem (by decide)
/-- A reference `opsOut` does not write keeps its contents through it. -/
theorem opsOut_keep (W : Valuation τ sig (Elt F)) (r : Ref sig .tc) (h : r ∉ opsOut_W) :
    after opsOut W (no_index (Proc.devRef .tc r)) = W (Proc.devRef .tc r) :=
  after_of_writes_sub opsOut W opsOut_writes h

end Cert.ReferenceIdeal.HandRun

end
-- ==== Proof.RefStages.lean ====
/-
  The reference computation as pure functions of its argument arrays, floats read as extended reals,
  cut into named stages: the two index vectors of the ordered pairs, the edge rows, then for each of the
  two perceptrons its first layer, the column means and variances of the batch normalisation, the
  normalised and activated hidden rows and the second layer; between the perceptrons the sum of the
  messages over the partner axis and the object rows. Each stage is the composition of the array
  operations that compute it, over explicit operands.
-/
import proofs.«134035_j84430467104804_1_alg».proof.ReferenceIdeal
import Idealize.ShloMosaic.PureOps.Ideal

noncomputable section

namespace Cert.RefStages

open Cert.ReferenceIdeal Idealize.ShloMosaic Idealize.SL.Sem Idealize.ShloMosaic.StableHlo
open Cert.ReferenceIdeal.Facts₀

variable [Cert.ReferenceIdeal.Facts₀]

/-- A float array of the given shape, a float an extended real; an array of 32-bit integer words. -/
abbrev FArr (s : Shape) : Type := FVec Ideal s .f32
abbrev IArr (s : Shape) : Type := IVec s 32

/-! ## The index vectors of the 1024 ordered pairs -/

/-- Position 32·i + j holds i (the row index of a 32 × 32 table, flattened). -/
def srcFlat : IArr S1024 :=
  shapeCast _ (broadcastInDim S32x32 ![0] bcast_S32_S32x32_0 (iotaInDim S32 32 0 : IArr S32) : IArr S32x32) shapeCasts_S32x32_S1024

/-- Position 32·i + j holds j (the column index of the table, flattened). -/
def tgtFlat : IArr S1024 :=
  shapeCast _ (broadcastInDim S32x32 ![0, 1] bcast_S1x32_S32x32_0_1
    (shapeCast _ (iotaInDim S32 32 0 : IArr S32) shapeCasts_S32_S1x32 : IArr S1x32) : IArr S32x32) shapeCasts_S32x32_S1024

/-- A negative index counts from the end: v + 32 where v < 0, else v; as a column of start indices. -/
def wrapIx (v : IArr S1024) : IArr S1024x1 :=
  broadcastInDim S1024x1 ![0] bcast_S1024_S1024x1_0
    (select (cmpi .slt v (broadcastInDim S1024 ![] bcast_S_S1024 (constantI S_ 32 0#32 : IArr S_) : IArr S1024))
      (addi v (broadcastInDim S1024 ![] bcast_S_S1024 (constantI S_ 32 32#32 : IArr S_) : IArr S1024)) v : IArr S1024)

def srcIx : IArr S1024x1 := wrapIx srcFlat
def tgtIx : IArr S1024x1 := wrapIx tgtFlat

/-! ## The edge rows -/

/-- The edge weights along a new trailing axis, repeated over the 128 features. -/
def edgeB (a1 : FArr S256x1024) : FArr S256x1024x128 :=
  broadcastInDim S256x1024x128 ![0, 1, 2] bcast_S256x1024x1_S256x1024x128_0_1_2
    (broadcastInDim S256x1024x1 ![0, 1] bcast_S256x1024_S256x1024x1_0_1 a1 : FArr S256x1024x1)

/-- The objects' features taken at a column of object indices, times the edge weights. -/
def side (ix : IArr S1024x1) (a0 : FArr S256x32x128) (a1 : FArr S256x1024) : FArr S256x1024x128 :=
  mulf (Host.gather gather_S256x32x128_S1024x1_S256x1024x128_02_1_n_n_1_1_2561128 a0 ix : FArr S256x1024x128) (edgeB a1)

/-- The 262144 edge rows: the weighted source features then the weighted target features. -/
def need (a0 : FArr S256x32x128) (a1 : FArr S256x1024) : FArr S262144x256 :=
  shapeCast _ (concatenate S256x1024x256 2 [⟨S256x1024x128, side srcIx a0 a1⟩, ⟨S256x1024x128, side tgtIx a0 a1⟩]
    concatenates_S256x1024x128_S256x1024x128_S256x1024x256_d2 : FArr S256x1024x256) shapeCasts_S256x1024x256_S262144x256

/-! ## The message perceptron (262144 rows) -/

/-- A vector of 256 entries as every row of a 262144 × 256 array. -/
def rows1 (v : FArr S256) : FArr S262144x256 :=
  broadcastInDim S262144x256 ![0, 1] bcast_S1x256_S262144x256_0_1 (broadcastInDim S1x256 ![1] bcast_S256_S1x256_1 v : FArr S1x256)

/-- First layer: rows times the transposed weight, plus the bias. -/
def lin1 (X : FArr S262144x256) (w : FArr S256x256) (b : FArr S256) : FArr S262144x256 :=
  addf (Host.dotGeneral dot_S262144x256_S256x256_S262144x256_1_0_0_1_n_n none X
    (transpose S256x256 [1, 0] w transposes_S256x256_S256x256_1_0 : FArr S256x256) : FArr S262144x256) (rows1 b)

def hid1 (a0 : FArr S256x32x128) (a1 : FArr S256x1024) (a2 : FArr S256x256) (a3 : FArr S256) : FArr S262144x256 :=
  lin1 (need a0 a1) a2 a3

/-- Column sums over the 262144 rows, from the zero word. -/
def colSum1 (X : FArr S262144x256) : FArr S256 :=
  Host.reduceAdd X (constant S_ .f32 0x00000000#32 : FArr S_) reducesTo_S262144x256_S256_d0 h_S_

/-- Column means: the column sums over the row count. -/
def meanOf1 (X : FArr S262144x256) : FArr S256 :=
  Host.divf (colSum1 X) (broadcastInDim S256 ![] bcast_S_S256 (constant S_ .f32 0x48800000#32 : FArr S_) : FArr S256)

/-- The deviations of the entries from their column means. -/
def dev1 (X : FArr S262144x256) : FArr S262144x256 := subf X (rows1 (meanOf1 X))

/-- Column variances: the means of the squared deviations. -/
def varOf1 (X : FArr S262144x256) : FArr S256 :=
  Host.divf (colSum1 (mulf (dev1 X) (dev1 X)))
    (broadcastInDim S256 ![] bcast_S_S256 (constant S_ .f32 0x48800000#32 : FArr S_) : FArr S256)

/-- The reciprocal square roots of the column variances plus epsilon. -/
def scale1 (X : FArr S262144x256) : FArr S256 :=
  Host.rsqrt (addf (varOf1 X) (broadcastInDim S256 ![] bcast_S_S256 (constant S_ .f32 0x3727C5AC#32 : FArr S_) : FArr S256) : FArr S256)

/-- Batch normalisation: deviations times the scale, times gamma, plus beta. -/
def bn1 (X : FArr S262144x256) (g bt : FArr S256) : FArr S262144x256 :=
  addf (mulf (mulf (dev1 X) (rows1 (scale1 X))) (rows1 g)) (rows1 bt)

/-- The leaky activation: y where y ≥ 0, slope · y elsewhere. -/
def lk1 (Y : FArr S262144x256) : FArr S262144x256 :=
  select (cmpf .oge Y (broadcastInDim S262144x256 ![] bcast_S_S262144x256 (constant S_ .f32 0x00000000#32 : FArr S_) : FArr S262144x256))
    Y (mulf (broadcastInDim S262144x256 ![] bcast_S_S262144x256 (constant S_ .f32 0x3C23D70A#32 : FArr S_) : FArr S262144x256) Y)

/-- Second layer of the message perceptron. -/
def msgs (Y : FArr S262144x256) (a6 : FArr S128x256) (a7 : FArr S128) : FArr S262144x128 :=
  addf (Host.dotGeneral dot_S262144x256_S256x128_S262144x128_1_0_0_1_n_n none Y
    (transpose S256x128 [1, 0] a6 transposes_S128x256_S256x128_1_0 : FArr S256x128) : FArr S262144x128)
    (broadcastInDim S262144x128 ![0, 1] bcast_S1x128_S262144x128_0_1 (broadcastInDim S1x128 ![1] bcast_S128_S1x128_1 a7 : FArr S1x128))

/-! ## Between the perceptrons -/

/-- The messages of each object summed over its 32 partners. -/
def aggr (M : FArr S262144x128) : FArr S256x32x128 :=
  Host.reduceAdd (shapeCast _ M shapeCasts_S262144x128_S256x32x32x128 : FArr S256x32x32x128)
    (constant S_ .f32 0x00000000#32 : FArr S_) reducesTo_S256x32x32x128_S256x32x128_d2 h_S_

/-- The 8192 object rows: the object's features then its summed messages. -/
def smr (a0 A : FArr S256x32x128) : FArr S8192x256 :=
  shapeCast _ (concatenate S256x32x256 2 [⟨S256x32x128, a0⟩, ⟨S256x32x128, A⟩]
    concatenates_S256x32x128_S256x32x128_S256x32x256_d2 : FArr S256x32x256) shapeCasts_S256x32x256_S8192x256

/-! ## The object perceptron (8192 rows) -/

def rows2 (v : FArr S256) : FArr S8192x256 :=
  broadcastInDim S8192x256 ![0, 1] bcast_S1x256_S8192x256_0_1 (broadcastInDim S1x256 ![1] bcast_S256_S1x256_1 v : FArr S1x256)

def hid2 (S : FArr S8192x256) (a8 : FArr S256x256) (a9 : FArr S256) : FArr S8192x256 :=
  addf (Host.dotGeneral dot_S8192x256_S256x256_S8192x256_1_0_0_1_n_n none S
    (transpose S256x256 [1, 0] a8 transposes_S256x256_S256x256_1_0 : FArr S256x256) : FArr S8192x256) (rows2 a9)

def colSum2 (X : FArr S8192x256) : FArr S256 :=
  Host.reduceAdd X (constant S_ .f32 0x00000000#32 : FArr S_) reducesTo_S8192x256_S256_d0 h_S_

def meanOf2 (X : FArr S8192x256) : FArr S256 :=
  Host.divf (colSum2 X) (broadcastInDim S256 ![] bcast_S_S256 (constant S_ .f32 0x46000000#32 : FArr S_) : FArr S256)

def dev2 (X : FArr S8192x256) : FArr S8192x256 := subf X (rows2 (meanOf2 X))

def varOf2 (X : FArr S8192x256) : FArr S256 :=
  Host.divf (colSum2 (mulf (dev2 X) (dev2 X)))
    (broadcastInDim S256 ![] bcast_S_S256 (constant S_ .f32 0x46000000#32 : FArr S_) : FArr S256)

def scale2 (X : FArr S8192x256) : FArr S256 :=
  Host.rsqrt (addf (varOf2 X) (broadcastInDim S256 ![] bcast_S_S256 (constant S_ .f32 0x3727C5AC#32 : FArr S_) : FArr S256) : FArr S256)

def bn2 (X : FArr S8192x256) (g bt : FArr S256) : FArr S8192x256 :=
  addf (mulf (mulf (dev2 X) (rows2 (scale2 X))) (rows2 g)) (rows2 bt)

def lk2 (Y : FArr S8192x256) : FArr S8192x256 :=
  select (cmpf .oge Y (broadcastInDim S8192x256 ![] bcast_S_S8192x256 (constant S_ .f32 0x00000000#32 : FArr S_) : FArr S8192x256))
    Y (mulf (broadcastInDim S8192x256 ![] bcast_S_S8192x256 (constant S_ .f32 0x3C23D70A#32 : FArr S_) : FArr S8192x256) Y)

/-- Second layer of the object perceptron, as a 256 × 32 × 128 array. -/
def outr (Y : FArr S8192x256) (a12 : FArr S128x256) (a13 : FArr S128) : FArr S256x32x128 :=
  shapeCast _ (addf (Host.dotGeneral dot_S8192x256_S256x128_S8192x128_1_0_0_1_n_n none Y
      (transpose S256x128 [1, 0] a12 transposes_S128x256_S256x128_1_0 : FArr S256x128) : FArr S8192x128)
    (broadcastInDim S8192x128 ![0, 1] bcast_S1x128_S8192x128_0_1 (broadcastInDim S1x128 ![1] bcast_S128_S1x128_1 a13 : FArr S1x128)) : FArr S8192x128)
    shapeCasts_S8192x128_S256x32x128

/-! ## The whole computation -/

/-- The activated hidden rows of the message perceptron. -/
def actv1 (a0 : FArr S256x32x128) (a1 : FArr S256x1024) (a2 : FArr S256x256) (a3 a4 a5 : FArr S256) : FArr S262144x256 :=
  lk1 (bn1 (hid1 a0 a1 a2 a3) a4 a5)

/-- The object rows. -/
def objRows (a0 : FArr S256x32x128) (a1 : FArr S256x1024) (a2 : FArr S256x256) (a3 a4 a5 : FArr S256)
    (a6 : FArr S128x256) (a7 : FArr S128) : FArr S8192x256 :=
  smr a0 (aggr (msgs (actv1 a0 a1 a2 a3 a4 a5) a6 a7))

/-- The reference's result. -/
def refOut (a0 : FArr S256x32x128) (a1 : FArr S256x1024) (a2 : FArr S256x256) (a3 a4 a5 : FArr S256)
    (a6 : FArr S128x256) (a7 : FArr S128) (a8 : FArr S256x256) (a9 a10 a11 : FArr S256)
    (a12 : FArr S128x256) (a13 : FArr S128) : FArr S256x32x128 :=
  outr (lk2 (bn2 (hid2 (objRows a0 a1 a2 a3 a4 a5 a6 a7) a8 a9) a10 a11)) a12 a13

end Cert.RefStages

end
-- ==== Proof.RefRunA.lean ====
/-
  The edge rows read off the first stretch of the reference: from any contents of the buffers, the stretch leaves
  in its last buffer the weighted source and target features of the 262144 ordered pairs, side by side, as a
  function of the state and the edge weights alone (the index vectors are constants of the program).
-/
import proofs.«134035_j84430467104804_1_alg».proof.Proof.RefOps
import proofs.«134035_j84430467104804_1_alg».proof.Proof.RefStages

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.RefStages

/-- The edge rows after the first stretch. -/
theorem opsNeed_out (W : Valuation τ sig (Elt Ideal)) :
    after (opsNeed (F := Ideal)) W (no_index (Proc.devRef .tc main_v27))
      = need (W (Proc.devRef .tc main_arg0)) (W (Proc.devRef .tc main_arg1)) := by
  unfold opsNeed
  after_results_simp
  rfl

end Cert.ReferenceIdeal.HandRun

end
-- ==== Proof.RefRunB.lean ====
/-
  The message perceptron's first layer read off its five operations: the rows held in the edge-row buffer times
  the transposed weight, plus the bias on every row.
-/
import proofs.«134035_j84430467104804_1_alg».proof.Proof.RefOps
import proofs.«134035_j84430467104804_1_alg».proof.Proof.RefStages

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.RefStages

/-- The first hidden rows after the stretch, from the edge rows before it. -/
theorem opsHid1_out (W : Valuation τ sig (Elt Ideal)) :
    after (opsHid1 (F := Ideal)) W (no_index (Proc.devRef .tc main_v32))
      = lin1 (W (Proc.devRef .tc main_v27)) (W (Proc.devRef .tc main_arg2)) (W (Proc.devRef .tc main_arg3)) := by
  unfold opsHid1
  after_results_simp
  rfl

end Cert.ReferenceIdeal.HandRun

end
-- ==== Proof.RefRunC.lean ====
/-
  The first normalisation read off its thirty operations: the column means and variances of the hidden rows are
  computed into buffers of their own and read back twice; the result is the normalised, scaled and shifted rows
  as a function of the hidden rows and the two parameter vectors.
-/
import proofs.«134035_j84430467104804_1_alg».proof.Proof.RefOps
import proofs.«134035_j84430467104804_1_alg».proof.Proof.RefStages

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.RefStages

/-- The normalised rows after the stretch, from the hidden rows before it. -/
theorem opsNorm1_out (W : Valuation τ sig (Elt Ideal)) :
    after (opsNorm1 (F := Ideal)) W (no_index (Proc.devRef .tc main_v57))
      = bn1 (W (Proc.devRef .tc main_v32)) (W (Proc.devRef .tc main_arg4)) (W (Proc.devRef .tc main_arg5)) := by
  unfold opsNorm1
  after_results_simp
  rfl

end Cert.ReferenceIdeal.HandRun

end
-- ==== Proof.RefRunD.lean ====
/-
  From the normalised rows to the node inputs: the leaky rectifier, the second layer of the message perceptron,
  the sum of each node's 32 incoming messages, and the node's state beside that sum, flattened to 8192 rows.
-/
import proofs.«134035_j84430467104804_1_alg».proof.Proof.RefOps
import proofs.«134035_j84430467104804_1_alg».proof.Proof.RefStages

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.RefStages

/-- The node inputs after the stretch, from the normalised rows before it. -/
theorem opsMsg_out (W : Valuation τ sig (Elt Ideal)) :
    after (opsMsg (F := Ideal)) W (no_index (Proc.devRef .tc main_v71))
      = smr (W (Proc.devRef .tc main_arg0)) (aggr (msgs (lk1 (W (Proc.devRef .tc main_v57))) (W (Proc.devRef .tc main_arg6)) (W (Proc.devRef .tc main_arg7)))) := by
  unfold opsMsg
  after_results_simp
  rfl

end Cert.ReferenceIdeal.HandRun

end
-- ==== Proof.RefRunE.lean ====
/-
  The update perceptron's first layer read off its five operations.
-/
import proofs.«134035_j84430467104804_1_alg».proof.Proof.RefOps
import proofs.«134035_j84430467104804_1_alg».proof.Proof.RefStages

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.RefStages

/-- The second hidden rows after the stretch, from the node inputs before it. -/
theorem opsHid2_out (W : Valuation τ sig (Elt Ideal)) :
    after (opsHid2 (F := Ideal)) W (no_index (Proc.devRef .tc main_v76))
      = hid2 (W (Proc.devRef .tc main_v71)) (W (Proc.devRef .tc main_arg8)) (W (Proc.devRef .tc main_arg9)) := by
  unfold opsHid2
  after_results_simp
  rfl

end Cert.ReferenceIdeal.HandRun

end
-- ==== Proof.RefRunF.lean ====
/-
  The second normalisation read off its thirty operations, as the first over 8192 rows.
-/
import proofs.«134035_j84430467104804_1_alg».proof.Proof.RefOps
import proofs.«134035_j84430467104804_1_alg».proof.Proof.RefStages

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.RefStages

/-- The normalised rows after the stretch, from the hidden rows before it. -/
theorem opsNorm2_out (W : Valuation τ sig (Elt Ideal)) :
    after (opsNorm2 (F := Ideal)) W (no_index (Proc.devRef .tc main_v101))
      = bn2 (W (Proc.devRef .tc main_v76)) (W (Proc.devRef .tc main_arg10)) (W (Proc.devRef .tc main_arg11)) := by
  unfold opsNorm2
  after_results_simp
  rfl

end Cert.ReferenceIdeal.HandRun

end
-- ==== Proof.RefRunG.lean ====
/-
  The last stretch: the leaky rectifier, the update perceptron's second layer and the result's shape.
-/
import proofs.«134035_j84430467104804_1_alg».proof.Proof.RefOps
import proofs.«134035_j84430467104804_1_alg».proof.Proof.RefStages

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.RefStages

/-- The result after the stretch, from the normalised rows before it. -/
theorem opsOut_out (W : Valuation τ sig (Elt Ideal)) :
    after (opsOut (F := Ideal)) W (no_index (Proc.devRef .tc main_v112))
      = outr (lk2 (W (Proc.devRef .tc main_v101))) (W (Proc.devRef .tc main_arg12)) (W (Proc.devRef .tc main_arg13)) := by
  unfold opsOut
  after_results_simp
  rfl

end Cert.ReferenceIdeal.HandRun

end
-- ==== Proof.LibAfterAppend.lean ====
/-
  Host operations run one list after the other: the buffer contents after `l₁ ++ l₂` are the contents after `l₂` from
  the contents after `l₁` (`after_append`), so a long stretch of host operations can be read in pieces cut at any
  position (`after_take_drop`) — each piece's result stated once over an arbitrary valuation, the pieces composed by
  rewriting. For any topology, signature and value type.
-/
import Idealize.ShloMosaic.Lib.StableHlo.Run

noncomputable section

namespace Cert.LibAfterAppend

open Idealize.ShloMosaic Idealize.ShloMosaic.StableHlo

variable {τ : Topo} {sig : RefSig} {Val : EltTy → Type}

/-- The contents after two lists of operations run in turn. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A list of operations cut at position `n`. -/
theorem after_take_drop (n : Nat) (l : List (HloOp τ sig Val)) (V : Valuation τ sig Val) :
    after l V = after (l.drop n) (after (l.take n) V) := by
  rw [← after_append, List.take_append_drop]

end Cert.LibAfterAppend

end
-- ==== Proof.RefRun.lean ====
/-
  The reference's run. The seven stretches are run one after the other: each stretch's result is the stage of the
  mathematics it computes, of the buffers it reads; a buffer passes unchanged through every stretch that does not
  write it. Chained, the result buffer ends at the staged composition of the fourteen argument arrays, and no
  argument is ever written. Every weakly fair execution of the program terminates in such a state.
-/
import proofs.«134035_j84430467104804_1_alg».proof.Proof.RefRunA
import proofs.«134035_j84430467104804_1_alg».proof.Proof.RefRunB
import proofs.«134035_j84430467104804_1_alg».proof.Proof.RefRunC
import proofs.«134035_j84430467104804_1_alg».proof.Proof.RefRunD
import proofs.«134035_j84430467104804_1_alg».proof.Proof.RefRunE
import proofs.«134035_j84430467104804_1_alg».proof.Proof.RefRunF
import proofs.«134035_j84430467104804_1_alg».proof.Proof.RefRunG
import proofs.«134035_j84430467104804_1_alg».proof.Proof.LibAfterAppend

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.RefStages

namespace Fx

/-- The program as the seven stretches run in turn. -/
theorem after_ops (V : Valuation τ sig (Elt Ideal)) :
    after (ops (F := Ideal)) V
      = after opsOut (after opsNorm2 (after opsHid2 (after opsMsg (after opsNorm1 (after opsHid1 (after opsNeed V)))))) := by
  unfold ops
  simp only [Cert.LibAfterAppend.after_append]

/-- A reference none of the stretches writes ends as it began. -/
theorem after_ops_keep (V : Valuation τ sig (Elt Ideal)) (r : Ref sig .tc)
    (h0 : r ∉ opsNeed_W) (h1 : r ∉ opsHid1_W) (h2 : r ∉ opsNorm1_W) (h3 : r ∉ opsMsg_W) (h4 : r ∉ opsHid2_W)
    (h5 : r ∉ opsNorm2_W) (h6 : r ∉ opsOut_W) :
    after (ops (F := Ideal)) V (Proc.devRef .tc r) = V (Proc.devRef .tc r) := by
  rw [after_ops]
  exact (opsOut_keep _ r h6).trans ((opsNorm2_keep _ r h5).trans ((opsHid2_keep _ r h4).trans ((opsMsg_keep _ r h3).trans ((opsNorm1_keep _ r h2).trans ((opsHid1_keep _ r h1).trans (opsNeed_keep _ r h0))))))

end Fx

/-- The result buffer after the whole program: the staged composition of the argument arrays. -/
theorem after_ops_out (V : Valuation τ sig (Elt Ideal)) :
    after (ops (F := Ideal)) V (Proc.devRef .tc main_v112)
      = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [Fx.after_ops]
  simp (disch := decide) only [opsOut_out, opsNorm2_out, opsHid2_out, opsMsg_out, opsNorm1_out, opsHid1_out, opsNeed_out,
    opsOut_keep, opsNorm2_keep, opsHid2_keep, opsMsg_keep, opsNorm1_keep, opsHid1_keep, opsNeed_keep]
  rfl

/-- From any memory with zero counters, every weakly fair execution of the reference terminates with its result at
    the staged composition of the arguments' launch contents, and every argument array as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v112)
          = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run (defs (F := Ideal)) _ _).mono (fun _ h c => ⟨(h c main_v112).trans (after_ops_out _),
      (h c main_arg0).trans (Fx.after_ops_keep _ main_arg0 (by decide) (by decide) (by decide) (by decide) (by decide) (by decide) (by decide)),
      (h c main_arg1).trans (Fx.after_ops_keep _ main_arg1 (by decide) (by decide) (by decide) (by decide) (by decide) (by decide) (by decide)),
      (h c main_arg2).trans (Fx.after_ops_keep _ main_arg2 (by decide) (by decide) (by decide) (by decide) (by decide) (by decide) (by decide)),
      (h c main_arg3).trans (Fx.after_ops_keep _ main_arg3 (by decide) (by decide) (by decide) (by decide) (by decide) (by decide) (by decide)),
      (h c main_arg4).trans (Fx.after_ops_keep _ main_arg4 (by decide) (by decide) (by decide) (by decide) (by decide) (by decide) (by decide)),
      (h c main_arg5).trans (Fx.after_ops_keep _ main_arg5 (by decide) (by decide) (by decide) (by decide) (by decide) (by decide) (by decide)),
      (h c main_arg6).trans (Fx.after_ops_keep _ main_arg6 (by decide) (by decide) (by decide) (by decide) (by decide) (by decide) (by decide)),
      (h c main_arg7).trans (Fx.after_ops_keep _ main_arg7 (by decide) (by decide) (by decide) (by decide) (by decide) (by decide) (by decide)),
      (h c main_arg8).trans (Fx.after_ops_keep _ main_arg8 (by decide) (by decide) (by decide) (by decide) (by decide) (by decide) (by decide)),
      (h c main_arg9).trans (Fx.after_ops_keep _ main_arg9 (by decide) (by decide) (by decide) (by decide) (by decide) (by decide) (by decide)),
      (h c main_arg10).trans (Fx.after_ops_keep _ main_arg10 (by decide) (by decide) (by decide) (by decide) (by decide) (by decide) (by decide)),
      (h c main_arg11).trans (Fx.after_ops_keep _ main_arg11 (by decide) (by decide) (by decide) (by decide) (by decide) (by decide) (by decide)),
      (h c main_arg12).trans (Fx.after_ops_keep _ main_arg12 (by decide) (by decide) (by decide) (by decide) (by decide) (by decide) (by decide)),
      (h c main_arg13).trans (Fx.after_ops_keep _ main_arg13 (by decide) (by decide) (by decide) (by decide) (by decide) (by decide) (by decide))⟩)
    (run_seq scopedRefs_eq scopedSems_eq defs main (fun _ => ops) main_eq (fun _ => ops_sub) m ρ
      (fun _ => List.forall_iff_forall_mem.mp ops_fresh))

end Cert.ReferenceIdeal.HandRun

end
-- ==== Proof.LibTake.lean ====
/-
  General lemmas: what `x[idx]` lowers to, read at an index. A gather of a vector, or of the rows of a matrix, at a
  column of start indices [E, 1] is the operand at the start index read signed and clamped into the operand's
  rows; and the two broadcasts that carry a per-row vector to a column and a column across the columns.
-/
import Idealize.ShloMosaic.Lib.ValueIdx
import Idealize.ShloMosaic.Lib.Pipeline.Value

noncomputable section

namespace Cert.LibTake

open Idealize.ShloMosaic Idealize.ShloMosaic.ValueIdx

variable {α : Type}

/-- The dimension numbers of `x[idx]` for a vector `x` of `N` entries and a column of `E` start indices. -/
abbrev vecTake (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ :=
  { offsetDims := [], collapsedSliceDims := [0], operandBatchingDims := [], startIndicesBatchingDims := [],
    startIndexMap := [0], indexVectorDim := 1, sliceSizes := ![1], wf := wf }

/-- Entry `e` of the gather is the vector at start index `idx[e, 0]`, read signed and clamped into `[0, N − 1]`. -/
theorem vecTake_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (vecTake N E wf) x idx y
      = x (ix1 ⟨min (idx (ix2 (y 0) (⟨0, Nat.one_pos⟩ : Fin 1))).toInt.toNat (N - 1), by omega⟩) := by
  unfold Host.gather
  congr 1
  funext a
  obtain rfl : a = 0 := Subsingleton.elim _ _
  refine Fin.ext ?_
  show (vecTake N E wf).start y idx 0 + (vecTake N E wf).batchCoord y 0 + (vecTake N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecTake N E wf).startIndexMap from List.mem_singleton.mpr rfl)]
  have hsi : (vecTake N E wf).siIdx y ⟨List.idxOf (0 : Fin 1) (vecTake N E wf).startIndexMap,
      List.idxOf_lt_length_iff.2 (List.mem_singleton.mpr rfl)⟩ = ix2 (y 0) (⟨0, Nat.one_pos⟩ : Fin 1) := by
    funext b; refine Fin.ext ?_
    match b with
    | ⟨0, _⟩ => rfl
    | ⟨1, _⟩ => rfl
  rw [hsi]
  rfl

/-- The dimension numbers of `x[idx]` for a matrix `x` of `N` rows of `C` entries and a column of `E` start indices:
    whole rows are taken. -/
abbrev rowTake (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ :=
  { offsetDims := [1], collapsedSliceDims := [0], operandBatchingDims := [], startIndicesBatchingDims := [],
    startIndexMap := [0], indexVectorDim := 1, sliceSizes := ![1, C], wf := wf }

/-- Entry `(e, c)` of the gather is the matrix at row `idx[e, 0]` (read signed and clamped into `[0, N − 1]`),
    column `c`. -/
theorem rowTake_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (y : (⟨2, ![E, C]⟩ : Shape).Idx) :
    Host.gather (rowTake N C E wf) x idx y
      = x (ix2 ⟨min (idx (ix2 (y 0) (⟨0, Nat.one_pos⟩ : Fin 1))).toInt.toNat (N - 1), by omega⟩ (y 1)) := by
  unfold Host.gather
  congr 1
  funext a
  refine Fin.ext ?_
  match a with
  | ⟨0, _⟩ =>
    show (rowTake N C E wf).start y idx (0 : Fin 2) + (rowTake N C E wf).batchCoord y (0 : Fin 2)
      + (rowTake N C E wf).offCoord y (0 : Fin 2) = min (idx (ix2 (y 0) (⟨0, Nat.one_pos⟩ : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowTake N C E wf).startIndexMap from List.mem_singleton.mpr rfl)]
    have hsi : (rowTake N C E wf).siIdx y ⟨List.idxOf (0 : Fin 2) (rowTake N C E wf).startIndexMap,
        List.idxOf_lt_length_iff.2 (List.mem_singleton.mpr rfl)⟩ = ix2 (y 0) (⟨0, Nat.one_pos⟩ : Fin 1) := by
      funext b; refine Fin.ext ?_
      match b with
      | ⟨0, _⟩ => rfl
      | ⟨1, _⟩ => rfl
    rw [hsi]
    rfl
  | ⟨1, _⟩ =>
    show (rowTake N C E wf).start y idx (1 : Fin 2) + (rowTake N C E wf).batchCoord y (1 : Fin 2)
      + (rowTake N C E wf).offCoord y (1 : Fin 2) = (y 1).val
    have hs : (rowTake N C E wf).start y idx (1 : Fin 2) = 0 := by
      unfold GatherDims.start
      rw [dif_neg (show ¬ ((1 : Fin 2) ∈ ([0] : List (Fin 2))) from by decide)]
    rw [hs, GatherDims.batchCoord_eq_zero _ _ _ List.not_mem_nil]
    simp only [Nat.zero_add, Nat.add_zero]
    unfold GatherDims.offCoord
    rw [dif_pos ((GatherDims.mem_sKept _ _).mpr ⟨(show ¬ ((1 : Fin 2) ∈ ([0] : List (Fin 2))) from by decide), List.not_mem_nil⟩)]
    rfl

/-- A per-row vector carried to a column: entry `(e, u)` is the vector's entry `e`. -/
theorem bcastCol_apply {E : Nat} (h : (⟨1, ![E]⟩ : Shape).BroadcastsInDim ⟨2, ![E, 1]⟩ ![0])
    (v : (⟨1, ![E]⟩ : Shape).Idx → α) (e : Fin E) (u : Fin 1) :
    broadcastInDim ⟨2, ![E, 1]⟩ ![0] h v (ix2 e u) = v (ix1 e) := by
  unfold broadcastInDim
  congr 1
  funext a
  obtain rfl : a = 0 := Subsingleton.elim _ _
  refine Fin.ext ?_
  by_cases h1 : (⟨1, ![E]⟩ : Shape).size 0 = 1
  · rw [dif_pos h1]
    have : E = 1 := h1
    have := e.isLt
    show 0 = e.val
    omega
  · rw [dif_neg h1]; rfl

/-- A column carried across `C` columns: entry `(e, c)` is the column's entry `e`. -/
theorem bcastAcross_apply {E C : Nat} (h : (⟨2, ![E, 1]⟩ : Shape).BroadcastsInDim ⟨2, ![E, C]⟩ ![0, 1])
    (v : (⟨2, ![E, 1]⟩ : Shape).Idx → α) (e : Fin E) (c : Fin C) :
    broadcastInDim ⟨2, ![E, C]⟩ ![0, 1] h v (ix2 e c) = v (ix2 e (⟨0, Nat.one_pos⟩ : Fin 1)) := by
  unfold broadcastInDim
  congr 1
  funext a
  refine Fin.ext ?_
  match a with
  | ⟨0, _⟩ =>
    split
    · rename_i h1
      have hE : E = 1 := h1
      have := e.isLt
      show 0 = e.val
      omega
    · rfl
  | ⟨1, _⟩ =>
    split
    · rfl
    · rename_i h1
      exact absurd rfl h1

/-- A vector of `C` entries as one row: entry `(u, q)` is the vector's entry `q`. -/
theorem bcastRow_apply {C : Nat} (h : (⟨1, ![C]⟩ : Shape).BroadcastsInDim ⟨2, ![1, C]⟩ ![1])
    (v : (⟨1, ![C]⟩ : Shape).Idx → α) (u : Fin 1) (q : Fin C) :
    broadcastInDim ⟨2, ![1, C]⟩ ![1] h v (ix2 u q) = v (ix1 q) := by
  unfold broadcastInDim
  congr 1
  funext a
  obtain rfl : a = 0 := Subsingleton.elim _ _
  refine Fin.ext ?_
  split
  · rename_i h1
    have hC : C = 1 := h1
    have := q.isLt
    show 0 = q.val
    omega
  · rfl

/-- A row carried down `N` rows: entry `(r, q)` is the row's entry `q`. -/
theorem bcastDown_apply {N C : Nat} (h : (⟨2, ![1, C]⟩ : Shape).BroadcastsInDim ⟨2, ![N, C]⟩ ![0, 1])
    (v : (⟨2, ![1, C]⟩ : Shape).Idx → α) (r : Fin N) (q : Fin C) :
    broadcastInDim ⟨2, ![N, C]⟩ ![0, 1] h v (ix2 r q) = v (ix2 (⟨0, Nat.one_pos⟩ : Fin 1) q) := by
  unfold broadcastInDim
  congr 1
  funext a
  refine Fin.ext ?_
  match a with
  | ⟨0, _⟩ =>
    split
    · rfl
    · rename_i h1
      exact absurd rfl h1
  | ⟨1, _⟩ =>
    split
    · rename_i h1
      have hC : C = 1 := h1
      have := q.isLt
      show 0 = q.val
      omega
    · rfl

/-- A vector of `N` entries recast as a column: entry `(r, u)` is the vector's entry `r`. -/
theorem castCol_apply {N : Nat} (h : (⟨1, ![N]⟩ : Shape).ShapeCasts ⟨2, ![N, 1]⟩)
    (v : (⟨1, ![N]⟩ : Shape).Idx → α) (r : Fin N) (u : Fin 1) :
    shapeCast ⟨2, ![N, 1]⟩ v h (ix2 r u) = v (ix1 r) := by
  refine shapeCast_apply v h (ix2 r u) (ix1 r) ?_
  rw [Shape.rowMajor_val_two, Shape.rowMajor_val_one]
  show r.val = r.val * 1 + u.val
  have := u.isLt
  omega

/-- A vector of `C` entries recast as a row: entry `(u, q)` is the vector's entry `q`. -/
theorem castRow_apply {C : Nat} (h : (⟨1, ![C]⟩ : Shape).ShapeCasts ⟨2, ![1, C]⟩)
    (v : (⟨1, ![C]⟩ : Shape).Idx → α) (u : Fin 1) (q : Fin C) :
    shapeCast ⟨2, ![1, C]⟩ v h (ix2 u q) = v (ix1 q) := by
  refine shapeCast_apply v h (ix2 u q) (ix1 q) ?_
  rw [Shape.rowMajor_val_two, Shape.rowMajor_val_one]
  show q.val = u.val * C + q.val
  have := u.isLt
  have hu : u.val = 0 := by omega
  rw [hu]; omega

end Cert.LibTake

end
-- ==== Proof.LibBcastInDim.lean ====
/-
  The host's `broadcast_in_dim` in the four arrangements a row-wise reference uses, read as functions of the
  index: a scalar to any shape; a length-b array to one row and then down a rows; a length-a array to a column;
  a column across b columns.
-/
import Idealize.ShloMosaic.Lib.Pipeline.Value
import Idealize.ShloMosaic.Lib.ValueLayout

namespace Cert.LibBcastInDim

open Idealize.ShloMosaic Idealize.ShloMosaic.ValueIdx

variable {α : Type}

/-- A scalar broadcast to any shape holds the scalar everywhere. -/
theorem bid_scalar {t : Shape} (x : (⟨0, ![]⟩ : Shape).Idx → α)
    (h : (⟨0, ![]⟩ : Shape).BroadcastsInDim t (![] : Fin 0 → Fin t.rank)) :
    broadcastInDim t ![] h x = fun _ => x ix0 := by
  funext j
  exact broadcastInDim_apply _ h x j ix0 (fun a => a.elim0)

/-- A length-b array placed as one row and broadcast down a rows holds, at (p, c), its entry c. -/
theorem bid_row {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) :
    broadcastInDim ⟨2, ![a, b]⟩ ![0, 1] h2 (broadcastInDim ⟨2, ![1, b]⟩ ![1] h1 v) = fun i => v (ix1 (i 1)) := by
  funext i
  have hlt : (i 1).val < b := (i 1).isLt
  refine (broadcastInDim_apply _ h2 _ i (ix2 (0 : Fin 1) (i 1)) fun ax => ?_).trans
    (broadcastInDim_apply _ h1 v (ix2 (0 : Fin 1) (i 1)) (ix1 (i 1)) fun ax => ?_)
  · match ax with
    | ⟨0, _⟩ => rfl
    | ⟨1, _⟩ =>
      show (i 1).val = if b = 1 then 0 else (i 1).val
      split
      · omega
      · rfl
  · match ax with
    | ⟨0, _⟩ =>
      show (i 1).val = if b = 1 then 0 else (i 1).val
      split
      · omega
      · rfl

/-- A length-a array placed as a column holds, at (r, u), its entry r. -/
theorem bid_col {a : ℕ} (v : (⟨1, ![a]⟩ : Shape).Idx → α)
    (h : (⟨1, ![a]⟩ : Shape).BroadcastsInDim ⟨2, ![a, 1]⟩ (![0] : Fin 1 → Fin 2)) :
    broadcastInDim ⟨2, ![a, 1]⟩ ![0] h v = fun i => v (ix1 (i 0)) := by
  funext i
  have hlt : (i 0).val < a := (i 0).isLt
  refine broadcastInDim_apply _ h v i (ix1 (i 0)) fun ax => ?_
  match ax with
  | ⟨0, _⟩ =>
    show (i 0).val = if a = 1 then 0 else (i 0).val
    split
    · omega
    · rfl

/-- A column broadcast across b columns holds, at (r, c), the column's entry r. -/
theorem bid_across {a b : ℕ} (v : (⟨2, ![a, 1]⟩ : Shape).Idx → α)
    (h : (⟨2, ![a, 1]⟩ : Shape).BroadcastsInDim ⟨2, ![a, b]⟩ (![0, 1] : Fin 2 → Fin 2)) :
    broadcastInDim ⟨2, ![a, b]⟩ ![0, 1] h v = fun i => v (ix2 (i 0) (0 : Fin 1)) := by
  funext i
  have hlt : (i 0).val < a := (i 0).isLt
  refine broadcastInDim_apply _ h v i (ix2 (i 0) (0 : Fin 1)) fun ax => ?_
  match ax with
  | ⟨0, _⟩ =>
    show (i 0).val = if a = 1 then 0 else (i 0).val
    split
    · omega
    · rfl
  | ⟨1, _⟩ => rfl

end Cert.LibBcastInDim
-- ==== Proof.RefReadIx.lean ====
/-
  The two index vectors of the 1024 ordered pairs, read at an entry: at position 32·i + j the source vector holds
  i and the target vector holds j, as 32-bit words; both are in range, so the wrap of negative indices leaves
  them as they are and the gather's clamp is the identity on them.
-/
import proofs.«134035_j84430467104804_1_alg».proof.Proof.RefStages
import proofs.«134035_j84430467104804_1_alg».proof.Proof.Gen.ReferenceIdeal
import proofs.«134035_j84430467104804_1_alg».proof.Proof.Spec
import proofs.«134035_j84430467104804_1_alg».proof.Proof.LibTake
import proofs.«134035_j84430467104804_1_alg».proof.Proof.LibBcastInDim
import Idealize.ShloMosaic.Lib.ValueLayout

noncomputable section

namespace Cert.RefStages

open Cert.ReferenceIdeal Cert.ReferenceIdeal.Gen Idealize.ShloMosaic Idealize.ShloMosaic.ValueIdx Cert.Spec

namespace Rx

/-- The pair (i, j) sits at row i, column j of the 32 × 32 table. -/
theorem flat_pair (X : IArr S32x32) (i j : Fin 32) :
    (shapeCast S1024 X Facts₀.shapeCasts_S32x32_S1024 : IArr S1024) (ix1 (pairIx i j)) = X (ix2 i j) := by
  refine shapeCast_apply X _ (ix1 (pairIx i j)) (ix2 i j) ?_
  rw [Shape.rowMajor_val_two, Shape.rowMajor_val_one]
  show i.val * 32 + j.val = 32 * i.val + j.val
  omega

theorem srcFlat_apply (i j : Fin 32) : srcFlat (ix1 (pairIx i j)) = BitVec.ofNat 32 i.val := by
  unfold srcFlat
  refine (flat_pair _ i j).trans ?_
  refine (broadcastInDim_apply _ _ _ (ix2 i j) (ix1 i) fun a => ?_).trans rfl
  match a with
  | ⟨0, _⟩ => rfl

theorem tgtFlat_apply (i j : Fin 32) : tgtFlat (ix1 (pairIx i j)) = BitVec.ofNat 32 j.val := by
  unfold tgtFlat
  refine (flat_pair _ i j).trans ?_
  refine (Cert.LibTake.bcastDown_apply _ _ i j).trans ?_
  exact (Cert.LibTake.castRow_apply _ _ _ j).trans rfl

/-- A word of an index in range is not negative, so the wrap keeps it. -/
theorem wrap_word : ∀ k : Fin 32,
    Scalar.select (IntOp.cmpi .slt (BitVec.ofNat 32 k.val) 0#32) (IntOp.addi (BitVec.ofNat 32 k.val) 32#32) (BitVec.ofNat 32 k.val)
      = BitVec.ofNat 32 k.val := by decide

/-- Read signed and clamped into the 32 objects, such a word is the index itself. -/
theorem clamp_word : ∀ k : Fin 32, min (BitVec.ofNat 32 k.val).toInt.toNat (32 - 1) = k.val := by decide

theorem wrapIx_apply (v : IArr S1024) (e : Fin 1024) (u : Fin 1) (k : Fin 32) (hv : v (ix1 e) = BitVec.ofNat 32 k.val) :
    wrapIx v (ix2 e u) = BitVec.ofNat 32 k.val := by
  unfold wrapIx
  refine (Cert.LibTake.bcastCol_apply _ _ e u).trans ?_
  show Scalar.select (IntOp.cmpi .slt (v (ix1 e)) (broadcastInDim S1024 ![] _ (constantI S_ 32 0#32) (ix1 e)))
      (IntOp.addi (v (ix1 e)) (broadcastInDim S1024 ![] _ (constantI S_ 32 32#32) (ix1 e))) (v (ix1 e)) = _
  rw [Cert.LibBcastInDim.bid_scalar, Cert.LibBcastInDim.bid_scalar, hv]
  exact wrap_word k

end Rx

theorem srcIx_apply (i j : Fin 32) (u : Fin 1) : srcIx (ix2 (pairIx i j) u) = BitVec.ofNat 32 i.val :=
  Rx.wrapIx_apply _ _ u i (Rx.srcFlat_apply i j)

theorem tgtIx_apply (i j : Fin 32) (u : Fin 1) : tgtIx (ix2 (pairIx i j) u) = BitVec.ofNat 32 j.val :=
  Rx.wrapIx_apply _ _ u j (Rx.tgtFlat_apply i j)

end Cert.RefStages

end
-- ==== Proof.RefRows.lean ====
/-
  The rows of the two perceptrons by coordinates: the edge row of batch element b and ordered pair (i, j) is row
  1024·b + 32·i + j of 262144; the object row of (b, i) is row 32·b + i of 8192. A sum over all rows is the
  iterated sum over the coordinates.
-/
import proofs.«134035_j84430467104804_1_alg».proof.Proof.LibBlockSum

noncomputable section

open scoped BigOperators

namespace Cert.RefStages

/-- The row of batch element b and ordered pair (i, j) among the 262144 edge rows. -/
def row3 (b : Fin 256) (i j : Fin 32) : Fin 262144 := ⟨1024 * b.val + (32 * i.val + j.val), by omega⟩

/-- The row of batch element b and object i among the 8192 object rows. -/
def row2 (b : Fin 256) (i : Fin 32) : Fin 8192 := ⟨32 * b.val + i.val, by omega⟩

variable {M : Type*} [AddCommMonoid M]

theorem sum_row2 (f : Fin 8192 → M) : ∑ r, f r = ∑ b : Fin 256, ∑ i : Fin 32, f (row2 b i) := by
  rw [Cert.LibBlockSum.sum_blocks_of_eq 256 32 (by norm_num) f]
  refine Finset.sum_congr rfl fun b _ => Finset.sum_congr rfl fun i _ => congrArg f (Fin.ext ?_)
  show b.val * 32 + i.val = 32 * b.val + i.val
  omega

theorem sum_row3 (f : Fin 262144 → M) : ∑ r, f r = ∑ b : Fin 256, ∑ i : Fin 32, ∑ j : Fin 32, f (row3 b i j) := by
  rw [Cert.LibBlockSum.sum_blocks_of_eq 256 1024 (by norm_num) f]
  refine Finset.sum_congr rfl fun b _ => ?_
  rw [Cert.LibBlockSum.sum_blocks_of_eq 32 32 (by norm_num)
    (fun e : Fin 1024 => f ⟨b.val * 1024 + e.val, by have := b.isLt; have := e.isLt; omega⟩)]
  refine Finset.sum_congr rfl fun i _ => Finset.sum_congr rfl fun j _ => congrArg f (Fin.ext ?_)
  show b.val * 1024 + (i.val * 32 + j.val) = 1024 * b.val + (32 * i.val + j.val)
  omega

end Cert.RefStages

end
-- ==== Proof.LibGatherMid.lean ====
/-
  General lemma: what x[:, idx] lowers to, read at an index. A gather along the middle axis of a rank-3 array
  [B, N, D] at a column [E, 1] of start indices takes whole [B, ·, D] slabs: entry (b, e, d) of the result is the
  operand at (b, idx[e, 0], d), the start index read signed and clamped into the operand's middle axis.
-/
import Idealize.ShloMosaic.Lib.ValueIdx
import Idealize.ShloMosaic.Lib.Pipeline.Value

noncomputable section

namespace Cert.LibGatherMid

open Idealize.ShloMosaic Idealize.ShloMosaic.ValueIdx

variable {α : Type}

/-- The dimension numbers of x[:, idx] for an operand [B, N, D] and a column of E start indices. -/
abbrev midTake (B N D E : Nat)
    (wf : GatherDims.WF ⟨3, ![B, N, D]⟩ ⟨2, ![E, 1]⟩ ⟨3, ![B, E, D]⟩ [0, 2] [1] [] [1] [] 1 ![B, 1, D]) :
    GatherDims ⟨3, ![B, N, D]⟩ ⟨2, ![E, 1]⟩ ⟨3, ![B, E, D]⟩ :=
  { offsetDims := [0, 2], collapsedSliceDims := [1], operandBatchingDims := [], startIndicesBatchingDims := [],
    startIndexMap := [1], indexVectorDim := 1, sliceSizes := ![B, 1, D], wf := wf }

/-- Entry (b, e, d) of the gather is the operand at (b, idx[e, 0] read signed and clamped into [0, N − 1], d). -/
theorem midTake_apply {B N D E w : Nat} (hN : 0 < N)
    (wf : GatherDims.WF ⟨3, ![B, N, D]⟩ ⟨2, ![E, 1]⟩ ⟨3, ![B, E, D]⟩ [0, 2] [1] [] [1] [] 1 ![B, 1, D])
    (x : (⟨3, ![B, N, D]⟩ : Shape).Idx → α) (idx : IVec ⟨2, ![E, 1]⟩ w) (y : (⟨3, ![B, E, D]⟩ : Shape).Idx) :
    Host.gather (midTake B N D E wf) x idx y
      = x (ix3 (y 0) ⟨min (idx (ix2 (y 1) (⟨0, Nat.one_pos⟩ : Fin 1))).toInt.toNat (N - 1), by omega⟩ (y 2)) := by
  unfold Host.gather
  congr 1
  funext a
  refine Fin.ext ?_
  match a with
  | ⟨0, _⟩ =>
    show (midTake B N D E wf).start y idx (0 : Fin 3) + (midTake B N D E wf).batchCoord y (0 : Fin 3)
      + (midTake B N D E wf).offCoord y (0 : Fin 3) = (y 0).val
    have hs : (midTake B N D E wf).start y idx (0 : Fin 3) = 0 := by
      unfold GatherDims.start
      rw [dif_neg (show ¬ ((0 : Fin 3) ∈ ([1] : List (Fin 3))) from by decide)]
    rw [hs, GatherDims.batchCoord_eq_zero _ _ _ List.not_mem_nil]
    simp only [Nat.zero_add, Nat.add_zero]
    unfold GatherDims.offCoord
    rw [dif_pos ((GatherDims.mem_sKept _ _).mpr ⟨(show ¬ ((0 : Fin 3) ∈ ([1] : List (Fin 3))) from by decide), List.not_mem_nil⟩)]
    rfl
  | ⟨1, _⟩ =>
    show (midTake B N D E wf).start y idx (1 : Fin 3) + (midTake B N D E wf).batchCoord y (1 : Fin 3)
      + (midTake B N D E wf).offCoord y (1 : Fin 3) = min (idx (ix2 (y 1) (⟨0, Nat.one_pos⟩ : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (midTake B N D E wf).startIndexMap from List.mem_singleton.mpr rfl)]
    have hsi : (midTake B N D E wf).siIdx y ⟨List.idxOf (1 : Fin 3) (midTake B N D E wf).startIndexMap,
        List.idxOf_lt_length_iff.2 (List.mem_singleton.mpr rfl)⟩ = ix2 (y 1) (⟨0, Nat.one_pos⟩ : Fin 1) := by
      funext b; refine Fin.ext ?_
      match b with
      | ⟨0, _⟩ => rfl
      | ⟨1, _⟩ => rfl
    rw [hsi]
    rfl
  | ⟨2, _⟩ =>
    show (midTake B N D E wf).start y idx (2 : Fin 3) + (midTake B N D E wf).batchCoord y (2 : Fin 3)
      + (midTake B N D E wf).offCoord y (2 : Fin 3) = (y 2).val
    have hs : (midTake B N D E wf).start y idx (2 : Fin 3) = 0 := by
      unfold GatherDims.start
      rw [dif_neg (show ¬ ((2 : Fin 3) ∈ ([1] : List (Fin 3))) from by decide)]
    rw [hs, GatherDims.batchCoord_eq_zero _ _ _ List.not_mem_nil]
    simp only [Nat.zero_add, Nat.add_zero]
    unfold GatherDims.offCoord
    rw [dif_pos ((GatherDims.mem_sKept _ _).mpr ⟨(show ¬ ((2 : Fin 3) ∈ ([1] : List (Fin 3))) from by decide), List.not_mem_nil⟩)]
    rfl

end Cert.LibGatherMid

end
-- ==== Proof.RefReadNeed.lean ====
/-
  The edge rows read at an entry: row (b, i, j), column k holds, for k < 128, the source object's feature k times
  the edge's weight, and otherwise the target object's feature k − 128 times the edge's weight.
-/
import proofs.«134035_j84430467104804_1_alg».proof.Proof.RefReadIx
import proofs.«134035_j84430467104804_1_alg».proof.Proof.RefRows
import proofs.«134035_j84430467104804_1_alg».proof.Proof.LibGatherMid
import Idealize.ShloMosaic.Lib.Pipeline.Value

noncomputable section

namespace Cert.RefStages

open Cert.ReferenceIdeal Cert.ReferenceIdeal.Gen Idealize.ShloMosaic Idealize.ShloMosaic.ValueIdx Cert.Spec

namespace Rn

/-- The edge weights along the new trailing axis and across the features: entry (b, e, d) is the weight of edge e. -/
theorem edgeB_apply (a1 : FArr S256x1024) (b : Fin 256) (e : Fin 1024) (d : Fin 128) :
    edgeB a1 (ix3 b e d) = a1 (ix2 b e) := by
  unfold edgeB
  refine (broadcastInDim_apply _ _ _ (ix3 b e d) (ix3 b e (0 : Fin 1)) fun a => ?_).trans
    (broadcastInDim_apply _ _ a1 (ix3 b e (0 : Fin 1)) (ix2 b e) fun a => ?_)
  · match a with
    | ⟨0, _⟩ => show b.val = if (256 : Nat) = 1 then 0 else b.val; rw [if_neg (by decide)]
    | ⟨1, _⟩ => show e.val = if (1024 : Nat) = 1 then 0 else e.val; rw [if_neg (by decide)]
    | ⟨2, _⟩ => rfl
  · match a with
    | ⟨0, _⟩ => show b.val = if (256 : Nat) = 1 then 0 else b.val; rw [if_neg (by decide)]
    | ⟨1, _⟩ => show e.val = if (1024 : Nat) = 1 then 0 else e.val; rw [if_neg (by decide)]

/-- The objects' features taken at a column of indices in range, times the edge weights: entry (b, e, d) is
    object k's feature d times the weight of edge e, where k is the column's entry e. -/
theorem side_apply (ix : IArr S1024x1) (a0 : FArr S256x32x128) (a1 : FArr S256x1024) (b : Fin 256) (e : Fin 1024)
    (d : Fin 128) (k : Fin 32) (hix : ix (ix2 e (⟨0, Nat.one_pos⟩ : Fin 1)) = BitVec.ofNat 32 k.val) :
    side ix a0 a1 (ix3 b e d) = a0 (ix3 b k d) * a1 (ix2 b e) := by
  unfold side
  show Host.gather gather_S256x32x128_S1024x1_S256x1024x128_02_1_n_n_1_1_2561128 a0 ix (ix3 b e d) * edgeB a1 (ix3 b e d) = _
  rw [edgeB_apply]
  refine congrArg (· * a1 (ix2 b e)) ?_
  refine (Cert.LibGatherMid.midTake_apply (by decide) _ a0 ix (ix3 b e d)).trans (congrArg a0 ?_)
  funext a
  refine Fin.ext ?_
  match a with
  | ⟨0, _⟩ => rfl
  | ⟨1, _⟩ =>
    show min (ix (ix2 e (⟨0, Nat.one_pos⟩ : Fin 1))).toInt.toNat (32 - 1) = k.val
    rw [hix]
    exact Rx.clamp_word k
  | ⟨2, _⟩ => rfl

end Rn

theorem need_apply (a0 : FArr S256x32x128) (a1 : FArr S256x1024) (b : Fin 256) (i j : Fin 32) (k : Fin 256) :
    need a0 a1 (ix2 (row3 b i j) k)
      = if h : k.val < 128 then a0 (ix3 b i ⟨k.val, h⟩) * a1 (ix2 b (pairIx i j))
        else a0 (ix3 b j ⟨k.val - 128, by omega⟩) * a1 (ix2 b (pairIx i j)) := by
  unfold need
  refine (shapeCast_apply _ _ (ix2 (row3 b i j) k) (ix3 b (pairIx i j) k) ?_).trans ?_
  · rw [Shape.rowMajor_val_three, Shape.rowMajor_val_two]
    show (b.val * 1024 + (32 * i.val + j.val)) * 256 + k.val = (1024 * b.val + (32 * i.val + j.val)) * 256 + k.val
    omega
  · by_cases h : k.val < 128
    · rw [dif_pos h]
      refine (concatenate_pair_apply_left (t := S256x1024x256) (s₁ := S256x1024x128) (s₂ := S256x1024x128) (2 : Fin 3) _ _ _ (ix3 b (pairIx i j) k) rfl (ix3 b (pairIx i j) (⟨k.val, h⟩ : Fin 128))
        fun c => ?_).trans (Rn.side_apply _ a0 a1 b (pairIx i j) ⟨k.val, h⟩ i (srcIx_apply i j _))
      match c with
      | ⟨0, _⟩ => rfl
      | ⟨1, _⟩ => rfl
      | ⟨2, _⟩ => rfl
    · rw [dif_neg h]
      refine (concatenate_pair_apply_right (t := S256x1024x256) (s₁ := S256x1024x128) (s₂ := S256x1024x128) (2 : Fin 3) _ _ _ (ix3 b (pairIx i j) k) rfl rfl
        (ix3 b (pairIx i j) (⟨k.val - 128, by omega⟩ : Fin 128)) (fun c hc => ?_) ?_).trans
        (Rn.side_apply _ a0 a1 b (pairIx i j) ⟨k.val - 128, by omega⟩ j (tgtIx_apply i j _))
      · match c with
        | ⟨0, _⟩ => rfl
        | ⟨1, _⟩ => rfl
        | ⟨2, _⟩ => exact absurd rfl hc
      · show k.val - 128 + 128 = k.val
        omega

end Cert.RefStages

end
-- ==== Proof.LibHostSum.lean ====
/-
  General lemmas: the host's sums over one axis read at an index written by coordinates, at the ideal values, for
  any extents: the sum over the rows of each column of a matrix, and the sum over axis 2 of a rank-4 array, each
  the starting value plus the sum of the entries along that axis; and both from the zero word, where the
  starting value drops out.
-/
import Idealize.ShloMosaic.Lib.Pipeline.Value
import Idealize.ShloMosaic.Lib.ValueIdx
import Idealize.ShloMosaic.PureOps.Ideal.Laws
import Idealize.ShloMosaic.PureOps.Reduce

noncomputable section

namespace Cert.LibHostSum

open Idealize.ShloMosaic Idealize.ShloMosaic.ValueIdx

/-- Column q of a matrix with row k put back is (k, q). -/
theorem lift_axis0 {a b : Nat} (h : (⟨2, ![a, b]⟩ : Shape).Reduces [0] (⟨1, ![b]⟩ : Shape)) (q : Fin b)
    (k : Fin ((⟨2, ![a, b]⟩ : Shape).size 0)) : h.lift (ix1 q) k = ix2 (⟨k.val, k.isLt⟩ : Fin a) q := by
  funext c; apply Fin.ext
  fin_cases c <;> rfl

/-- Index (p, q, s) of a rank-4 array's sum over axis 2 with coordinate k put back is (p, q, k, s). -/
theorem lift_axis2 {n0 n1 n2 n3 : Nat}
    (h : (⟨4, ![n0, n1, n2, n3]⟩ : Shape).Reduces [2] (⟨3, ![n0, n1, n3]⟩ : Shape)) (p : Fin n0) (q : Fin n1) (s : Fin n3)
    (k : Fin ((⟨4, ![n0, n1, n2, n3]⟩ : Shape).size 2)) :
    h.lift (ix3 p q s) k = ix4 p q (⟨k.val, k.isLt⟩ : Fin n2) s := by
  funext c; apply Fin.ext
  fin_cases c <;> rfl

/-- The host's sum over the rows of each column of a matrix, at column q: the starting value plus the sum of
    the entries (·, q). -/
theorem hostColSum_apply {a b : Nat} (x : FVec Ideal ⟨2, ![a, b]⟩ .f32) (init : FVec Ideal ⟨0, ![]⟩ .f32)
    (h' : (⟨2, ![a, b]⟩ : Shape).ReducesTo [0] (⟨1, ![b]⟩ : Shape))
    (h : (⟨2, ![a, b]⟩ : Shape).Reduces [0] (⟨1, ![b]⟩ : Shape)) (hu : 0 < (⟨0, ![]⟩ : Shape).numel)
    (q : Fin b) :
    Host.reduceAdd x init h' hu (ix1 q) = init ix0 + ∑ k : Fin a, x (ix2 k q) := by
  unfold Host.reduceAdd
  rw [Ideal.hostReduceAdd_def, Ideal.hostReduceAdd_single h' h]
  have hi : init (Shape.Idx.first hu) = init ix0 := congrArg init (eq_ix0 _)
  have hf : (fun k => x (h.lift (ix1 q) k)) = fun k : Fin a => x (ix2 k q) :=
    funext fun k => congrArg x (lift_axis0 h q k)
  rw [hi]
  exact congrArg (fun f => init ix0 + ∑ k : Fin a, f k) hf

/-- The host's sum over axis 2 of a rank-4 array, at (p, q, s): the starting value plus the sum of the entries
    (p, q, ·, s). -/
theorem hostSumAxis2_apply {n0 n1 n2 n3 : Nat} (x : FVec Ideal ⟨4, ![n0, n1, n2, n3]⟩ .f32)
    (init : FVec Ideal ⟨0, ![]⟩ .f32)
    (h' : (⟨4, ![n0, n1, n2, n3]⟩ : Shape).ReducesTo [2] (⟨3, ![n0, n1, n3]⟩ : Shape))
    (h : (⟨4, ![n0, n1, n2, n3]⟩ : Shape).Reduces [2] (⟨3, ![n0, n1, n3]⟩ : Shape))
    (hu : 0 < (⟨0, ![]⟩ : Shape).numel) (p : Fin n0) (q : Fin n1) (s : Fin n3) :
    Host.reduceAdd x init h' hu (ix3 p q s) = init ix0 + ∑ k : Fin n2, x (ix4 p q k s) := by
  unfold Host.reduceAdd
  rw [Ideal.hostReduceAdd_def, Ideal.hostReduceAdd_single h' h]
  have hi : init (Shape.Idx.first hu) = init ix0 := congrArg init (eq_ix0 _)
  have hf : (fun k => x (h.lift (ix3 p q s) k)) = fun k : Fin n2 => x (ix4 p q k s) :=
    funext fun k => congrArg x (lift_axis2 h p q s k)
  rw [hi]
  exact congrArg (fun f => init ix0 + ∑ k : Fin n2, f k) hf

/-- From the zero word the starting value drops out: the column sums of a matrix. -/
theorem hostColSum_zero_apply {a b : Nat} (x : FVec Ideal ⟨2, ![a, b]⟩ .f32)
    (h' : (⟨2, ![a, b]⟩ : Shape).ReducesTo [0] (⟨1, ![b]⟩ : Shape))
    (h : (⟨2, ![a, b]⟩ : Shape).Reduces [0] (⟨1, ![b]⟩ : Shape)) (hu : 0 < (⟨0, ![]⟩ : Shape).numel)
    (q : Fin b) :
    Host.reduceAdd x (constant (F := Ideal) ⟨0, ![]⟩ .f32 0x00000000#32) h' hu (ix1 q) = ∑ k : Fin a, x (ix2 k q) := by
  rw [hostColSum_apply x _ h' h hu q]
  show Ideal.ofBits .f32 0x00000000#32 + _ = _
  rw [Ideal.ofBits_zero_f32, zero_add]

/-- From the zero word the starting value drops out: the sums over axis 2 of a rank-4 array. -/
theorem hostSumAxis2_zero_apply {n0 n1 n2 n3 : Nat} (x : FVec Ideal ⟨4, ![n0, n1, n2, n3]⟩ .f32)
    (h' : (⟨4, ![n0, n1, n2, n3]⟩ : Shape).ReducesTo [2] (⟨3, ![n0, n1, n3]⟩ : Shape))
    (h : (⟨4, ![n0, n1, n2, n3]⟩ : Shape).Reduces [2] (⟨3, ![n0, n1, n3]⟩ : Shape))
    (hu : 0 < (⟨0, ![]⟩ : Shape).numel) (p : Fin n0) (q : Fin n1) (s : Fin n3) :
    Host.reduceAdd x (constant (F := Ideal) ⟨0, ![]⟩ .f32 0x00000000#32) h' hu (ix3 p q s) = ∑ k : Fin n2, x (ix4 p q k s) := by
  rw [hostSumAxis2_apply x _ h' h hu p q s]
  show Ideal.ofBits .f32 0x00000000#32 + _ = _
  rw [Ideal.ofBits_zero_f32, zero_add]

end Cert.LibHostSum

end
-- ==== Proof.LibBatchNorm.lean ====
/-
  General lemmas: a training-mode batch normalisation of the host program over the rows of an R × C array, read
  at an index, at the ideal values, for any extents and any words for the row count and epsilon. The column mean
  is the column's sum over the row count; the deviations are the entries less their column's mean; the column
  variance is the sum of the squared deviations over the row count; the normalised entry is the deviation times
  the reciprocal square root of the variance plus epsilon, times the scale, plus the shift. And the leaky
  activation, an entry where it is at least the zero word's value, the slope word's value times it elsewhere.
-/
import Idealize.ShloMosaic.Lib.ValueIdx
import Idealize.ShloMosaic.PureOps.Ideal.Laws
import proofs.«134035_j84430467104804_1_alg».proof.Proof.LibHostSum
import proofs.«134035_j84430467104804_1_alg».proof.Proof.LibBcastInDim

noncomputable section

open scoped BigOperators

namespace Cert.LibBatchNorm

open Idealize.ShloMosaic Idealize.ShloMosaic.ValueIdx

section
variable {R C : Nat}
  (hr' : (⟨2, ![R, C]⟩ : Shape).ReducesTo [0] (⟨1, ![C]⟩ : Shape))
  (hu : 0 < (⟨0, ![]⟩ : Shape).numel)
  (hs : (⟨0, ![]⟩ : Shape).BroadcastsInDim ⟨1, ![C]⟩ (![] : Fin 0 → Fin 1))
  (h1 : (⟨1, ![C]⟩ : Shape).BroadcastsInDim ⟨2, ![1, C]⟩ (![1] : Fin 1 → Fin 2))
  (h2 : (⟨2, ![1, C]⟩ : Shape).BroadcastsInDim ⟨2, ![R, C]⟩ (![0, 1] : Fin 2 → Fin 2))
  (nW eW : BitVec 32)

/-- A word repeated over a vector of C entries. -/
def splatC (b : BitVec 32) : FVec Ideal ⟨1, ![C]⟩ .f32 :=
  broadcastInDim ⟨1, ![C]⟩ ![] hs (constant (F := Ideal) ⟨0, ![]⟩ .f32 b)

/-- A vector of C entries as every row of an R × C array. -/
def rowsOf (v : FVec Ideal ⟨1, ![C]⟩ .f32) : FVec Ideal ⟨2, ![R, C]⟩ .f32 :=
  broadcastInDim ⟨2, ![R, C]⟩ ![0, 1] h2 (broadcastInDim ⟨2, ![1, C]⟩ ![1] h1 v)

/-- The column sums from the zero word. -/
def colSum (X : FVec Ideal ⟨2, ![R, C]⟩ .f32) : FVec Ideal ⟨1, ![C]⟩ .f32 :=
  Host.reduceAdd X (constant (F := Ideal) ⟨0, ![]⟩ .f32 0x00000000#32) hr' hu

def colMean (X : FVec Ideal ⟨2, ![R, C]⟩ .f32) : FVec Ideal ⟨1, ![C]⟩ .f32 :=
  Host.divf (colSum hr' hu X) (splatC hs nW)

def devs (X : FVec Ideal ⟨2, ![R, C]⟩ .f32) : FVec Ideal ⟨2, ![R, C]⟩ .f32 :=
  subf X (rowsOf h1 h2 (colMean hr' hu hs nW X))

def colVar (X : FVec Ideal ⟨2, ![R, C]⟩ .f32) : FVec Ideal ⟨1, ![C]⟩ .f32 :=
  Host.divf (colSum hr' hu (mulf (devs hr' hu hs h1 h2 nW X) (devs hr' hu hs h1 h2 nW X))) (splatC hs nW)

def scale (X : FVec Ideal ⟨2, ![R, C]⟩ .f32) : FVec Ideal ⟨1, ![C]⟩ .f32 :=
  Host.rsqrt (addf (colVar hr' hu hs h1 h2 nW X) (splatC hs eW))

def normed (X : FVec Ideal ⟨2, ![R, C]⟩ .f32) (g bt : FVec Ideal ⟨1, ![C]⟩ .f32) : FVec Ideal ⟨2, ![R, C]⟩ .f32 :=
  addf (mulf (mulf (devs hr' hu hs h1 h2 nW X) (rowsOf h1 h2 (scale hr' hu hs h1 h2 nW eW X))) (rowsOf h1 h2 g)) (rowsOf h1 h2 bt)

variable (hr : (⟨2, ![R, C]⟩ : Shape).Reduces [0] (⟨1, ![C]⟩ : Shape))

theorem splatC_apply (b : BitVec 32) (c : Fin C) : splatC hs b (ix1 c) = Ideal.ofBits .f32 b := by
  unfold splatC
  rw [Cert.LibBcastInDim.bid_scalar]
  rfl

theorem rowsOf_apply (v : FVec Ideal ⟨1, ![C]⟩ .f32) (r : Fin R) (c : Fin C) : rowsOf h1 h2 v (ix2 r c) = v (ix1 c) := by
  unfold rowsOf
  rw [Cert.LibBcastInDim.bid_row v h1 h2]
  rfl

include hr in
theorem colSum_apply (X : FVec Ideal ⟨2, ![R, C]⟩ .f32) (c : Fin C) : colSum hr' hu X (ix1 c) = ∑ r : Fin R, X (ix2 r c) :=
  Cert.LibHostSum.hostColSum_zero_apply X hr' hr hu c

include hr in
theorem colMean_apply (X : FVec Ideal ⟨2, ![R, C]⟩ .f32) (c : Fin C) :
    colMean hr' hu hs nW X (ix1 c) = Ideal.div (∑ r : Fin R, X (ix2 r c)) (Ideal.ofBits .f32 nW) := by
  unfold colMean
  show Ideal.div (colSum hr' hu X (ix1 c)) (splatC hs nW (ix1 c)) = _
  rw [colSum_apply hr' hu hr, splatC_apply]

theorem devs_apply (X : FVec Ideal ⟨2, ![R, C]⟩ .f32) (r : Fin R) (c : Fin C) :
    devs hr' hu hs h1 h2 nW X (ix2 r c) = X (ix2 r c) - colMean hr' hu hs nW X (ix1 c) := by
  unfold devs
  show X (ix2 r c) - rowsOf h1 h2 _ (ix2 r c) = _
  rw [rowsOf_apply]

include hr in
theorem colVar_apply (X : FVec Ideal ⟨2, ![R, C]⟩ .f32) (c : Fin C) :
    colVar hr' hu hs h1 h2 nW X (ix1 c)
      = Ideal.div (∑ r : Fin R, (X (ix2 r c) - colMean hr' hu hs nW X (ix1 c)) * (X (ix2 r c) - colMean hr' hu hs nW X (ix1 c)))
          (Ideal.ofBits .f32 nW) := by
  unfold colVar
  show Ideal.div (colSum hr' hu _ (ix1 c)) (splatC hs nW (ix1 c)) = _
  rw [colSum_apply hr' hu hr, splatC_apply]
  refine congrArg (fun s => Ideal.div s (Ideal.ofBits .f32 nW)) (Finset.sum_congr rfl fun r _ => ?_)
  show devs hr' hu hs h1 h2 nW X (ix2 r c) * devs hr' hu hs h1 h2 nW X (ix2 r c) = _
  rw [devs_apply]

theorem scale_apply (X : FVec Ideal ⟨2, ![R, C]⟩ .f32) (c : Fin C) :
    scale hr' hu hs h1 h2 nW eW X (ix1 c) = Ideal.rsqrt (colVar hr' hu hs h1 h2 nW X (ix1 c) + Ideal.ofBits .f32 eW) := by
  unfold scale
  show Ideal.rsqrt (colVar hr' hu hs h1 h2 nW X (ix1 c) + splatC hs eW (ix1 c)) = _
  rw [splatC_apply]

theorem normed_apply (X : FVec Ideal ⟨2, ![R, C]⟩ .f32) (g bt : FVec Ideal ⟨1, ![C]⟩ .f32) (r : Fin R) (c : Fin C) :
    normed hr' hu hs h1 h2 nW eW X g bt (ix2 r c)
      = (X (ix2 r c) - colMean hr' hu hs nW X (ix1 c))
          * Ideal.rsqrt (colVar hr' hu hs h1 h2 nW X (ix1 c) + Ideal.ofBits .f32 eW) * g (ix1 c) + bt (ix1 c) := by
  unfold normed
  show devs hr' hu hs h1 h2 nW X (ix2 r c) * rowsOf h1 h2 (scale hr' hu hs h1 h2 nW eW X) (ix2 r c) * rowsOf h1 h2 g (ix2 r c)
      + rowsOf h1 h2 bt (ix2 r c) = _
  rw [rowsOf_apply, rowsOf_apply, rowsOf_apply, devs_apply, scale_apply]

end

section Leaky
variable {s : Shape} (hz : (⟨0, ![]⟩ : Shape).BroadcastsInDim s (![] : Fin 0 → Fin s.rank)) (zW sW : BitVec 32)

/-- The leaky activation of every entry. -/
def leakyOf (Y : FVec Ideal s .f32) : FVec Ideal s .f32 :=
  select (cmpf .oge Y (broadcastInDim s ![] hz (constant (F := Ideal) ⟨0, ![]⟩ .f32 zW))) Y
    (mulf (broadcastInDim s ![] hz (constant (F := Ideal) ⟨0, ![]⟩ .f32 sW)) Y)

theorem leakyOf_apply (Y : FVec Ideal s .f32) (i : s.Idx) :
    leakyOf hz zW sW Y i
      = Scalar.select (Ideal.cmp .oge (Y i) (Ideal.ofBits .f32 zW)) (Y i) (Ideal.ofBits .f32 sW * Y i) := by
  unfold leakyOf
  rw [Cert.LibBcastInDim.bid_scalar, Cert.LibBcastInDim.bid_scalar]
  rfl

end Leaky

end Cert.LibBatchNorm

end
-- ==== Proof.RefReadNorm.lean ====
/-
  The batch normalisations and activations of the two perceptrons read at an entry, for an array X known entry
  by entry through the rows' coordinates: the column means and variances are the iterated sums over the
  coordinates divided by the row count, and the activated entry is the normalised, scaled, shifted and
  leaky-activated one.
-/
import proofs.«134035_j84430467104804_1_alg».proof.Proof.RefStages
import proofs.«134035_j84430467104804_1_alg».proof.Proof.Gen.ReferenceIdeal
import proofs.«134035_j84430467104804_1_alg».proof.Proof.Spec
import proofs.«134035_j84430467104804_1_alg».proof.Proof.RefRows
import proofs.«134035_j84430467104804_1_alg».proof.Proof.LibBatchNorm

noncomputable section

open scoped BigOperators

namespace Cert.RefStages

open Cert.ReferenceIdeal Cert.ReferenceIdeal.Gen Idealize.ShloMosaic Idealize.ShloMosaic.ValueIdx Cert.Spec

/-! ## 262144 rows, by (b, i, j) -/

section Edge
variable (H : Fin 256 → Fin 32 → Fin 32 → Fin 256 → EReal)

/-- The mean of column c over all (b, i, j). -/
def mean3 (c : Fin 256) : EReal := Ideal.div (∑ b : Fin 256, ∑ i : Fin 32, ∑ j : Fin 32, H b i j c) n1W

/-- The mean of the squared deviations of column c from its mean. -/
def var3 (c : Fin 256) : EReal :=
  Ideal.div (∑ b : Fin 256, ∑ i : Fin 32, ∑ j : Fin 32, (H b i j c - mean3 H c) * (H b i j c - mean3 H c)) n1W

variable (X : FArr S262144x256) (hX : ∀ b i j c, X (ix2 (row3 b i j) c) = H b i j c)

namespace Rb

theorem meanOf1_eq (X : FArr S262144x256) :
    meanOf1 X = Cert.LibBatchNorm.colMean Facts₀.reducesTo_S262144x256_S256_d0 Facts₀.h_S_ Facts₀.bcast_S_S256 0x48800000#32 X := rfl

theorem varOf1_eq (X : FArr S262144x256) :
    varOf1 X = Cert.LibBatchNorm.colVar Facts₀.reducesTo_S262144x256_S256_d0 Facts₀.h_S_ Facts₀.bcast_S_S256
      Facts₀.bcast_S256_S1x256_1 Facts₀.bcast_S1x256_S262144x256_0_1 0x48800000#32 X := rfl

theorem bn1_eq (X : FArr S262144x256) (g bt : FArr S256) :
    bn1 X g bt = Cert.LibBatchNorm.normed Facts₀.reducesTo_S262144x256_S256_d0 Facts₀.h_S_ Facts₀.bcast_S_S256
      Facts₀.bcast_S256_S1x256_1 Facts₀.bcast_S1x256_S262144x256_0_1 0x48800000#32 0x3727C5AC#32 X g bt := rfl

theorem lk1_eq (Y : FArr S262144x256) :
    lk1 Y = Cert.LibBatchNorm.leakyOf Facts₀.bcast_S_S262144x256 0x00000000#32 0x3C23D70A#32 Y := rfl

end Rb

include hX in
theorem meanOf1_read (c : Fin 256) : meanOf1 X (ix1 c) = mean3 H c := by
  rw [Rb.meanOf1_eq, Cert.LibBatchNorm.colMean_apply _ _ _ _ (by decide)]
  unfold mean3
  refine congrArg (fun s => Ideal.div s n1W) ?_
  rw [sum_row3]
  exact Finset.sum_congr rfl fun b _ => Finset.sum_congr rfl fun i _ => Finset.sum_congr rfl fun j _ => hX b i j c

include hX in
theorem varOf1_read (c : Fin 256) : varOf1 X (ix1 c) = var3 H c := by
  rw [Rb.varOf1_eq, Cert.LibBatchNorm.colVar_apply _ _ _ _ _ _ (by decide), ← Rb.meanOf1_eq, meanOf1_read H X hX c]
  unfold var3
  refine congrArg (fun s => Ideal.div s n1W) ?_
  rw [sum_row3]
  refine Finset.sum_congr rfl fun b _ => Finset.sum_congr rfl fun i _ => Finset.sum_congr rfl fun j _ => ?_
  rw [hX b i j c]

include hX in
theorem act1_read (g bt : FArr S256) (b : Fin 256) (i j : Fin 32) (c : Fin 256) :
    lk1 (bn1 X g bt) (ix2 (row3 b i j) c) = bnact (H b i j c) (mean3 H c) (var3 H c) (g (ix1 c)) (bt (ix1 c)) := by
  rw [Rb.lk1_eq, Cert.LibBatchNorm.leakyOf_apply, Rb.bn1_eq, Cert.LibBatchNorm.normed_apply, ← Rb.meanOf1_eq, ← Rb.varOf1_eq,
    meanOf1_read H X hX c, varOf1_read H X hX c, hX b i j c]
  rfl

end Edge

/-! ## 8192 rows, by (b, i) -/

section Obj
variable (H : Fin 256 → Fin 32 → Fin 256 → EReal)

def mean2' (c : Fin 256) : EReal := Ideal.div (∑ b : Fin 256, ∑ i : Fin 32, H b i c) n2W

def var2' (c : Fin 256) : EReal :=
  Ideal.div (∑ b : Fin 256, ∑ i : Fin 32, (H b i c - mean2' H c) * (H b i c - mean2' H c)) n2W

variable (X : FArr S8192x256) (hX : ∀ b i c, X (ix2 (row2 b i) c) = H b i c)

namespace Rb

theorem meanOf2_eq (X : FArr S8192x256) :
    meanOf2 X = Cert.LibBatchNorm.colMean Facts₀.reducesTo_S8192x256_S256_d0 Facts₀.h_S_ Facts₀.bcast_S_S256 0x46000000#32 X := rfl

theorem varOf2_eq (X : FArr S8192x256) :
    varOf2 X = Cert.LibBatchNorm.colVar Facts₀.reducesTo_S8192x256_S256_d0 Facts₀.h_S_ Facts₀.bcast_S_S256
      Facts₀.bcast_S256_S1x256_1 Facts₀.bcast_S1x256_S8192x256_0_1 0x46000000#32 X := rfl

theorem bn2_eq (X : FArr S8192x256) (g bt : FArr S256) :
    bn2 X g bt = Cert.LibBatchNorm.normed Facts₀.reducesTo_S8192x256_S256_d0 Facts₀.h_S_ Facts₀.bcast_S_S256
      Facts₀.bcast_S256_S1x256_1 Facts₀.bcast_S1x256_S8192x256_0_1 0x46000000#32 0x3727C5AC#32 X g bt := rfl

theorem lk2_eq (Y : FArr S8192x256) :
    lk2 Y = Cert.LibBatchNorm.leakyOf Facts₀.bcast_S_S8192x256 0x00000000#32 0x3C23D70A#32 Y := rfl

end Rb

include hX in
theorem meanOf2_read (c : Fin 256) : meanOf2 X (ix1 c) = mean2' H c := by
  rw [Rb.meanOf2_eq, Cert.LibBatchNorm.colMean_apply _ _ _ _ (by decide)]
  unfold mean2'
  refine congrArg (fun s => Ideal.div s n2W) ?_
  rw [sum_row2]
  exact Finset.sum_congr rfl fun b _ => Finset.sum_congr rfl fun i _ => hX b i c

include hX in
theorem varOf2_read (c : Fin 256) : varOf2 X (ix1 c) = var2' H c := by
  rw [Rb.varOf2_eq, Cert.LibBatchNorm.colVar_apply _ _ _ _ _ _ (by decide), ← Rb.meanOf2_eq, meanOf2_read H X hX c]
  unfold var2'
  refine congrArg (fun s => Ideal.div s n2W) ?_
  rw [sum_row2]
  refine Finset.sum_congr rfl fun b _ => Finset.sum_congr rfl fun i _ => ?_
  rw [hX b i c]

include hX in
theorem act2_read (g bt : FArr S256) (b : Fin 256) (i : Fin 32) (c : Fin 256) :
    lk2 (bn2 X g bt) (ix2 (row2 b i) c) = bnact (H b i c) (mean2' H c) (var2' H c) (g (ix1 c)) (bt (ix1 c)) := by
  rw [Rb.lk2_eq, Cert.LibBatchNorm.leakyOf_apply, Rb.bn2_eq, Cert.LibBatchNorm.normed_apply, ← Rb.meanOf2_eq, ← Rb.varOf2_eq,
    meanOf2_read H X hX c, varOf2_read H X hX c, hX b i c]
  rfl

end Obj

end Cert.RefStages

end
-- ==== Proof.LibAffine.lean ====
/-
  General lemma: a linear layer of the host program read at an index, at the ideal values, for any extents. The
  rows X [R, K] times the transposed weight w [B, K], plus the bias [B] laid out as one row and repeated down the
  R rows, holds at (r, q) the sum over k of X(r, k) · w(q, k), plus the bias' entry q.
-/
import Idealize.ShloMosaic.Lib.ValueLayout
import proofs.«134035_j84430467104804_1_alg».proof.Proof.LibMatmul
import proofs.«134035_j84430467104804_1_alg».proof.Proof.LibBcastInDim

noncomputable section

open scoped BigOperators

namespace Cert.LibAffine

open Idealize.ShloMosaic Idealize.ShloMosaic.ValueIdx

theorem affine_apply {R K B : Nat} (d : DotDims ⟨2, ![R, K]⟩ ⟨2, ![K, B]⟩ ⟨2, ![R, B]⟩)
    (hlb : d.lhsBatch = []) (hln : d.lhsNonContracting = [0]) (hlc : d.lhsContracting = [1])
    (hrb : d.rhsBatch = []) (hrn : d.rhsNonContracting = [1]) (hrc : d.rhsContracting = [0])
    (X : FVec Ideal ⟨2, ![R, K]⟩ .f32) (w : FVec Ideal ⟨2, ![B, K]⟩ .f32)
    (ht : (⟨2, ![B, K]⟩ : Shape).Transposes [1, 0] ⟨2, ![K, B]⟩)
    (bias : FVec Ideal ⟨1, ![B]⟩ .f32)
    (h1 : (⟨1, ![B]⟩ : Shape).BroadcastsInDim ⟨2, ![1, B]⟩ (![1] : Fin 1 → Fin 2))
    (h2 : (⟨2, ![1, B]⟩ : Shape).BroadcastsInDim ⟨2, ![R, B]⟩ (![0, 1] : Fin 2 → Fin 2))
    (r : Fin R) (q : Fin B) :
    addf (Host.dotGeneral d none X (transpose ⟨2, ![K, B]⟩ [1, 0] w ht))
        (broadcastInDim ⟨2, ![R, B]⟩ ![0, 1] h2 (broadcastInDim ⟨2, ![1, B]⟩ ![1] h1 bias)) (ix2 r q)
      = (∑ k : Fin K, X (ix2 r k) * w (ix2 q k)) + bias (ix1 q) := by
  show Host.dotGeneral d none X (transpose ⟨2, ![K, B]⟩ [1, 0] w ht) (ix2 r q)
      + broadcastInDim ⟨2, ![R, B]⟩ ![0, 1] h2 (broadcastInDim ⟨2, ![1, B]⟩ ![1] h1 bias) (ix2 r q) = _
  rw [Cert.LibBcastInDim.bid_row bias h1 h2]
  have hd : Host.dotGeneral d none X (transpose ⟨2, ![K, B]⟩ [1, 0] w ht)
      = Cert.LibMatmul.MM X (transpose ⟨2, ![K, B]⟩ [1, 0] w ht) :=
    Cert.LibMatmul.dotGeneral_eq d hlb hln hlc hrb hrn hrc none .single X _
  rw [hd, Cert.LibMatmul.MM_apply]
  refine congrArg (· + bias (ix1 q)) (Finset.sum_congr rfl fun k _ => ?_)
  rw [transpose_ix2_apply]

end Cert.LibAffine

end
-- ==== Proof.RefReadMsg.lean ====
/-
  The message perceptron read at an entry: its first layer at the pair's row is the hidden entry h1; the column
  means and variances are mean1 and the variance as the mean of squared deviations; the activated rows are act1;
  the second layer gives the pair's message, and the sum over the partner axis the aggregated messages.
-/
import proofs.«134035_j84430467104804_1_alg».proof.Proof.RefReadNeed
import proofs.«134035_j84430467104804_1_alg».proof.Proof.RefReadNorm
import proofs.«134035_j84430467104804_1_alg».proof.Proof.LibAffine
import proofs.«134035_j84430467104804_1_alg».proof.Proof.LibHostSum

noncomputable section

open scoped BigOperators

namespace Cert.RefStages

open Cert.ReferenceIdeal Cert.ReferenceIdeal.Gen Idealize.ShloMosaic Idealize.ShloMosaic.ValueIdx Cert.Spec

namespace Rm

theorem lin1_apply (X : FArr S262144x256) (w : FArr S256x256) (bias : FArr S256) (r : Fin 262144) (c : Fin 256) :
    lin1 X w bias (ix2 r c) = (∑ k : Fin 256, X (ix2 r k) * w (ix2 c k)) + bias (ix1 c) := by
  unfold lin1 rows1
  exact Cert.LibAffine.affine_apply dot_S262144x256_S256x256_S262144x256_1_0_0_1_n_n rfl rfl rfl rfl rfl rfl X w _ bias _ _ r c

theorem msgs_apply (Y : FArr S262144x256) (w : FArr S128x256) (bias : FArr S128) (r : Fin 262144) (d : Fin 128) :
    msgs Y w bias (ix2 r d) = (∑ c : Fin 256, Y (ix2 r c) * w (ix2 d c)) + bias (ix1 d) := by
  unfold msgs
  exact Cert.LibAffine.affine_apply dot_S262144x256_S256x128_S262144x128_1_0_0_1_n_n rfl rfl rfl rfl rfl rfl Y w _ bias _ _ r d

/-- The sum over the partner axis: entry (b, i, d) is the sum over j of the row (b, i, j)'s entry d. -/
theorem aggr_apply (M : FArr S262144x128) (b : Fin 256) (i : Fin 32) (d : Fin 128) :
    aggr M (ix3 b i d) = ∑ j : Fin 32, M (ix2 (row3 b i j) d) := by
  unfold aggr
  rw [Cert.LibHostSum.hostSumAxis2_zero_apply _ _ (by decide) _ b i d]
  refine Finset.sum_congr rfl fun j _ => ?_
  refine shapeCast_apply M _ (ix4 b i j d) (ix2 (row3 b i j) d) ?_
  rw [Shape.rowMajor_val_two, Shape.rowMajor_val_four]
  show (1024 * b.val + (32 * i.val + j.val)) * 128 + d.val = ((b.val * 32 + i.val) * 32 + j.val) * 128 + d.val
  omega

end Rm

variable (p : Cert.Spec.Params)

theorem hid1_apply (b : Fin 256) (i j : Fin 32) (c : Fin 256) :
    hid1 p.st p.ed p.mw1 p.mb1 (ix2 (row3 b i j) c) = h1 p b i j c := by
  unfold hid1 h1
  rw [Rm.lin1_apply]
  refine congrArg (· + p.mb1 (ix1 c)) (Finset.sum_congr rfl fun k _ => ?_)
  rw [need_apply]
  rfl

theorem mean1_apply (c : Fin 256) : meanOf1 (hid1 p.st p.ed p.mw1 p.mb1) (ix1 c) = mean1 p c :=
  meanOf1_read (h1 p) _ (hid1_apply p) c

theorem var1_apply (c : Fin 256) : varOf1 (hid1 p.st p.ed p.mw1 p.mb1) (ix1 c) = varR1 p c :=
  varOf1_read (h1 p) _ (hid1_apply p) c

theorem actv1_apply (b : Fin 256) (i j : Fin 32) (c : Fin 256) :
    actv1 p.st p.ed p.mw1 p.mb1 p.mg p.mbt (ix2 (row3 b i j) c) = act1 p (varR1 p) b i j c :=
  act1_read (h1 p) _ (hid1_apply p) p.mg p.mbt b i j c

theorem msg_apply (b : Fin 256) (i j : Fin 32) (d : Fin 128) :
    msgs (actv1 p.st p.ed p.mw1 p.mb1 p.mg p.mbt) p.mw2 p.mb2 (ix2 (row3 b i j) d) = msg p (varR1 p) b i j d := by
  unfold msg
  rw [Rm.msgs_apply]
  refine congrArg (· + p.mb2 (ix1 d)) (Finset.sum_congr rfl fun c _ => ?_)
  rw [actv1_apply]

theorem agg_apply (b : Fin 256) (i : Fin 32) (d : Fin 128) :
    aggr (msgs (actv1 p.st p.ed p.mw1 p.mb1 p.mg p.mbt) p.mw2 p.mb2) (ix3 b i d) = agg p (varR1 p) b i d := by
  unfold agg
  rw [Rm.aggr_apply]
  exact Finset.sum_congr rfl fun j _ => msg_apply p b i j d

end Cert.RefStages

end
-- ==== Proof.RefReadObj.lean ====
/-
  The object perceptron read at an entry: the object rows are the object's features then its aggregated
  messages; the first layer at the object's row is the hidden entry g1; the column means and variances are mean2
  and the variance as the mean of squared deviations; the activated rows are act2; the second layer, recast by
  (batch element, object, feature), is the result.
-/
import proofs.«134035_j84430467104804_1_alg».proof.Proof.RefReadMsg

noncomputable section

open scoped BigOperators

namespace Cert.RefStages

open Cert.ReferenceIdeal Cert.ReferenceIdeal.Gen Idealize.ShloMosaic Idealize.ShloMosaic.ValueIdx Cert.Spec

namespace Ro

/-- The object rows: row (b, i), column k is the first array at (b, i, k) for k < 128, else the second at
    (b, i, k − 128). -/
theorem smr_apply (a0 A : FArr S256x32x128) (b : Fin 256) (i : Fin 32) (k : Fin 256) :
    smr a0 A (ix2 (row2 b i) k)
      = if h : k.val < 128 then a0 (ix3 b i ⟨k.val, h⟩) else A (ix3 b i ⟨k.val - 128, by omega⟩) := by
  unfold smr
  refine (shapeCast_apply _ _ (ix2 (row2 b i) k) (ix3 b i k) ?_).trans ?_
  · rw [Shape.rowMajor_val_three, Shape.rowMajor_val_two]
    show (b.val * 32 + i.val) * 256 + k.val = (32 * b.val + i.val) * 256 + k.val
    omega
  · by_cases h : k.val < 128
    · rw [dif_pos h]
      refine concatenate_pair_apply_left (t := S256x32x256) (s₁ := S256x32x128) (s₂ := S256x32x128) (2 : Fin 3) _ _ _
        (ix3 b i k) rfl (ix3 b i (⟨k.val, h⟩ : Fin 128)) fun c => ?_
      match c with
      | ⟨0, _⟩ => rfl
      | ⟨1, _⟩ => rfl
      | ⟨2, _⟩ => rfl
    · rw [dif_neg h]
      refine concatenate_pair_apply_right (t := S256x32x256) (s₁ := S256x32x128) (s₂ := S256x32x128) (2 : Fin 3) _ _ _
        (ix3 b i k) rfl rfl (ix3 b i (⟨k.val - 128, by omega⟩ : Fin 128)) (fun c hc => ?_) ?_
      · match c with
        | ⟨0, _⟩ => rfl
        | ⟨1, _⟩ => rfl
        | ⟨2, _⟩ => exact absurd rfl hc
      · show k.val - 128 + 128 = k.val
        omega

theorem hid2_apply (S : FArr S8192x256) (w : FArr S256x256) (bias : FArr S256) (r : Fin 8192) (c : Fin 256) :
    hid2 S w bias (ix2 r c) = (∑ k : Fin 256, S (ix2 r k) * w (ix2 c k)) + bias (ix1 c) := by
  unfold hid2 rows2
  exact Cert.LibAffine.affine_apply dot_S8192x256_S256x256_S8192x256_1_0_0_1_n_n rfl rfl rfl rfl rfl rfl S w _ bias _ _ r c

theorem outr_apply (Y : FArr S8192x256) (w : FArr S128x256) (bias : FArr S128) (b : Fin 256) (i : Fin 32) (d : Fin 128) :
    outr Y w bias (ix3 b i d) = (∑ c : Fin 256, Y (ix2 (row2 b i) c) * w (ix2 d c)) + bias (ix1 d) := by
  unfold outr
  refine (shapeCast_apply _ _ (ix3 b i d) (ix2 (row2 b i) d) ?_).trans ?_
  · rw [Shape.rowMajor_val_three, Shape.rowMajor_val_two]
    show (32 * b.val + i.val) * 128 + d.val = (b.val * 32 + i.val) * 128 + d.val
    omega
  · exact Cert.LibAffine.affine_apply dot_S8192x256_S256x128_S8192x128_1_0_0_1_n_n rfl rfl rfl rfl rfl rfl Y w _ bias _ _ (row2 b i) d

end Ro

variable (p : Cert.Spec.Params)

theorem objRows_apply (b : Fin 256) (i : Fin 32) (k : Fin 256) :
    objRows p.st p.ed p.mw1 p.mb1 p.mg p.mbt p.mw2 p.mb2 (ix2 (row2 b i) k) = sm p (varR1 p) b i k := by
  unfold objRows sm
  rw [Ro.smr_apply]
  by_cases h : k.val < 128
  · rw [dif_pos h, dif_pos h]
  · rw [dif_neg h, dif_neg h, agg_apply]

theorem g1_apply (b : Fin 256) (i : Fin 32) (c : Fin 256) :
    hid2 (objRows p.st p.ed p.mw1 p.mb1 p.mg p.mbt p.mw2 p.mb2) p.fw1 p.fb1 (ix2 (row2 b i) c) = g1 p (varR1 p) b i c := by
  unfold g1
  rw [Ro.hid2_apply]
  refine congrArg (· + p.fb1 (ix1 c)) (Finset.sum_congr rfl fun k _ => ?_)
  rw [objRows_apply]

theorem act2_apply (b : Fin 256) (i : Fin 32) (c : Fin 256) :
    lk2 (bn2 (hid2 (objRows p.st p.ed p.mw1 p.mb1 p.mg p.mbt p.mw2 p.mb2) p.fw1 p.fb1) p.fg p.fbt) (ix2 (row2 b i) c)
      = act2 p (varR1 p) (varR2 p (varR1 p)) b i c :=
  act2_read (g1 p (varR1 p)) _ (g1_apply p) p.fg p.fbt b i c

/-- The reference's result at (b, i, d) is the result with the variances as means of squared deviations. -/
theorem refOut_apply (b : Fin 256) (i : Fin 32) (d : Fin 128) :
    refOut p.st p.ed p.mw1 p.mb1 p.mg p.mbt p.mw2 p.mb2 p.fw1 p.fb1 p.fg p.fbt p.fw2 p.fb2 (ix3 b i d) = outR p b i d := by
  unfold refOut outR outAt
  rw [Ro.outr_apply]
  refine congrArg (· + p.fb2 (ix1 d)) (Finset.sum_congr rfl fun c _ => ?_)
  rw [act2_apply]

end Cert.RefStages

end
-- ==== Proof.LibReal.lean ====
/-
  General lemmas: arrays of extended reals all of whose entries are real numbers, and the operations that keep
  them so — sums, products, differences, finite sums, maxima, quotients by a nonzero real, and the inverse square
  root of a positive real.
-/
import Idealize.ShloMosaic.PureOps.Ideal

noncomputable section

namespace Cert.LibReal

open Idealize.ShloMosaic

/-- An extended real that is a real number. -/
def IsR (x : EReal) : Prop := ∃ r : ℝ, x = (r : EReal)

/-- Every entry of an array is a real number. -/
def AllR {ι : Type} (v : ι → EReal) : Prop := ∀ i, IsR (v i)

theorem isR_coe (r : ℝ) : IsR (r : EReal) := ⟨r, rfl⟩
theorem isR_zero : IsR (0 : EReal) := ⟨0, rfl⟩
theorem isR_one : IsR (1 : EReal) := ⟨1, rfl⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.max {x y : EReal} (hx : IsR x) (hy : IsR y) : IsR (max x y) := by
  rcases max_choice x y with h | h <;> rw [h] <;> assumption

theorem IsR.sum {ι : Type} (s : Finset ι) (f : ι → EReal) (h : ∀ i ∈ s, IsR (f i)) : IsR (∑ i ∈ s, f i) := by
  classical
  induction s using Finset.induction_on with
  | empty => simpa using isR_zero
  | insert i s hi ih =>
    rw [Finset.sum_insert hi]
    exact (h i (Finset.mem_insert_self i s)).add (ih fun j hj => h j (Finset.mem_insert_of_mem hj))

/-- A quotient by a nonzero real. -/
theorem IsR.div {x : EReal} (hx : IsR x) {n : ℝ} (hn : n ≠ 0) : IsR (Ideal.div x (n : EReal)) := by
  obtain ⟨a, rfl⟩ := hx
  rw [Ideal.div_coe hn]
  exact (isR_coe a).mul (isR_coe _)

/-- The inverse square root of a positive real is a real. -/
theorem isR_rsqrt {r : ℝ} (hr : 0 < r) : IsR (Ideal.rsqrt (r : EReal)) := by
  rw [Ideal.rsqrt_coe, if_neg (not_lt.mpr hr.le), if_neg hr.ne']
  exact isR_coe _

/-- A sum of ones over a finite set is a nonnegative real. -/
theorem sum_ones {ι : Type} (s : Finset ι) : ∃ r : ℝ, 0 ≤ r ∧ (∑ _i ∈ s, ((1 : ℝ) : EReal)) = (r : EReal) := by
  classical
  induction s using Finset.induction_on with
  | empty => exact ⟨0, le_refl _, by simp⟩
  | insert i s hi ih =>
    obtain ⟨r, hr, e⟩ := ih
    refine ⟨1 + r, by linarith, ?_⟩
    rw [Finset.sum_insert hi, e, EReal.coe_add]

end Cert.LibReal

end
-- ==== Proof.LibVariance.lean ====
/-
  The two ways of computing a variance agree on finite data, over the extended reals.

  Batch normalisation needs, per column, the mean `m = (∑ a) / n` and the variance of `n` numbers.  One program takes the
  mean of the squared deviations, `(∑ (a - m)²) / n`; another keeps two running sums and takes `(∑ a²) / n - m²`.  Over the
  reals these are one number when `n` is the number of terms (expand the square and use `∑ a = n · m`).  Over the extended
  reals the identity is FALSE at infinities (`⊤ - ⊤ = ⊥`), so it is stated for data that are real numbers, with the
  division being the extended reals' `Ideal.div` by a nonzero real.  The variance so computed is a nonnegative real, so
  adding a positive `ε` gives a positive real: the reciprocal square root after it is finite.
-/
import Idealize.ShloMosaic.PureOps.Ideal

namespace Cert.LibVariance

open Idealize.ShloMosaic Finset

variable {ι : Type*} [Fintype ι]

/-- A finite sum of real numbers, read in the extended reals, is the sum of the numbers read there. -/
theorem coe_sum (s : Finset ι) (a : ι → ℝ) : ((∑ i ∈ s, a i : ℝ) : EReal) = ∑ i ∈ s, (a i : EReal) := by
  classical
  induction s using Finset.induction_on with
  | empty => simp
  | insert i s hi ih => rw [Finset.sum_insert hi, Finset.sum_insert hi, EReal.coe_add, ih]

/-- Dividing a real by a nonzero real in the extended reals is the real quotient. -/
theorem div_coe_coe (x : ℝ) {n : ℝ} (hn : n ≠ 0) : Ideal.div (x : EReal) (n : EReal) = ((x / n : ℝ) : EReal) := by
  rw [Ideal.div_coe hn, ← EReal.coe_mul, mul_one_div]

/-- Over the reals: the mean of the squared deviations from the mean is the mean of the squares minus the squared mean,
    when `n` is the number of terms. -/
theorem real_var (a : ι → ℝ) {n : ℝ} (hn : n ≠ 0) (hcard : (Fintype.card ι : ℝ) = n) :
    (∑ i, (a i - (∑ k, a k) / n) * (a i - (∑ k, a k) / n)) / n
      = (∑ i, a i * a i) / n - ((∑ k, a k) / n) * ((∑ k, a k) / n) := by
  set S := ∑ k, a k with hS
  have hexp : ∑ i, (a i - S / n) * (a i - S / n)
      = (∑ i, a i * a i) - 2 * (S / n) * S + n * ((S / n) * (S / n)) := by
    have : ∀ i, (a i - S / n) * (a i - S / n) = a i * a i - 2 * (S / n) * a i + (S / n) * (S / n) := fun i => by ring
    rw [Finset.sum_congr rfl fun i _ => this i, Finset.sum_add_distrib, Finset.sum_sub_distrib, ← Finset.mul_sum,
      Finset.sum_const, Finset.card_univ, nsmul_eq_mul, hcard]
  rw [hexp]
  field_simp
  ring

/-- Over the reals the mean of squared deviations is nonnegative when `n` is positive. -/
theorem real_var_nonneg (a : ι → ℝ) (m : ℝ) {n : ℝ} (hn : 0 < n) : 0 ≤ (∑ i, (a i - m) * (a i - m)) / n :=
  div_nonneg (Finset.sum_nonneg fun i _ => mul_self_nonneg _) hn.le

/-- The mean of real data, computed in the extended reals, is the real mean. -/
theorem mean_coe (a : ι → ℝ) {n : ℝ} (hn : n ≠ 0) :
    Ideal.div (∑ i, (a i : EReal)) (n : EReal) = (((∑ i, a i) / n : ℝ) : EReal) := by
  rw [← coe_sum, div_coe_coe _ hn]

/-- The mean of squared deviations of real data from a real centre, computed in the extended reals, is the real one. -/
theorem centred_coe (a : ι → ℝ) (m : ℝ) {n : ℝ} (hn : n ≠ 0) :
    Ideal.div (∑ i, ((a i : EReal) - (m : EReal)) * ((a i : EReal) - (m : EReal))) (n : EReal)
      = (((∑ i, (a i - m) * (a i - m)) / n : ℝ) : EReal) := by
  have : ∀ i, ((a i : EReal) - (m : EReal)) * ((a i : EReal) - (m : EReal)) = (((a i - m) * (a i - m) : ℝ) : EReal) :=
    fun i => by rw [← EReal.coe_sub, ← EReal.coe_mul]
  rw [Finset.sum_congr rfl fun i _ => this i, ← coe_sum, div_coe_coe _ hn]

/-- The mean of the squares of real data, computed in the extended reals, is the real one. -/
theorem squares_coe (a : ι → ℝ) {n : ℝ} (hn : n ≠ 0) :
    Ideal.div (∑ i, (a i : EReal) * (a i : EReal)) (n : EReal) = (((∑ i, a i * a i) / n : ℝ) : EReal) := by
  have : ∀ i, (a i : EReal) * (a i : EReal) = ((a i * a i : ℝ) : EReal) := fun i => by rw [← EReal.coe_mul]
  rw [Finset.sum_congr rfl fun i _ => this i, ← coe_sum, div_coe_coe _ hn]

/-- THE IDENTITY over the extended reals, for real data: with `m` the mean, the mean of the squared deviations from `m` is the
    mean of the squares minus `m · m`. -/
theorem var_two_forms (a : ι → ℝ) {n : ℝ} (hn : n ≠ 0) (hcard : (Fintype.card ι : ℝ) = n) :
    Ideal.div (∑ i, ((a i : EReal) - Ideal.div (∑ k, (a k : EReal)) (n : EReal))
                  * ((a i : EReal) - Ideal.div (∑ k, (a k : EReal)) (n : EReal))) (n : EReal)
      = Ideal.div (∑ i, (a i : EReal) * (a i : EReal)) (n : EReal)
          - Ideal.div (∑ k, (a k : EReal)) (n : EReal) * Ideal.div (∑ k, (a k : EReal)) (n : EReal) := by
  rw [mean_coe a hn, centred_coe a _ hn, squares_coe a hn, ← EReal.coe_mul, ← EReal.coe_sub, real_var a hn hcard]

/-- The variance of real data is a nonnegative real, so a positive `ε` added to it gives a positive real. -/
theorem var_add_eps_pos (a : ι → ℝ) {n ε : ℝ} (hn : 0 < n) (hε : 0 < ε) :
    ∃ r : ℝ, 0 < r ∧
      Ideal.div (∑ i, ((a i : EReal) - Ideal.div (∑ k, (a k : EReal)) (n : EReal))
                  * ((a i : EReal) - Ideal.div (∑ k, (a k : EReal)) (n : EReal))) (n : EReal) + (ε : EReal) = (r : EReal) := by
  refine ⟨(∑ i, (a i - (∑ k, a k) / n) * (a i - (∑ k, a k) / n)) / n + ε, ?_, ?_⟩
  · have := real_var_nonneg a ((∑ k, a k) / n) hn
    linarith
  · rw [mean_coe a hn.ne', centred_coe a _ hn.ne', ← EReal.coe_add]

end Cert.LibVariance
-- ==== Proof.AlgWords.lean ====
/-
  The float words of the specification, read as extended reals: the two row counts are the reals 262144 and
  8192, the zero word is 0, the normalisation's epsilon is a positive real and the leaky slope is a real.
-/
import proofs.«134035_j84430467104804_1_alg».proof.Proof.Spec

noncomputable section

namespace Cert.Spec

open Idealize.ShloMosaic

/-- Exponent field 145, no fraction: 2 ^ 23 · 2 ^ (145 − 150) = 2 ^ 18. -/
theorem n1W_eq : n1W = ((262144 : ℝ) : EReal) := by
  unfold n1W
  simp [Ideal.ofBits, Ideal.ieee, -EReal.coe_mul]; norm_num

/-- Exponent field 140, no fraction: 2 ^ 23 · 2 ^ (140 − 150) = 2 ^ 13. -/
theorem n2W_eq : n2W = ((8192 : ℝ) : EReal) := by
  unfold n2W
  simp [Ideal.ofBits, Ideal.ieee, -EReal.coe_mul]; norm_num

theorem zeroW_eq : zeroW = 0 := by
  unfold zeroW
  simp [Ideal.ofBits, Ideal.ieee]

/-- A normal pattern with the sign bit clear denotes a positive real. -/
theorem epsW_pos : ∃ e : ℝ, 0 < e ∧ epsW = (e : EReal) := by
  unfold epsW
  simp [Ideal.ofBits, Ideal.ieee, -EReal.coe_mul]

/-- A normal pattern denotes a real. -/
theorem slopeW_real : ∃ s : ℝ, slopeW = (s : EReal) := by
  unfold slopeW
  simp [Ideal.ofBits, Ideal.ieee, -EReal.coe_mul]

end Cert.Spec

end
-- ==== Proof.AlgReal.lean ====
/-
  Being a real number is kept by everything the specification does: the edge row, the two first layers, the
  column sums and means, the activation after a normalisation whose variance is a nonnegative real (then the
  variance plus the positive epsilon is a positive real and its inverse square root is a real), the messages and
  their sums. So when every argument entry is a real number, every intermediate quantity is one.
-/
import proofs.«134035_j84430467104804_1_alg».proof.Proof.Spec
import proofs.«134035_j84430467104804_1_alg».proof.Proof.LibReal
import proofs.«134035_j84430467104804_1_alg».proof.Proof.AlgWords

noncomputable section

namespace Cert.Spec

open Idealize.ShloMosaic Cert.LibReal

namespace Gg

theorem isR_select (c : BitVec 1) {a b : EReal} (ha : IsR a) (hb : IsR b) : IsR (Scalar.select c a b) := by
  unfold Scalar.select
  split
  · exact ha
  · exact hb

end Gg

/-- Either branch of the leaky activation of a real is a real. -/
theorem isR_leaky {x : EReal} (hx : IsR x) : IsR (leaky x) := by
  unfold leaky
  exact Gg.isR_select _ hx (IsR.mul slopeW_real hx)

/-- The normalised, scaled, shifted and activated entry is a real when the variance is a nonnegative real:
    variance plus epsilon is then a positive real, whose inverse square root is a real. -/
theorem isR_bnact {h mean var g b : EReal} (hh : IsR h) (hm : IsR mean)
    (hv : ∃ r : ℝ, 0 ≤ r ∧ var = (r : EReal)) (hg : IsR g) (hb : IsR b) : IsR (bnact h mean var g b) := by
  obtain ⟨r, hr, rfl⟩ := hv
  obtain ⟨e, he, hE⟩ := epsW_pos
  unfold bnact
  rw [hE, ← EReal.coe_add]
  exact isR_leaky ((((hh.sub hm).mul (isR_rsqrt (by linarith))).mul hg).add hb)

variable (p : Params)

theorem isR_need (hp : AllReal p) (b : Fin 256) (i j : Fin 32) (k : Fin 256) : IsR (need p b i j k) := by
  unfold need
  split
  · exact IsR.mul (hp.1 _) (hp.2.1 _)
  · exact IsR.mul (hp.1 _) (hp.2.1 _)

theorem isR_h1 (hp : AllReal p) (b : Fin 256) (i j : Fin 32) (c : Fin 256) : IsR (h1 p b i j c) := by
  unfold h1
  exact (IsR.sum _ _ fun k _ => (isR_need p hp b i j k).mul (hp.2.2.1 _)).add (hp.2.2.2.1 _)

theorem isR_sum1 (hp : AllReal p) (c : Fin 256) : IsR (sum1 p c) := by
  unfold sum1
  exact IsR.sum _ _ fun b _ => IsR.sum _ _ fun i _ => IsR.sum _ _ fun j _ => isR_h1 p hp b i j c

theorem isR_sumsq1 (hp : AllReal p) (c : Fin 256) : IsR (sumsq1 p c) := by
  unfold sumsq1
  exact IsR.sum _ _ fun b _ => IsR.sum _ _ fun i _ => IsR.sum _ _ fun j _ =>
    (isR_h1 p hp b i j c).mul (isR_h1 p hp b i j c)

theorem isR_mean1 (hp : AllReal p) (c : Fin 256) : IsR (mean1 p c) := by
  unfold mean1
  rw [n1W_eq]
  exact (isR_sum1 p hp c).div (by norm_num)

theorem isR_varK1 (hp : AllReal p) (c : Fin 256) : IsR (varK1 p c) := by
  unfold varK1
  rw [n1W_eq]
  exact ((isR_sumsq1 p hp c).div (by norm_num)).sub ((isR_mean1 p hp c).mul (isR_mean1 p hp c))

theorem isR_varR1 (hp : AllReal p) (c : Fin 256) : IsR (varR1 p c) := by
  unfold varR1
  rw [n1W_eq]
  exact (IsR.sum _ _ fun b _ => IsR.sum _ _ fun i _ => IsR.sum _ _ fun j _ =>
    ((isR_h1 p hp b i j c).sub (isR_mean1 p hp c)).mul ((isR_h1 p hp b i j c).sub (isR_mean1 p hp c))).div
    (by norm_num)

section downstream

variable (v1 : Fin 256 → EReal) (hv1 : ∀ c, ∃ r : ℝ, 0 ≤ r ∧ v1 c = (r : EReal))
include hv1

theorem isR_act1 (hp : AllReal p) (b : Fin 256) (i j : Fin 32) (c : Fin 256) : IsR (act1 p v1 b i j c) := by
  unfold act1
  exact isR_bnact (isR_h1 p hp b i j c) (isR_mean1 p hp c) (hv1 c) (hp.2.2.2.2.1 _) (hp.2.2.2.2.2.1 _)

theorem isR_msg (hp : AllReal p) (b : Fin 256) (i j : Fin 32) (d : Fin 128) : IsR (msg p v1 b i j d) := by
  unfold msg
  exact (IsR.sum _ _ fun c _ => (isR_act1 p v1 hv1 hp b i j c).mul (hp.2.2.2.2.2.2.1 _)).add
    (hp.2.2.2.2.2.2.2.1 _)

theorem isR_agg (hp : AllReal p) (b : Fin 256) (i : Fin 32) (d : Fin 128) : IsR (agg p v1 b i d) := by
  unfold agg
  exact IsR.sum _ _ fun j _ => isR_msg p v1 hv1 hp b i j d

theorem isR_sm (hp : AllReal p) (b : Fin 256) (i : Fin 32) (k : Fin 256) : IsR (sm p v1 b i k) := by
  unfold sm
  split
  · exact hp.1 _
  · exact isR_agg p v1 hv1 hp b i _

theorem isR_g1 (hp : AllReal p) (b : Fin 256) (i : Fin 32) (c : Fin 256) : IsR (g1 p v1 b i c) := by
  unfold g1
  exact (IsR.sum _ _ fun k _ => (isR_sm p v1 hv1 hp b i k).mul (hp.2.2.2.2.2.2.2.2.1 _)).add
    (hp.2.2.2.2.2.2.2.2.2.1 _)

theorem isR_sum2 (hp : AllReal p) (c : Fin 256) : IsR (sum2 p v1 c) := by
  unfold sum2
  exact IsR.sum _ _ fun b _ => IsR.sum _ _ fun i _ => isR_g1 p v1 hv1 hp b i c

theorem isR_sumsq2 (hp : AllReal p) (c : Fin 256) : IsR (sumsq2 p v1 c) := by
  unfold sumsq2
  exact IsR.sum _ _ fun b _ => IsR.sum _ _ fun i _ => (isR_g1 p v1 hv1 hp b i c).mul (isR_g1 p v1 hv1 hp b i c)

theorem isR_mean2 (hp : AllReal p) (c : Fin 256) : IsR (mean2 p v1 c) := by
  unfold mean2
  rw [n2W_eq]
  exact (isR_sum2 p v1 hv1 hp c).div (by norm_num)

theorem isR_varK2 (hp : AllReal p) (c : Fin 256) : IsR (varK2 p v1 c) := by
  unfold varK2
  rw [n2W_eq]
  exact ((isR_sumsq2 p v1 hv1 hp c).div (by norm_num)).sub
    ((isR_mean2 p v1 hv1 hp c).mul (isR_mean2 p v1 hv1 hp c))

theorem isR_varR2 (hp : AllReal p) (c : Fin 256) : IsR (varR2 p v1 c) := by
  unfold varR2
  rw [n2W_eq]
  exact (IsR.sum _ _ fun b _ => IsR.sum _ _ fun i _ =>
    ((isR_g1 p v1 hv1 hp b i c).sub (isR_mean2 p v1 hv1 hp c)).mul
      ((isR_g1 p v1 hv1 hp b i c).sub (isR_mean2 p v1 hv1 hp c))).div (by norm_num)

end downstream

end Cert.Spec

end
-- ==== Proof.AlgVar.lean ====
/-
  The two ways of writing a column's variance agree when every argument entry is a real number.

  For real numbers x over a finite index set with N elements, N ≠ 0,
      (Σ x²)/N − (Σ x / N)²  =  (Σ (x − Σ x / N)²)/N ,
  and the common value is a nonnegative real. The first normalisation's rows are indexed by
  Fin 256 × Fin 32 × Fin 32, which has 262144 elements, the first divisor; the second's by Fin 256 × Fin 32, which
  has 8192, the second divisor. The nested sums of the specification are the sums over these products.
-/
import proofs.«134035_j84430467104804_1_alg».proof.Proof.Spec
import proofs.«134035_j84430467104804_1_alg».proof.Proof.LibReal
import proofs.«134035_j84430467104804_1_alg».proof.Proof.LibVariance
import proofs.«134035_j84430467104804_1_alg».proof.Proof.AlgWords
import proofs.«134035_j84430467104804_1_alg».proof.Proof.AlgReal

noncomputable section

namespace Cert.Spec

open Idealize.ShloMosaic Cert.LibReal

namespace Gg

/-- The identity for an array of extended reals whose entries are real numbers, over any finite index type whose
    number of elements is the divisor. -/
theorem var_forms {ι : Type} [Fintype ι] (f : ι → EReal) (hf : ∀ x, IsR (f x)) {n : ℝ} (hn : n ≠ 0)
    (hcard : (Fintype.card ι : ℝ) = n) :
    Ideal.div (∑ x, f x * f x) (n : EReal) - Ideal.div (∑ x, f x) (n : EReal) * Ideal.div (∑ x, f x) (n : EReal)
      = Ideal.div (∑ x, (f x - Ideal.div (∑ y, f y) (n : EReal)) * (f x - Ideal.div (∑ y, f y) (n : EReal))) (n : EReal) := by
  choose a ha using hf
  obtain rfl : f = fun x => (a x : EReal) := funext ha
  exact (Cert.LibVariance.var_two_forms a hn hcard).symm

/-- The mean of the squared deviations of real data from their mean is a nonnegative real. -/
theorem var_nonneg {ι : Type} [Fintype ι] (f : ι → EReal) (hf : ∀ x, IsR (f x)) {n : ℝ} (hn : 0 < n) :
    ∃ r : ℝ, 0 ≤ r ∧
      Ideal.div (∑ x, (f x - Ideal.div (∑ y, f y) (n : EReal)) * (f x - Ideal.div (∑ y, f y) (n : EReal))) (n : EReal)
        = (r : EReal) := by
  choose a ha using hf
  obtain rfl : f = fun x => (a x : EReal) := funext ha
  refine ⟨_, Cert.LibVariance.real_var_nonneg a ((∑ k, a k) / n) hn, ?_⟩
  rw [Cert.LibVariance.mean_coe a hn.ne', Cert.LibVariance.centred_coe a _ hn.ne']

/-- A triple sum is the sum over the product of the three index types. -/
theorem sum3 {A B C : Type} [Fintype A] [Fintype B] [Fintype C] (F : A → B → C → EReal) :
    ∑ a, ∑ b, ∑ c, F a b c = ∑ x : A × B × C, F x.1 x.2.1 x.2.2 := by
  simp only [Fintype.sum_prod_type]

/-- A double sum is the sum over the product of the two index types. -/
theorem sum2 {A B : Type} [Fintype A] [Fintype B] (F : A → B → EReal) :
    ∑ a, ∑ b, F a b = ∑ x : A × B, F x.1 x.2 := by
  simp only [Fintype.sum_prod_type]

theorem card3 : (Fintype.card (Fin 256 × Fin 32 × Fin 32) : ℝ) = 262144 := by
  simp only [Fintype.card_prod, Fintype.card_fin]; norm_num

theorem card2 : (Fintype.card (Fin 256 × Fin 32) : ℝ) = 8192 := by
  simp only [Fintype.card_prod, Fintype.card_fin]; norm_num

end Gg

variable (p : Params)

/-- THE LAW at the first normalisation. -/
theorem varK1_eq_varR1 (hp : AllReal p) : varK1 p = varR1 p := by
  funext c
  unfold varK1 varR1 mean1 sumsq1 sum1
  rw [n1W_eq, Gg.sum3 (fun b i j => h1 p b i j c), Gg.sum3 (fun b i j => h1 p b i j c * h1 p b i j c),
    Gg.sum3 (fun b i j => (h1 p b i j c - _) * (h1 p b i j c - _))]
  exact Gg.var_forms (fun x : Fin 256 × Fin 32 × Fin 32 => h1 p x.1 x.2.1 x.2.2 c)
    (fun x => isR_h1 p hp x.1 x.2.1 x.2.2 c) (by norm_num) Gg.card3

/-- The first variance, as the mean of the squared deviations, is a nonnegative real. -/
theorem varR1_nonneg (hp : AllReal p) (c : Fin 256) : ∃ r : ℝ, 0 ≤ r ∧ varR1 p c = (r : EReal) := by
  unfold varR1 mean1 sum1
  rw [n1W_eq, Gg.sum3 (fun b i j => h1 p b i j c), Gg.sum3 (fun b i j => (h1 p b i j c - _) * (h1 p b i j c - _))]
  exact Gg.var_nonneg (fun x : Fin 256 × Fin 32 × Fin 32 => h1 p x.1 x.2.1 x.2.2 c)
    (fun x => isR_h1 p hp x.1 x.2.1 x.2.2 c) (by norm_num)

/-- THE LAW at the second normalisation, for any first variance that is a nonnegative real per column. -/
theorem varK2_eq_varR2 (hp : AllReal p) (v1 : Fin 256 → EReal) (hv1 : ∀ c, ∃ r : ℝ, 0 ≤ r ∧ v1 c = (r : EReal)) :
    varK2 p v1 = varR2 p v1 := by
  funext c
  unfold varK2 varR2 mean2 sumsq2 sum2
  rw [n2W_eq, Gg.sum2 (fun b i => g1 p v1 b i c), Gg.sum2 (fun b i => g1 p v1 b i c * g1 p v1 b i c),
    Gg.sum2 (fun b i => (g1 p v1 b i c - _) * (g1 p v1 b i c - _))]
  exact Gg.var_forms (fun x : Fin 256 × Fin 32 => g1 p v1 x.1 x.2 c)
    (fun x => isR_g1 p v1 hv1 hp x.1 x.2 c) (by norm_num) Gg.card2

/-- The second variance, as the mean of the squared deviations, is a nonnegative real. -/
theorem varR2_nonneg (hp : AllReal p) (v1 : Fin 256 → EReal) (hv1 : ∀ c, ∃ r : ℝ, 0 ≤ r ∧ v1 c = (r : EReal))
    (c : Fin 256) : ∃ r : ℝ, 0 ≤ r ∧ varR2 p v1 c = (r : EReal) := by
  unfold varR2 mean2 sum2
  rw [n2W_eq, Gg.sum2 (fun b i => g1 p v1 b i c), Gg.sum2 (fun b i => (g1 p v1 b i c - _) * (g1 p v1 b i c - _))]
  exact Gg.var_nonneg (fun x : Fin 256 × Fin 32 => g1 p v1 x.1 x.2 c)
    (fun x => isR_g1 p v1 hv1 hp x.1 x.2 c) (by norm_num)

end Cert.Spec

end
-- ==== Proof.AlgOut.lean ====
/-
  The two results agree when every argument entry is a real number: the first variance is the same in both ways
  of writing it, hence the second perceptron's hidden rows are the same, hence (the first variance being a
  nonnegative real) so is the second variance, and the result is a function of the two variances.
-/
import proofs.«134035_j84430467104804_1_alg».proof.Proof.Spec
import proofs.«134035_j84430467104804_1_alg».proof.Proof.AlgVar

noncomputable section

namespace Cert.Spec

variable (p : Params)

theorem outK_eq_outR (hp : AllReal p) (b : Fin 256) (i : Fin 32) (d : Fin 128) : outK p b i d = outR p b i d := by
  unfold outK outR
  rw [varK1_eq_varR1 p hp, varK2_eq_varR2 p hp (varR1 p) (varR1_nonneg p hp)]

end Cert.Spec

end
-- ==== Proof.Finite.lean ====
/-
  From the printed precondition to "every argument entry is a real number".

  The precondition is the conjunction, over the fourteen argument arrays, of all(|x| < +∞): per array a reduction
  by "and", from true, of the entrywise comparison of |x| with the word 0x7F800000. That word denotes +∞; on the
  extended reals |x| = max x (−x) is below +∞ exactly when x is neither infinity, that is, when x is a real number.
-/
import proofs.«134035_j84430467104804_1_alg».proof.Proof.Spec
import proofs.«134035_j84430467104804_1_alg».proof.Proof.Gen.Pre_finite_inputs
import Idealize.ShloMosaic.Lib.ReduceAll

noncomputable section

namespace Cert.Spec

open Idealize.ShloMosaic

namespace Gg

/-- The rank-0 shape has one index. -/
instance : Subsingleton Cert.Pre_finite_inputs.S_.Idx := ⟨fun a b => funext fun d => d.elim0⟩

/-- Sign clear, exponent field all ones, no fraction: +∞. -/
theorem top_word : Ideal.ofBits .f32 0x7F800000#32 = ⊤ := by
  simp [Ideal.ofBits, Ideal.ieee]

/-- An extended real whose absolute value is below +∞ is a real number. -/
theorem real_of_abs_lt (x : EReal)
    (h : FloatOps.cmpf (F := Ideal) (φ := .f32) .olt (FloatOps.hostAbsf (F := Ideal) (φ := .f32) x)
          (FloatOps.ofBits (F := Ideal) .f32 0x7F800000#32) = 1#1) : ∃ r : ℝ, x = (r : EReal) := by
  change Ideal.cmp .olt (max x (-x)) (Ideal.ofBits .f32 0x7F800000#32) = 1#1 at h
  rw [top_word] at h
  induction x using EReal.rec with
  | bot => simp [Ideal.cmp] at h
  | coe r => exact ⟨r, rfl⟩
  | top => simp [Ideal.cmp] at h

/-- One array's test: if all(|x| < +∞) came out true, every entry of x is a real number. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu j = 1#1) :
    ∀ i, ∃ r : ℝ, x i = (r : EReal) := fun i =>
  real_of_abs_lt (x i) (Host.reduce_andi_all _ _ hr hu j e i)

end Gg

open Cert.Pre_finite_inputs in
/-- The precondition holds exactly when its fourteen conjuncts do, and each conjunct makes one array real. -/
theorem allReal_of_fn
    (a0 : FVec Ideal S256x32x128 .f32) (a1 : FVec Ideal S256x1024 .f32) (a2 : FVec Ideal S256x256 .f32)
    (a3 : FVec Ideal S256 .f32) (a4 : FVec Ideal S256 .f32) (a5 : FVec Ideal S256 .f32)
    (a6 : FVec Ideal S128x256 .f32) (a7 : FVec Ideal S128 .f32) (a8 : FVec Ideal S256x256 .f32)
    (a9 : FVec Ideal S256 .f32) (a10 : FVec Ideal S256 .f32) (a11 : FVec Ideal S256 .f32)
    (a12 : FVec Ideal S128x256 .f32) (a13 : FVec Ideal S128 .f32)
    (h : Cert.Pre_finite_inputs.fn (F := Ideal) a0 a1 a2 a3 a4 a5 a6 a7 a8 a9 a10 a11 a12 a13 = fun _ => 1#1) :
    AllReal ⟨a0, a1, a2, a3, a4, a5, a6, a7, a8, a9, a10, a11, a12, a13⟩ := by
  have h0 := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4, andi] at h0
  simp only [IntOp.andi_eq_one] at h0
  obtain ⟨⟨⟨⟨⟨⟨⟨⟨⟨⟨⟨⟨⟨e0, e1⟩, e2⟩, e3⟩, e4⟩, e5⟩, e6⟩, e7⟩, e8⟩, e9⟩, e10⟩, e11⟩, e12⟩, e13⟩ := h0
  exact ⟨Gg.all_real a0 _ _ _ _ e0, Gg.all_real a1 _ _ _ _ e1, Gg.all_real a2 _ _ _ _ e2, Gg.all_real a3 _ _ _ _ e3,
    Gg.all_real a4 _ _ _ _ e4, Gg.all_real a5 _ _ _ _ e5, Gg.all_real a6 _ _ _ _ e6, Gg.all_real a7 _ _ _ _ e7,
    Gg.all_real a8 _ _ _ _ e8, Gg.all_real a9 _ _ _ _ e9, Gg.all_real a10 _ _ _ _ e10, Gg.all_real a11 _ _ _ _ e11,
    Gg.all_real a12 _ _ _ _ e12, Gg.all_real a13 _ _ _ _ e13⟩

end Cert.Spec

end
-- ==== Proof.lean ====
/-
  The certificate's claim: the kernel program, its idealization and the reference all run and leave their fourteen
  arguments unchanged; the idealization is the kernel's own text read at the ideal values (no rewrite was made, so
  there is nothing to preserve); and at the ideal values the idealized kernel and the idealized reference, started
  from memories that agree on the arguments, end with the same result array.

  The last is the mathematics of the kernel. Both programs apply two perceptrons, each with a batch normalisation
  between its layers, to the rows built from the object states: first to the 262144 edge rows, whose messages are
  summed per object, then to the 8192 object rows. The reference computes each column's variance as the mean of the
  squared deviations from the column's mean; the kernel accumulates each column's sum and sum of squares in one
  pass over the rows and takes (sum of squares)/N − mean². On real numbers the two are equal, and every entry here
  is a real number because the precondition makes every input finite; the rest of the two computations (the products
  with the weights, the additions of the biases, the rescaling, the activation, the sums over partners) is the same
  function of the variance on both sides, written over differently tiled and differently ordered finite sums, which
  agree on the extended reals without any side condition.
-/
import proofs.«134035_j84430467104804_1_alg».proof.Defs
import proofs.«134035_j84430467104804_1_alg».proof.Proof.Gen.Kernel
import proofs.«134035_j84430467104804_1_alg».proof.Proof.Gen.KernelIdeal
import proofs.«134035_j84430467104804_1_alg».proof.Proof.Gen.ReferenceIdeal
import proofs.«134035_j84430467104804_1_alg».proof.Proof.Gen.Pre_finite_inputs
import proofs.«134035_j84430467104804_1_alg».proof.Proof.K_Frame
import proofs.«134035_j84430467104804_1_alg».proof.Proof.KI_Value
import proofs.«134035_j84430467104804_1_alg».proof.Proof.RefRun
import proofs.«134035_j84430467104804_1_alg».proof.Proof.RefReadObj
import proofs.«134035_j84430467104804_1_alg».proof.Proof.AlgOut
import proofs.«134035_j84430467104804_1_alg».proof.Proof.Finite
import Idealize.ShloMosaic.Adequacy
import Idealize.ShloMosaic.Init

set_option maxRecDepth 16384

noncomputable section

namespace Cert.Proof

open Idealize.ShloMosaic Idealize.ShloMosaic.ValueIdx Idealize.SL.Sem

theorem frame_k [Cert.Kernel.Facts] [Cert.Pre_finite_inputs.Facts] : Cert.frame_Kernel :=
  fun m ρ _ => Cert.Kernel.Hand.frame m ρ

theorem frame_ki [Cert.KernelIdeal.Facts] [Cert.Pre_finite_inputs.Facts] : Cert.frame_KernelIdeal :=
  fun m ρ _ => Cert.KernelIdeal.Hand.frame m ρ

/-- The reference's frame is its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.HandRun.run m ρ)

/-- The idealization rewrote no operation: nothing to preserve. -/
theorem preserves : Cert.preserves_Kernel_KernelIdeal := trivial

/-- At the ideal values both programs end with the same result. The common value is the kernel's: what its last
    region's write-backs leave, which is the specification's result with the variances from the sums of squares; the
    reference's result is the specification's with the variances as means of squared deviations, read at the
    reference's own launch contents, which are the kernel's; and the two specifications agree on real inputs. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => (Cert.KernelIdeal.Hand.dat3 (Cert.KernelIdeal.Hand.V6 m Cert.KernelIdeal.Hand.theData) c).arrAt 10 Cert.KernelIdeal.cfg3.N,
    Cert.KernelIdeal.Hand.run_full m ρ, ?_⟩
  refine (θ_run Cert.ReferenceIdeal.defs _ _).mono (fun r h c => ⟨(h c).1.trans ?_, (h c).2⟩)
    (Cert.ReferenceIdeal.HandRun.run m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2.1,
    (hagree c).2.2.2.2.2.2.2.2.2.2.1, (hagree c).2.2.2.2.2.2.2.2.2.2.2.1, (hagree c).2.2.2.2.2.2.2.2.2.2.2.2.1,
    (hagree c).2.2.2.2.2.2.2.2.2.2.2.2.2]
  funext x
  rw [eq_ix3 x]
  have hreal : Cert.Spec.AllReal (Cert.KernelIdeal.Hand.params m c) :=
    Cert.Spec.allReal_of_fn _ _ _ _ _ _ _ _ _ _ _ _ _ _ (hpre c)
  exact (Cert.RefStages.refOut_apply (Cert.KernelIdeal.Hand.params m c) (x 0) (x 1) (x 2)).trans
    ((Cert.Spec.outK_eq_outR _ hreal (x 0) (x 1) (x 2)).symm.trans (Cert.KernelIdeal.Hand.kernel_value m c (x 0) (x 1) (x 2)).symm)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
